-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v230)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v230) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S4x16x64 : Shape := ⟨3, ![4, 16, 64]⟩
abbrev S64 : Shape := ⟨1, ![64]⟩
abbrev S3x4x64x64 : Shape := ⟨4, ![3, 4, 64, 64]⟩
abbrev S3x64 : Shape := ⟨2, ![3, 64]⟩
abbrev S64x4 : Shape := ⟨2, ![64, 4]⟩
abbrev S4 : Shape := ⟨1, ![4]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S4x16x64 : S_.BroadcastsInDim S4x16x64 (![] : Fin 0 → Fin S4x16x64.rank)
  reducesTo_S4x16x64_S_d0_1_2 : S4x16x64.ReducesTo [0, 1, 2] S_
  bcast_S_S64 : S_.BroadcastsInDim S64 (![] : Fin 0 → Fin S64.rank)
  reducesTo_S64_S_d0 : S64.ReducesTo [0] S_
  bcast_S_S3x4x64x64 : S_.BroadcastsInDim S3x4x64x64 (![] : Fin 0 → Fin S3x4x64x64.rank)
  reducesTo_S3x4x64x64_S_d0_1_2_3 : S3x4x64x64.ReducesTo [0, 1, 2, 3] S_
  bcast_S_S3x64 : S_.BroadcastsInDim S3x64 (![] : Fin 0 → Fin S3x64.rank)
  reducesTo_S3x64_S_d0_1 : S3x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S3x64 .f32) (main_arg6 : FVec F S64x4 .f32) (main_arg7 : FVec F S4 .f32) (main_v13 : IVec S_ 1) (main_v16 : IVec S3x4x64x64 1) : IVec S_ 1 :=
  let main_c_5 : IVec S_ 1 := constantI S_ 1 1#1
  let main_v17 : IVec S_ 1 := (fun x v => Host.reduce IntOp.andi x v reducesTo_S3x4x64x64_S_d0_1_2_3 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x4 .f32 := Host.absf main_arg6
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S100000x16 .f32) (main_arg1 : IVec S2x1600000 32) (main_arg2 : FVec F S4x16x64 .f32) (main_arg3 : FVec F S64 .f32) (main_arg4 : FVec F S3x4x64x64 .f32) (main_arg5 : FVec F S3x64 .f32) (main_arg6 : FVec F S64x4 .f32) (main_arg7 : FVec F S4 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S4x16x64 .f32 := Host.absf main_arg2
  let main_cst_0 : FVec F S_ .f32 := constant S_ .f32 0x7F800000#32
  let main_v5 : FVec F S4x16x64 .f32 := broadcastInDim S4x16x64 ![] bcast_S_S4x16x64 main_cst_0
  let main_v6 : IVec S4x16x64 1 := cmpf .olt main_v4 main_v5
  let main_c_1 : IVec S_ 1 := constantI S_ 1 1#1
  let main_v7 : IVec S_ 1 := (fun x v => Host.reduce IntOp.andi x v reducesTo_S4x16x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x4x64x64 .f32 := Host.absf main_arg4
  let main_cst_4 : FVec F S_ .f32 := constant S_ .f32 0x7F800000#32
  let main_v15 : FVec F S3x4x64x64 .f32 := broadcastInDim S3x4x64x64 ![] bcast_S_S3x4x64x64 main_cst_4
  let main_v16 : IVec S3x4x64x64 1 := cmpf .olt main_v14 main_v15
  fn_part1 (F := F) main_arg5 main_arg6 main_arg7 main_v13 main_v16
-- ==== Kernel.lean ====
abbrev S100000x16 : Shape := ⟨2, ![100000, 16]⟩
abbrev S2x1600000 : Shape := ⟨2, ![2, 1600000]⟩
abbrev S4x16x64 : Shape := ⟨3, ![4, 16, 64]⟩
abbrev S64 : Shape := ⟨1, ![64]⟩
abbrev S3x4x64x64 : Shape := ⟨4, ![3, 4, 64, 64]⟩
abbrev S3x64 : Shape := ⟨2, ![3, 64]⟩
abbrev S64x4 : Shape := ⟨2, ![64, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x16 : Shape := ⟨2, ![1600000, 16]⟩
abbrev S1x100000x16 : Shape := ⟨3, ![1, 100000, 16]⟩
abbrev S4x100000x16 : Shape := ⟨3, ![4, 100000, 16]⟩
abbrev S1x64 : Shape := ⟨2, ![1, 64]⟩
abbrev S100000x64 : Shape := ⟨2, ![100000, 64]⟩
abbrev S4x5000x16 : Shape := ⟨3, ![4, 5000, 16]⟩
abbrev S5000x64 : Shape := ⟨2, ![5000, 64]⟩
abbrev S1x5000x16 : Shape := ⟨3, ![1, 5000, 16]⟩
abbrev S5000x16 : Shape := ⟨2, ![5000, 16]⟩
abbrev S1x16x64 : Shape := ⟨3, ![1, 16, 64]⟩
abbrev S16x64 : Shape := ⟨2, ![16, 64]⟩
abbrev S1600000x64 : Shape := ⟨2, ![1600000, 64]⟩
abbrev S1x100000x64 : Shape := ⟨3, ![1, 100000, 64]⟩
abbrev S4x100000x64 : Shape := ⟨3, ![4, 100000, 64]⟩
abbrev S1x4x64x64 : Shape := ⟨4, ![1, 4, 64, 64]⟩
abbrev S4x64x64 : Shape := ⟨3, ![4, 64, 64]⟩
abbrev S4x5000x64 : Shape := ⟨3, ![4, 5000, 64]⟩
abbrev S1x5000x64 : Shape := ⟨3, ![1, 5000, 64]⟩
abbrev S1x64x64 : Shape := ⟨3, ![1, 64, 64]⟩
abbrev S64x64 : Shape := ⟨2, ![64, 64]⟩
abbrev S1x64x4 : Shape := ⟨3, ![1, 64, 4]⟩
abbrev S1x4 : Shape := ⟨2, ![1, 4]⟩
abbrev S100000x4 : Shape := ⟨2, ![100000, 4]⟩
abbrev S5000x4 : Shape := ⟨2, ![5000, 4]⟩

abbrev nBuf : Space → Nat
  | .hbm => 287
  | .vmem => 30
  | .smem => 0
  | _ => 0

abbrev hbmTy0_0 (i : Nat) : BufTy := match i % 128 with
  | 0 => ⟨S100000x16, .f32⟩
  | 1 => ⟨S2x1600000, .i32⟩
  | 2 => ⟨S4x16x64, .f32⟩
  | 3 => ⟨S64, .f32⟩
  | 4 => ⟨S3x4x64x64, .f32⟩
  | 5 => ⟨S3x64, .f32⟩
  | 6 => ⟨S64x4, .f32⟩
  | 7 => ⟨S4, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x16, .f32⟩
  | 61 => ⟨S1600000x16, .f32⟩
  | 62 => ⟨S1600000x16, .f32⟩
  | 63 => ⟨S_, .f32⟩
  | 64 => ⟨S100000x16, .f32⟩
  | 65 => ⟨S1600000x1, .i32⟩
  | 66 => ⟨S100000x16, .f32⟩
  | 67 => ⟨S1600000x1, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x16, .f32⟩
  | 77 => ⟨S1600000x16, .f32⟩
  | 78 => ⟨S1600000x16, .f32⟩
  | 79 => ⟨S_, .f32⟩
  | 80 => ⟨S100000x16, .f32⟩
  | 81 => ⟨S1600000x1, .i32⟩
  | 82 => ⟨S100000x16, .f32⟩
  | 83 => ⟨S1600000x1, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x16, .f32⟩
  | 93 => ⟨S1600000x16, .f32⟩
  | 94 => ⟨S1600000x16, .f32⟩
  | 95 => ⟨S_, .f32⟩
  | 96 => ⟨S100000x16, .f32⟩
  | 97 => ⟨S1600000x1, .i32⟩
  | 98 => ⟨S100000x16, .f32⟩
  | 99 => ⟨S1x100000x16, .f32⟩
  | 100 => ⟨S1x100000x16, .f32⟩
  | 101 => ⟨S1x100000x16, .f32⟩
  | 102 => ⟨S1x100000x16, .f32⟩
  | 103 => ⟨S4x100000x16, .f32⟩
  | 104 => ⟨S1x64, .f32⟩
  | 105 => ⟨S100000x64, .f32⟩
  | 106 => ⟨S1600000x1, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x64, .f32⟩
  | 116 => ⟨S1600000x64, .f32⟩
  | 117 => ⟨S1600000x64, .f32⟩
  | 118 => ⟨S_, .f32⟩
  | 119 => ⟨S100000x64, .f32⟩
  | 120 => ⟨S1600000x1, .i32⟩
  | 121 => ⟨S100000x64, .f32⟩
  | 122 => ⟨S1600000x1, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x16, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S1600000x64, .f32⟩
  | 5 => ⟨S1600000x64, .f32⟩
  | 6 => ⟨S_, .f32⟩
  | 7 => ⟨S100000x64, .f32⟩
  | 8 => ⟨S1600000x1, .i32⟩
  | 9 => ⟨S100000x64, .f32⟩
  | 10 => ⟨S1600000x1, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S1600000x64, .f32⟩
  | 21 => ⟨S1600000x64, .f32⟩
  | 22 => ⟨S_, .f32⟩
  | 23 => ⟨S100000x64, .f32⟩
  | 24 => ⟨S1600000x1, .i32⟩
  | 25 => ⟨S100000x64, .f32⟩
  | 26 => ⟨S1x100000x64, .f32⟩
  | 27 => ⟨S1x100000x64, .f32⟩
  | 28 => ⟨S1x100000x64, .f32⟩
  | 29 => ⟨S1x100000x64, .f32⟩
  | 30 => ⟨S4x100000x64, .f32⟩
  | 31 => ⟨S1x4x64x64, .f32⟩
  | 32 => ⟨S4x64x64, .f32⟩
  | 33 => ⟨S1x64, .f32⟩
  | 34 => ⟨S64, .f32⟩
  | 35 => ⟨S1x64, .f32⟩
  | 36 => ⟨S100000x64, .f32⟩
  | 37 => ⟨S1600000x1, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x64, .f32⟩
  | 47 => ⟨S1600000x64, .f32⟩
  | 48 => ⟨S1600000x64, .f32⟩
  | 49 => ⟨S_, .f32⟩
  | 50 => ⟨S100000x64, .f32⟩
  | 51 => ⟨S1600000x1, .i32⟩
  | 52 => ⟨S100000x64, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x64, .f32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S1600000x1, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S1600000x64, .f32⟩
  | 80 => ⟨S1600000x64, .f32⟩
  | 81 => ⟨S_, .f32⟩
  | 82 => ⟨S100000x64, .f32⟩
  | 83 => ⟨S1600000x1, .i32⟩
  | 84 => ⟨S100000x64, .f32⟩
  | 85 => ⟨S1x100000x64, .f32⟩
  | 86 => ⟨S1x100000x64, .f32⟩
  | 87 => ⟨S1x100000x64, .f32⟩
  | 88 => ⟨S1x100000x64, .f32⟩
  | 89 => ⟨S4x100000x64, .f32⟩
  | 90 => ⟨S1x4x64x64, .f32⟩
  | 91 => ⟨S4x64x64, .f32⟩
  | 92 => ⟨S1x64, .f32⟩
  | 93 => ⟨S64, .f32⟩
  | 94 => ⟨S1x64, .f32⟩
  | 95 => ⟨S100000x64, .f32⟩
  | 96 => ⟨S1600000x1, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x64, .f32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S1600000x1, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S1600000x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x16, .f32⟩

abbrev hbmTy0_2 (i : Nat) : BufTy := match i % 128 with
  | 0 => ⟨S1600000x1, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x64, .f32⟩
  | 10 => ⟨S1600000x64, .f32⟩
  | 11 => ⟨S1600000x64, .f32⟩
  | 12 => ⟨S_, .f32⟩
  | 13 => ⟨S100000x64, .f32⟩
  | 14 => ⟨S1600000x1, .i32⟩
  | 15 => ⟨S100000x64, .f32⟩
  | 16 => ⟨S1x100000x64, .f32⟩
  | 17 => ⟨S1x100000x64, .f32⟩
  | 18 => ⟨S1x100000x64, .f32⟩
  | 19 => ⟨S1x100000x64, .f32⟩
  | 20 => ⟨S4x100000x64, .f32⟩
  | 21 => ⟨S1x4x64x64, .f32⟩
  | 22 => ⟨S4x64x64, .f32⟩
  | 23 => ⟨S1x64, .f32⟩
  | 24 => ⟨S64, .f32⟩
  | 25 => ⟨S1x64, .f32⟩
  | 26 => ⟨S100000x64, .f32⟩
  | 27 => ⟨S1x100000x64, .f32⟩
  | 28 => ⟨S1x64x4, .f32⟩
  | 29 => ⟨S1x4, .f32⟩
  | 30 => ⟨S100000x4, .f32⟩
  | _ => ⟨S100000x16, .f32⟩

abbrev hbmTy (i : Nat) : BufTy := match i / 128 with
  | 0 => hbmTy0_0 i
  | 1 => hbmTy0_1 i
  | 2 => hbmTy0_2 i
  | _ => ⟨S100000x16, .f32⟩

abbrev bufTy : (tb : Table) → Fin (tcTables nBuf tb) → BufTy
  | .hbm, ⟨i, _⟩ => hbmTy i
  | .local _ .vmem, ⟨0, _⟩ => ⟨S4x5000x16, .f32⟩
  | .local _ .vmem, ⟨1, _⟩ => ⟨S4x5000x16, .f32⟩
  | .local _ .vmem, ⟨2, _⟩ => ⟨S4x16x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S4x5000x64, .f32⟩
  | .local _ .vmem, ⟨7, _⟩ => ⟨S4x5000x64, .f32⟩
  | .local _ .vmem, ⟨8, _⟩ => ⟨S4x64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S4x5000x64, .f32⟩
  | .local _ .vmem, ⟨13, _⟩ => ⟨S4x5000x64, .f32⟩
  | .local _ .vmem, ⟨14, _⟩ => ⟨S4x64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S4x5000x64, .f32⟩
  | .local _ .vmem, ⟨19, _⟩ => ⟨S4x5000x64, .f32⟩
  | .local _ .vmem, ⟨20, _⟩ => ⟨S4x64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S1x5000x64, .f32⟩
  | .local _ .vmem, ⟨25, _⟩ => ⟨S1x5000x64, .f32⟩
  | .local _ .vmem, ⟨26, _⟩ => ⟨S1x64x4, .f32⟩
  | .local _ .vmem, ⟨27, _⟩ => ⟨S1x4, .f32⟩
  | .local _ .vmem, ⟨28, _⟩ => ⟨S5000x4, .f32⟩
  | .local _ .vmem, ⟨29, _⟩ => ⟨S5000x4, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_c_12 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_14 : Ref sig .tc := ⟨.hbm, 84, rfl⟩
abbrev main_v58 : Ref sig .tc := ⟨.hbm, 85, rfl⟩
abbrev main_v59 : Ref sig .tc := ⟨.hbm, 86, rfl⟩
abbrev main_c_15 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_20 : Ref sig .tc := ⟨.hbm, 123, rfl⟩
abbrev main_v91 : Ref sig .tc := ⟨.hbm, 124, rfl⟩
abbrev main_v92 : Ref sig .tc := ⟨.hbm, 125, rfl⟩
abbrev main_c_21 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_22 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_23 : Ref sig .tc := ⟨.hbm, 139, rfl⟩
abbrev main_v104 : Ref sig .tc := ⟨.hbm, 140, rfl⟩
abbrev main_v105 : Ref sig .tc := ⟨.hbm, 141, rfl⟩
abbrev main_c_24 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_25 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_c_26 : Ref sig .tc := ⟨.hbm, 166, rfl⟩
abbrev main_v128 : Ref sig .tc := ⟨.hbm, 167, rfl⟩
abbrev main_v129 : Ref sig .tc := ⟨.hbm, 168, rfl⟩
abbrev main_c_27 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_28 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_c_29 : Ref sig .tc := ⟨.hbm, 182, rfl⟩
abbrev main_v141 : Ref sig .tc := ⟨.hbm, 183, rfl⟩
abbrev main_v142 : Ref sig .tc := ⟨.hbm, 184, rfl⟩
abbrev main_c_30 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_31 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_c_32 : Ref sig .tc := ⟨.hbm, 198, rfl⟩
abbrev main_v154 : Ref sig .tc := ⟨.hbm, 199, rfl⟩
abbrev main_v155 : Ref sig .tc := ⟨.hbm, 200, rfl⟩
abbrev main_c_33 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_34 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_c_35 : Ref sig .tc := ⟨.hbm, 225, rfl⟩
abbrev main_v178 : Ref sig .tc := ⟨.hbm, 226, rfl⟩
abbrev main_v179 : Ref sig .tc := ⟨.hbm, 227, rfl⟩
abbrev main_c_36 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_cst_37 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_c_38 : Ref sig .tc := ⟨.hbm, 241, rfl⟩
abbrev main_v191 : Ref sig .tc := ⟨.hbm, 242, rfl⟩
abbrev main_v192 : Ref sig .tc := ⟨.hbm, 243, rfl⟩
abbrev main_c_39 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_cst_40 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_c_41 : Ref sig .tc := ⟨.hbm, 257, rfl⟩
abbrev main_v204 : Ref sig .tc := ⟨.hbm, 258, rfl⟩
abbrev main_v205 : Ref sig .tc := ⟨.hbm, 259, rfl⟩
abbrev main_c_42 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_cst_43 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4x5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4x64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1x5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x4 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000x16_S1x100000x16_1_2 : S100000x16.BroadcastsInDim S1x100000x16 (![1, 2] : Fin 2 → Fin S1x100000x16.rank)
  concatenates_S1x100000x16_S1x100000x16_S1x100000x16_S1x100000x16_S4x100000x16_d0 : Shape.Concatenates [S1x100000x16, S1x100000x16, S1x100000x16, S1x100000x16] S4x100000x16 0
  shapeCasts_S64_S1x64 : S64.ShapeCasts S1x64
  inb_S4x5000x16_S1x5000x16_0_0_0 : ∀ a, (![0, 0, 0] : Fin 3 → Nat) a + S1x5000x16.size a ≤ S4x5000x16.size a
  h_S1x5000x16 : 0 < S1x5000x16.numel
  shapeCasts_S1x5000x16_S5000x16 : S1x5000x16.ShapeCasts S5000x16
  bitsLt_bf16_f32 : FTy.bits .bf16 < FTy.bits .f32
  inb_S4x16x64_S1x16x64_0_0_0 : ∀ a, (![0, 0, 0] : Fin 3 → Nat) a + S1x16x64.size a ≤ S4x16x64.size a
  h_S1x16x64 : 0 < S1x16x64.numel
  shapeCasts_S1x16x64_S16x64 : S1x16x64.ShapeCasts S16x64
  inb_S4x5000x16_S1x5000x16_1_0_0 : ∀ a, (![1, 0, 0] : Fin 3 → Nat) a + S1x5000x16.size a ≤ S4x5000x16.size a
  inb_S4x16x64_S1x16x64_1_0_0 : ∀ a, (![1, 0, 0] : Fin 3 → Nat) a + S1x16x64.size a ≤ S4x16x64.size a
  inb_S4x5000x16_S1x5000x16_2_0_0 : ∀ a, (![2, 0, 0] : Fin 3 → Nat) a + S1x5000x16.size a ≤ S4x5000x16.size a
  inb_S4x16x64_S1x16x64_2_0_0 : ∀ a, (![2, 0, 0] : Fin 3 → Nat) a + S1x16x64.size a ≤ S4x16x64.size a
  inb_S4x5000x16_S1x5000x16_3_0_0 : ∀ a, (![3, 0, 0] : Fin 3 → Nat) a + S1x5000x16.size a ≤ S4x5000x16.size a
  inb_S4x16x64_S1x16x64_3_0_0 : ∀ a, (![3, 0, 0] : Fin 3 → Nat) a + S1x16x64.size a ≤ S4x16x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x64_S1x100000x64_1_2 : S100000x64.BroadcastsInDim S1x100000x64 (![1, 2] : Fin 2 → Fin S1x100000x64.rank)
  concatenates_S1x100000x64_S1x100000x64_S1x100000x64_S1x100000x64_S4x100000x64_d0 : Shape.Concatenates [S1x100000x64, S1x100000x64, S1x100000x64, S1x100000x64] S4x100000x64 0
  slices_S3x4x64x64_S1x4x64x64_0_0_0_0 : S3x4x64x64.Slices ![0, 0, 0, 0] S1x4x64x64
  shapeCasts_S1x4x64x64_S4x64x64 : S1x4x64x64.ShapeCasts S4x64x64
  slices_S3x64_S1x64_0_0 : S3x64.Slices ![0, 0] S1x64
  shapeCasts_S1x64_S64 : S1x64.ShapeCasts S64
  inb_S4x5000x64_S1x5000x64_0_0_0 : ∀ a, (![0, 0, 0] : Fin 3 → Nat) a + S1x5000x64.size a ≤ S4x5000x64.size a
  h_S1x5000x64 : 0 < S1x5000x64.numel
  shapeCasts_S1x5000x64_S5000x64 : S1x5000x64.ShapeCasts S5000x64
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x5000x64_S1x5000x64_1_0_0 : ∀ a, (![1, 0, 0] : Fin 3 → Nat) a + S1x5000x64.size a ≤ S4x5000x64.size a
  inb_S4x64x64_S1x64x64_1_0_0 : ∀ a, (![1, 0, 0] : Fin 3 → Nat) a + S1x64x64.size a ≤ S4x64x64.size a
  inb_S4x5000x64_S1x5000x64_2_0_0 : ∀ a, (![2, 0, 0] : Fin 3 → Nat) a + S1x5000x64.size a ≤ S4x5000x64.size a
  inb_S4x64x64_S1x64x64_2_0_0 : ∀ a, (![2, 0, 0] : Fin 3 → Nat) a + S1x64x64.size a ≤ S4x64x64.size a
  inb_S4x5000x64_S1x5000x64_3_0_0 : ∀ a, (![3, 0, 0] : Fin 3 → Nat) a + S1x5000x64.size a ≤ S4x5000x64.size a
  inb_S4x64x64_S1x64x64_3_0_0 : ∀ a, (![3, 0, 0] : Fin 3 → Nat) a + S1x64x64.size a ≤ S4x64x64.size a
  slices_S3x4x64x64_S1x4x64x64_1_0_0_0 : S3x4x64x64.Slices ![1, 0, 0, 0] S1x4x64x64
  slices_S3x64_S1x64_1_0 : S3x64.Slices ![1, 0] S1x64
  slices_S3x4x64x64_S1x4x64x64_2_0_0_0 : S3x4x64x64.Slices ![2, 0, 0, 0] S1x4x64x64
  slices_S3x64_S1x64_2_0 : S3x64.Slices ![2, 0] S1x64
  bcast_S64x4_S1x64x4_1_2 : S64x4.BroadcastsInDim S1x64x4 (![1, 2] : Fin 2 → Fin S1x64x4.rank)
  shapeCasts_S4_S1x4 : S4.ShapeCasts S1x4
  inb_S1x5000x64_S1x5000x64_0_0_0 : ∀ a, (![0, 0, 0] : Fin 3 → Nat) a + S1x5000x64.size a ≤ S1x5000x64.size a
  inb_S1x64x4_S1x64x4_0_0_0 : ∀ a, (![0, 0, 0] : Fin 3 → Nat) a + S1x64x4.size a ≤ S1x64x4.size a
  h_S1x64x4 : 0 < S1x64x4.numel
  shapeCasts_S1x64x4_S64x4 : S1x64x4.ShapeCasts S64x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x64_S5000x64_1_0_0_1_n_n_wf : DotDims.WF S5000x16 S16x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x4_S5000x4_1_0_0_1_n_n_wf : DotDims.WF S5000x64 S64x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x5000x16.size a ≤ S4x100000x16.size a
  hwx0_0 : ∀ i : grid0.Coords, EltTy.bits .f32 = 32 ∨ (Rect.block (s := S4x100000x16) S4x5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x16x64.size a ≤ S4x16x64.size a
  hwx0_1 : ∀ i : grid0.Coords, EltTy.bits .f32 = 32 ∨ (Rect.block (s := S4x16x64) S4x16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x5000x64.size a ≤ S4x100000x64.size a
  hwx1_0 : ∀ i : grid1.Coords, EltTy.bits .f32 = 32 ∨ (Rect.block (s := S4x100000x64) S4x5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x64x64.size a ≤ S4x64x64.size a
  hwx1_1 : ∀ i : grid1.Coords, EltTy.bits .f32 = 32 ∨ (Rect.block (s := S4x64x64) S4x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x5000x64.size a ≤ S4x100000x64.size a
  hwx2_0 : ∀ i : grid2.Coords, EltTy.bits .f32 = 32 ∨ (Rect.block (s := S4x100000x64) S4x5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x64x64.size a ≤ S4x64x64.size a
  hwx2_1 : ∀ i : grid2.Coords, EltTy.bits .f32 = 32 ∨ (Rect.block (s := S4x64x64) S4x64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4x5000x64.size a ≤ S4x100000x64.size a
  hwx3_0 : ∀ i : grid3.Coords, EltTy.bits .f32 = 32 ∨ (Rect.block (s := S4x100000x64) S4x5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4x64x64.size a ≤ S4x64x64.size a
  hwx3_1 : ∀ i : grid3.Coords, EltTy.bits .f32 = 32 ∨ (Rect.block (s := S4x64x64) S4x64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x5000x64.size a ≤ S1x100000x64.size a
  hwx4_0 : ∀ i : grid4.Coords, EltTy.bits .f32 = 32 ∨ (Rect.block (s := S1x100000x64) S1x5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64x4.size a ≤ S1x64x4.size a
  hwx4_1 : ∀ i : grid4.Coords, EltTy.bits .f32 = 32 ∨ (Rect.block (s := S1x64x4) S1x64x4.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x4.size a ≤ S1x4.size a
  hwx4_2 : ∀ i : grid4.Coords, EltTy.bits .f32 = 32 ∨ (Rect.block (s := S1x4) S1x4.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x4.size a ≤ S100000x4.size a
  hwx4_3 : ∀ i : grid4.Coords, EltTy.bits .f32 = 32 ∨ (Rect.block (s := S100000x4) S5000x4.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf

abbrev win0_0 : Pipeline.Window sig grid0 :=
  Pipeline.Window.ofSpec (Memref.whole main_v74) S4x5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v75) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v76) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v120) S4x5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v122) S4x64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v125) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v126) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v170) S4x5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v172) S4x64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v175) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v176) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v220) S4x5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v222) S4x64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v225) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v226) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v227) S1x5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v228) S1x64x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v229) S1x4.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v230) S5000x4.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S4x16x64 : Shape := ⟨3, ![4, 16, 64]⟩
abbrev S64 : Shape := ⟨1, ![64]⟩
abbrev S3x4x64x64 : Shape := ⟨4, ![3, 4, 64, 64]⟩
abbrev S3x64 : Shape := ⟨2, ![3, 64]⟩
abbrev S64x4 : Shape := ⟨2, ![64, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x16x64 : Shape := ⟨3, ![1, 16, 64]⟩
abbrev S16x64 : Shape := ⟨2, ![16, 64]⟩
abbrev S100000x64 : Shape := ⟨2, ![100000, 64]⟩
abbrev S1600000x16 : Shape := ⟨2, ![1600000, 16]⟩
abbrev S1x64 : Shape := ⟨2, ![1, 64]⟩
abbrev S1x4x64x64 : Shape := ⟨4, ![1, 4, 64, 64]⟩
abbrev S4x64x64 : Shape := ⟨3, ![4, 64, 64]⟩
abbrev S1x64x64 : Shape := ⟨3, ![1, 64, 64]⟩
abbrev S64x64 : Shape := ⟨2, ![64, 64]⟩
abbrev S1600000x64 : Shape := ⟨2, ![1600000, 64]⟩
abbrev S100000x4 : Shape := ⟨2, ![100000, 4]⟩
abbrev S1x4 : Shape := ⟨2, ![1, 4]⟩

abbrev nBuf : Space → Nat
  | .hbm => 340
  | .vmem => 0
  | .smem => 0
  | _ => 0

abbrev hbmTy0_0 (i : Nat) : BufTy := match i % 128 with
  | 0 => ⟨S100000x16, .f32⟩
  | 1 => ⟨S2x1600000, .i32⟩
  | 2 => ⟨S4x16x64, .f32⟩
  | 3 => ⟨S64, .f32⟩
  | 4 => ⟨S3x4x64x64, .f32⟩
  | 5 => ⟨S3x64, .f32⟩
  | 6 => ⟨S64x4, .f32⟩
  | 7 => ⟨S4, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1x16x64, .f32⟩
  | 52 => ⟨S16x64, .f32⟩
  | 53 => ⟨S100000x64, .f32⟩
  | 54 => ⟨S1600000x1, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x16, .f32⟩
  | 64 => ⟨S1600000x16, .f32⟩
  | 65 => ⟨S1600000x16, .f32⟩
  | 66 => ⟨S_, .f32⟩
  | 67 => ⟨S100000x16, .f32⟩
  | 68 => ⟨S1600000x1, .i32⟩
  | 69 => ⟨S100000x16, .f32⟩
  | 70 => ⟨S1x16x64, .f32⟩
  | 71 => ⟨S16x64, .f32⟩
  | 72 => ⟨S100000x64, .f32⟩
  | 73 => ⟨S100000x64, .f32⟩
  | 74 => ⟨S1600000x1, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x16, .f32⟩
  | 84 => ⟨S1600000x16, .f32⟩
  | 85 => ⟨S1600000x16, .f32⟩
  | 86 => ⟨S_, .f32⟩
  | 87 => ⟨S100000x16, .f32⟩
  | 88 => ⟨S1600000x1, .i32⟩
  | 89 => ⟨S100000x16, .f32⟩
  | 90 => ⟨S1x16x64, .f32⟩
  | 91 => ⟨S16x64, .f32⟩
  | 92 => ⟨S100000x64, .f32⟩
  | 93 => ⟨S100000x64, .f32⟩
  | 94 => ⟨S1600000x1, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x16, .f32⟩
  | 104 => ⟨S1600000x16, .f32⟩
  | 105 => ⟨S1600000x16, .f32⟩
  | 106 => ⟨S_, .f32⟩
  | 107 => ⟨S100000x16, .f32⟩
  | 108 => ⟨S1600000x1, .i32⟩
  | 109 => ⟨S100000x16, .f32⟩
  | 110 => ⟨S1x16x64, .f32⟩
  | 111 => ⟨S16x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S1x4x64x64, .f32⟩
  | 121 => ⟨S4x64x64, .f32⟩
  | 122 => ⟨S1x64, .f32⟩
  | 123 => ⟨S64, .f32⟩
  | 124 => ⟨S1x64x64, .f32⟩
  | 125 => ⟨S64x64, .f32⟩
  | 126 => ⟨S100000x64, .f32⟩
  | 127 => ⟨S1600000x1, .f32⟩
  | _ => ⟨S100000x16, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S1600000x64, .f32⟩
  | 10 => ⟨S1600000x64, .f32⟩
  | 11 => ⟨S_, .f32⟩
  | 12 => ⟨S100000x64, .f32⟩
  | 13 => ⟨S1600000x1, .i32⟩
  | 14 => ⟨S100000x64, .f32⟩
  | 15 => ⟨S1x64x64, .f32⟩
  | 16 => ⟨S64x64, .f32⟩
  | 17 => ⟨S100000x64, .f32⟩
  | 18 => ⟨S100000x64, .f32⟩
  | 19 => ⟨S1600000x1, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x64, .f32⟩
  | 29 => ⟨S1600000x64, .f32⟩
  | 30 => ⟨S1600000x64, .f32⟩
  | 31 => ⟨S_, .f32⟩
  | 32 => ⟨S100000x64, .f32⟩
  | 33 => ⟨S1600000x1, .i32⟩
  | 34 => ⟨S100000x64, .f32⟩
  | 35 => ⟨S1x64x64, .f32⟩
  | 36 => ⟨S64x64, .f32⟩
  | 37 => ⟨S100000x64, .f32⟩
  | 38 => ⟨S100000x64, .f32⟩
  | 39 => ⟨S1600000x1, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x64, .f32⟩
  | 49 => ⟨S1600000x64, .f32⟩
  | 50 => ⟨S1600000x64, .f32⟩
  | 51 => ⟨S_, .f32⟩
  | 52 => ⟨S100000x64, .f32⟩
  | 53 => ⟨S1600000x1, .i32⟩
  | 54 => ⟨S100000x64, .f32⟩
  | 55 => ⟨S1x64x64, .f32⟩
  | 56 => ⟨S64x64, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S1x4x64x64, .f32⟩
  | 66 => ⟨S4x64x64, .f32⟩
  | 67 => ⟨S1x64, .f32⟩
  | 68 => ⟨S64, .f32⟩
  | 69 => ⟨S1x64x64, .f32⟩
  | 70 => ⟨S64x64, .f32⟩
  | 71 => ⟨S100000x64, .f32⟩
  | 72 => ⟨S1600000x1, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1600000x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S1x64x64, .f32⟩
  | 89 => ⟨S64x64, .f32⟩
  | 90 => ⟨S100000x64, .f32⟩
  | 91 => ⟨S100000x64, .f32⟩
  | 92 => ⟨S1600000x1, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S1x64x64, .f32⟩
  | 109 => ⟨S64x64, .f32⟩
  | 110 => ⟨S100000x64, .f32⟩
  | 111 => ⟨S100000x64, .f32⟩
  | 112 => ⟨S1600000x1, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S1600000x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x16, .f32⟩

abbrev hbmTy0_2 (i : Nat) : BufTy := match i % 128 with
  | 0 => ⟨S1x64x64, .f32⟩
  | 1 => ⟨S64x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S1x4x64x64, .f32⟩
  | 11 => ⟨S4x64x64, .f32⟩
  | 12 => ⟨S1x64, .f32⟩
  | 13 => ⟨S64, .f32⟩
  | 14 => ⟨S1x64x64, .f32⟩
  | 15 => ⟨S64x64, .f32⟩
  | 16 => ⟨S100000x64, .f32⟩
  | 17 => ⟨S1600000x1, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S1600000x64, .f32⟩
  | 28 => ⟨S1600000x64, .f32⟩
  | 29 => ⟨S_, .f32⟩
  | 30 => ⟨S100000x64, .f32⟩
  | 31 => ⟨S1600000x1, .i32⟩
  | 32 => ⟨S100000x64, .f32⟩
  | 33 => ⟨S1x64x64, .f32⟩
  | 34 => ⟨S64x64, .f32⟩
  | 35 => ⟨S100000x64, .f32⟩
  | 36 => ⟨S100000x64, .f32⟩
  | 37 => ⟨S1600000x1, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x64, .f32⟩
  | 47 => ⟨S1600000x64, .f32⟩
  | 48 => ⟨S1600000x64, .f32⟩
  | 49 => ⟨S_, .f32⟩
  | 50 => ⟨S100000x64, .f32⟩
  | 51 => ⟨S1600000x1, .i32⟩
  | 52 => ⟨S100000x64, .f32⟩
  | 53 => ⟨S1x64x64, .f32⟩
  | 54 => ⟨S64x64, .f32⟩
  | 55 => ⟨S100000x64, .f32⟩
  | 56 => ⟨S100000x64, .f32⟩
  | 57 => ⟨S1600000x1, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S1600000x64, .f32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S1x64x64, .f32⟩
  | 74 => ⟨S64x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S100000x4, .f32⟩
  | 81 => ⟨S1x4, .f32⟩
  | 82 => ⟨S100000x4, .f32⟩
  | 83 => ⟨S100000x4, .f32⟩
  | _ => ⟨S100000x16, .f32⟩

abbrev hbmTy (i : Nat) : BufTy := match i / 128 with
  | 0 => hbmTy0_0 i
  | 1 => hbmTy0_1 i
  | 2 => hbmTy0_2 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_c_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_call1_cst : Ref sig .tc := ⟨.hbm, 117, rfl⟩
abbrev main_call1_v0 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_17 : Ref sig .tc := ⟨.hbm, 128, rfl⟩
abbrev main_v97 : Ref sig .tc := ⟨.hbm, 129, rfl⟩
abbrev main_v98 : Ref sig .tc := ⟨.hbm, 130, rfl⟩
abbrev main_c_18 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_19 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_c_20 : Ref sig .tc := ⟨.hbm, 148, rfl⟩
abbrev main_v114 : Ref sig .tc := ⟨.hbm, 149, rfl⟩
abbrev main_v115 : Ref sig .tc := ⟨.hbm, 150, rfl⟩
abbrev main_c_21 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_22 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_c_23 : Ref sig .tc := ⟨.hbm, 168, rfl⟩
abbrev main_v131 : Ref sig .tc := ⟨.hbm, 169, rfl⟩
abbrev main_v132 : Ref sig .tc := ⟨.hbm, 170, rfl⟩
abbrev main_c_24 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_25 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_call2_cst : Ref sig .tc := ⟨.hbm, 190, rfl⟩
abbrev main_call2_v0 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_c_26 : Ref sig .tc := ⟨.hbm, 201, rfl⟩
abbrev main_v159 : Ref sig .tc := ⟨.hbm, 202, rfl⟩
abbrev main_v160 : Ref sig .tc := ⟨.hbm, 203, rfl⟩
abbrev main_c_27 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_cst_28 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_c_29 : Ref sig .tc := ⟨.hbm, 221, rfl⟩
abbrev main_v176 : Ref sig .tc := ⟨.hbm, 222, rfl⟩
abbrev main_v177 : Ref sig .tc := ⟨.hbm, 223, rfl⟩
abbrev main_c_30 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_cst_31 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_c_32 : Ref sig .tc := ⟨.hbm, 241, rfl⟩
abbrev main_v193 : Ref sig .tc := ⟨.hbm, 242, rfl⟩
abbrev main_v194 : Ref sig .tc := ⟨.hbm, 243, rfl⟩
abbrev main_c_33 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_cst_34 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_call3_cst : Ref sig .tc := ⟨.hbm, 263, rfl⟩
abbrev main_call3_v0 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_c_35 : Ref sig .tc := ⟨.hbm, 274, rfl⟩
abbrev main_v221 : Ref sig .tc := ⟨.hbm, 275, rfl⟩
abbrev main_v222 : Ref sig .tc := ⟨.hbm, 276, rfl⟩
abbrev main_c_36 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_cst_37 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_c_38 : Ref sig .tc := ⟨.hbm, 294, rfl⟩
abbrev main_v238 : Ref sig .tc := ⟨.hbm, 295, rfl⟩
abbrev main_v239 : Ref sig .tc := ⟨.hbm, 296, rfl⟩
abbrev main_c_39 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_cst_40 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_c_41 : Ref sig .tc := ⟨.hbm, 314, rfl⟩
abbrev main_v255 : Ref sig .tc := ⟨.hbm, 315, rfl⟩
abbrev main_v256 : Ref sig .tc := ⟨.hbm, 316, rfl⟩
abbrev main_c_42 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_cst_43 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S4x16x64_S1x16x64_0_0_0 : S4x16x64.Slices ![0, 0, 0] S1x16x64
  shapeCasts_S1x16x64_S16x64 : S1x16x64.ShapeCasts S16x64
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  slices_S4x16x64_S1x16x64_1_0_0 : S4x16x64.Slices ![1, 0, 0] S1x16x64
  slices_S4x16x64_S1x16x64_2_0_0 : S4x16x64.Slices ![2, 0, 0] S1x16x64
  slices_S4x16x64_S1x16x64_3_0_0 : S4x16x64.Slices ![3, 0, 0] S1x16x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S3x4x64x64_S1x4x64x64_0_0_0_0 : S3x4x64x64.Slices ![0, 0, 0, 0] S1x4x64x64
  shapeCasts_S1x4x64x64_S4x64x64 : S1x4x64x64.ShapeCasts S4x64x64
  slices_S3x64_S1x64_0_0 : S3x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  slices_S3x4x64x64_S1x4x64x64_1_0_0_0 : S3x4x64x64.Slices ![1, 0, 0, 0] S1x4x64x64
  slices_S3x64_S1x64_1_0 : S3x64.Slices ![1, 0] S1x64
  slices_S3x4x64x64_S1x4x64x64_2_0_0_0 : S3x4x64x64.Slices ![2, 0, 0, 0] S1x4x64x64
  slices_S3x64_S1x64_2_0 : S3x64.Slices ![2, 0] S1x64
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x16_S16x64_S100000x64_1_0_0_1_n_n_wf : DotDims.WF S100000x16 S16x64 S100000x64 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x4_S100000x4_1_0_0_1_n_n_wf : DotDims.WF S100000x64 S64x4 S100000x4 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf

class Facts : Prop extends Facts₀ where

variable [Facts]
-- ==== Proof.K.Region0.lean ====
import proofs.«160486_j70574902608023_1_alg».proof.Proof.Gen.Kernel.Launch
import proofs.«160486_j70574902608023_1_alg».proof.Proof.Gen.Kernel.Skeleton
import proofs.«160486_j70574902608023_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: one grid point of the combine kernel, and its proof data

The kernel body at a grid point reads its three input blocks (the stacked hop features, the stacked
weights, the bias row), forms `∑ₖ Hₖ · Wₖ + b` followed by a maximum with zero, and overwrites its whole output block with it.
Everything here is stated at an arbitrary buffer valuation `V` found at the region's entry: the block of each
window at a point is read off `V`, the output block is the one store's value over the input blocks, and the
body's triple is run symbolically.  Inputs are left in place, so each input window holds its block at every
point whether or not it was fetched there.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, fetched there or not: the body leaves it in place and an
    unfetched point has the same block index as the one before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 holds its block at every point, fetched there or not: the body leaves it in place and an
    unfetched point has the same block index as the one before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 holds its block at every point, fetched there or not: the body leaves it in place and an
    unfetched point has the same block index as the one before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

abbrev rA0_0 : Rect S4x5000x16 := Rect.unit (s := S4x5000x16) ![0, 0, 0] S1x5000x16.size inb_S4x5000x16_S1x5000x16_0_0_0
abbrev rA0_1 : Rect S4x5000x16 := Rect.unit (s := S4x5000x16) ![1, 0, 0] S1x5000x16.size inb_S4x5000x16_S1x5000x16_1_0_0
abbrev rA0_2 : Rect S4x5000x16 := Rect.unit (s := S4x5000x16) ![2, 0, 0] S1x5000x16.size inb_S4x5000x16_S1x5000x16_2_0_0
abbrev rA0_3 : Rect S4x5000x16 := Rect.unit (s := S4x5000x16) ![3, 0, 0] S1x5000x16.size inb_S4x5000x16_S1x5000x16_3_0_0
abbrev rB0_0 : Rect S4x16x64 := Rect.unit (s := S4x16x64) ![0, 0, 0] S1x16x64.size inb_S4x16x64_S1x16x64_0_0_0
abbrev rB0_1 : Rect S4x16x64 := Rect.unit (s := S4x16x64) ![1, 0, 0] S1x16x64.size inb_S4x16x64_S1x16x64_1_0_0
abbrev rB0_2 : Rect S4x16x64 := Rect.unit (s := S4x16x64) ![2, 0, 0] S1x16x64.size inb_S4x16x64_S1x16x64_2_0_0
abbrev rB0_3 : Rect S4x16x64 := Rect.unit (s := S4x16x64) ![3, 0, 0] S1x16x64.size inb_S4x16x64_S1x16x64_3_0_0
abbrev rC0 : Rect S1x64 := Rect.unit (s := S1x64) ![0, 0] S1x64.size inb_S1x64_S1x64_0_0
abbrev rO0 : Rect S5000x64 := Rect.unit (s := S5000x64) ![0, 0] S5000x64.size inb_S5000x64_S5000x64_0_0

/-- The output block after the body: its single whole-block store, over the pieces loaded from the input blocks. -/
def out0_3 (x0 : Vec F S4x5000x16 .f32) (x1 : Vec F S4x16x64 .f32) (x2 : Vec F S1x64 .f32) : Vec F S5000x64 .f32 :=
  View.canon [⟨rO0, k0_pay1 (k0_pay2 (View.ld x0 rA0_0) (View.ld x1 rB0_0) (View.ld x0 rA0_1) (View.ld x1 rB0_1) (View.ld x0 rA0_2) (View.ld x1 rB0_2)) (k0_pay3 (View.ld x0 rA0_3)) (k0_pay4 (View.ld x1 rB0_3)) (View.ld x2 rC0)⟩]

/-- The one store covers the output block. -/
theorem cover0_3 (p0 : Vec F S5000x64 .f32) (y : S5000x64.Idx) :
    ∃ pc ∈ ([⟨rO0, p0⟩] : List (View.Piece (Elt F) S5000x64 .f32)), y ∈ pc.1.set :=
  View.cover_of_tiled [⟨rO0, p0⟩] S5000x64.size (by rfl) y

set_option maxHeartbeats 4000000 in
/-- The body on whole staging buffers: inputs held at `x0 x1 x2`, the output at anything; it ends with the inputs as
    they were and the output at `out0_3 x0 x1 x2`. -/
theorem sound_kernel0 (c : Dev nD) (E : Set ℕ) (i : grid0.Coords)
    (arg1 : Memref sig .tc .vmem S4x5000x16 .f32) (harg1 : arg1.IsWhole) (arg2 : Memref sig .tc .vmem S4x16x64 .f32) (harg2 : arg2.IsWhole)
    (arg3 : Memref sig .tc .vmem S1x64 .f32) (harg3 : arg3.IsWhole) (arg4 : Memref sig .tc .vmem S5000x64 .f32) (harg4 : arg4.IsWhole)
    (x0 : Vec F S4x5000x16 .f32) (x1 : Vec F S4x16x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body each input buffer at its block and the output buffer at
    `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
import proofs.«160486_j70574902608023_1_alg».proof.Proof.Gen.Kernel.Launch
import proofs.«160486_j70574902608023_1_alg».proof.Proof.Gen.Kernel.Skeleton
import proofs.«160486_j70574902608023_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: one grid point of the combine kernel, and its proof data

The kernel body at a grid point reads its three input blocks (the stacked hop features, the stacked
weights, the bias row), forms `∑ₖ Hₖ · Wₖ + b` followed by a maximum with zero, and overwrites its whole output block with it.
Everything here is stated at an arbitrary buffer valuation `V` found at the region's entry: the block of each
window at a point is read off `V`, the output block is the one store's value over the input blocks, and the
body's triple is run symbolically.  Inputs are left in place, so each input window holds its block at every
point whether or not it was fetched there.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, fetched there or not: the body leaves it in place and an
    unfetched point has the same block index as the one before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every point, fetched there or not: the body leaves it in place and an
    unfetched point has the same block index as the one before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every point, fetched there or not: the body leaves it in place and an
    unfetched point has the same block index as the one before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

abbrev rA1_0 : Rect S4x5000x64 := Rect.unit (s := S4x5000x64) ![0, 0, 0] S1x5000x64.size inb_S4x5000x64_S1x5000x64_0_0_0
abbrev rA1_1 : Rect S4x5000x64 := Rect.unit (s := S4x5000x64) ![1, 0, 0] S1x5000x64.size inb_S4x5000x64_S1x5000x64_1_0_0
abbrev rA1_2 : Rect S4x5000x64 := Rect.unit (s := S4x5000x64) ![2, 0, 0] S1x5000x64.size inb_S4x5000x64_S1x5000x64_2_0_0
abbrev rA1_3 : Rect S4x5000x64 := Rect.unit (s := S4x5000x64) ![3, 0, 0] S1x5000x64.size inb_S4x5000x64_S1x5000x64_3_0_0
abbrev rB1_0 : Rect S4x64x64 := Rect.unit (s := S4x64x64) ![0, 0, 0] S1x64x64.size inb_S4x64x64_S1x64x64_0_0_0
abbrev rB1_1 : Rect S4x64x64 := Rect.unit (s := S4x64x64) ![1, 0, 0] S1x64x64.size inb_S4x64x64_S1x64x64_1_0_0
abbrev rB1_2 : Rect S4x64x64 := Rect.unit (s := S4x64x64) ![2, 0, 0] S1x64x64.size inb_S4x64x64_S1x64x64_2_0_0
abbrev rB1_3 : Rect S4x64x64 := Rect.unit (s := S4x64x64) ![3, 0, 0] S1x64x64.size inb_S4x64x64_S1x64x64_3_0_0
abbrev rC1 : Rect S1x64 := Rect.unit (s := S1x64) ![0, 0] S1x64.size inb_S1x64_S1x64_0_0
abbrev rO1 : Rect S5000x64 := Rect.unit (s := S5000x64) ![0, 0] S5000x64.size inb_S5000x64_S5000x64_0_0

/-- The output block after the body: its single whole-block store, over the pieces loaded from the input blocks. -/
def out1_3 (x0 : Vec F S4x5000x64 .f32) (x1 : Vec F S4x64x64 .f32) (x2 : Vec F S1x64 .f32) : Vec F S5000x64 .f32 :=
  View.canon [⟨rO1, k1_pay1 (k1_pay2 (View.ld x0 rA1_0) (View.ld x1 rB1_0) (View.ld x0 rA1_1) (View.ld x1 rB1_1) (View.ld x0 rA1_2) (View.ld x1 rB1_2)) (k1_pay3 (View.ld x0 rA1_3)) (k1_pay4 (View.ld x1 rB1_3)) (View.ld x2 rC1)⟩]

/-- The one store covers the output block. -/
theorem cover1_3 (p0 : Vec F S5000x64 .f32) (y : S5000x64.Idx) :
    ∃ pc ∈ ([⟨rO1, p0⟩] : List (View.Piece (Elt F) S5000x64 .f32)), y ∈ pc.1.set :=
  View.cover_of_tiled [⟨rO1, p0⟩] S5000x64.size (by rfl) y

set_option maxHeartbeats 4000000 in
/-- The body on whole staging buffers: inputs held at `x0 x1 x2`, the output at anything; it ends with the inputs as
    they were and the output at `out1_3 x0 x1 x2`. -/
theorem sound_kernel1 (c : Dev nD) (E : Set ℕ) (i : grid1.Coords)
    (arg1 : Memref sig .tc .vmem S4x5000x64 .f32) (harg1 : arg1.IsWhole) (arg2 : Memref sig .tc .vmem S4x64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S4x5000x64 .f32) (x1 : Vec F S4x64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The arrays as the region finds them; after the body each input buffer at its block and the output buffer at
    `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
import proofs.«160486_j70574902608023_1_alg».proof.Proof.Gen.Kernel.Launch
import proofs.«160486_j70574902608023_1_alg».proof.Proof.Gen.Kernel.Skeleton
import proofs.«160486_j70574902608023_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: one grid point of the combine kernel, and its proof data

The kernel body at a grid point reads its three input blocks (the stacked hop features, the stacked
weights, the bias row), forms `∑ₖ Hₖ · Wₖ + b` followed by a maximum with zero, and overwrites its whole output block with it.
Everything here is stated at an arbitrary buffer valuation `V` found at the region's entry: the block of each
window at a point is read off `V`, the output block is the one store's value over the input blocks, and the
body's triple is run symbolically.  Inputs are left in place, so each input window holds its block at every
point whether or not it was fetched there.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, fetched there or not: the body leaves it in place and an
    unfetched point has the same block index as the one before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 holds its block at every point, fetched there or not: the body leaves it in place and an
    unfetched point has the same block index as the one before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 holds its block at every point, fetched there or not: the body leaves it in place and an
    unfetched point has the same block index as the one before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes -/

abbrev rA2_0 : Rect S4x5000x64 := Rect.unit (s := S4x5000x64) ![0, 0, 0] S1x5000x64.size inb_S4x5000x64_S1x5000x64_0_0_0
abbrev rA2_1 : Rect S4x5000x64 := Rect.unit (s := S4x5000x64) ![1, 0, 0] S1x5000x64.size inb_S4x5000x64_S1x5000x64_1_0_0
abbrev rA2_2 : Rect S4x5000x64 := Rect.unit (s := S4x5000x64) ![2, 0, 0] S1x5000x64.size inb_S4x5000x64_S1x5000x64_2_0_0
abbrev rA2_3 : Rect S4x5000x64 := Rect.unit (s := S4x5000x64) ![3, 0, 0] S1x5000x64.size inb_S4x5000x64_S1x5000x64_3_0_0
abbrev rB2_0 : Rect S4x64x64 := Rect.unit (s := S4x64x64) ![0, 0, 0] S1x64x64.size inb_S4x64x64_S1x64x64_0_0_0
abbrev rB2_1 : Rect S4x64x64 := Rect.unit (s := S4x64x64) ![1, 0, 0] S1x64x64.size inb_S4x64x64_S1x64x64_1_0_0
abbrev rB2_2 : Rect S4x64x64 := Rect.unit (s := S4x64x64) ![2, 0, 0] S1x64x64.size inb_S4x64x64_S1x64x64_2_0_0
abbrev rB2_3 : Rect S4x64x64 := Rect.unit (s := S4x64x64) ![3, 0, 0] S1x64x64.size inb_S4x64x64_S1x64x64_3_0_0
abbrev rC2 : Rect S1x64 := Rect.unit (s := S1x64) ![0, 0] S1x64.size inb_S1x64_S1x64_0_0
abbrev rO2 : Rect S5000x64 := Rect.unit (s := S5000x64) ![0, 0] S5000x64.size inb_S5000x64_S5000x64_0_0

/-- The output block after the body: its single whole-block store, over the pieces loaded from the input blocks. -/
def out2_3 (x0 : Vec F S4x5000x64 .f32) (x1 : Vec F S4x64x64 .f32) (x2 : Vec F S1x64 .f32) : Vec F S5000x64 .f32 :=
  View.canon [⟨rO2, k2_pay1 (k2_pay2 (View.ld x0 rA2_0) (View.ld x1 rB2_0) (View.ld x0 rA2_1) (View.ld x1 rB2_1) (View.ld x0 rA2_2) (View.ld x1 rB2_2)) (k2_pay3 (View.ld x0 rA2_3)) (k2_pay4 (View.ld x1 rB2_3)) (View.ld x2 rC2)⟩]

/-- The one store covers the output block. -/
theorem cover2_3 (p0 : Vec F S5000x64 .f32) (y : S5000x64.Idx) :
    ∃ pc ∈ ([⟨rO2, p0⟩] : List (View.Piece (Elt F) S5000x64 .f32)), y ∈ pc.1.set :=
  View.cover_of_tiled [⟨rO2, p0⟩] S5000x64.size (by rfl) y

set_option maxHeartbeats 4000000 in
/-- The body on whole staging buffers: inputs held at `x0 x1 x2`, the output at anything; it ends with the inputs as
    they were and the output at `out2_3 x0 x1 x2`. -/
theorem sound_kernel2 (c : Dev nD) (E : Set ℕ) (i : grid2.Coords)
    (arg1 : Memref sig .tc .vmem S4x5000x64 .f32) (harg1 : arg1.IsWhole) (arg2 : Memref sig .tc .vmem S4x64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S4x5000x64 .f32) (x1 : Vec F S4x64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__combine_kernel i arg1 harg1 arg2 harg2 arg3 harg3 arg4 harg4) K := by
  simp only [cc2__combine_kernel_eq_skeleton]; unfold cc2__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The arrays as the region finds them; after the body each input buffer at its block and the output buffer at
    `out2_3` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
import proofs.«160486_j70574902608023_1_alg».proof.Proof.Gen.Kernel.Launch
import proofs.«160486_j70574902608023_1_alg».proof.Proof.Gen.Kernel.Skeleton
import proofs.«160486_j70574902608023_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: one grid point of the combine kernel, and its proof data

The kernel body at a grid point reads its three input blocks (the stacked hop features, the stacked
weights, the bias row), forms `∑ₖ Hₖ · Wₖ + b`, and overwrites its whole output block with it.
Everything here is stated at an arbitrary buffer valuation `V` found at the region's entry: the block of each
window at a point is read off `V`, the output block is the one store's value over the input blocks, and the
body's triple is run symbolically.  Inputs are left in place, so each input window holds its block at every
point whether or not it was fetched there.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its block at every point, fetched there or not: the body leaves it in place and an
    unfetched point has the same block index as the one before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 holds its block at every point, fetched there or not: the body leaves it in place and an
    unfetched point has the same block index as the one before. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 holds its block at every point, fetched there or not: the body leaves it in place and an
    unfetched point has the same block index as the one before. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes -/

abbrev rA3_0 : Rect S4x5000x64 := Rect.unit (s := S4x5000x64) ![0, 0, 0] S1x5000x64.size inb_S4x5000x64_S1x5000x64_0_0_0
abbrev rA3_1 : Rect S4x5000x64 := Rect.unit (s := S4x5000x64) ![1, 0, 0] S1x5000x64.size inb_S4x5000x64_S1x5000x64_1_0_0
abbrev rA3_2 : Rect S4x5000x64 := Rect.unit (s := S4x5000x64) ![2, 0, 0] S1x5000x64.size inb_S4x5000x64_S1x5000x64_2_0_0
abbrev rA3_3 : Rect S4x5000x64 := Rect.unit (s := S4x5000x64) ![3, 0, 0] S1x5000x64.size inb_S4x5000x64_S1x5000x64_3_0_0
abbrev rB3_0 : Rect S4x64x64 := Rect.unit (s := S4x64x64) ![0, 0, 0] S1x64x64.size inb_S4x64x64_S1x64x64_0_0_0
abbrev rB3_1 : Rect S4x64x64 := Rect.unit (s := S4x64x64) ![1, 0, 0] S1x64x64.size inb_S4x64x64_S1x64x64_1_0_0
abbrev rB3_2 : Rect S4x64x64 := Rect.unit (s := S4x64x64) ![2, 0, 0] S1x64x64.size inb_S4x64x64_S1x64x64_2_0_0
abbrev rB3_3 : Rect S4x64x64 := Rect.unit (s := S4x64x64) ![3, 0, 0] S1x64x64.size inb_S4x64x64_S1x64x64_3_0_0
abbrev rC3 : Rect S1x64 := Rect.unit (s := S1x64) ![0, 0] S1x64.size inb_S1x64_S1x64_0_0
abbrev rO3 : Rect S5000x64 := Rect.unit (s := S5000x64) ![0, 0] S5000x64.size inb_S5000x64_S5000x64_0_0

/-- The output block after the body: its single whole-block store, over the pieces loaded from the input blocks. -/
def out3_3 (x0 : Vec F S4x5000x64 .f32) (x1 : Vec F S4x64x64 .f32) (x2 : Vec F S1x64 .f32) : Vec F S5000x64 .f32 :=
  View.canon [⟨rO3, k3_pay1 (k3_pay2 (View.ld x0 rA3_0) (View.ld x1 rB3_0) (View.ld x0 rA3_1) (View.ld x1 rB3_1) (View.ld x0 rA3_2) (View.ld x1 rB3_2)) (k3_pay3 (View.ld x0 rA3_3)) (k3_pay4 (View.ld x1 rB3_3)) (View.ld x2 rC3)⟩]

/-- The one store covers the output block. -/
theorem cover3_3 (p0 : Vec F S5000x64 .f32) (y : S5000x64.Idx) :
    ∃ pc ∈ ([⟨rO3, p0⟩] : List (View.Piece (Elt F) S5000x64 .f32)), y ∈ pc.1.set :=
  View.cover_of_tiled [⟨rO3, p0⟩] S5000x64.size (by rfl) y

set_option maxHeartbeats 4000000 in
/-- The body on whole staging buffers: inputs held at `x0 x1 x2`, the output at anything; it ends with the inputs as
    they were and the output at `out3_3 x0 x1 x2`. -/
theorem sound_kernel3 (c : Dev nD) (E : Set ℕ) (i : grid3.Coords)
    (arg1 : Memref sig .tc .vmem S4x5000x64 .f32) (harg1 : arg1.IsWhole) (arg2 : Memref sig .tc .vmem S4x64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S4x5000x64 .f32) (x1 : Vec F S4x64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__combine_kernel i arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The arrays as the region finds them; after the body each input buffer at its block and the output buffer at
    `out3_3` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Region4.lean ====
import proofs.«160486_j70574902608023_1_alg».proof.Proof.Gen.Kernel.Launch
import proofs.«160486_j70574902608023_1_alg».proof.Proof.Gen.Kernel.Skeleton
import proofs.«160486_j70574902608023_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: one grid point of the combine kernel, and its proof data

The kernel body at a grid point reads its three input blocks (the features, the weight matrix and the bias row,
the first two behind a leading axis of extent one), forms `H · W + b`, and overwrites its whole output block with it.
Everything here is stated at an arbitrary buffer valuation `V` found at the region's entry: the block of each
window at a point is read off `V`, the output block is the one store's value over the input blocks, and the
body's triple is run symbolically.  Inputs are left in place, so each input window holds its block at every
point whether or not it was fetched there.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 holds its block at every point, fetched there or not: the body leaves it in place and an
    unfetched point has the same block index as the one before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 holds its block at every point, fetched there or not: the body leaves it in place and an
    unfetched point has the same block index as the one before. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 holds its block at every point, fetched there or not: the body leaves it in place and an
    unfetched point has the same block index as the one before. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes -/

abbrev rA4_0 : Rect S1x5000x64 := Rect.unit (s := S1x5000x64) ![0, 0, 0] S1x5000x64.size inb_S1x5000x64_S1x5000x64_0_0_0
abbrev rB4_0 : Rect S1x64x4 := Rect.unit (s := S1x64x4) ![0, 0, 0] S1x64x4.size inb_S1x64x4_S1x64x4_0_0_0
abbrev rC4 : Rect S1x4 := Rect.unit (s := S1x4) ![0, 0] S1x4.size inb_S1x4_S1x4_0_0
abbrev rO4 : Rect S5000x4 := Rect.unit (s := S5000x4) ![0, 0] S5000x4.size inb_S5000x4_S5000x4_0_0

/-- The output block after the body: its single whole-block store, over the pieces loaded from the input blocks. -/
def out4_3 (x0 : Vec F S1x5000x64 .f32) (x1 : Vec F S1x64x4 .f32) (x2 : Vec F S1x4 .f32) : Vec F S5000x4 .f32 :=
  View.canon [⟨rO4, k4_pay1 (View.ld x0 rA4_0) (View.ld x1 rB4_0) (View.ld x2 rC4)⟩]

/-- The one store covers the output block. -/
theorem cover4_3 (p0 : Vec F S5000x4 .f32) (y : S5000x4.Idx) :
    ∃ pc ∈ ([⟨rO4, p0⟩] : List (View.Piece (Elt F) S5000x4 .f32)), y ∈ pc.1.set :=
  View.cover_of_tiled [⟨rO4, p0⟩] S5000x4.size (by rfl) y

set_option maxHeartbeats 4000000 in
/-- The body on whole staging buffers: inputs held at `x0 x1 x2`, the output at anything; it ends with the inputs as
    they were and the output at `out4_3 x0 x1 x2`. -/
theorem sound_kernel4 (c : Dev nD) (E : Set ℕ) (i : grid4.Coords)
    (arg1 : Memref sig .tc .vmem S1x5000x64 .f32) (harg1 : arg1.IsWhole) (arg2 : Memref sig .tc .vmem S1x64x4 .f32) (harg2 : arg2.IsWhole)
    (arg3 : Memref sig .tc .vmem S1x4 .f32) (harg3 : arg3.IsWhole) (arg4 : Memref sig .tc .vmem S5000x4 .f32) (harg4 : arg4.IsWhole)
    (x0 : Vec F S1x5000x64 .f32) (x1 : Vec F S1x64x4 .f32) (x2 : Vec F S1x4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__combine_kernel i arg1 harg1 arg2 harg2 arg3 harg3 arg4 harg4) K := by
  simp only [cc4__combine_kernel_eq_skeleton]; unfold cc4__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The arrays as the region finds them; after the body each input buffer at its block and the output buffer at
    `out4_3` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
import proofs.«160486_j70574902608023_1_alg».proof.Proof.K.Region0
import proofs.«160486_j70574902608023_1_alg».proof.Proof.K.Region1
import proofs.«160486_j70574902608023_1_alg».proof.Proof.K.Region2
import proofs.«160486_j70574902608023_1_alg».proof.Proof.K.Region3
import proofs.«160486_j70574902608023_1_alg».proof.Proof.K.Region4

/-!
# The run of @main: seven stretches of host operations and five kernel regions

The buffer contents at each boundary are a fold from the launch memory: a host stretch applies its operations in
order, a region leaves its four arrays at what its pipeline writes back (the three inputs unchanged, the output
at the blocks its grid points wrote) and every other buffer as it found it.  Each region is entered from the
contents the item before it left, so the regions' proof data are instantiated along the fold.  The run ends with
every unscoped buffer at the last boundary's contents; the argument arrays are read back through the fold to
their launch contents, since no host operation writes an argument and the one argument a region stages (the
first layer's weights) is an input window.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes -/

/-- The references `hostOps0` writes. -/
abbrev hostOps0_W : List (Ref sig .tc) := [main_v0, main_v1, main_v2, main_v3, main_cst, main_v4, main_cst_0, main_v5, main_v6, main_v7, main_cst_1, main_v8, main_v9, main_cst_2, main_v10, main_v11, main_v12, main_cst_3, main_v13, main_v14, main_cst_4]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps0_fresh : (hostOps0 : List (HloOp τ sig (Elt F))).Forall fun op => op.fresh = ∅ := by
  simp only [List.Forall]; repeat' constructor

/-- The references `hostOps0_1` writes. -/
abbrev hostOps0_1_W : List (Ref sig .tc) := [main_call0_v0, main_call0_v1, main_v15]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps0_1_fresh : (hostOps0_1 : List (HloOp τ sig (Elt F))).Forall fun op => op.fresh = ∅ := by
  simp only [List.Forall]; repeat' constructor

/-- The references `hostOps0_2` writes. -/
abbrev hostOps0_2_W : List (Ref sig .tc) := [main_c, main_v16, main_v17, main_c_5, main_v18, main_v19, main_v20, main_v21, main_v22, main_c_6, main_v23, main_v24, main_c_7, main_v25, main_v26, main_v27, main_v28, main_v29, main_v30, main_v31, main_c_8, main_v32, main_v33, main_c_9, main_v34, main_v35, main_v36, main_v37, main_v38, main_v39, main_v40, main_cst_10, main_v41, main_v42, main_v43, main_v44, main_c_11, main_v45, main_v46, main_c_12, main_v47, main_v48, main_v49, main_v50, main_v51, main_v52, main_v53, main_cst_13, main_v54, main_v55, main_v56, main_v57, main_c_14, main_v58, main_v59, main_c_15, main_v60, main_v61, main_v62, main_v63, main_v64, main_v65, main_v66, main_cst_16, main_v67, main_v68, main_v69, main_v70, main_v71, main_v72, main_v73, main_v74, main_v75]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps0_2_fresh : (hostOps0_2 : List (HloOp τ sig (Elt F))).Forall fun op => op.fresh = ∅ := by
  simp only [List.Forall]; repeat' constructor

/-- The references `hostOps1` writes. -/
abbrev hostOps1_W : List (Ref sig .tc) := [main_v77, main_c_17, main_v78, main_v79, main_c_18, main_v80, main_v81, main_v82, main_v83, main_v84, main_v85, main_v86, main_cst_19, main_v87, main_v88, main_v89, main_v90, main_c_20, main_v91, main_v92, main_c_21, main_v93, main_v94, main_v95, main_v96, main_v97, main_v98, main_v99, main_cst_22, main_v100, main_v101, main_v102, main_v103, main_c_23, main_v104, main_v105, main_c_24, main_v106, main_v107, main_v108, main_v109, main_v110, main_v111, main_v112, main_cst_25, main_v113, main_v114, main_v115, main_v116, main_v117, main_v118, main_v119, main_v120, main_v121, main_v122, main_v123, main_v124, main_v125]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps1_fresh : (hostOps1 : List (HloOp τ sig (Elt F))).Forall fun op => op.fresh = ∅ := by
  simp only [List.Forall]; repeat' constructor

/-- The references `hostOps2` writes. -/
abbrev hostOps2_W : List (Ref sig .tc) := [main_v127, main_c_26, main_v128, main_v129, main_c_27, main_v130, main_v131, main_v132, main_v133, main_v134, main_v135, main_v136, main_cst_28, main_v137, main_v138, main_v139, main_v140, main_c_29, main_v141, main_v142, main_c_30, main_v143, main_v144, main_v145, main_v146, main_v147, main_v148, main_v149, main_cst_31, main_v150, main_v151, main_v152, main_v153, main_c_32, main_v154, main_v155, main_c_33, main_v156, main_v157, main_v158, main_v159, main_v160, main_v161, main_v162, main_cst_34, main_v163, main_v164, main_v165, main_v166, main_v167, main_v168, main_v169, main_v170, main_v171, main_v172, main_v173, main_v174, main_v175]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps2_fresh : (hostOps2 : List (HloOp τ sig (Elt F))).Forall fun op => op.fresh = ∅ := by
  simp only [List.Forall]; repeat' constructor

/-- The references `hostOps3` writes. -/
abbrev hostOps3_W : List (Ref sig .tc) := [main_v177, main_c_35, main_v178, main_v179, main_c_36, main_v180, main_v181, main_v182, main_v183, main_v184, main_v185, main_v186, main_cst_37, main_v187, main_v188, main_v189, main_v190, main_c_38, main_v191, main_v192, main_c_39, main_v193, main_v194, main_v195, main_v196, main_v197, main_v198, main_v199, main_cst_40, main_v200, main_v201, main_v202, main_v203, main_c_41, main_v204, main_v205, main_c_42, main_v206, main_v207, main_v208, main_v209, main_v210, main_v211, main_v212, main_cst_43, main_v213, main_v214, main_v215, main_v216, main_v217, main_v218, main_v219, main_v220, main_v221, main_v222, main_v223, main_v224, main_v225]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps3_fresh : (hostOps3 : List (HloOp τ sig (Elt F))).Forall fun op => op.fresh = ∅ := by
  simp only [List.Forall]; repeat' constructor

/-- The references `hostOps4` writes. -/
abbrev hostOps4_W : List (Ref sig .tc) := [main_v227, main_v228, main_v229]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps4_fresh : (hostOps4 : List (HloOp τ sig (Elt F))).Forall fun op => op.fresh = ∅ := by
  simp only [List.Forall]; repeat' constructor

/-! ## The buffer contents at each boundary -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- After `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- After `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- An input window's array leaves region 0 as it entered. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))
/-- After `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- An input window's array leaves region 1 as it entered. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))
/-- After `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- An input window's array leaves region 2 as it entered. -/
theorem W8_in (c : Dev nD) (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hw _).trans (A_eq2 (V7 m ρ) c w))
/-- After `hostOps3`. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
/-- At region 3's exit: its arrays at what the pipeline leaves, every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- An input window's array leaves region 3 as it entered. -/
theorem W10_in (c : Dev nD) (w : Fin cfg3.W) (hw : (cfg3.win w).isOut = false) :
    W10 m ρ c (Proc.devRef .tc (Pipeline.arrRef spec3 w)) = W9 m ρ c (Proc.devRef .tc (Pipeline.arrRef spec3 w)) :=
  (W10_arr m ρ c w).trans (((dat3 (V9 m ρ) c).arrAt_in w hw _).trans (A_eq3 (V9 m ρ) c w))
/-- After `hostOps4`. -/
abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h
/-- At region 4's exit: its arrays at what the pipeline leaves, every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)
/-- An input window's array leaves region 4 as it entered. -/
theorem W12_in (c : Dev nD) (w : Fin cfg4.W) (hw : (cfg4.win w).isOut = false) :
    W12 m ρ c (Proc.devRef .tc (Pipeline.arrRef spec4 w)) = W11 m ρ c (Proc.devRef .tc (Pipeline.arrRef spec4 w)) :=
  (W12_arr m ρ c w).trans (((dat4 (V11 m ρ) c).arrAt_in w hw _).trans (A_eq4 (V11 m ρ) c w))

/-! ## The arguments end as launched -/

theorem W12_main_arg0 (c : Dev nD) : W12 m ρ c (Proc.devRef .tc main_arg0) = m ((c : Thread nD τ).loc main_arg0) :=
  (W12_of_ne m ρ c main_arg0 (by decide)).trans <| (W11_of m ρ c main_arg0 (by decide)).trans <| (W10_of_ne m ρ c main_arg0 (by decide)).trans <| (W9_of m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_of_ne m ρ c main_arg0 (by decide)).trans <| (W3_of m ρ c main_arg0 (by decide)).trans <| (W2_of m ρ c main_arg0 (by decide)).trans <| (W1_of m ρ c main_arg0 (by decide)).trans <| rfl
theorem W12_main_arg1 (c : Dev nD) : W12 m ρ c (Proc.devRef .tc main_arg1) = m ((c : Thread nD τ).loc main_arg1) :=
  (W12_of_ne m ρ c main_arg1 (by decide)).trans <| (W11_of m ρ c main_arg1 (by decide)).trans <| (W10_of_ne m ρ c main_arg1 (by decide)).trans <| (W9_of m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of m ρ c main_arg1 (by decide)).trans <| (W1_of m ρ c main_arg1 (by decide)).trans <| rfl
theorem W12_main_arg2 (c : Dev nD) : W12 m ρ c (Proc.devRef .tc main_arg2) = m ((c : Thread nD τ).loc main_arg2) :=
  (W12_of_ne m ρ c main_arg2 (by decide)).trans <| (W11_of m ρ c main_arg2 (by decide)).trans <| (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_in m ρ c 1 rfl).trans <| (W3_of m ρ c main_arg2 (by decide)).trans <| (W2_of m ρ c main_arg2 (by decide)).trans <| (W1_of m ρ c main_arg2 (by decide)).trans <| rfl
theorem W12_main_arg3 (c : Dev nD) : W12 m ρ c (Proc.devRef .tc main_arg3) = m ((c : Thread nD τ).loc main_arg3) :=
  (W12_of_ne m ρ c main_arg3 (by decide)).trans <| (W11_of m ρ c main_arg3 (by decide)).trans <| (W10_of_ne m ρ c main_arg3 (by decide)).trans <| (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of m ρ c main_arg3 (by decide)).trans <| (W1_of m ρ c main_arg3 (by decide)).trans <| rfl
theorem W12_main_arg4 (c : Dev nD) : W12 m ρ c (Proc.devRef .tc main_arg4) = m ((c : Thread nD τ).loc main_arg4) :=
  (W12_of_ne m ρ c main_arg4 (by decide)).trans <| (W11_of m ρ c main_arg4 (by decide)).trans <| (W10_of_ne m ρ c main_arg4 (by decide)).trans <| (W9_of m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of m ρ c main_arg4 (by decide)).trans <| (W1_of m ρ c main_arg4 (by decide)).trans <| rfl
theorem W12_main_arg5 (c : Dev nD) : W12 m ρ c (Proc.devRef .tc main_arg5) = m ((c : Thread nD τ).loc main_arg5) :=
  (W12_of_ne m ρ c main_arg5 (by decide)).trans <| (W11_of m ρ c main_arg5 (by decide)).trans <| (W10_of_ne m ρ c main_arg5 (by decide)).trans <| (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of m ρ c main_arg5 (by decide)).trans <| (W1_of m ρ c main_arg5 (by decide)).trans <| rfl
theorem W12_main_arg6 (c : Dev nD) : W12 m ρ c (Proc.devRef .tc main_arg6) = m ((c : Thread nD τ).loc main_arg6) :=
  (W12_of_ne m ρ c main_arg6 (by decide)).trans <| (W11_of m ρ c main_arg6 (by decide)).trans <| (W10_of_ne m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of m ρ c main_arg6 (by decide)).trans <| (W1_of m ρ c main_arg6 (by decide)).trans <| rfl
theorem W12_main_arg7 (c : Dev nD) : W12 m ρ c (Proc.devRef .tc main_arg7) = m ((c : Thread nD τ).loc main_arg7) :=
  (W12_of_ne m ρ c main_arg7 (by decide)).trans <| (W11_of m ρ c main_arg7 (by decide)).trans <| (W10_of_ne m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of m ρ c main_arg7 (by decide)).trans <| (W1_of m ρ c main_arg7 (by decide)).trans <| rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0: entered with every unscoped buffer at `W3`, left at `W4`.  Its arrays are split out of the
    unscoped buffers at entry and put back at the exit contents; the generator register goes into the class
    invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W5`, left at `W6`.  Its arrays are split out of the
    unscoped buffers at entry and put back at the exit contents; the generator register goes into the class
    invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `W7`, left at `W8`.  Its arrays are split out of the
    unscoped buffers at entry and put back at the exit contents; the generator register goes into the class
    invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at `W9`, left at `W10`.  Its arrays are split out of the
    unscoped buffers at entry and put back at the exit contents; the generator register goes into the class
    invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at `W11`, left at `W12`.  Its arrays are split out of the
    unscoped buffers at entry and put back at the exit contents; the generator register goes into the class
    invariant and comes back; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, with every
    unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c)⟩) (run_main m ρ)

end Cert.Kernel.Hand

end
-- ==== Proof.KI.Region0.lean ====
import proofs.«160486_j70574902608023_1_alg».proof.Proof.Gen.KernelIdeal.Launch
import proofs.«160486_j70574902608023_1_alg».proof.Proof.Gen.KernelIdeal.Skeleton
import proofs.«160486_j70574902608023_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: one grid point of the combine kernel, and its proof data

The kernel body at a grid point reads its three input blocks (the stacked hop features, the stacked
weights, the bias row), forms `∑ₖ Hₖ · Wₖ + b` followed by a maximum with zero, and overwrites its whole output block with it.
Everything here is stated at an arbitrary buffer valuation `V` found at the region's entry: the block of each
window at a point is read off `V`, the output block is the one store's value over the input blocks, and the
body's triple is run symbolically.  Inputs are left in place, so each input window holds its block at every
point whether or not it was fetched there.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, fetched there or not: the body leaves it in place and an
    unfetched point has the same block index as the one before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 holds its block at every point, fetched there or not: the body leaves it in place and an
    unfetched point has the same block index as the one before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 holds its block at every point, fetched there or not: the body leaves it in place and an
    unfetched point has the same block index as the one before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

abbrev rA0_0 : Rect S4x5000x16 := Rect.unit (s := S4x5000x16) ![0, 0, 0] S1x5000x16.size inb_S4x5000x16_S1x5000x16_0_0_0
abbrev rA0_1 : Rect S4x5000x16 := Rect.unit (s := S4x5000x16) ![1, 0, 0] S1x5000x16.size inb_S4x5000x16_S1x5000x16_1_0_0
abbrev rA0_2 : Rect S4x5000x16 := Rect.unit (s := S4x5000x16) ![2, 0, 0] S1x5000x16.size inb_S4x5000x16_S1x5000x16_2_0_0
abbrev rA0_3 : Rect S4x5000x16 := Rect.unit (s := S4x5000x16) ![3, 0, 0] S1x5000x16.size inb_S4x5000x16_S1x5000x16_3_0_0
abbrev rB0_0 : Rect S4x16x64 := Rect.unit (s := S4x16x64) ![0, 0, 0] S1x16x64.size inb_S4x16x64_S1x16x64_0_0_0
abbrev rB0_1 : Rect S4x16x64 := Rect.unit (s := S4x16x64) ![1, 0, 0] S1x16x64.size inb_S4x16x64_S1x16x64_1_0_0
abbrev rB0_2 : Rect S4x16x64 := Rect.unit (s := S4x16x64) ![2, 0, 0] S1x16x64.size inb_S4x16x64_S1x16x64_2_0_0
abbrev rB0_3 : Rect S4x16x64 := Rect.unit (s := S4x16x64) ![3, 0, 0] S1x16x64.size inb_S4x16x64_S1x16x64_3_0_0
abbrev rC0 : Rect S1x64 := Rect.unit (s := S1x64) ![0, 0] S1x64.size inb_S1x64_S1x64_0_0
abbrev rO0 : Rect S5000x64 := Rect.unit (s := S5000x64) ![0, 0] S5000x64.size inb_S5000x64_S5000x64_0_0

/-- The output block after the body: its single whole-block store, over the pieces loaded from the input blocks. -/
def out0_3 (x0 : Vec F S4x5000x16 .f32) (x1 : Vec F S4x16x64 .f32) (x2 : Vec F S1x64 .f32) : Vec F S5000x64 .f32 :=
  View.canon [⟨rO0, k0_pay1 (k0_pay2 (View.ld x0 rA0_0) (View.ld x1 rB0_0) (View.ld x0 rA0_1) (View.ld x1 rB0_1) (View.ld x0 rA0_2) (View.ld x1 rB0_2)) (k0_pay3 (View.ld x0 rA0_3)) (k0_pay4 (View.ld x1 rB0_3)) (View.ld x2 rC0)⟩]

/-- The one store covers the output block. -/
theorem cover0_3 (p0 : Vec F S5000x64 .f32) (y : S5000x64.Idx) :
    ∃ pc ∈ ([⟨rO0, p0⟩] : List (View.Piece (Elt F) S5000x64 .f32)), y ∈ pc.1.set :=
  View.cover_of_tiled [⟨rO0, p0⟩] S5000x64.size (by rfl) y

set_option maxHeartbeats 4000000 in
/-- The body on whole staging buffers: inputs held at `x0 x1 x2`, the output at anything; it ends with the inputs as
    they were and the output at `out0_3 x0 x1 x2`. -/
theorem sound_kernel0 (c : Dev nD) (E : Set ℕ) (i : grid0.Coords)
    (arg1 : Memref sig .tc .vmem S4x5000x16 .f32) (harg1 : arg1.IsWhole) (arg2 : Memref sig .tc .vmem S4x16x64 .f32) (harg2 : arg2.IsWhole)
    (arg3 : Memref sig .tc .vmem S1x64 .f32) (harg3 : arg3.IsWhole) (arg4 : Memref sig .tc .vmem S5000x64 .f32) (harg4 : arg4.IsWhole)
    (x0 : Vec F S4x5000x16 .f32) (x1 : Vec F S4x16x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body each input buffer at its block and the output buffer at
    `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«160486_j70574902608023_1_alg».proof.Proof.Gen.KernelIdeal.Launch
import proofs.«160486_j70574902608023_1_alg».proof.Proof.Gen.KernelIdeal.Skeleton
import proofs.«160486_j70574902608023_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: one grid point of the combine kernel, and its proof data

The kernel body at a grid point reads its three input blocks (the stacked hop features, the stacked
weights, the bias row), forms `∑ₖ Hₖ · Wₖ + b` followed by a maximum with zero, and overwrites its whole output block with it.
Everything here is stated at an arbitrary buffer valuation `V` found at the region's entry: the block of each
window at a point is read off `V`, the output block is the one store's value over the input blocks, and the
body's triple is run symbolically.  Inputs are left in place, so each input window holds its block at every
point whether or not it was fetched there.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, fetched there or not: the body leaves it in place and an
    unfetched point has the same block index as the one before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every point, fetched there or not: the body leaves it in place and an
    unfetched point has the same block index as the one before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every point, fetched there or not: the body leaves it in place and an
    unfetched point has the same block index as the one before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

abbrev rA1_0 : Rect S4x5000x64 := Rect.unit (s := S4x5000x64) ![0, 0, 0] S1x5000x64.size inb_S4x5000x64_S1x5000x64_0_0_0
abbrev rA1_1 : Rect S4x5000x64 := Rect.unit (s := S4x5000x64) ![1, 0, 0] S1x5000x64.size inb_S4x5000x64_S1x5000x64_1_0_0
abbrev rA1_2 : Rect S4x5000x64 := Rect.unit (s := S4x5000x64) ![2, 0, 0] S1x5000x64.size inb_S4x5000x64_S1x5000x64_2_0_0
abbrev rA1_3 : Rect S4x5000x64 := Rect.unit (s := S4x5000x64) ![3, 0, 0] S1x5000x64.size inb_S4x5000x64_S1x5000x64_3_0_0
abbrev rB1_0 : Rect S4x64x64 := Rect.unit (s := S4x64x64) ![0, 0, 0] S1x64x64.size inb_S4x64x64_S1x64x64_0_0_0
abbrev rB1_1 : Rect S4x64x64 := Rect.unit (s := S4x64x64) ![1, 0, 0] S1x64x64.size inb_S4x64x64_S1x64x64_1_0_0
abbrev rB1_2 : Rect S4x64x64 := Rect.unit (s := S4x64x64) ![2, 0, 0] S1x64x64.size inb_S4x64x64_S1x64x64_2_0_0
abbrev rB1_3 : Rect S4x64x64 := Rect.unit (s := S4x64x64) ![3, 0, 0] S1x64x64.size inb_S4x64x64_S1x64x64_3_0_0
abbrev rC1 : Rect S1x64 := Rect.unit (s := S1x64) ![0, 0] S1x64.size inb_S1x64_S1x64_0_0
abbrev rO1 : Rect S5000x64 := Rect.unit (s := S5000x64) ![0, 0] S5000x64.size inb_S5000x64_S5000x64_0_0

/-- The output block after the body: its single whole-block store, over the pieces loaded from the input blocks. -/
def out1_3 (x0 : Vec F S4x5000x64 .f32) (x1 : Vec F S4x64x64 .f32) (x2 : Vec F S1x64 .f32) : Vec F S5000x64 .f32 :=
  View.canon [⟨rO1, k1_pay1 (k1_pay2 (View.ld x0 rA1_0) (View.ld x1 rB1_0) (View.ld x0 rA1_1) (View.ld x1 rB1_1) (View.ld x0 rA1_2) (View.ld x1 rB1_2)) (k1_pay3 (View.ld x0 rA1_3)) (k1_pay4 (View.ld x1 rB1_3)) (View.ld x2 rC1)⟩]

/-- The one store covers the output block. -/
theorem cover1_3 (p0 : Vec F S5000x64 .f32) (y : S5000x64.Idx) :
    ∃ pc ∈ ([⟨rO1, p0⟩] : List (View.Piece (Elt F) S5000x64 .f32)), y ∈ pc.1.set :=
  View.cover_of_tiled [⟨rO1, p0⟩] S5000x64.size (by rfl) y

set_option maxHeartbeats 4000000 in
/-- The body on whole staging buffers: inputs held at `x0 x1 x2`, the output at anything; it ends with the inputs as
    they were and the output at `out1_3 x0 x1 x2`. -/
theorem sound_kernel1 (c : Dev nD) (E : Set ℕ) (i : grid1.Coords)
    (arg1 : Memref sig .tc .vmem S4x5000x64 .f32) (harg1 : arg1.IsWhole) (arg2 : Memref sig .tc .vmem S4x64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S4x5000x64 .f32) (x1 : Vec F S4x64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The arrays as the region finds them; after the body each input buffer at its block and the output buffer at
    `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«160486_j70574902608023_1_alg».proof.Proof.Gen.KernelIdeal.Launch
import proofs.«160486_j70574902608023_1_alg».proof.Proof.Gen.KernelIdeal.Skeleton
import proofs.«160486_j70574902608023_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: one grid point of the combine kernel, and its proof data

The kernel body at a grid point reads its three input blocks (the stacked hop features, the stacked
weights, the bias row), forms `∑ₖ Hₖ · Wₖ + b` followed by a maximum with zero, and overwrites its whole output block with it.
Everything here is stated at an arbitrary buffer valuation `V` found at the region's entry: the block of each
window at a point is read off `V`, the output block is the one store's value over the input blocks, and the
body's triple is run symbolically.  Inputs are left in place, so each input window holds its block at every
point whether or not it was fetched there.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, fetched there or not: the body leaves it in place and an
    unfetched point has the same block index as the one before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 holds its block at every point, fetched there or not: the body leaves it in place and an
    unfetched point has the same block index as the one before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 holds its block at every point, fetched there or not: the body leaves it in place and an
    unfetched point has the same block index as the one before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes -/

abbrev rA2_0 : Rect S4x5000x64 := Rect.unit (s := S4x5000x64) ![0, 0, 0] S1x5000x64.size inb_S4x5000x64_S1x5000x64_0_0_0
abbrev rA2_1 : Rect S4x5000x64 := Rect.unit (s := S4x5000x64) ![1, 0, 0] S1x5000x64.size inb_S4x5000x64_S1x5000x64_1_0_0
abbrev rA2_2 : Rect S4x5000x64 := Rect.unit (s := S4x5000x64) ![2, 0, 0] S1x5000x64.size inb_S4x5000x64_S1x5000x64_2_0_0
abbrev rA2_3 : Rect S4x5000x64 := Rect.unit (s := S4x5000x64) ![3, 0, 0] S1x5000x64.size inb_S4x5000x64_S1x5000x64_3_0_0
abbrev rB2_0 : Rect S4x64x64 := Rect.unit (s := S4x64x64) ![0, 0, 0] S1x64x64.size inb_S4x64x64_S1x64x64_0_0_0
abbrev rB2_1 : Rect S4x64x64 := Rect.unit (s := S4x64x64) ![1, 0, 0] S1x64x64.size inb_S4x64x64_S1x64x64_1_0_0
abbrev rB2_2 : Rect S4x64x64 := Rect.unit (s := S4x64x64) ![2, 0, 0] S1x64x64.size inb_S4x64x64_S1x64x64_2_0_0
abbrev rB2_3 : Rect S4x64x64 := Rect.unit (s := S4x64x64) ![3, 0, 0] S1x64x64.size inb_S4x64x64_S1x64x64_3_0_0
abbrev rC2 : Rect S1x64 := Rect.unit (s := S1x64) ![0, 0] S1x64.size inb_S1x64_S1x64_0_0
abbrev rO2 : Rect S5000x64 := Rect.unit (s := S5000x64) ![0, 0] S5000x64.size inb_S5000x64_S5000x64_0_0

/-- The output block after the body: its single whole-block store, over the pieces loaded from the input blocks. -/
def out2_3 (x0 : Vec F S4x5000x64 .f32) (x1 : Vec F S4x64x64 .f32) (x2 : Vec F S1x64 .f32) : Vec F S5000x64 .f32 :=
  View.canon [⟨rO2, k2_pay1 (k2_pay2 (View.ld x0 rA2_0) (View.ld x1 rB2_0) (View.ld x0 rA2_1) (View.ld x1 rB2_1) (View.ld x0 rA2_2) (View.ld x1 rB2_2)) (k2_pay3 (View.ld x0 rA2_3)) (k2_pay4 (View.ld x1 rB2_3)) (View.ld x2 rC2)⟩]

/-- The one store covers the output block. -/
theorem cover2_3 (p0 : Vec F S5000x64 .f32) (y : S5000x64.Idx) :
    ∃ pc ∈ ([⟨rO2, p0⟩] : List (View.Piece (Elt F) S5000x64 .f32)), y ∈ pc.1.set :=
  View.cover_of_tiled [⟨rO2, p0⟩] S5000x64.size (by rfl) y

set_option maxHeartbeats 4000000 in
/-- The body on whole staging buffers: inputs held at `x0 x1 x2`, the output at anything; it ends with the inputs as
    they were and the output at `out2_3 x0 x1 x2`. -/
theorem sound_kernel2 (c : Dev nD) (E : Set ℕ) (i : grid2.Coords)
    (arg1 : Memref sig .tc .vmem S4x5000x64 .f32) (harg1 : arg1.IsWhole) (arg2 : Memref sig .tc .vmem S4x64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S4x5000x64 .f32) (x1 : Vec F S4x64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__combine_kernel i arg1 harg1 arg2 harg2 arg3 harg3 arg4 harg4) K := by
  simp only [cc2__combine_kernel_eq_skeleton]; unfold cc2__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The arrays as the region finds them; after the body each input buffer at its block and the output buffer at
    `out2_3` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
import proofs.«160486_j70574902608023_1_alg».proof.Proof.Gen.KernelIdeal.Launch
import proofs.«160486_j70574902608023_1_alg».proof.Proof.Gen.KernelIdeal.Skeleton
import proofs.«160486_j70574902608023_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: one grid point of the combine kernel, and its proof data

The kernel body at a grid point reads its three input blocks (the stacked hop features, the stacked
weights, the bias row), forms `∑ₖ Hₖ · Wₖ + b`, and overwrites its whole output block with it.
Everything here is stated at an arbitrary buffer valuation `V` found at the region's entry: the block of each
window at a point is read off `V`, the output block is the one store's value over the input blocks, and the
body's triple is run symbolically.  Inputs are left in place, so each input window holds its block at every
point whether or not it was fetched there.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its block at every point, fetched there or not: the body leaves it in place and an
    unfetched point has the same block index as the one before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 holds its block at every point, fetched there or not: the body leaves it in place and an
    unfetched point has the same block index as the one before. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 holds its block at every point, fetched there or not: the body leaves it in place and an
    unfetched point has the same block index as the one before. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes -/

abbrev rA3_0 : Rect S4x5000x64 := Rect.unit (s := S4x5000x64) ![0, 0, 0] S1x5000x64.size inb_S4x5000x64_S1x5000x64_0_0_0
abbrev rA3_1 : Rect S4x5000x64 := Rect.unit (s := S4x5000x64) ![1, 0, 0] S1x5000x64.size inb_S4x5000x64_S1x5000x64_1_0_0
abbrev rA3_2 : Rect S4x5000x64 := Rect.unit (s := S4x5000x64) ![2, 0, 0] S1x5000x64.size inb_S4x5000x64_S1x5000x64_2_0_0
abbrev rA3_3 : Rect S4x5000x64 := Rect.unit (s := S4x5000x64) ![3, 0, 0] S1x5000x64.size inb_S4x5000x64_S1x5000x64_3_0_0
abbrev rB3_0 : Rect S4x64x64 := Rect.unit (s := S4x64x64) ![0, 0, 0] S1x64x64.size inb_S4x64x64_S1x64x64_0_0_0
abbrev rB3_1 : Rect S4x64x64 := Rect.unit (s := S4x64x64) ![1, 0, 0] S1x64x64.size inb_S4x64x64_S1x64x64_1_0_0
abbrev rB3_2 : Rect S4x64x64 := Rect.unit (s := S4x64x64) ![2, 0, 0] S1x64x64.size inb_S4x64x64_S1x64x64_2_0_0
abbrev rB3_3 : Rect S4x64x64 := Rect.unit (s := S4x64x64) ![3, 0, 0] S1x64x64.size inb_S4x64x64_S1x64x64_3_0_0
abbrev rC3 : Rect S1x64 := Rect.unit (s := S1x64) ![0, 0] S1x64.size inb_S1x64_S1x64_0_0
abbrev rO3 : Rect S5000x64 := Rect.unit (s := S5000x64) ![0, 0] S5000x64.size inb_S5000x64_S5000x64_0_0

/-- The output block after the body: its single whole-block store, over the pieces loaded from the input blocks. -/
def out3_3 (x0 : Vec F S4x5000x64 .f32) (x1 : Vec F S4x64x64 .f32) (x2 : Vec F S1x64 .f32) : Vec F S5000x64 .f32 :=
  View.canon [⟨rO3, k3_pay1 (k3_pay2 (View.ld x0 rA3_0) (View.ld x1 rB3_0) (View.ld x0 rA3_1) (View.ld x1 rB3_1) (View.ld x0 rA3_2) (View.ld x1 rB3_2)) (k3_pay3 (View.ld x0 rA3_3)) (k3_pay4 (View.ld x1 rB3_3)) (View.ld x2 rC3)⟩]

/-- The one store covers the output block. -/
theorem cover3_3 (p0 : Vec F S5000x64 .f32) (y : S5000x64.Idx) :
    ∃ pc ∈ ([⟨rO3, p0⟩] : List (View.Piece (Elt F) S5000x64 .f32)), y ∈ pc.1.set :=
  View.cover_of_tiled [⟨rO3, p0⟩] S5000x64.size (by rfl) y

set_option maxHeartbeats 4000000 in
/-- The body on whole staging buffers: inputs held at `x0 x1 x2`, the output at anything; it ends with the inputs as
    they were and the output at `out3_3 x0 x1 x2`. -/
theorem sound_kernel3 (c : Dev nD) (E : Set ℕ) (i : grid3.Coords)
    (arg1 : Memref sig .tc .vmem S4x5000x64 .f32) (harg1 : arg1.IsWhole) (arg2 : Memref sig .tc .vmem S4x64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S4x5000x64 .f32) (x1 : Vec F S4x64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__combine_kernel i arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The arrays as the region finds them; after the body each input buffer at its block and the output buffer at
    `out3_3` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4.lean ====
import proofs.«160486_j70574902608023_1_alg».proof.Proof.Gen.KernelIdeal.Launch
import proofs.«160486_j70574902608023_1_alg».proof.Proof.Gen.KernelIdeal.Skeleton
import proofs.«160486_j70574902608023_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: one grid point of the combine kernel, and its proof data

The kernel body at a grid point reads its three input blocks (the features, the weight matrix and the bias row,
the first two behind a leading axis of extent one), forms `H · W + b`, and overwrites its whole output block with it.
Everything here is stated at an arbitrary buffer valuation `V` found at the region's entry: the block of each
window at a point is read off `V`, the output block is the one store's value over the input blocks, and the
body's triple is run symbolically.  Inputs are left in place, so each input window holds its block at every
point whether or not it was fetched there.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 holds its block at every point, fetched there or not: the body leaves it in place and an
    unfetched point has the same block index as the one before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 holds its block at every point, fetched there or not: the body leaves it in place and an
    unfetched point has the same block index as the one before. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 holds its block at every point, fetched there or not: the body leaves it in place and an
    unfetched point has the same block index as the one before. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes -/

abbrev rA4_0 : Rect S1x5000x64 := Rect.unit (s := S1x5000x64) ![0, 0, 0] S1x5000x64.size inb_S1x5000x64_S1x5000x64_0_0_0
abbrev rB4_0 : Rect S1x64x4 := Rect.unit (s := S1x64x4) ![0, 0, 0] S1x64x4.size inb_S1x64x4_S1x64x4_0_0_0
abbrev rC4 : Rect S1x4 := Rect.unit (s := S1x4) ![0, 0] S1x4.size inb_S1x4_S1x4_0_0
abbrev rO4 : Rect S5000x4 := Rect.unit (s := S5000x4) ![0, 0] S5000x4.size inb_S5000x4_S5000x4_0_0

/-- The output block after the body: its single whole-block store, over the pieces loaded from the input blocks. -/
def out4_3 (x0 : Vec F S1x5000x64 .f32) (x1 : Vec F S1x64x4 .f32) (x2 : Vec F S1x4 .f32) : Vec F S5000x4 .f32 :=
  View.canon [⟨rO4, k4_pay1 (View.ld x0 rA4_0) (View.ld x1 rB4_0) (View.ld x2 rC4)⟩]

/-- The one store covers the output block. -/
theorem cover4_3 (p0 : Vec F S5000x4 .f32) (y : S5000x4.Idx) :
    ∃ pc ∈ ([⟨rO4, p0⟩] : List (View.Piece (Elt F) S5000x4 .f32)), y ∈ pc.1.set :=
  View.cover_of_tiled [⟨rO4, p0⟩] S5000x4.size (by rfl) y

set_option maxHeartbeats 4000000 in
/-- The body on whole staging buffers: inputs held at `x0 x1 x2`, the output at anything; it ends with the inputs as
    they were and the output at `out4_3 x0 x1 x2`. -/
theorem sound_kernel4 (c : Dev nD) (E : Set ℕ) (i : grid4.Coords)
    (arg1 : Memref sig .tc .vmem S1x5000x64 .f32) (harg1 : arg1.IsWhole) (arg2 : Memref sig .tc .vmem S1x64x4 .f32) (harg2 : arg2.IsWhole)
    (arg3 : Memref sig .tc .vmem S1x4 .f32) (harg3 : arg3.IsWhole) (arg4 : Memref sig .tc .vmem S5000x4 .f32) (harg4 : arg4.IsWhole)
    (x0 : Vec F S1x5000x64 .f32) (x1 : Vec F S1x64x4 .f32) (x2 : Vec F S1x4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__combine_kernel i arg1 harg1 arg2 harg2 arg3 harg3 arg4 harg4) K := by
  simp only [cc4__combine_kernel_eq_skeleton]; unfold cc4__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The arrays as the region finds them; after the body each input buffer at its block and the output buffer at
    `out4_3` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«160486_j70574902608023_1_alg».proof.Proof.KI.Region0
import proofs.«160486_j70574902608023_1_alg».proof.Proof.KI.Region1
import proofs.«160486_j70574902608023_1_alg».proof.Proof.KI.Region2
import proofs.«160486_j70574902608023_1_alg».proof.Proof.KI.Region3
import proofs.«160486_j70574902608023_1_alg».proof.Proof.KI.Region4

/-!
# The run of @main: seven stretches of host operations and five kernel regions

The buffer contents at each boundary are a fold from the launch memory: a host stretch applies its operations in
order, a region leaves its four arrays at what its pipeline writes back (the three inputs unchanged, the output
at the blocks its grid points wrote) and every other buffer as it found it.  Each region is entered from the
contents the item before it left, so the regions' proof data are instantiated along the fold.  The run ends with
every unscoped buffer at the last boundary's contents; the argument arrays are read back through the fold to
their launch contents, since no host operation writes an argument and the one argument a region stages (the
first layer's weights) is an input window.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes -/

/-- The references `hostOps0` writes. -/
abbrev hostOps0_W : List (Ref sig .tc) := [main_v0, main_v1, main_v2, main_v3, main_cst, main_v4, main_cst_0, main_v5, main_v6, main_v7, main_cst_1, main_v8, main_v9, main_cst_2, main_v10, main_v11, main_v12, main_cst_3, main_v13, main_v14, main_cst_4]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps0_fresh : (hostOps0 : List (HloOp τ sig (Elt F))).Forall fun op => op.fresh = ∅ := by
  simp only [List.Forall]; repeat' constructor

/-- The references `hostOps0_1` writes. -/
abbrev hostOps0_1_W : List (Ref sig .tc) := [main_call0_v0, main_call0_v1, main_v15]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps0_1_fresh : (hostOps0_1 : List (HloOp τ sig (Elt F))).Forall fun op => op.fresh = ∅ := by
  simp only [List.Forall]; repeat' constructor

/-- The references `hostOps0_2` writes. -/
abbrev hostOps0_2_W : List (Ref sig .tc) := [main_c, main_v16, main_v17, main_c_5, main_v18, main_v19, main_v20, main_v21, main_v22, main_c_6, main_v23, main_v24, main_c_7, main_v25, main_v26, main_v27, main_v28, main_v29, main_v30, main_v31, main_c_8, main_v32, main_v33, main_c_9, main_v34, main_v35, main_v36, main_v37, main_v38, main_v39, main_v40, main_cst_10, main_v41, main_v42, main_v43, main_v44, main_c_11, main_v45, main_v46, main_c_12, main_v47, main_v48, main_v49, main_v50, main_v51, main_v52, main_v53, main_cst_13, main_v54, main_v55, main_v56, main_v57, main_c_14, main_v58, main_v59, main_c_15, main_v60, main_v61, main_v62, main_v63, main_v64, main_v65, main_v66, main_cst_16, main_v67, main_v68, main_v69, main_v70, main_v71, main_v72, main_v73, main_v74, main_v75]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps0_2_fresh : (hostOps0_2 : List (HloOp τ sig (Elt F))).Forall fun op => op.fresh = ∅ := by
  simp only [List.Forall]; repeat' constructor

/-- The references `hostOps1` writes. -/
abbrev hostOps1_W : List (Ref sig .tc) := [main_v77, main_c_17, main_v78, main_v79, main_c_18, main_v80, main_v81, main_v82, main_v83, main_v84, main_v85, main_v86, main_cst_19, main_v87, main_v88, main_v89, main_v90, main_c_20, main_v91, main_v92, main_c_21, main_v93, main_v94, main_v95, main_v96, main_v97, main_v98, main_v99, main_cst_22, main_v100, main_v101, main_v102, main_v103, main_c_23, main_v104, main_v105, main_c_24, main_v106, main_v107, main_v108, main_v109, main_v110, main_v111, main_v112, main_cst_25, main_v113, main_v114, main_v115, main_v116, main_v117, main_v118, main_v119, main_v120, main_v121, main_v122, main_v123, main_v124, main_v125]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps1_fresh : (hostOps1 : List (HloOp τ sig (Elt F))).Forall fun op => op.fresh = ∅ := by
  simp only [List.Forall]; repeat' constructor

/-- The references `hostOps2` writes. -/
abbrev hostOps2_W : List (Ref sig .tc) := [main_v127, main_c_26, main_v128, main_v129, main_c_27, main_v130, main_v131, main_v132, main_v133, main_v134, main_v135, main_v136, main_cst_28, main_v137, main_v138, main_v139, main_v140, main_c_29, main_v141, main_v142, main_c_30, main_v143, main_v144, main_v145, main_v146, main_v147, main_v148, main_v149, main_cst_31, main_v150, main_v151, main_v152, main_v153, main_c_32, main_v154, main_v155, main_c_33, main_v156, main_v157, main_v158, main_v159, main_v160, main_v161, main_v162, main_cst_34, main_v163, main_v164, main_v165, main_v166, main_v167, main_v168, main_v169, main_v170, main_v171, main_v172, main_v173, main_v174, main_v175]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps2_fresh : (hostOps2 : List (HloOp τ sig (Elt F))).Forall fun op => op.fresh = ∅ := by
  simp only [List.Forall]; repeat' constructor

/-- The references `hostOps3` writes. -/
abbrev hostOps3_W : List (Ref sig .tc) := [main_v177, main_c_35, main_v178, main_v179, main_c_36, main_v180, main_v181, main_v182, main_v183, main_v184, main_v185, main_v186, main_cst_37, main_v187, main_v188, main_v189, main_v190, main_c_38, main_v191, main_v192, main_c_39, main_v193, main_v194, main_v195, main_v196, main_v197, main_v198, main_v199, main_cst_40, main_v200, main_v201, main_v202, main_v203, main_c_41, main_v204, main_v205, main_c_42, main_v206, main_v207, main_v208, main_v209, main_v210, main_v211, main_v212, main_cst_43, main_v213, main_v214, main_v215, main_v216, main_v217, main_v218, main_v219, main_v220, main_v221, main_v222, main_v223, main_v224, main_v225]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps3_fresh : (hostOps3 : List (HloOp τ sig (Elt F))).Forall fun op => op.fresh = ∅ := by
  simp only [List.Forall]; repeat' constructor

/-- The references `hostOps4` writes. -/
abbrev hostOps4_W : List (Ref sig .tc) := [main_v227, main_v228, main_v229]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem hostOps4_fresh : (hostOps4 : List (HloOp τ sig (Elt F))).Forall fun op => op.fresh = ∅ := by
  simp only [List.Forall]; repeat' constructor

/-! ## The buffer contents at each boundary -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- After `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- After `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- An input window's array leaves region 0 as it entered. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))
/-- After `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- An input window's array leaves region 1 as it entered. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))
/-- After `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- An input window's array leaves region 2 as it entered. -/
theorem W8_in (c : Dev nD) (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hw _).trans (A_eq2 (V7 m ρ) c w))
/-- After `hostOps3`. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
/-- At region 3's exit: its arrays at what the pipeline leaves, every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- An input window's array leaves region 3 as it entered. -/
theorem W10_in (c : Dev nD) (w : Fin cfg3.W) (hw : (cfg3.win w).isOut = false) :
    W10 m ρ c (Proc.devRef .tc (Pipeline.arrRef spec3 w)) = W9 m ρ c (Proc.devRef .tc (Pipeline.arrRef spec3 w)) :=
  (W10_arr m ρ c w).trans (((dat3 (V9 m ρ) c).arrAt_in w hw _).trans (A_eq3 (V9 m ρ) c w))
/-- After `hostOps4`. -/
abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h
/-- At region 4's exit: its arrays at what the pipeline leaves, every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)
/-- An input window's array leaves region 4 as it entered. -/
theorem W12_in (c : Dev nD) (w : Fin cfg4.W) (hw : (cfg4.win w).isOut = false) :
    W12 m ρ c (Proc.devRef .tc (Pipeline.arrRef spec4 w)) = W11 m ρ c (Proc.devRef .tc (Pipeline.arrRef spec4 w)) :=
  (W12_arr m ρ c w).trans (((dat4 (V11 m ρ) c).arrAt_in w hw _).trans (A_eq4 (V11 m ρ) c w))

/-! ## The arguments end as launched -/

theorem W12_main_arg0 (c : Dev nD) : W12 m ρ c (Proc.devRef .tc main_arg0) = m ((c : Thread nD τ).loc main_arg0) :=
  (W12_of_ne m ρ c main_arg0 (by decide)).trans <| (W11_of m ρ c main_arg0 (by decide)).trans <| (W10_of_ne m ρ c main_arg0 (by decide)).trans <| (W9_of m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_of_ne m ρ c main_arg0 (by decide)).trans <| (W3_of m ρ c main_arg0 (by decide)).trans <| (W2_of m ρ c main_arg0 (by decide)).trans <| (W1_of m ρ c main_arg0 (by decide)).trans <| rfl
theorem W12_main_arg1 (c : Dev nD) : W12 m ρ c (Proc.devRef .tc main_arg1) = m ((c : Thread nD τ).loc main_arg1) :=
  (W12_of_ne m ρ c main_arg1 (by decide)).trans <| (W11_of m ρ c main_arg1 (by decide)).trans <| (W10_of_ne m ρ c main_arg1 (by decide)).trans <| (W9_of m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of m ρ c main_arg1 (by decide)).trans <| (W1_of m ρ c main_arg1 (by decide)).trans <| rfl
theorem W12_main_arg2 (c : Dev nD) : W12 m ρ c (Proc.devRef .tc main_arg2) = m ((c : Thread nD τ).loc main_arg2) :=
  (W12_of_ne m ρ c main_arg2 (by decide)).trans <| (W11_of m ρ c main_arg2 (by decide)).trans <| (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_in m ρ c 1 rfl).trans <| (W3_of m ρ c main_arg2 (by decide)).trans <| (W2_of m ρ c main_arg2 (by decide)).trans <| (W1_of m ρ c main_arg2 (by decide)).trans <| rfl
theorem W12_main_arg3 (c : Dev nD) : W12 m ρ c (Proc.devRef .tc main_arg3) = m ((c : Thread nD τ).loc main_arg3) :=
  (W12_of_ne m ρ c main_arg3 (by decide)).trans <| (W11_of m ρ c main_arg3 (by decide)).trans <| (W10_of_ne m ρ c main_arg3 (by decide)).trans <| (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of m ρ c main_arg3 (by decide)).trans <| (W1_of m ρ c main_arg3 (by decide)).trans <| rfl
theorem W12_main_arg4 (c : Dev nD) : W12 m ρ c (Proc.devRef .tc main_arg4) = m ((c : Thread nD τ).loc main_arg4) :=
  (W12_of_ne m ρ c main_arg4 (by decide)).trans <| (W11_of m ρ c main_arg4 (by decide)).trans <| (W10_of_ne m ρ c main_arg4 (by decide)).trans <| (W9_of m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of m ρ c main_arg4 (by decide)).trans <| (W1_of m ρ c main_arg4 (by decide)).trans <| rfl
theorem W12_main_arg5 (c : Dev nD) : W12 m ρ c (Proc.devRef .tc main_arg5) = m ((c : Thread nD τ).loc main_arg5) :=
  (W12_of_ne m ρ c main_arg5 (by decide)).trans <| (W11_of m ρ c main_arg5 (by decide)).trans <| (W10_of_ne m ρ c main_arg5 (by decide)).trans <| (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of m ρ c main_arg5 (by decide)).trans <| (W1_of m ρ c main_arg5 (by decide)).trans <| rfl
theorem W12_main_arg6 (c : Dev nD) : W12 m ρ c (Proc.devRef .tc main_arg6) = m ((c : Thread nD τ).loc main_arg6) :=
  (W12_of_ne m ρ c main_arg6 (by decide)).trans <| (W11_of m ρ c main_arg6 (by decide)).trans <| (W10_of_ne m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of m ρ c main_arg6 (by decide)).trans <| (W1_of m ρ c main_arg6 (by decide)).trans <| rfl
theorem W12_main_arg7 (c : Dev nD) : W12 m ρ c (Proc.devRef .tc main_arg7) = m ((c : Thread nD τ).loc main_arg7) :=
  (W12_of_ne m ρ c main_arg7 (by decide)).trans <| (W11_of m ρ c main_arg7 (by decide)).trans <| (W10_of_ne m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of m ρ c main_arg7 (by decide)).trans <| (W1_of m ρ c main_arg7 (by decide)).trans <| rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0: entered with every unscoped buffer at `W3`, left at `W4`.  Its arrays are split out of the
    unscoped buffers at entry and put back at the exit contents; the generator register goes into the class
    invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W5`, left at `W6`.  Its arrays are split out of the
    unscoped buffers at entry and put back at the exit contents; the generator register goes into the class
    invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `W7`, left at `W8`.  Its arrays are split out of the
    unscoped buffers at entry and put back at the exit contents; the generator register goes into the class
    invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at `W9`, left at `W10`.  Its arrays are split out of the
    unscoped buffers at entry and put back at the exit contents; the generator register goes into the class
    invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at `W11`, left at `W12`.  Its arrays are split out of the
    unscoped buffers at entry and put back at the exit contents; the generator register goes into the class
    invariant and comes back; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, with every
    unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c)⟩) (run_main m ρ)

end Cert.KernelIdeal.Hand

end
-- ==== Proof.KI.Keep.lean ====
import proofs.«160486_j70574902608023_1_alg».proof.Proof.KI.Run

/-!
# Buffers that pass through later items unchanged

No host operation writes an argument array, the edge endpoints or the edge weights after they are first computed,
and a region changes only its own output array: read at any later boundary they are what they were.
-/

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W1_main_arg0 (c : Dev nD) : W1 m ρ c (Proc.devRef .tc main_arg0) = m ((c : Thread nD τ).loc main_arg0) :=
  (W1_of m ρ c main_arg0 (by decide)).trans <| rfl
theorem W2_main_arg0 (c : Dev nD) : W2 m ρ c (Proc.devRef .tc main_arg0) = m ((c : Thread nD τ).loc main_arg0) :=
  (W2_of m ρ c main_arg0 (by decide)).trans <| (W1_of m ρ c main_arg0 (by decide)).trans <| rfl
theorem W3_main_arg0 (c : Dev nD) : W3 m ρ c (Proc.devRef .tc main_arg0) = m ((c : Thread nD τ).loc main_arg0) :=
  (W3_of m ρ c main_arg0 (by decide)).trans <| (W2_of m ρ c main_arg0 (by decide)).trans <| (W1_of m ρ c main_arg0 (by decide)).trans <| rfl
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <| (W2_of m ρ c main_arg0 (by decide)).trans <| (W1_of m ρ c main_arg0 (by decide)).trans <| rfl
theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <| (W3_of m ρ c main_arg0 (by decide)).trans <| (W2_of m ρ c main_arg0 (by decide)).trans <| (W1_of m ρ c main_arg0 (by decide)).trans <| rfl
theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans <| (W4_of_ne m ρ c main_arg0 (by decide)).trans <| (W3_of m ρ c main_arg0 (by decide)).trans <| (W2_of m ρ c main_arg0 (by decide)).trans <| (W1_of m ρ c main_arg0 (by decide)).trans <| rfl
theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <| (W5_of m ρ c main_arg0 (by decide)).trans <| (W4_of_ne m ρ c main_arg0 (by decide)).trans <| (W3_of m ρ c main_arg0 (by decide)).trans <| (W2_of m ρ c main_arg0 (by decide)).trans <| (W1_of m ρ c main_arg0 (by decide)).trans <| rfl
theorem W8_main_arg0 (c : Dev nD) : W8 m ρ c (Proc.devRef .tc main_arg0) = m ((c : Thread nD τ).loc main_arg0) :=
  (W8_of_ne m ρ c main_arg0 (by decide)).trans <| (W7_of m ρ c main_arg0 (by decide)).trans <| (W6_of_ne m ρ c main_arg0 (by decide)).trans <| (W5_of m ρ c main_arg0 (by decide)).trans <| (W4_of_ne m ρ c main_arg0 (by decide)).trans <| (W3_of m ρ c main_arg0 (by decide)).trans <| (W2_of m ρ c main_arg0 (by decide)).trans <| (W1_of m ρ c main_arg0 (by decide)).trans <| rfl
theorem W9_main_arg0 (c : Dev nD) : W9 m ρ c (Proc.devRef .tc main_arg0) = m ((c : Thread nD τ).loc main_arg0) :=
  (W9_of m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_of_ne m ρ c main_arg0 (by decide)).trans <| (W3_of m ρ c main_arg0 (by decide)).trans <| (W2_of m ρ c main_arg0 (by decide)).trans <| (W1_of m ρ c main_arg0 (by decide)).trans <| rfl
theorem W10_main_arg0 (c : Dev nD) : W10 m ρ c (Proc.devRef .tc main_arg0) = m ((c : Thread nD τ).loc main_arg0) :=
  (W10_of_ne m ρ c main_arg0 (by decide)).trans <| (W9_of m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_of_ne m ρ c main_arg0 (by decide)).trans <| (W3_of m ρ c main_arg0 (by decide)).trans <| (W2_of m ρ c main_arg0 (by decide)).trans <| (W1_of m ρ c main_arg0 (by decide)).trans <| rfl
theorem W11_main_arg0 (c : Dev nD) : W11 m ρ c (Proc.devRef .tc main_arg0) = m ((c : Thread nD τ).loc main_arg0) :=
  (W11_of m ρ c main_arg0 (by decide)).trans <| (W10_of_ne m ρ c main_arg0 (by decide)).trans <| (W9_of m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_of_ne m ρ c main_arg0 (by decide)).trans <| (W3_of m ρ c main_arg0 (by decide)).trans <| (W2_of m ρ c main_arg0 (by decide)).trans <| (W1_of m ρ c main_arg0 (by decide)).trans <| rfl
theorem W1_main_arg1 (c : Dev nD) : W1 m ρ c (Proc.devRef .tc main_arg1) = m ((c : Thread nD τ).loc main_arg1) :=
  (W1_of m ρ c main_arg1 (by decide)).trans <| rfl
theorem W2_main_arg1 (c : Dev nD) : W2 m ρ c (Proc.devRef .tc main_arg1) = m ((c : Thread nD τ).loc main_arg1) :=
  (W2_of m ρ c main_arg1 (by decide)).trans <| (W1_of m ρ c main_arg1 (by decide)).trans <| rfl
theorem W3_main_arg1 (c : Dev nD) : W3 m ρ c (Proc.devRef .tc main_arg1) = m ((c : Thread nD τ).loc main_arg1) :=
  (W3_of m ρ c main_arg1 (by decide)).trans <| (W2_of m ρ c main_arg1 (by decide)).trans <| (W1_of m ρ c main_arg1 (by decide)).trans <| rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <| (W2_of m ρ c main_arg1 (by decide)).trans <| (W1_of m ρ c main_arg1 (by decide)).trans <| rfl
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <| (W2_of m ρ c main_arg1 (by decide)).trans <| (W1_of m ρ c main_arg1 (by decide)).trans <| rfl
theorem W6_main_arg1 (c : Dev nD) : W6 m ρ c (Proc.devRef .tc main_arg1) = m ((c : Thread nD τ).loc main_arg1) :=
  (W6_of_ne m ρ c main_arg1 (by decide)).trans <| (W5_of m ρ c main_arg1 (by decide)).trans <| (W4_of_ne m ρ c main_arg1 (by decide)).trans <| (W3_of m ρ c main_arg1 (by decide)).trans <| (W2_of m ρ c main_arg1 (by decide)).trans <| (W1_of m ρ c main_arg1 (by decide)).trans <| rfl
theorem W7_main_arg1 (c : Dev nD) : W7 m ρ c (Proc.devRef .tc main_arg1) = m ((c : Thread nD τ).loc main_arg1) :=
  (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of m ρ c main_arg1 (by decide)).trans <| (W1_of m ρ c main_arg1 (by decide)).trans <| rfl
theorem W8_main_arg1 (c : Dev nD) : W8 m ρ c (Proc.devRef .tc main_arg1) = m ((c : Thread nD τ).loc main_arg1) :=
  (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of m ρ c main_arg1 (by decide)).trans <| (W1_of m ρ c main_arg1 (by decide)).trans <| rfl
theorem W9_main_arg1 (c : Dev nD) : W9 m ρ c (Proc.devRef .tc main_arg1) = m ((c : Thread nD τ).loc main_arg1) :=
  (W9_of m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of m ρ c main_arg1 (by decide)).trans <| (W1_of m ρ c main_arg1 (by decide)).trans <| rfl
theorem W10_main_arg1 (c : Dev nD) : W10 m ρ c (Proc.devRef .tc main_arg1) = m ((c : Thread nD τ).loc main_arg1) :=
  (W10_of_ne m ρ c main_arg1 (by decide)).trans <| (W9_of m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of m ρ c main_arg1 (by decide)).trans <| (W1_of m ρ c main_arg1 (by decide)).trans <| rfl
theorem W11_main_arg1 (c : Dev nD) : W11 m ρ c (Proc.devRef .tc main_arg1) = m ((c : Thread nD τ).loc main_arg1) :=
  (W11_of m ρ c main_arg1 (by decide)).trans <| (W10_of_ne m ρ c main_arg1 (by decide)).trans <| (W9_of m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of m ρ c main_arg1 (by decide)).trans <| (W1_of m ρ c main_arg1 (by decide)).trans <| rfl
theorem W1_main_arg2 (c : Dev nD) : W1 m ρ c (Proc.devRef .tc main_arg2) = m ((c : Thread nD τ).loc main_arg2) :=
  (W1_of m ρ c main_arg2 (by decide)).trans <| rfl
theorem W2_main_arg2 (c : Dev nD) : W2 m ρ c (Proc.devRef .tc main_arg2) = m ((c : Thread nD τ).loc main_arg2) :=
  (W2_of m ρ c main_arg2 (by decide)).trans <| (W1_of m ρ c main_arg2 (by decide)).trans <| rfl
theorem W3_main_arg2 (c : Dev nD) : W3 m ρ c (Proc.devRef .tc main_arg2) = m ((c : Thread nD τ).loc main_arg2) :=
  (W3_of m ρ c main_arg2 (by decide)).trans <| (W2_of m ρ c main_arg2 (by decide)).trans <| (W1_of m ρ c main_arg2 (by decide)).trans <| rfl
theorem W4_main_arg2 (c : Dev nD) : W4 m ρ c (Proc.devRef .tc main_arg2) = m ((c : Thread nD τ).loc main_arg2) :=
  (W4_in m ρ c 1 rfl).trans <| (W3_of m ρ c main_arg2 (by decide)).trans <| (W2_of m ρ c main_arg2 (by decide)).trans <| (W1_of m ρ c main_arg2 (by decide)).trans <| rfl
theorem W5_main_arg2 (c : Dev nD) : W5 m ρ c (Proc.devRef .tc main_arg2) = m ((c : Thread nD τ).loc main_arg2) :=
  (W5_of m ρ c main_arg2 (by decide)).trans <| (W4_in m ρ c 1 rfl).trans <| (W3_of m ρ c main_arg2 (by decide)).trans <| (W2_of m ρ c main_arg2 (by decide)).trans <| (W1_of m ρ c main_arg2 (by decide)).trans <| rfl
theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans <| (W4_in m ρ c 1 rfl).trans <| (W3_of m ρ c main_arg2 (by decide)).trans <| (W2_of m ρ c main_arg2 (by decide)).trans <| (W1_of m ρ c main_arg2 (by decide)).trans <| rfl
theorem W7_main_arg2 (c : Dev nD) : W7 m ρ c (Proc.devRef .tc main_arg2) = m ((c : Thread nD τ).loc main_arg2) :=
  (W7_of m ρ c main_arg2 (by decide)).trans <| (W6_of_ne m ρ c main_arg2 (by decide)).trans <| (W5_of m ρ c main_arg2 (by decide)).trans <| (W4_in m ρ c 1 rfl).trans <| (W3_of m ρ c main_arg2 (by decide)).trans <| (W2_of m ρ c main_arg2 (by decide)).trans <| (W1_of m ρ c main_arg2 (by decide)).trans <| rfl
theorem W8_main_arg2 (c : Dev nD) : W8 m ρ c (Proc.devRef .tc main_arg2) = m ((c : Thread nD τ).loc main_arg2) :=
  (W8_of_ne m ρ c main_arg2 (by decide)).trans <| (W7_of m ρ c main_arg2 (by decide)).trans <| (W6_of_ne m ρ c main_arg2 (by decide)).trans <| (W5_of m ρ c main_arg2 (by decide)).trans <| (W4_in m ρ c 1 rfl).trans <| (W3_of m ρ c main_arg2 (by decide)).trans <| (W2_of m ρ c main_arg2 (by decide)).trans <| (W1_of m ρ c main_arg2 (by decide)).trans <| rfl
theorem W9_main_arg2 (c : Dev nD) : W9 m ρ c (Proc.devRef .tc main_arg2) = m ((c : Thread nD τ).loc main_arg2) :=
  (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_in m ρ c 1 rfl).trans <| (W3_of m ρ c main_arg2 (by decide)).trans <| (W2_of m ρ c main_arg2 (by decide)).trans <| (W1_of m ρ c main_arg2 (by decide)).trans <| rfl
theorem W10_main_arg2 (c : Dev nD) : W10 m ρ c (Proc.devRef .tc main_arg2) = m ((c : Thread nD τ).loc main_arg2) :=
  (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_in m ρ c 1 rfl).trans <| (W3_of m ρ c main_arg2 (by decide)).trans <| (W2_of m ρ c main_arg2 (by decide)).trans <| (W1_of m ρ c main_arg2 (by decide)).trans <| rfl
theorem W11_main_arg2 (c : Dev nD) : W11 m ρ c (Proc.devRef .tc main_arg2) = m ((c : Thread nD τ).loc main_arg2) :=
  (W11_of m ρ c main_arg2 (by decide)).trans <| (W10_of_ne m ρ c main_arg2 (by decide)).trans <| (W9_of m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_in m ρ c 1 rfl).trans <| (W3_of m ρ c main_arg2 (by decide)).trans <| (W2_of m ρ c main_arg2 (by decide)).trans <| (W1_of m ρ c main_arg2 (by decide)).trans <| rfl
theorem W1_main_arg3 (c : Dev nD) : W1 m ρ c (Proc.devRef .tc main_arg3) = m ((c : Thread nD τ).loc main_arg3) :=
  (W1_of m ρ c main_arg3 (by decide)).trans <| rfl
theorem W2_main_arg3 (c : Dev nD) : W2 m ρ c (Proc.devRef .tc main_arg3) = m ((c : Thread nD τ).loc main_arg3) :=
  (W2_of m ρ c main_arg3 (by decide)).trans <| (W1_of m ρ c main_arg3 (by decide)).trans <| rfl
theorem W3_main_arg3 (c : Dev nD) : W3 m ρ c (Proc.devRef .tc main_arg3) = m ((c : Thread nD τ).loc main_arg3) :=
  (W3_of m ρ c main_arg3 (by decide)).trans <| (W2_of m ρ c main_arg3 (by decide)).trans <| (W1_of m ρ c main_arg3 (by decide)).trans <| rfl
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <| (W2_of m ρ c main_arg3 (by decide)).trans <| (W1_of m ρ c main_arg3 (by decide)).trans <| rfl
theorem W5_main_arg3 (c : Dev nD) : W5 m ρ c (Proc.devRef .tc main_arg3) = m ((c : Thread nD τ).loc main_arg3) :=
  (W5_of m ρ c main_arg3 (by decide)).trans <| (W4_of_ne m ρ c main_arg3 (by decide)).trans <| (W3_of m ρ c main_arg3 (by decide)).trans <| (W2_of m ρ c main_arg3 (by decide)).trans <| (W1_of m ρ c main_arg3 (by decide)).trans <| rfl
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans <| (W4_of_ne m ρ c main_arg3 (by decide)).trans <| (W3_of m ρ c main_arg3 (by decide)).trans <| (W2_of m ρ c main_arg3 (by decide)).trans <| (W1_of m ρ c main_arg3 (by decide)).trans <| rfl
theorem W7_main_arg3 (c : Dev nD) : W7 m ρ c (Proc.devRef .tc main_arg3) = m ((c : Thread nD τ).loc main_arg3) :=
  (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of m ρ c main_arg3 (by decide)).trans <| (W1_of m ρ c main_arg3 (by decide)).trans <| rfl
theorem W8_main_arg3 (c : Dev nD) : W8 m ρ c (Proc.devRef .tc main_arg3) = m ((c : Thread nD τ).loc main_arg3) :=
  (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of m ρ c main_arg3 (by decide)).trans <| (W1_of m ρ c main_arg3 (by decide)).trans <| rfl
theorem W9_main_arg3 (c : Dev nD) : W9 m ρ c (Proc.devRef .tc main_arg3) = m ((c : Thread nD τ).loc main_arg3) :=
  (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of m ρ c main_arg3 (by decide)).trans <| (W1_of m ρ c main_arg3 (by decide)).trans <| rfl
theorem W10_main_arg3 (c : Dev nD) : W10 m ρ c (Proc.devRef .tc main_arg3) = m ((c : Thread nD τ).loc main_arg3) :=
  (W10_of_ne m ρ c main_arg3 (by decide)).trans <| (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of m ρ c main_arg3 (by decide)).trans <| (W1_of m ρ c main_arg3 (by decide)).trans <| rfl
theorem W11_main_arg3 (c : Dev nD) : W11 m ρ c (Proc.devRef .tc main_arg3) = m ((c : Thread nD τ).loc main_arg3) :=
  (W11_of m ρ c main_arg3 (by decide)).trans <| (W10_of_ne m ρ c main_arg3 (by decide)).trans <| (W9_of m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of m ρ c main_arg3 (by decide)).trans <| (W1_of m ρ c main_arg3 (by decide)).trans <| rfl
theorem W1_main_arg4 (c : Dev nD) : W1 m ρ c (Proc.devRef .tc main_arg4) = m ((c : Thread nD τ).loc main_arg4) :=
  (W1_of m ρ c main_arg4 (by decide)).trans <| rfl
theorem W2_main_arg4 (c : Dev nD) : W2 m ρ c (Proc.devRef .tc main_arg4) = m ((c : Thread nD τ).loc main_arg4) :=
  (W2_of m ρ c main_arg4 (by decide)).trans <| (W1_of m ρ c main_arg4 (by decide)).trans <| rfl
theorem W3_main_arg4 (c : Dev nD) : W3 m ρ c (Proc.devRef .tc main_arg4) = m ((c : Thread nD τ).loc main_arg4) :=
  (W3_of m ρ c main_arg4 (by decide)).trans <| (W2_of m ρ c main_arg4 (by decide)).trans <| (W1_of m ρ c main_arg4 (by decide)).trans <| rfl
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <| (W2_of m ρ c main_arg4 (by decide)).trans <| (W1_of m ρ c main_arg4 (by decide)).trans <| rfl
theorem W5_main_arg4 (c : Dev nD) : W5 m ρ c (Proc.devRef .tc main_arg4) = m ((c : Thread nD τ).loc main_arg4) :=
  (W5_of m ρ c main_arg4 (by decide)).trans <| (W4_of_ne m ρ c main_arg4 (by decide)).trans <| (W3_of m ρ c main_arg4 (by decide)).trans <| (W2_of m ρ c main_arg4 (by decide)).trans <| (W1_of m ρ c main_arg4 (by decide)).trans <| rfl
theorem W6_main_arg4 (c : Dev nD) : W6 m ρ c (Proc.devRef .tc main_arg4) = m ((c : Thread nD τ).loc main_arg4) :=
  (W6_of_ne m ρ c main_arg4 (by decide)).trans <| (W5_of m ρ c main_arg4 (by decide)).trans <| (W4_of_ne m ρ c main_arg4 (by decide)).trans <| (W3_of m ρ c main_arg4 (by decide)).trans <| (W2_of m ρ c main_arg4 (by decide)).trans <| (W1_of m ρ c main_arg4 (by decide)).trans <| rfl
theorem W7_main_arg4 (c : Dev nD) : W7 m ρ c (Proc.devRef .tc main_arg4) = m ((c : Thread nD τ).loc main_arg4) :=
  (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of m ρ c main_arg4 (by decide)).trans <| (W1_of m ρ c main_arg4 (by decide)).trans <| rfl
theorem W8_main_arg4 (c : Dev nD) : W8 m ρ c (Proc.devRef .tc main_arg4) = m ((c : Thread nD τ).loc main_arg4) :=
  (W8_of_ne m ρ c main_arg4 (by decide)).trans <| (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of m ρ c main_arg4 (by decide)).trans <| (W1_of m ρ c main_arg4 (by decide)).trans <| rfl
theorem W9_main_arg4 (c : Dev nD) : W9 m ρ c (Proc.devRef .tc main_arg4) = m ((c : Thread nD τ).loc main_arg4) :=
  (W9_of m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of m ρ c main_arg4 (by decide)).trans <| (W1_of m ρ c main_arg4 (by decide)).trans <| rfl
theorem W10_main_arg4 (c : Dev nD) : W10 m ρ c (Proc.devRef .tc main_arg4) = m ((c : Thread nD τ).loc main_arg4) :=
  (W10_of_ne m ρ c main_arg4 (by decide)).trans <| (W9_of m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of m ρ c main_arg4 (by decide)).trans <| (W1_of m ρ c main_arg4 (by decide)).trans <| rfl
theorem W11_main_arg4 (c : Dev nD) : W11 m ρ c (Proc.devRef .tc main_arg4) = m ((c : Thread nD τ).loc main_arg4) :=
  (W11_of m ρ c main_arg4 (by decide)).trans <| (W10_of_ne m ρ c main_arg4 (by decide)).trans <| (W9_of m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of m ρ c main_arg4 (by decide)).trans <| (W1_of m ρ c main_arg4 (by decide)).trans <| rfl
theorem W1_main_arg5 (c : Dev nD) : W1 m ρ c (Proc.devRef .tc main_arg5) = m ((c : Thread nD τ).loc main_arg5) :=
  (W1_of m ρ c main_arg5 (by decide)).trans <| rfl
theorem W2_main_arg5 (c : Dev nD) : W2 m ρ c (Proc.devRef .tc main_arg5) = m ((c : Thread nD τ).loc main_arg5) :=
  (W2_of m ρ c main_arg5 (by decide)).trans <| (W1_of m ρ c main_arg5 (by decide)).trans <| rfl
theorem W3_main_arg5 (c : Dev nD) : W3 m ρ c (Proc.devRef .tc main_arg5) = m ((c : Thread nD τ).loc main_arg5) :=
  (W3_of m ρ c main_arg5 (by decide)).trans <| (W2_of m ρ c main_arg5 (by decide)).trans <| (W1_of m ρ c main_arg5 (by decide)).trans <| rfl
theorem W4_main_arg5 (c : Dev nD) : W4 m ρ c (Proc.devRef .tc main_arg5) = m ((c : Thread nD τ).loc main_arg5) :=
  (W4_of_ne m ρ c main_arg5 (by decide)).trans <| (W3_of m ρ c main_arg5 (by decide)).trans <| (W2_of m ρ c main_arg5 (by decide)).trans <| (W1_of m ρ c main_arg5 (by decide)).trans <| rfl
theorem W5_main_arg5 (c : Dev nD) : W5 m ρ c (Proc.devRef .tc main_arg5) = m ((c : Thread nD τ).loc main_arg5) :=
  (W5_of m ρ c main_arg5 (by decide)).trans <| (W4_of_ne m ρ c main_arg5 (by decide)).trans <| (W3_of m ρ c main_arg5 (by decide)).trans <| (W2_of m ρ c main_arg5 (by decide)).trans <| (W1_of m ρ c main_arg5 (by decide)).trans <| rfl
theorem W6_main_arg5 (c : Dev nD) : W6 m ρ c (Proc.devRef .tc main_arg5) = m ((c : Thread nD τ).loc main_arg5) :=
  (W6_of_ne m ρ c main_arg5 (by decide)).trans <| (W5_of m ρ c main_arg5 (by decide)).trans <| (W4_of_ne m ρ c main_arg5 (by decide)).trans <| (W3_of m ρ c main_arg5 (by decide)).trans <| (W2_of m ρ c main_arg5 (by decide)).trans <| (W1_of m ρ c main_arg5 (by decide)).trans <| rfl
theorem W7_main_arg5 (c : Dev nD) : W7 m ρ c (Proc.devRef .tc main_arg5) = m ((c : Thread nD τ).loc main_arg5) :=
  (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of m ρ c main_arg5 (by decide)).trans <| (W1_of m ρ c main_arg5 (by decide)).trans <| rfl
theorem W8_main_arg5 (c : Dev nD) : W8 m ρ c (Proc.devRef .tc main_arg5) = m ((c : Thread nD τ).loc main_arg5) :=
  (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of m ρ c main_arg5 (by decide)).trans <| (W1_of m ρ c main_arg5 (by decide)).trans <| rfl
theorem W9_main_arg5 (c : Dev nD) : W9 m ρ c (Proc.devRef .tc main_arg5) = m ((c : Thread nD τ).loc main_arg5) :=
  (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of m ρ c main_arg5 (by decide)).trans <| (W1_of m ρ c main_arg5 (by decide)).trans <| rfl
theorem W10_main_arg5 (c : Dev nD) : W10 m ρ c (Proc.devRef .tc main_arg5) = m ((c : Thread nD τ).loc main_arg5) :=
  (W10_of_ne m ρ c main_arg5 (by decide)).trans <| (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of m ρ c main_arg5 (by decide)).trans <| (W1_of m ρ c main_arg5 (by decide)).trans <| rfl
theorem W11_main_arg5 (c : Dev nD) : W11 m ρ c (Proc.devRef .tc main_arg5) = m ((c : Thread nD τ).loc main_arg5) :=
  (W11_of m ρ c main_arg5 (by decide)).trans <| (W10_of_ne m ρ c main_arg5 (by decide)).trans <| (W9_of m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of m ρ c main_arg5 (by decide)).trans <| (W1_of m ρ c main_arg5 (by decide)).trans <| rfl
theorem W1_main_arg6 (c : Dev nD) : W1 m ρ c (Proc.devRef .tc main_arg6) = m ((c : Thread nD τ).loc main_arg6) :=
  (W1_of m ρ c main_arg6 (by decide)).trans <| rfl
theorem W2_main_arg6 (c : Dev nD) : W2 m ρ c (Proc.devRef .tc main_arg6) = m ((c : Thread nD τ).loc main_arg6) :=
  (W2_of m ρ c main_arg6 (by decide)).trans <| (W1_of m ρ c main_arg6 (by decide)).trans <| rfl
theorem W3_main_arg6 (c : Dev nD) : W3 m ρ c (Proc.devRef .tc main_arg6) = m ((c : Thread nD τ).loc main_arg6) :=
  (W3_of m ρ c main_arg6 (by decide)).trans <| (W2_of m ρ c main_arg6 (by decide)).trans <| (W1_of m ρ c main_arg6 (by decide)).trans <| rfl
theorem W4_main_arg6 (c : Dev nD) : W4 m ρ c (Proc.devRef .tc main_arg6) = m ((c : Thread nD τ).loc main_arg6) :=
  (W4_of_ne m ρ c main_arg6 (by decide)).trans <| (W3_of m ρ c main_arg6 (by decide)).trans <| (W2_of m ρ c main_arg6 (by decide)).trans <| (W1_of m ρ c main_arg6 (by decide)).trans <| rfl
theorem W5_main_arg6 (c : Dev nD) : W5 m ρ c (Proc.devRef .tc main_arg6) = m ((c : Thread nD τ).loc main_arg6) :=
  (W5_of m ρ c main_arg6 (by decide)).trans <| (W4_of_ne m ρ c main_arg6 (by decide)).trans <| (W3_of m ρ c main_arg6 (by decide)).trans <| (W2_of m ρ c main_arg6 (by decide)).trans <| (W1_of m ρ c main_arg6 (by decide)).trans <| rfl
theorem W6_main_arg6 (c : Dev nD) : W6 m ρ c (Proc.devRef .tc main_arg6) = m ((c : Thread nD τ).loc main_arg6) :=
  (W6_of_ne m ρ c main_arg6 (by decide)).trans <| (W5_of m ρ c main_arg6 (by decide)).trans <| (W4_of_ne m ρ c main_arg6 (by decide)).trans <| (W3_of m ρ c main_arg6 (by decide)).trans <| (W2_of m ρ c main_arg6 (by decide)).trans <| (W1_of m ρ c main_arg6 (by decide)).trans <| rfl
theorem W7_main_arg6 (c : Dev nD) : W7 m ρ c (Proc.devRef .tc main_arg6) = m ((c : Thread nD τ).loc main_arg6) :=
  (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of m ρ c main_arg6 (by decide)).trans <| (W1_of m ρ c main_arg6 (by decide)).trans <| rfl
theorem W8_main_arg6 (c : Dev nD) : W8 m ρ c (Proc.devRef .tc main_arg6) = m ((c : Thread nD τ).loc main_arg6) :=
  (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of m ρ c main_arg6 (by decide)).trans <| (W1_of m ρ c main_arg6 (by decide)).trans <| rfl
theorem W9_main_arg6 (c : Dev nD) : W9 m ρ c (Proc.devRef .tc main_arg6) = m ((c : Thread nD τ).loc main_arg6) :=
  (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of m ρ c main_arg6 (by decide)).trans <| (W1_of m ρ c main_arg6 (by decide)).trans <| rfl
theorem W10_main_arg6 (c : Dev nD) : W10 m ρ c (Proc.devRef .tc main_arg6) = m ((c : Thread nD τ).loc main_arg6) :=
  (W10_of_ne m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of m ρ c main_arg6 (by decide)).trans <| (W1_of m ρ c main_arg6 (by decide)).trans <| rfl
theorem W11_main_arg6 (c : Dev nD) : W11 m ρ c (Proc.devRef .tc main_arg6) = m ((c : Thread nD τ).loc main_arg6) :=
  (W11_of m ρ c main_arg6 (by decide)).trans <| (W10_of_ne m ρ c main_arg6 (by decide)).trans <| (W9_of m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of m ρ c main_arg6 (by decide)).trans <| (W1_of m ρ c main_arg6 (by decide)).trans <| rfl
theorem W1_main_arg7 (c : Dev nD) : W1 m ρ c (Proc.devRef .tc main_arg7) = m ((c : Thread nD τ).loc main_arg7) :=
  (W1_of m ρ c main_arg7 (by decide)).trans <| rfl
theorem W2_main_arg7 (c : Dev nD) : W2 m ρ c (Proc.devRef .tc main_arg7) = m ((c : Thread nD τ).loc main_arg7) :=
  (W2_of m ρ c main_arg7 (by decide)).trans <| (W1_of m ρ c main_arg7 (by decide)).trans <| rfl
theorem W3_main_arg7 (c : Dev nD) : W3 m ρ c (Proc.devRef .tc main_arg7) = m ((c : Thread nD τ).loc main_arg7) :=
  (W3_of m ρ c main_arg7 (by decide)).trans <| (W2_of m ρ c main_arg7 (by decide)).trans <| (W1_of m ρ c main_arg7 (by decide)).trans <| rfl
theorem W4_main_arg7 (c : Dev nD) : W4 m ρ c (Proc.devRef .tc main_arg7) = m ((c : Thread nD τ).loc main_arg7) :=
  (W4_of_ne m ρ c main_arg7 (by decide)).trans <| (W3_of m ρ c main_arg7 (by decide)).trans <| (W2_of m ρ c main_arg7 (by decide)).trans <| (W1_of m ρ c main_arg7 (by decide)).trans <| rfl
theorem W5_main_arg7 (c : Dev nD) : W5 m ρ c (Proc.devRef .tc main_arg7) = m ((c : Thread nD τ).loc main_arg7) :=
  (W5_of m ρ c main_arg7 (by decide)).trans <| (W4_of_ne m ρ c main_arg7 (by decide)).trans <| (W3_of m ρ c main_arg7 (by decide)).trans <| (W2_of m ρ c main_arg7 (by decide)).trans <| (W1_of m ρ c main_arg7 (by decide)).trans <| rfl
theorem W6_main_arg7 (c : Dev nD) : W6 m ρ c (Proc.devRef .tc main_arg7) = m ((c : Thread nD τ).loc main_arg7) :=
  (W6_of_ne m ρ c main_arg7 (by decide)).trans <| (W5_of m ρ c main_arg7 (by decide)).trans <| (W4_of_ne m ρ c main_arg7 (by decide)).trans <| (W3_of m ρ c main_arg7 (by decide)).trans <| (W2_of m ρ c main_arg7 (by decide)).trans <| (W1_of m ρ c main_arg7 (by decide)).trans <| rfl
theorem W7_main_arg7 (c : Dev nD) : W7 m ρ c (Proc.devRef .tc main_arg7) = m ((c : Thread nD τ).loc main_arg7) :=
  (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of m ρ c main_arg7 (by decide)).trans <| (W1_of m ρ c main_arg7 (by decide)).trans <| rfl
theorem W8_main_arg7 (c : Dev nD) : W8 m ρ c (Proc.devRef .tc main_arg7) = m ((c : Thread nD τ).loc main_arg7) :=
  (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of m ρ c main_arg7 (by decide)).trans <| (W1_of m ρ c main_arg7 (by decide)).trans <| rfl
theorem W9_main_arg7 (c : Dev nD) : W9 m ρ c (Proc.devRef .tc main_arg7) = m ((c : Thread nD τ).loc main_arg7) :=
  (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of m ρ c main_arg7 (by decide)).trans <| (W1_of m ρ c main_arg7 (by decide)).trans <| rfl
theorem W10_main_arg7 (c : Dev nD) : W10 m ρ c (Proc.devRef .tc main_arg7) = m ((c : Thread nD τ).loc main_arg7) :=
  (W10_of_ne m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of m ρ c main_arg7 (by decide)).trans <| (W1_of m ρ c main_arg7 (by decide)).trans <| rfl
theorem W11_main_arg7 (c : Dev nD) : W11 m ρ c (Proc.devRef .tc main_arg7) = m ((c : Thread nD τ).loc main_arg7) :=
  (W11_of m ρ c main_arg7 (by decide)).trans <| (W10_of_ne m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of m ρ c main_arg7 (by decide)).trans <| (W1_of m ρ c main_arg7 (by decide)).trans <| rfl
theorem W4_keep_main_v1 (c : Dev nD) : W4 m ρ c (Proc.devRef .tc main_v1) = W3 m ρ c (Proc.devRef .tc main_v1) :=
  (W4_of_ne m ρ c main_v1 (by decide))
theorem W5_keep_main_v1 (c : Dev nD) : W5 m ρ c (Proc.devRef .tc main_v1) = W3 m ρ c (Proc.devRef .tc main_v1) :=
  (W5_of m ρ c main_v1 (by decide)).trans <| (W4_of_ne m ρ c main_v1 (by decide))
theorem W6_keep_main_v1 (c : Dev nD) : W6 m ρ c (Proc.devRef .tc main_v1) = W3 m ρ c (Proc.devRef .tc main_v1) :=
  (W6_of_ne m ρ c main_v1 (by decide)).trans <| (W5_of m ρ c main_v1 (by decide)).trans <| (W4_of_ne m ρ c main_v1 (by decide))
theorem W7_keep_main_v1 (c : Dev nD) : W7 m ρ c (Proc.devRef .tc main_v1) = W3 m ρ c (Proc.devRef .tc main_v1) :=
  (W7_of m ρ c main_v1 (by decide)).trans <| (W6_of_ne m ρ c main_v1 (by decide)).trans <| (W5_of m ρ c main_v1 (by decide)).trans <| (W4_of_ne m ρ c main_v1 (by decide))
theorem W8_keep_main_v1 (c : Dev nD) : W8 m ρ c (Proc.devRef .tc main_v1) = W3 m ρ c (Proc.devRef .tc main_v1) :=
  (W8_of_ne m ρ c main_v1 (by decide)).trans <| (W7_of m ρ c main_v1 (by decide)).trans <| (W6_of_ne m ρ c main_v1 (by decide)).trans <| (W5_of m ρ c main_v1 (by decide)).trans <| (W4_of_ne m ρ c main_v1 (by decide))
theorem W9_keep_main_v1 (c : Dev nD) : W9 m ρ c (Proc.devRef .tc main_v1) = W3 m ρ c (Proc.devRef .tc main_v1) :=
  (W9_of m ρ c main_v1 (by decide)).trans <| (W8_of_ne m ρ c main_v1 (by decide)).trans <| (W7_of m ρ c main_v1 (by decide)).trans <| (W6_of_ne m ρ c main_v1 (by decide)).trans <| (W5_of m ρ c main_v1 (by decide)).trans <| (W4_of_ne m ρ c main_v1 (by decide))
theorem W10_keep_main_v1 (c : Dev nD) : W10 m ρ c (Proc.devRef .tc main_v1) = W3 m ρ c (Proc.devRef .tc main_v1) :=
  (W10_of_ne m ρ c main_v1 (by decide)).trans <| (W9_of m ρ c main_v1 (by decide)).trans <| (W8_of_ne m ρ c main_v1 (by decide)).trans <| (W7_of m ρ c main_v1 (by decide)).trans <| (W6_of_ne m ρ c main_v1 (by decide)).trans <| (W5_of m ρ c main_v1 (by decide)).trans <| (W4_of_ne m ρ c main_v1 (by decide))
theorem W11_keep_main_v1 (c : Dev nD) : W11 m ρ c (Proc.devRef .tc main_v1) = W3 m ρ c (Proc.devRef .tc main_v1) :=
  (W11_of m ρ c main_v1 (by decide)).trans <| (W10_of_ne m ρ c main_v1 (by decide)).trans <| (W9_of m ρ c main_v1 (by decide)).trans <| (W8_of_ne m ρ c main_v1 (by decide)).trans <| (W7_of m ρ c main_v1 (by decide)).trans <| (W6_of_ne m ρ c main_v1 (by decide)).trans <| (W5_of m ρ c main_v1 (by decide)).trans <| (W4_of_ne m ρ c main_v1 (by decide))
theorem W4_keep_main_v3 (c : Dev nD) : W4 m ρ c (Proc.devRef .tc main_v3) = W3 m ρ c (Proc.devRef .tc main_v3) :=
  (W4_of_ne m ρ c main_v3 (by decide))
theorem W5_keep_main_v3 (c : Dev nD) : W5 m ρ c (Proc.devRef .tc main_v3) = W3 m ρ c (Proc.devRef .tc main_v3) :=
  (W5_of m ρ c main_v3 (by decide)).trans <| (W4_of_ne m ρ c main_v3 (by decide))
theorem W6_keep_main_v3 (c : Dev nD) : W6 m ρ c (Proc.devRef .tc main_v3) = W3 m ρ c (Proc.devRef .tc main_v3) :=
  (W6_of_ne m ρ c main_v3 (by decide)).trans <| (W5_of m ρ c main_v3 (by decide)).trans <| (W4_of_ne m ρ c main_v3 (by decide))
theorem W7_keep_main_v3 (c : Dev nD) : W7 m ρ c (Proc.devRef .tc main_v3) = W3 m ρ c (Proc.devRef .tc main_v3) :=
  (W7_of m ρ c main_v3 (by decide)).trans <| (W6_of_ne m ρ c main_v3 (by decide)).trans <| (W5_of m ρ c main_v3 (by decide)).trans <| (W4_of_ne m ρ c main_v3 (by decide))
theorem W8_keep_main_v3 (c : Dev nD) : W8 m ρ c (Proc.devRef .tc main_v3) = W3 m ρ c (Proc.devRef .tc main_v3) :=
  (W8_of_ne m ρ c main_v3 (by decide)).trans <| (W7_of m ρ c main_v3 (by decide)).trans <| (W6_of_ne m ρ c main_v3 (by decide)).trans <| (W5_of m ρ c main_v3 (by decide)).trans <| (W4_of_ne m ρ c main_v3 (by decide))
theorem W9_keep_main_v3 (c : Dev nD) : W9 m ρ c (Proc.devRef .tc main_v3) = W3 m ρ c (Proc.devRef .tc main_v3) :=
  (W9_of m ρ c main_v3 (by decide)).trans <| (W8_of_ne m ρ c main_v3 (by decide)).trans <| (W7_of m ρ c main_v3 (by decide)).trans <| (W6_of_ne m ρ c main_v3 (by decide)).trans <| (W5_of m ρ c main_v3 (by decide)).trans <| (W4_of_ne m ρ c main_v3 (by decide))
theorem W10_keep_main_v3 (c : Dev nD) : W10 m ρ c (Proc.devRef .tc main_v3) = W3 m ρ c (Proc.devRef .tc main_v3) :=
  (W10_of_ne m ρ c main_v3 (by decide)).trans <| (W9_of m ρ c main_v3 (by decide)).trans <| (W8_of_ne m ρ c main_v3 (by decide)).trans <| (W7_of m ρ c main_v3 (by decide)).trans <| (W6_of_ne m ρ c main_v3 (by decide)).trans <| (W5_of m ρ c main_v3 (by decide)).trans <| (W4_of_ne m ρ c main_v3 (by decide))
theorem W11_keep_main_v3 (c : Dev nD) : W11 m ρ c (Proc.devRef .tc main_v3) = W3 m ρ c (Proc.devRef .tc main_v3) :=
  (W11_of m ρ c main_v3 (by decide)).trans <| (W10_of_ne m ρ c main_v3 (by decide)).trans <| (W9_of m ρ c main_v3 (by decide)).trans <| (W8_of_ne m ρ c main_v3 (by decide)).trans <| (W7_of m ρ c main_v3 (by decide)).trans <| (W6_of_ne m ρ c main_v3 (by decide)).trans <| (W5_of m ρ c main_v3 (by decide)).trans <| (W4_of_ne m ρ c main_v3 (by decide))
theorem W4_keep_main_v30 (c : Dev nD) : W4 m ρ c (Proc.devRef .tc main_v30) = W3 m ρ c (Proc.devRef .tc main_v30) :=
  (W4_of_ne m ρ c main_v30 (by decide))
theorem W5_keep_main_v30 (c : Dev nD) : W5 m ρ c (Proc.devRef .tc main_v30) = W3 m ρ c (Proc.devRef .tc main_v30) :=
  (W5_of m ρ c main_v30 (by decide)).trans <| (W4_of_ne m ρ c main_v30 (by decide))
theorem W6_keep_main_v30 (c : Dev nD) : W6 m ρ c (Proc.devRef .tc main_v30) = W3 m ρ c (Proc.devRef .tc main_v30) :=
  (W6_of_ne m ρ c main_v30 (by decide)).trans <| (W5_of m ρ c main_v30 (by decide)).trans <| (W4_of_ne m ρ c main_v30 (by decide))
theorem W7_keep_main_v30 (c : Dev nD) : W7 m ρ c (Proc.devRef .tc main_v30) = W3 m ρ c (Proc.devRef .tc main_v30) :=
  (W7_of m ρ c main_v30 (by decide)).trans <| (W6_of_ne m ρ c main_v30 (by decide)).trans <| (W5_of m ρ c main_v30 (by decide)).trans <| (W4_of_ne m ρ c main_v30 (by decide))
theorem W8_keep_main_v30 (c : Dev nD) : W8 m ρ c (Proc.devRef .tc main_v30) = W3 m ρ c (Proc.devRef .tc main_v30) :=
  (W8_of_ne m ρ c main_v30 (by decide)).trans <| (W7_of m ρ c main_v30 (by decide)).trans <| (W6_of_ne m ρ c main_v30 (by decide)).trans <| (W5_of m ρ c main_v30 (by decide)).trans <| (W4_of_ne m ρ c main_v30 (by decide))
theorem W9_keep_main_v30 (c : Dev nD) : W9 m ρ c (Proc.devRef .tc main_v30) = W3 m ρ c (Proc.devRef .tc main_v30) :=
  (W9_of m ρ c main_v30 (by decide)).trans <| (W8_of_ne m ρ c main_v30 (by decide)).trans <| (W7_of m ρ c main_v30 (by decide)).trans <| (W6_of_ne m ρ c main_v30 (by decide)).trans <| (W5_of m ρ c main_v30 (by decide)).trans <| (W4_of_ne m ρ c main_v30 (by decide))
theorem W10_keep_main_v30 (c : Dev nD) : W10 m ρ c (Proc.devRef .tc main_v30) = W3 m ρ c (Proc.devRef .tc main_v30) :=
  (W10_of_ne m ρ c main_v30 (by decide)).trans <| (W9_of m ρ c main_v30 (by decide)).trans <| (W8_of_ne m ρ c main_v30 (by decide)).trans <| (W7_of m ρ c main_v30 (by decide)).trans <| (W6_of_ne m ρ c main_v30 (by decide)).trans <| (W5_of m ρ c main_v30 (by decide)).trans <| (W4_of_ne m ρ c main_v30 (by decide))
theorem W11_keep_main_v30 (c : Dev nD) : W11 m ρ c (Proc.devRef .tc main_v30) = W3 m ρ c (Proc.devRef .tc main_v30) :=
  (W11_of m ρ c main_v30 (by decide)).trans <| (W10_of_ne m ρ c main_v30 (by decide)).trans <| (W9_of m ρ c main_v30 (by decide)).trans <| (W8_of_ne m ρ c main_v30 (by decide)).trans <| (W7_of m ρ c main_v30 (by decide)).trans <| (W6_of_ne m ρ c main_v30 (by decide)).trans <| (W5_of m ρ c main_v30 (by decide)).trans <| (W4_of_ne m ρ c main_v30 (by decide))

end Cert.KernelIdeal.Hand

end
-- ==== Proof.Shape.lean ====
import proofs.«160486_j70574902608023_1_alg».proof.Proof.Gen.ReferenceIdeal

/-!
# The network as whole-array functions

The graph network computed by both programs, written once over whole arrays with the reference's own host
operations: the edge endpoints, the symmetric degree normalisation `norm e = d(src e) · d(dst e)` with
`d v = 1/√(max(deg v, ε))` where `deg v > 0` and `0` elsewhere, one propagation step
`(P h) v = ∑_{e : dst e = v} norm e · h (src e)` (gather, scale, scatter-add), a TAG layer
`h ↦ h·W₀ + (P h)·W₁ + (P² h)·W₂ + (P³ h)·W₃ + b` (with or without a final maximum with zero), and the
closing affine map.  The propagation steps are kept as opaque array functions: the two programs apply the same
ones, and only the layer's combination differs between them.
-/

noncomputable section

namespace Cert.Shape

open Cert.ReferenceIdeal Cert.ReferenceIdeal.Gen Idealize.ShloMosaic

variable {F : FTy → Type} [FloatOps F]

/-- An array of shape `S` and element type `e`. -/
abbrev Arr (F : FTy → Type) [FloatOps F] (S : Shape) (e : EltTy) : Type := (⟨S, e⟩ : BufTy).Contents (Elt F)

/-- The edges' source nodes (row 0 of the edge list). -/
def srcOf (ei : Arr F S2x1600000 .i32) : Arr F S1600000 .i32 :=
  shapeCast _ (extractStridedSlice S1x1600000 ![0, 0] ei slices_S2x1600000_S1x1600000_0_0) shapeCasts_S1x1600000_S1600000
/-- The edges' destination nodes (row 1 of the edge list). -/
def dstOf (ei : Arr F S2x1600000 .i32) : Arr F S1600000 .i32 :=
  shapeCast _ (extractStridedSlice S1x1600000 ![1, 0] ei slices_S2x1600000_S1x1600000_1_0) shapeCasts_S1x1600000_S1600000

/-- A node index list as a column of gather / scatter indices, a negative index counted from the end. -/
def wrapCol (i : Arr F S1600000 .i32) : Arr F S1600000x1 .i32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- The in-degree of every node: one added per edge at its destination. -/
def degOf (dst : Arr F S1600000 .i32) : Arr F S100000 .f32 :=
  Host.scatterAdd scatter_S100000_S1600000x1_S1600000_n_0_0_1 (broadcastInDim S100000 ![] bcast_S_S100000 (constant S_ .f32 0x00000000#32))
    (broadcastInDim S1600000x1 ![0] bcast_S1600000_S1600000x1_0 dst) (broadcastInDim S1600000 ![] bcast_S_S1600000 (constant S_ .f32 0x3F800000#32))

/-- `1/√(max(deg, ε))` at the nodes of positive degree, zero at the others. -/
def dinvOf (dst : Arr F S1600000 .i32) : Arr F S100000 .f32 :=
  select (cmpf .ogt (degOf dst) (broadcastInDim S100000 ![] bcast_S_S100000 (constant S_ .f32 0x00000000#32)))
    (Host.divf (broadcastInDim S100000 ![] bcast_S_S100000 (constant S_ .f32 0x3F800000#32))
      (Host.sqrt (maximumf (degOf dst) (broadcastInDim S100000 ![] bcast_S_S100000 (constant S_ .f32 0x2B8CBCCC#32)))))
    (broadcastInDim S100000 ![] bcast_S_S100000 (id (constant S_ .f32 0x00000000#32)))

/-- The edge weights: the product of the two endpoints' inverse root degrees. -/
def normOf (src dst : Arr F S1600000 .i32) : Arr F S1600000 .f32 :=
  mulf (Host.gather gather_S100000_S1600000x1_S1600000_n_0_n_n_0_1_1 (dinvOf dst) (wrapCol src))
    (Host.gather gather_S100000_S1600000x1_S1600000_n_0_n_n_0_1_1 (dinvOf dst) (wrapCol dst))

/-- One propagation step on 16 features: gather the sources' rows, scale by the edge weight, add at the destinations. -/
def prop16 (src dst : Arr F S1600000 .i32) (norm : Arr F S1600000 .f32) (h : Arr F S100000x16 .f32) : Arr F S100000x16 .f32 :=
  Host.scatterAdd scatter_S100000x16_S1600000x1_S1600000x16_1_0_0_1 (broadcastInDim S100000x16 ![] bcast_S_S100000x16 (constant S_ .f32 0x00000000#32))
    (broadcastInDim S1600000x1 ![0] bcast_S1600000_S1600000x1_0 dst)
    (mulf (broadcastInDim S1600000x16 ![0, 1] bcast_S1600000x1_S1600000x16_0_1 (broadcastInDim S1600000x1 ![0] bcast_S1600000_S1600000x1_0 norm))
      (Host.gather gather_S100000x16_S1600000x1_S1600000x16_1_0_n_n_0_1_116 h (wrapCol src)))

/-- One propagation step on 64 features. -/
def prop64 (src dst : Arr F S1600000 .i32) (norm : Arr F S1600000 .f32) (h : Arr F S100000x64 .f32) : Arr F S100000x64 .f32 :=
  Host.scatterAdd scatter_S100000x64_S1600000x1_S1600000x64_1_0_0_1 (broadcastInDim S100000x64 ![] bcast_S_S100000x64 (constant S_ .f32 0x00000000#32))
    (broadcastInDim S1600000x1 ![0] bcast_S1600000_S1600000x1_0 dst)
    (mulf (broadcastInDim S1600000x64 ![0, 1] bcast_S1600000x1_S1600000x64_0_1 (broadcastInDim S1600000x1 ![0] bcast_S1600000_S1600000x1_0 norm))
      (Host.gather gather_S100000x64_S1600000x1_S1600000x64_1_0_n_n_0_1_164 h (wrapCol src)))

/-- Hop `k`'s weight matrix of the first layer. -/
def w16_0 (W : Arr F S4x16x64 .f32) : Arr F S16x64 .f32 :=
  shapeCast _ (extractStridedSlice S1x16x64 ![0, 0, 0] W slices_S4x16x64_S1x16x64_0_0_0) shapeCasts_S1x16x64_S16x64
def w16_1 (W : Arr F S4x16x64 .f32) : Arr F S16x64 .f32 :=
  shapeCast _ (extractStridedSlice S1x16x64 ![1, 0, 0] W slices_S4x16x64_S1x16x64_1_0_0) shapeCasts_S1x16x64_S16x64
def w16_2 (W : Arr F S4x16x64 .f32) : Arr F S16x64 .f32 :=
  shapeCast _ (extractStridedSlice S1x16x64 ![2, 0, 0] W slices_S4x16x64_S1x16x64_2_0_0) shapeCasts_S1x16x64_S16x64
def w16_3 (W : Arr F S4x16x64 .f32) : Arr F S16x64 .f32 :=
  shapeCast _ (extractStridedSlice S1x16x64 ![3, 0, 0] W slices_S4x16x64_S1x16x64_3_0_0) shapeCasts_S1x16x64_S16x64
/-- Hop `k`'s weight matrix of a hidden layer. -/
def w64_0 (W : Arr F S4x64x64 .f32) : Arr F S64x64 .f32 :=
  shapeCast _ (extractStridedSlice S1x64x64 ![0, 0, 0] W slices_S4x64x64_S1x64x64_0_0_0) shapeCasts_S1x64x64_S64x64
def w64_1 (W : Arr F S4x64x64 .f32) : Arr F S64x64 .f32 :=
  shapeCast _ (extractStridedSlice S1x64x64 ![1, 0, 0] W slices_S4x64x64_S1x64x64_1_0_0) shapeCasts_S1x64x64_S64x64
def w64_2 (W : Arr F S4x64x64 .f32) : Arr F S64x64 .f32 :=
  shapeCast _ (extractStridedSlice S1x64x64 ![2, 0, 0] W slices_S4x64x64_S1x64x64_2_0_0) shapeCasts_S1x64x64_S64x64
def w64_3 (W : Arr F S4x64x64 .f32) : Arr F S64x64 .f32 :=
  shapeCast _ (extractStridedSlice S1x64x64 ![3, 0, 0] W slices_S4x64x64_S1x64x64_3_0_0) shapeCasts_S1x64x64_S64x64

/-- A bias vector added to every row of a 64-column array. -/
def biasRows64 (b : Arr F S64 .f32) : Arr F S100000x64 .f32 :=
  broadcastInDim S100000x64 ![0, 1] bcast_S1x64_S100000x64_0_1 (broadcastInDim S1x64 ![1] bcast_S64_S1x64_1 b)

/-- The first layer's combination before the maximum: `h₀·W₀ + h₁·W₁ + h₂·W₂ + h₃·W₃ + b`. -/
def lin16 (h0 h1 h2 h3 : Arr F S100000x16 .f32) (W : Arr F S4x16x64 .f32) (b : Arr F S64 .f32) : Arr F S100000x64 .f32 :=
  addf (addf (addf (addf (Host.dotGeneral dot_S100000x16_S16x64_S100000x64_1_0_0_1_n_n none h0 (w16_0 W))
      (Host.dotGeneral dot_S100000x16_S16x64_S100000x64_1_0_0_1_n_n none h1 (w16_1 W)))
      (Host.dotGeneral dot_S100000x16_S16x64_S100000x64_1_0_0_1_n_n none h2 (w16_2 W)))
      (Host.dotGeneral dot_S100000x16_S16x64_S100000x64_1_0_0_1_n_n none h3 (w16_3 W))) (biasRows64 b)

/-- A hidden layer's combination before the maximum. -/
def lin64 (h0 h1 h2 h3 : Arr F S100000x64 .f32) (W : Arr F S4x64x64 .f32) (b : Arr F S64 .f32) : Arr F S100000x64 .f32 :=
  addf (addf (addf (addf (Host.dotGeneral dot_S100000x64_S64x64_S100000x64_1_0_0_1_n_n none h0 (w64_0 W))
      (Host.dotGeneral dot_S100000x64_S64x64_S100000x64_1_0_0_1_n_n none h1 (w64_1 W)))
      (Host.dotGeneral dot_S100000x64_S64x64_S100000x64_1_0_0_1_n_n none h2 (w64_2 W)))
      (Host.dotGeneral dot_S100000x64_S64x64_S100000x64_1_0_0_1_n_n none h3 (w64_3 W))) (biasRows64 b)

/-- The maximum with zero, entry by entry. -/
def relu64 (y : Arr F S100000x64 .f32) : Arr F S100000x64 .f32 :=
  maximumf y (broadcastInDim S100000x64 ![] bcast_S_S100000x64 (constant S_ .f32 0x00000000#32))

/-- The closing affine map `h·W + b` onto 4 outputs. -/
def fc (h : Arr F S100000x64 .f32) (W : Arr F S64x4 .f32) (b : Arr F S4 .f32) : Arr F S100000x4 .f32 :=
  addf (Host.dotGeneral dot_S100000x64_S64x4_S100000x4_1_0_0_1_n_n none h W)
    (broadcastInDim S100000x4 ![0, 1] bcast_S1x4_S100000x4_0_1 (broadcastInDim S1x4 ![1] bcast_S4_S1x4_1 b))

/-- Layer `l`'s stacked weights and bias out of the hidden layers' arrays. -/
def wh0 (Wh : Arr F S3x4x64x64 .f32) : Arr F S4x64x64 .f32 :=
  shapeCast _ (extractStridedSlice S1x4x64x64 ![0, 0, 0, 0] Wh slices_S3x4x64x64_S1x4x64x64_0_0_0_0) shapeCasts_S1x4x64x64_S4x64x64
def bh0 (bh : Arr F S3x64 .f32) : Arr F S64 .f32 :=
  shapeCast _ (extractStridedSlice S1x64 ![0, 0] bh slices_S3x64_S1x64_0_0) shapeCasts_S1x64_S64
def wh1 (Wh : Arr F S3x4x64x64 .f32) : Arr F S4x64x64 .f32 :=
  shapeCast _ (extractStridedSlice S1x4x64x64 ![1, 0, 0, 0] Wh slices_S3x4x64x64_S1x4x64x64_1_0_0_0) shapeCasts_S1x4x64x64_S4x64x64
def bh1 (bh : Arr F S3x64 .f32) : Arr F S64 .f32 :=
  shapeCast _ (extractStridedSlice S1x64 ![1, 0] bh slices_S3x64_S1x64_1_0) shapeCasts_S1x64_S64
def wh2 (Wh : Arr F S3x4x64x64 .f32) : Arr F S4x64x64 .f32 :=
  shapeCast _ (extractStridedSlice S1x4x64x64 ![2, 0, 0, 0] Wh slices_S3x4x64x64_S1x4x64x64_2_0_0_0) shapeCasts_S1x4x64x64_S4x64x64
def bh2 (bh : Arr F S3x64 .f32) : Arr F S64 .f32 :=
  shapeCast _ (extractStridedSlice S1x64 ![2, 0] bh slices_S3x64_S1x64_2_0) shapeCasts_S1x64_S64

/-- The first TAG layer on the hops of `x`. -/
def tag16 (src dst : Arr F S1600000 .i32) (norm : Arr F S1600000 .f32) (x : Arr F S100000x16 .f32) (W : Arr F S4x16x64 .f32) (b : Arr F S64 .f32) :
    Arr F S100000x64 .f32 :=
  lin16 x (prop16 src dst norm x) (prop16 src dst norm (prop16 src dst norm x))
    (prop16 src dst norm (prop16 src dst norm (prop16 src dst norm x))) W b
/-- A hidden TAG layer on the hops of `h`. -/
def tag64 (src dst : Arr F S1600000 .i32) (norm : Arr F S1600000 .f32) (h : Arr F S100000x64 .f32) (W : Arr F S4x64x64 .f32) (b : Arr F S64 .f32) :
    Arr F S100000x64 .f32 :=
  lin64 h (prop64 src dst norm h) (prop64 src dst norm (prop64 src dst norm h))
    (prop64 src dst norm (prop64 src dst norm (prop64 src dst norm h))) W b

/-- The whole network. -/
def net (x : Arr F S100000x16 .f32) (ei : Arr F S2x1600000 .i32) (W0 : Arr F S4x16x64 .f32) (b0 : Arr F S64 .f32)
    (Wh : Arr F S3x4x64x64 .f32) (bh : Arr F S3x64 .f32) (fcW : Arr F S64x4 .f32) (fcb : Arr F S4 .f32) : Arr F S100000x4 .f32 :=
  fc (tag64 (srcOf ei) (dstOf ei) (normOf (srcOf ei) (dstOf ei))
      (relu64 (tag64 (srcOf ei) (dstOf ei) (normOf (srcOf ei) (dstOf ei))
        (relu64 (tag64 (srcOf ei) (dstOf ei) (normOf (srcOf ei) (dstOf ei))
          (relu64 (tag16 (srcOf ei) (dstOf ei) (normOf (srcOf ei) (dstOf ei)) x W0 b0))
          (wh0 Wh) (bh0 bh)))
        (wh1 Wh) (bh1 bh)))
      (wh2 Wh) (bh2 bh)) fcW fcb

end Cert.Shape

end
-- ==== Proof.KI.Stretch.lean ====
import proofs.«160486_j70574902608023_1_alg».proof.Proof.Gen.KernelIdeal.Launch
import proofs.«160486_j70574902608023_1_alg».proof.Proof.Shape

/-!
# What the later host stretches of the kernel program compute

Before each hidden layer's region the kernel program runs a stretch of host operations that leaves the four hops
`h, P h, P² h, P³ h` of the layer's input, each with a leading unit axis and stacked along it, together with the
layer's stacked weights and its bias as a one-row matrix; the last stretch gives the closing layer's operands a
leading unit axis.  Each is read here as a whole-array term over the vocabulary of the network (`Cert.Shape`), from
arbitrary contents `Win`: the statements are about the operations only, whatever ran before them.
-/

set_option maxRecDepth 16384

noncomputable section

namespace Cert.KernelIdeal.Hand

open Cert.KernelIdeal Cert.KernelIdeal.Gen Idealize.ShloMosaic

variable {F : FTy → Type} [FloatOps F]

/-! ## Host stretch 1: the hops of layer 1's input, stacked, and the layer's weights and bias -/

set_option maxHeartbeats 4000000 in
/-- The four hops `h, P h, P² h, P³ h` of the array the stretch finds at its input, each given a leading unit axis and stacked along it. -/
theorem stretch1_H (Win : Valuation τ sig (Elt F)) :
    StableHlo.after hostOps1 Win (Proc.devRef .tc main_v120)
      = concatenate S4x100000x64 0
          [⟨S1x100000x64, broadcastInDim S1x100000x64 ![1, 2] bcast_S100000x64_S1x100000x64_1_2 (Win (Proc.devRef .tc main_v76))⟩,
           ⟨S1x100000x64, broadcastInDim S1x100000x64 ![1, 2] bcast_S100000x64_S1x100000x64_1_2
              (Cert.Shape.prop64 (Win (Proc.devRef .tc main_v1)) (Win (Proc.devRef .tc main_v3)) (Win (Proc.devRef .tc main_v30)) (Win (Proc.devRef .tc main_v76)))⟩,
           ⟨S1x100000x64, broadcastInDim S1x100000x64 ![1, 2] bcast_S100000x64_S1x100000x64_1_2
              (Cert.Shape.prop64 (Win (Proc.devRef .tc main_v1)) (Win (Proc.devRef .tc main_v3)) (Win (Proc.devRef .tc main_v30)) (Cert.Shape.prop64 (Win (Proc.devRef .tc main_v1)) (Win (Proc.devRef .tc main_v3)) (Win (Proc.devRef .tc main_v30)) (Win (Proc.devRef .tc main_v76))))⟩,
           ⟨S1x100000x64, broadcastInDim S1x100000x64 ![1, 2] bcast_S100000x64_S1x100000x64_1_2
              (Cert.Shape.prop64 (Win (Proc.devRef .tc main_v1)) (Win (Proc.devRef .tc main_v3)) (Win (Proc.devRef .tc main_v30)) (Cert.Shape.prop64 (Win (Proc.devRef .tc main_v1)) (Win (Proc.devRef .tc main_v3)) (Win (Proc.devRef .tc main_v30)) (Cert.Shape.prop64 (Win (Proc.devRef .tc main_v1)) (Win (Proc.devRef .tc main_v3)) (Win (Proc.devRef .tc main_v30)) (Win (Proc.devRef .tc main_v76)))))⟩]
          concatenates_S1x100000x64_S1x100000x64_S1x100000x64_S1x100000x64_S4x100000x64_d0 := by
  dsimp only [hostOps1]; after_results_simp
  unfold Cert.Shape.prop64 Cert.Shape.wrapCol
  rfl

set_option maxHeartbeats 4000000 in
/-- Hidden layer 0's stacked weight matrices. -/
theorem stretch1_W (Win : Valuation τ sig (Elt F)) :
    StableHlo.after hostOps1 Win (Proc.devRef .tc main_v122) = Cert.Shape.wh0 (Win (Proc.devRef .tc main_arg4)) := by
  dsimp only [hostOps1]; after_results_simp; rfl

set_option maxHeartbeats 4000000 in
/-- Hidden layer 0's bias, as a one-row matrix. -/
theorem stretch1_B (Win : Valuation τ sig (Elt F)) :
    StableHlo.after hostOps1 Win (Proc.devRef .tc main_v125)
      = shapeCast S1x64 (Cert.Shape.bh0 (Win (Proc.devRef .tc main_arg5))) shapeCasts_S64_S1x64 := by
  dsimp only [hostOps1]; after_results_simp; rfl

/-! ## Host stretch 2: the hops of layer 2's input, stacked, and the layer's weights and bias -/

set_option maxHeartbeats 4000000 in
/-- The four hops `h, P h, P² h, P³ h` of the array the stretch finds at its input, each given a leading unit axis and stacked along it. -/
theorem stretch2_H (Win : Valuation τ sig (Elt F)) :
    StableHlo.after hostOps2 Win (Proc.devRef .tc main_v170)
      = concatenate S4x100000x64 0
          [⟨S1x100000x64, broadcastInDim S1x100000x64 ![1, 2] bcast_S100000x64_S1x100000x64_1_2 (Win (Proc.devRef .tc main_v126))⟩,
           ⟨S1x100000x64, broadcastInDim S1x100000x64 ![1, 2] bcast_S100000x64_S1x100000x64_1_2
              (Cert.Shape.prop64 (Win (Proc.devRef .tc main_v1)) (Win (Proc.devRef .tc main_v3)) (Win (Proc.devRef .tc main_v30)) (Win (Proc.devRef .tc main_v126)))⟩,
           ⟨S1x100000x64, broadcastInDim S1x100000x64 ![1, 2] bcast_S100000x64_S1x100000x64_1_2
              (Cert.Shape.prop64 (Win (Proc.devRef .tc main_v1)) (Win (Proc.devRef .tc main_v3)) (Win (Proc.devRef .tc main_v30)) (Cert.Shape.prop64 (Win (Proc.devRef .tc main_v1)) (Win (Proc.devRef .tc main_v3)) (Win (Proc.devRef .tc main_v30)) (Win (Proc.devRef .tc main_v126))))⟩,
           ⟨S1x100000x64, broadcastInDim S1x100000x64 ![1, 2] bcast_S100000x64_S1x100000x64_1_2
              (Cert.Shape.prop64 (Win (Proc.devRef .tc main_v1)) (Win (Proc.devRef .tc main_v3)) (Win (Proc.devRef .tc main_v30)) (Cert.Shape.prop64 (Win (Proc.devRef .tc main_v1)) (Win (Proc.devRef .tc main_v3)) (Win (Proc.devRef .tc main_v30)) (Cert.Shape.prop64 (Win (Proc.devRef .tc main_v1)) (Win (Proc.devRef .tc main_v3)) (Win (Proc.devRef .tc main_v30)) (Win (Proc.devRef .tc main_v126)))))⟩]
          concatenates_S1x100000x64_S1x100000x64_S1x100000x64_S1x100000x64_S4x100000x64_d0 := by
  dsimp only [hostOps2]; after_results_simp
  unfold Cert.Shape.prop64 Cert.Shape.wrapCol
  rfl

set_option maxHeartbeats 4000000 in
/-- Hidden layer 1's stacked weight matrices. -/
theorem stretch2_W (Win : Valuation τ sig (Elt F)) :
    StableHlo.after hostOps2 Win (Proc.devRef .tc main_v172) = Cert.Shape.wh1 (Win (Proc.devRef .tc main_arg4)) := by
  dsimp only [hostOps2]; after_results_simp; rfl

set_option maxHeartbeats 4000000 in
/-- Hidden layer 1's bias, as a one-row matrix. -/
theorem stretch2_B (Win : Valuation τ sig (Elt F)) :
    StableHlo.after hostOps2 Win (Proc.devRef .tc main_v175)
      = shapeCast S1x64 (Cert.Shape.bh1 (Win (Proc.devRef .tc main_arg5))) shapeCasts_S64_S1x64 := by
  dsimp only [hostOps2]; after_results_simp; rfl

/-! ## Host stretch 3: the hops of layer 3's input, stacked, and the layer's weights and bias -/

set_option maxHeartbeats 4000000 in
/-- The four hops `h, P h, P² h, P³ h` of the array the stretch finds at its input, each given a leading unit axis and stacked along it. -/
theorem stretch3_H (Win : Valuation τ sig (Elt F)) :
    StableHlo.after hostOps3 Win (Proc.devRef .tc main_v220)
      = concatenate S4x100000x64 0
          [⟨S1x100000x64, broadcastInDim S1x100000x64 ![1, 2] bcast_S100000x64_S1x100000x64_1_2 (Win (Proc.devRef .tc main_v176))⟩,
           ⟨S1x100000x64, broadcastInDim S1x100000x64 ![1, 2] bcast_S100000x64_S1x100000x64_1_2
              (Cert.Shape.prop64 (Win (Proc.devRef .tc main_v1)) (Win (Proc.devRef .tc main_v3)) (Win (Proc.devRef .tc main_v30)) (Win (Proc.devRef .tc main_v176)))⟩,
           ⟨S1x100000x64, broadcastInDim S1x100000x64 ![1, 2] bcast_S100000x64_S1x100000x64_1_2
              (Cert.Shape.prop64 (Win (Proc.devRef .tc main_v1)) (Win (Proc.devRef .tc main_v3)) (Win (Proc.devRef .tc main_v30)) (Cert.Shape.prop64 (Win (Proc.devRef .tc main_v1)) (Win (Proc.devRef .tc main_v3)) (Win (Proc.devRef .tc main_v30)) (Win (Proc.devRef .tc main_v176))))⟩,
           ⟨S1x100000x64, broadcastInDim S1x100000x64 ![1, 2] bcast_S100000x64_S1x100000x64_1_2
              (Cert.Shape.prop64 (Win (Proc.devRef .tc main_v1)) (Win (Proc.devRef .tc main_v3)) (Win (Proc.devRef .tc main_v30)) (Cert.Shape.prop64 (Win (Proc.devRef .tc main_v1)) (Win (Proc.devRef .tc main_v3)) (Win (Proc.devRef .tc main_v30)) (Cert.Shape.prop64 (Win (Proc.devRef .tc main_v1)) (Win (Proc.devRef .tc main_v3)) (Win (Proc.devRef .tc main_v30)) (Win (Proc.devRef .tc main_v176)))))⟩]
          concatenates_S1x100000x64_S1x100000x64_S1x100000x64_S1x100000x64_S4x100000x64_d0 := by
  dsimp only [hostOps3]; after_results_simp
  unfold Cert.Shape.prop64 Cert.Shape.wrapCol
  rfl

set_option maxHeartbeats 4000000 in
/-- Hidden layer 2's stacked weight matrices. -/
theorem stretch3_W (Win : Valuation τ sig (Elt F)) :
    StableHlo.after hostOps3 Win (Proc.devRef .tc main_v222) = Cert.Shape.wh2 (Win (Proc.devRef .tc main_arg4)) := by
  dsimp only [hostOps3]; after_results_simp; rfl

set_option maxHeartbeats 4000000 in
/-- Hidden layer 2's bias, as a one-row matrix. -/
theorem stretch3_B (Win : Valuation τ sig (Elt F)) :
    StableHlo.after hostOps3 Win (Proc.devRef .tc main_v225)
      = shapeCast S1x64 (Cert.Shape.bh2 (Win (Proc.devRef .tc main_arg5))) shapeCasts_S64_S1x64 := by
  dsimp only [hostOps3]; after_results_simp; rfl

/-! ## Host stretch 4: the last layer's output and the closing weights and bias, each with a leading unit axis -/

theorem stretch4_v227 (Win : Valuation τ sig (Elt F)) :
    StableHlo.after hostOps4 Win (Proc.devRef .tc main_v227)
      = broadcastInDim S1x100000x64 ![1, 2] bcast_S100000x64_S1x100000x64_1_2 (Win (Proc.devRef .tc main_v226)) := by
  dsimp only [hostOps4]; after_results

theorem stretch4_v228 (Win : Valuation τ sig (Elt F)) :
    StableHlo.after hostOps4 Win (Proc.devRef .tc main_v228)
      = broadcastInDim S1x64x4 ![1, 2] bcast_S64x4_S1x64x4_1_2 (Win (Proc.devRef .tc main_arg6)) := by
  dsimp only [hostOps4]; after_results

theorem stretch4_v229 (Win : Valuation τ sig (Elt F)) :
    StableHlo.after hostOps4 Win (Proc.devRef .tc main_v229)
      = shapeCast S1x4 (Win (Proc.devRef .tc main_arg7)) shapeCasts_S4_S1x4 := by
  dsimp only [hostOps4]; after_results; rfl

end Cert.KernelIdeal.Hand

end
-- ==== Proof.KI.Stretch0.lean ====
import proofs.«160486_j70574902608023_1_alg».proof.Proof.Gen.KernelIdeal.Launch
import proofs.«160486_j70574902608023_1_alg».proof.Proof.Shape

/-!
# What the first three host stretches of the kernel program compute

Before its first region the kernel program runs three stretches of host operations.  Together, from arbitrary
contents `Win`, they leave the edge endpoints `src`, `dst`, the edge weights `norm`, the four hops
`x, P x, P² x, P³ x` of the node features, each with a leading unit axis and stacked along it, and the first
layer's bias as a one-row matrix — all as whole-array terms over the vocabulary of the network (`Cert.Shape`).
-/

set_option maxRecDepth 16384

noncomputable section

namespace Cert.KernelIdeal.Hand

open Cert.KernelIdeal Cert.KernelIdeal.Gen Idealize.ShloMosaic

variable {F : FTy → Type} [FloatOps F]

/-! ## The first three host stretches: the edge endpoints, the edge weights, the hops of the node features, stacked -/

set_option maxHeartbeats 8000000 in
theorem stretch0_v1 (Win : Valuation τ sig (Elt F)) :
    (StableHlo.after hostOps0_2 (StableHlo.after hostOps0_1 (StableHlo.after hostOps0 Win))) (Proc.devRef .tc main_v1) = Cert.Shape.srcOf (Win (Proc.devRef .tc main_arg1)) := by
  dsimp only [hostOps0, hostOps0_1, hostOps0_2]; after_results_simp; rfl

set_option maxHeartbeats 8000000 in
theorem stretch0_v3 (Win : Valuation τ sig (Elt F)) :
    (StableHlo.after hostOps0_2 (StableHlo.after hostOps0_1 (StableHlo.after hostOps0 Win))) (Proc.devRef .tc main_v3) = Cert.Shape.dstOf (Win (Proc.devRef .tc main_arg1)) := by
  dsimp only [hostOps0, hostOps0_1, hostOps0_2]; after_results_simp; rfl

set_option maxHeartbeats 8000000 in
theorem stretch0_v30 (Win : Valuation τ sig (Elt F)) :
    (StableHlo.after hostOps0_2 (StableHlo.after hostOps0_1 (StableHlo.after hostOps0 Win))) (Proc.devRef .tc main_v30) = Cert.Shape.normOf (Cert.Shape.srcOf (Win (Proc.devRef .tc main_arg1))) (Cert.Shape.dstOf (Win (Proc.devRef .tc main_arg1))) := by
  dsimp only [hostOps0, hostOps0_1, hostOps0_2]; after_results_simp
  unfold Cert.Shape.normOf Cert.Shape.dinvOf Cert.Shape.degOf Cert.Shape.wrapCol Cert.Shape.srcOf Cert.Shape.dstOf
  rfl

set_option maxHeartbeats 8000000 in
theorem stretch0_v74 (Win : Valuation τ sig (Elt F)) :
    (StableHlo.after hostOps0_2 (StableHlo.after hostOps0_1 (StableHlo.after hostOps0 Win))) (Proc.devRef .tc main_v74)
      = concatenate S4x100000x16 0
          [⟨S1x100000x16, broadcastInDim S1x100000x16 ![1, 2] bcast_S100000x16_S1x100000x16_1_2 (Win (Proc.devRef .tc main_arg0))⟩,
           ⟨S1x100000x16, broadcastInDim S1x100000x16 ![1, 2] bcast_S100000x16_S1x100000x16_1_2
              (Cert.Shape.prop16 (Cert.Shape.srcOf (Win (Proc.devRef .tc main_arg1))) (Cert.Shape.dstOf (Win (Proc.devRef .tc main_arg1))) (Cert.Shape.normOf (Cert.Shape.srcOf (Win (Proc.devRef .tc main_arg1))) (Cert.Shape.dstOf (Win (Proc.devRef .tc main_arg1)))) (Win (Proc.devRef .tc main_arg0)))⟩,
           ⟨S1x100000x16, broadcastInDim S1x100000x16 ![1, 2] bcast_S100000x16_S1x100000x16_1_2
              (Cert.Shape.prop16 (Cert.Shape.srcOf (Win (Proc.devRef .tc main_arg1))) (Cert.Shape.dstOf (Win (Proc.devRef .tc main_arg1))) (Cert.Shape.normOf (Cert.Shape.srcOf (Win (Proc.devRef .tc main_arg1))) (Cert.Shape.dstOf (Win (Proc.devRef .tc main_arg1)))) (Cert.Shape.prop16 (Cert.Shape.srcOf (Win (Proc.devRef .tc main_arg1))) (Cert.Shape.dstOf (Win (Proc.devRef .tc main_arg1))) (Cert.Shape.normOf (Cert.Shape.srcOf (Win (Proc.devRef .tc main_arg1))) (Cert.Shape.dstOf (Win (Proc.devRef .tc main_arg1)))) (Win (Proc.devRef .tc main_arg0))))⟩,
           ⟨S1x100000x16, broadcastInDim S1x100000x16 ![1, 2] bcast_S100000x16_S1x100000x16_1_2
              (Cert.Shape.prop16 (Cert.Shape.srcOf (Win (Proc.devRef .tc main_arg1))) (Cert.Shape.dstOf (Win (Proc.devRef .tc main_arg1))) (Cert.Shape.normOf (Cert.Shape.srcOf (Win (Proc.devRef .tc main_arg1))) (Cert.Shape.dstOf (Win (Proc.devRef .tc main_arg1)))) (Cert.Shape.prop16 (Cert.Shape.srcOf (Win (Proc.devRef .tc main_arg1))) (Cert.Shape.dstOf (Win (Proc.devRef .tc main_arg1))) (Cert.Shape.normOf (Cert.Shape.srcOf (Win (Proc.devRef .tc main_arg1))) (Cert.Shape.dstOf (Win (Proc.devRef .tc main_arg1)))) (Cert.Shape.prop16 (Cert.Shape.srcOf (Win (Proc.devRef .tc main_arg1))) (Cert.Shape.dstOf (Win (Proc.devRef .tc main_arg1))) (Cert.Shape.normOf (Cert.Shape.srcOf (Win (Proc.devRef .tc main_arg1))) (Cert.Shape.dstOf (Win (Proc.devRef .tc main_arg1)))) (Win (Proc.devRef .tc main_arg0)))))⟩]
          concatenates_S1x100000x16_S1x100000x16_S1x100000x16_S1x100000x16_S4x100000x16_d0 := by
  dsimp only [hostOps0, hostOps0_1, hostOps0_2]; after_results_simp
  unfold Cert.Shape.prop16 Cert.Shape.normOf Cert.Shape.dinvOf Cert.Shape.degOf Cert.Shape.wrapCol Cert.Shape.srcOf Cert.Shape.dstOf
  rfl

set_option maxHeartbeats 8000000 in
theorem stretch0_v75 (Win : Valuation τ sig (Elt F)) :
    (StableHlo.after hostOps0_2 (StableHlo.after hostOps0_1 (StableHlo.after hostOps0 Win))) (Proc.devRef .tc main_v75) = shapeCast S1x64 (Win (Proc.devRef .tc main_arg3)) shapeCasts_S64_S1x64 := by
  dsimp only [hostOps0, hostOps0_1, hostOps0_2]; after_results_simp; rfl

end Cert.KernelIdeal.Hand

end
-- ==== Proof.KI.Value0.lean ====
import proofs.«160486_j70574902608023_1_alg».proof.Proof.KI.Region0
import Idealize.ShloMosaic.Lib.Pipeline.Value
import Idealize.ShloMosaic.Lib.ValueIdx
import Idealize.ShloMosaic.PureOps.Ideal.Laws

/-!
# Region 0: the value of the first layer's combine kernel

At the extended reals the kernel's body is plain arithmetic: each of the four `tpu.matmul`s into a zero accumulator is
the sum over the 16 input features of a hop block's row times a weight column (the operands' change of float format
is the identity), the four sums are added in order onto zero, the bias row is added to every row, and the maximum with
zero is taken.  The hop blocks and the output block at grid point `t` are rows `5000 t … 5000 t + 4999` of their
arrays, the weights and the bias are read whole at every point, so every block the kernel writes back is the
restriction of ONE function of the three arrays, `layer0`; the twenty blocks tile the output's rows (row `r` is in
block `r / 5000`), hence the output array ends holding `layer0` of the arrays as the region finds them.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## One hop's product at an entry of the block -/

theorem zero2 : (![0, 0] : Fin 2 → Nat) = fun _ => 0 := funext fun a => by fin_cases a <;> rfl

theorem mmL16_0 (i : S5000x64.Idx) (q : dot_S5000x16_S16x64_S5000x64_1_0_0_1_n_n.contr.Idx) :
    (dot_S5000x16_S16x64_S5000x64_1_0_0_1_n_n.lhsIdx i q 0).val = (i 0).val := by
  unfold DotDims.lhsIdx
  rw [dif_neg (show ¬(0 : Fin S5000x16.rank) ∈ dot_S5000x16_S16x64_S5000x64_1_0_0_1_n_n.lhsBatch by decide), dif_pos (show (0 : Fin S5000x16.rank) ∈ dot_S5000x16_S16x64_S5000x64_1_0_0_1_n_n.lhsNonContracting by decide)]
  rfl
theorem mmL16_1 (i : S5000x64.Idx) (q : dot_S5000x16_S16x64_S5000x64_1_0_0_1_n_n.contr.Idx) :
    (dot_S5000x16_S16x64_S5000x64_1_0_0_1_n_n.lhsIdx i q 1).val = (q ⟨0, by decide⟩).val :=
  dot_S5000x16_S16x64_S5000x64_1_0_0_1_n_n.lhsIdx_val_of_single rfl i q
theorem mmR16_0 (i : S5000x64.Idx) (q : dot_S5000x16_S16x64_S5000x64_1_0_0_1_n_n.contr.Idx) :
    (dot_S5000x16_S16x64_S5000x64_1_0_0_1_n_n.rhsIdx i q 0).val = (q ⟨0, by decide⟩).val :=
  dot_S5000x16_S16x64_S5000x64_1_0_0_1_n_n.rhsIdx_val_of_single rfl i q
theorem mmR16_1 (i : S5000x64.Idx) (q : dot_S5000x16_S16x64_S5000x64_1_0_0_1_n_n.contr.Idx) :
    (dot_S5000x16_S16x64_S5000x64_1_0_0_1_n_n.rhsIdx i q 1).val = (i 1).val := by
  unfold DotDims.rhsIdx
  rw [dif_neg (show ¬(1 : Fin S16x64.rank) ∈ dot_S5000x16_S16x64_S5000x64_1_0_0_1_n_n.rhsBatch by decide), dif_pos (show (1 : Fin S16x64.rank) ∈ dot_S5000x16_S16x64_S5000x64_1_0_0_1_n_n.rhsNonContracting by decide)]
  rfl

/-- A hop's block times its weight matrix, both read through the leading unit axis and with the operands' change of
    float format the identity on the extended reals: entry `(p, q)` is `∑ₖ A(0,p,k) · B(0,k,q)`. -/
theorem mm16_apply (A : Vec Ideal S1x5000x16 .f32) (B : Vec Ideal S1x16x64 .f32) (p : Fin 5000) (q : Fin 64) :
    (matmul dot_S5000x16_S16x64_S5000x64_1_0_0_1_n_n none
        (truncf .bf16 (shapeCast S5000x16 A shapeCasts_S1x5000x16_S5000x16 : FVec Ideal S5000x16 .f32) bitsLt_bf16_f32 : FVec Ideal S5000x16 .bf16)
        (truncf .bf16 (shapeCast S16x64 B shapeCasts_S1x16x64_S16x64 : FVec Ideal S16x64 .f32) bitsLt_bf16_f32 : FVec Ideal S16x64 .bf16)
        (constant S5000x64 .f32 0x00000000#32) : FVec Ideal S5000x64 .f32) (ix2 p q)
      = ∑ k : Fin 16, A (ix3 0 p k) * B (ix3 0 k q) := by
  simp only [matmul]
  rw [Ideal.matmul_constant_zero_apply, ← Equiv.sum_comp (contrEquiv1 dot_S5000x16_S16x64_S5000x64_1_0_0_1_n_n 16 rfl rfl).symm]
  refine Finset.sum_congr rfl fun k _ => ?_
  have hk := contrEquiv1_symm_val dot_S5000x16_S16x64_S5000x64_1_0_0_1_n_n 16 rfl rfl k
  have el : dot_S5000x16_S16x64_S5000x64_1_0_0_1_n_n.lhsIdx (ix2 p q) ((contrEquiv1 dot_S5000x16_S16x64_S5000x64_1_0_0_1_n_n 16 rfl rfl).symm k) = (ix2 p k : S5000x16.Idx) := funext fun a => Fin.ext (by
    match a with
    | ⟨0, _⟩ => exact mmL16_0 _ _
    | ⟨1, _⟩ => exact (mmL16_1 _ _).trans hk)
  have er : dot_S5000x16_S16x64_S5000x64_1_0_0_1_n_n.rhsIdx (ix2 p q) ((contrEquiv1 dot_S5000x16_S16x64_S5000x64_1_0_0_1_n_n 16 rfl rfl).symm k) = (ix2 k q : S16x64.Idx) := funext fun a => Fin.ext (by
    match a with
    | ⟨0, _⟩ => exact (mmR16_0 _ _).trans hk
    | ⟨1, _⟩ => exact mmR16_1 _ _)
  rw [el, er, truncf_apply, truncf_apply]
  rw [shapeCast_apply A shapeCasts_S1x5000x16_S5000x16 (ix2 p k) (ix3 0 p k)
      (by rewrite [Shape.rowMajor_val_three, Shape.rowMajor_val_two]; show (0 * 5000 + p.val) * 16 + k.val = p.val * 16 + k.val; omega),
    shapeCast_apply B shapeCasts_S1x16x64_S16x64 (ix2 k q) (ix3 0 k q)
      (by rewrite [Shape.rowMajor_val_three, Shape.rowMajor_val_two]; show (0 * 16 + k.val) * 64 + q.val = k.val * 64 + q.val; omega)]

/-! ## The body's result at an entry of the block -/

/-- A load through the unit-stride rectangle at offset `(o, 0, 0)` reads the hop buffer at `o` on axis 0. -/
theorem ldA_apply (x0 : Vec Ideal S4x5000x16 .f32) (o : Nat) (ho : o < 4) (inb) (p : Fin 5000) (k : Fin 16) :
    View.ld x0 (Rect.unit (s := S4x5000x16) ![o, 0, 0] S1x5000x16.size inb) (ix3 0 p k) = x0 (ix3 ⟨o, ho⟩ p k) := by
  show x0 _ = x0 _
  refine congrArg x0 (funext fun a => Fin.ext ?_)
  match a with
  | ⟨0, _⟩ => show o + 1 * 0 = o; omega
  | ⟨1, _⟩ => show 0 + 1 * p.val = p.val; omega
  | ⟨2, _⟩ => show 0 + 1 * k.val = k.val; omega

/-- The same for the stacked weights. -/
theorem ldB_apply (x1 : Vec Ideal S4x16x64 .f32) (o : Nat) (ho : o < 4) (inb) (k : Fin 16) (q : Fin 64) :
    View.ld x1 (Rect.unit (s := S4x16x64) ![o, 0, 0] S1x16x64.size inb) (ix3 0 k q) = x1 (ix3 ⟨o, ho⟩ k q) := by
  show x1 _ = x1 _
  refine congrArg x1 (funext fun a => Fin.ext ?_)
  match a with
  | ⟨0, _⟩ => show o + 1 * 0 = o; omega
  | ⟨1, _⟩ => show 0 + 1 * k.val = k.val; omega
  | ⟨2, _⟩ => show 0 + 1 * q.val = q.val; omega

/-- The bias row broadcast down the block's rows. -/
theorem bias_apply (x2 : Vec Ideal S1x64 .f32) (p : Fin 5000) (q : Fin 64) :
    (broadcastTo S5000x64 (shapeCast S1x64 (View.ld x2 rC0) shapeCasts_S1x64_S1x64 : FVec Ideal S1x64 .f32) broadcasts_S1x64_S5000x64 : FVec Ideal S5000x64 .f32) (ix2 p q)
      = x2 (ix2 0 q) := by
  have e : (View.ld x2 rC0 : Vec Ideal S1x64 .f32) = x2 := View.ld_unit_zero (S := S1x64) zero2 inb_S1x64_S1x64_0_0 x2
  refine (broadcastTo_apply (s := S1x64) (t := S5000x64) _ broadcasts_S1x64_S5000x64 (ix2 p q) (ix2 0 q) (fun a => match a with
    | ⟨0, _⟩ => rfl
    | ⟨1, _⟩ => rfl)).trans ?_
  exact (congrFun (shapeCast_self (s := S1x64) _ shapeCasts_S1x64_S1x64) _).trans (congrFun e _)

/-- The combination at one entry: the four hops' products added in order, the bias, the maximum with zero. -/
def comb16 (H : Fin 4 → Fin 16 → EReal) (W : Fin 4 → Fin 16 → EReal) (b : EReal) : EReal :=
  max (((((∑ k : Fin 16, H 0 k * W 0 k) + ∑ k : Fin 16, H 1 k * W 1 k) + ∑ k : Fin 16, H 2 k * W 2 k) + ∑ k : Fin 16, H 3 k * W 3 k) + b) 0

/-- The output block after the body, at entry `(p, q)`, over the three input blocks. -/
theorem out0_3_apply (x0 : Vec Ideal S4x5000x16 .f32) (x1 : Vec Ideal S4x16x64 .f32) (x2 : Vec Ideal S1x64 .f32) (p : Fin 5000) (q : Fin 64) :
    out0_3 (F := Ideal) x0 x1 x2 (ix2 p q)
      = comb16 (fun h k => x0 (ix3 h p k)) (fun h k => x1 (ix3 h k q)) (x2 (ix2 0 q)) := by
  unfold out0_3
  rw [View.canon_unit_zero zero2]
  unfold k0_pay1 k0_pay2 k0_pay3 k0_pay4 comb16
  simp only [maximumf_apply, addf_apply, broadcast_apply]
  have e0 : (Scalar.ofBits .f32 0x00000000#32 : Ideal .f32) = 0 := Ideal.ofBits_zero_f32
  refine congrArg₂ max (congrArg₂ (· + ·) (congrArg₂ (· + ·) (congrArg₂ (· + ·) (congrArg₂ (· + ·) ?_ ?_) ?_) ?_) ?_) e0
  · refine (congrArg₂ (· + ·) e0 (mm16_apply _ _ p q)).trans ((zero_add _).trans ?_)
    exact Finset.sum_congr rfl fun k _ => congrArg₂ (· * ·) (ldA_apply x0 0 (by decide) _ p k) (ldB_apply x1 0 (by decide) _ k q)
  · refine (mm16_apply _ _ p q).trans ?_
    exact Finset.sum_congr rfl fun k _ => congrArg₂ (· * ·) (ldA_apply x0 1 (by decide) _ p k) (ldB_apply x1 1 (by decide) _ k q)
  · refine (mm16_apply _ _ p q).trans ?_
    exact Finset.sum_congr rfl fun k _ => congrArg₂ (· * ·) (ldA_apply x0 2 (by decide) _ p k) (ldB_apply x1 2 (by decide) _ k q)
  · refine (mm16_apply _ _ p q).trans ?_
    exact Finset.sum_congr rfl fun k _ => congrArg₂ (· * ·) (ldA_apply x0 3 (by decide) _ p k) (ldB_apply x1 3 (by decide) _ k q)
  · exact bias_apply x2 p q

/-! ## The layer as one function of the arrays, and the blocks as its restrictions -/

/-- Row `r`, column `q` of the layer: `max(∑ₖ H₀[r,k]·W₀[k,q] + ∑ₖ H₁[r,k]·W₁[k,q] + ∑ₖ H₂[r,k]·W₂[k,q] + ∑ₖ H₃[r,k]·W₃[k,q] + b[q], 0)`
    over the stacked hop arrays `H`, the stacked weights `W` and the bias row `b`. -/
def layer0 (H : Vec Ideal S4x100000x16 .f32) (W : Vec Ideal S4x16x64 .f32) (b : Vec Ideal S1x64 .f32) : Vec Ideal S100000x64 .f32 :=
  fun i => comb16 (fun h k => H (ix3 h (i 0 : Fin 100000) k)) (fun h k => W (ix3 h k (i 1 : Fin 64))) (b (ix2 0 (i 1 : Fin 64)))

theorem layer0_apply (H : Vec Ideal S4x100000x16 .f32) (W : Vec Ideal S4x16x64 .f32) (b : Vec Ideal S1x64 .f32) (r : Fin 100000) (q : Fin 64) :
    layer0 H W b (ix2 r q) = comb16 (fun h k => H (ix3 h r k)) (fun h k => W (ix3 h k q)) (b (ix2 0 q)) := rfl

variable (V : (c : Dev nD) → (b : Ref sig .tc) → Buf (Elt Ideal) ((c : Thread nD τ).loc b))

/-- The printed index maps over the grid: the hop blocks and the output block move down the rows with the point,
    the weights and the bias stay. -/
theorem idx_facts0 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The hop block at point `t` is rows `5000 t … 5000 t + 4999` of every hop array. -/
theorem iblk0_0_apply (c : Dev nD) (t : Fin cfg0.N) (h : Fin 4) (p : Fin 5000) (k : Fin 16) (r : Fin 100000)
    (hr : r.val = t.val * 5000 + p.val) :
    (iblk0 V c 0 t : Vec Ideal S4x5000x16 .f32) (ix3 h p k) = (V c main_v74 : Vec Ideal S4x100000x16 .f32) (ix3 h r k) := by
  obtain ⟨e0, e1, e2, -⟩ := idx_facts0 t
  unfold iblk0
  rw [View.read_apply]
  show V c main_v74 _ = V c main_v74 _
  refine congrArg (V c main_v74) (funext fun a => Fin.ext ?_)
  match a with
  | ⟨0, _⟩ => show win0_0.index t (0 : Fin 3) * 4 + 1 * h.val = h.val; rw [e0]; omega
  | ⟨1, _⟩ => show win0_0.index t (1 : Fin 3) * 5000 + 1 * p.val = r.val; rw [e1, hr]; omega
  | ⟨2, _⟩ => show win0_0.index t (2 : Fin 3) * 16 + 1 * k.val = k.val; rw [e2]; omega

/-- The weights' block at every point is the whole stacked weight array. -/
theorem iblk0_1_apply (c : Dev nD) (t : Fin cfg0.N) (h : Fin 4) (k : Fin 16) (q : Fin 64) :
    (iblk0 V c 1 t : Vec Ideal S4x16x64 .f32) (ix3 h k q) = (V c main_arg2 : Vec Ideal S4x16x64 .f32) (ix3 h k q) := by
  obtain ⟨-, -, -, e0, e1, e2, -⟩ := idx_facts0 t
  unfold iblk0
  rw [View.read_apply]
  show V c main_arg2 _ = V c main_arg2 _
  refine congrArg (V c main_arg2) (funext fun a => Fin.ext ?_)
  match a with
  | ⟨0, _⟩ => show win0_1.index t (0 : Fin 3) * 4 + 1 * h.val = h.val; rw [e0]; omega
  | ⟨1, _⟩ => show win0_1.index t (1 : Fin 3) * 16 + 1 * k.val = k.val; rw [e1]; omega
  | ⟨2, _⟩ => show win0_1.index t (2 : Fin 3) * 64 + 1 * q.val = q.val; rw [e2]; omega

/-- The bias block at every point is the whole bias row. -/
theorem iblk0_2_apply (c : Dev nD) (t : Fin cfg0.N) (q : Fin 64) :
    (iblk0 V c 2 t : Vec Ideal S1x64 .f32) (ix2 0 q) = (V c main_v75 : Vec Ideal S1x64 .f32) (ix2 0 q) := by
  obtain ⟨-, -, -, -, -, -, e0, e1, -⟩ := idx_facts0 t
  unfold iblk0
  rw [View.read_apply]
  show V c main_v75 _ = V c main_v75 _
  refine congrArg (V c main_v75) (funext fun a => Fin.ext ?_)
  match a with
  | ⟨0, _⟩ => show win0_2.index t (0 : Fin 2) * 1 + 1 * 0 = 0; rw [e0]
  | ⟨1, _⟩ => show win0_2.index t (1 : Fin 2) * 64 + 1 * q.val = q.val; rw [e1]; omega

/-- An entry of the block the body leaves at point `t` is the layer's entry at the array index under it. -/
theorem out0_3_entry (c : Dev nD) (t : Fin cfg0.N) (y : S5000x64.Idx) (i : S100000x64.Idx)
    (h0 : (i 0).val = t.val * 5000 + (y 0).val) (h1 : (i 1).val = (y 1).val) :
    out0_3 (F := Ideal) (iblk0 V c 0 t) (iblk0 V c 1 t) (iblk0 V c 2 t) y
      = layer0 (V c main_v74) (V c main_arg2) (V c main_v75) i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  change r.val = t.val * 5000 + p.val at h0
  change s.val = q.val at h1
  obtain rfl : s = q := Fin.ext h1
  refine (out0_3_apply (iblk0 V c 0 t) (iblk0 V c 1 t) (iblk0 V c 2 t) p s).trans ?_
  rw [layer0_apply]
  exact congr (congr (congrArg comb16 (funext fun h => funext fun k => iblk0_0_apply V c t h p k r h0))
    (funext fun h => funext fun k => iblk0_1_apply V c t h k s)) (iblk0_2_apply V c t s)

/-- What point `t` writes back is block `t` of the layer of the arrays as the region finds them. -/
theorem flushed0_eq (c : Dev nD) (t : Fin cfg0.N) :
    (dat0 (F := Ideal) V c).flushed 3 t
      = ((cfg0.win 3).blk t).view.read (Elt Ideal) (layer0 (V c main_v74) (V c main_arg2) (V c main_v75)) := by
  show (cfg0.win 3).cut (grid0.coords t) ((dat0 V c).after 3 t) = _
  rw [after0_3]
  obtain ⟨-, -, -, -, -, -, -, -, e0, e1⟩ := idx_facts0 t
  funext j
  rw [View.read_apply]
  refine out0_3_entry V c t j _ ?_ ?_
  · show win0_3.index t (0 : Fin 2) * 5000 + 1 * (j 0).val = t.val * 5000 + (j 0).val; rw [e0]; omega
  · show win0_3.index t (1 : Fin 2) * 64 + 1 * (j 1).val = (j 1).val; rw [e1]; omega

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v76).slice (win0_3.rect t)).set ↔ _
  rw [View.set_slice_whole, Rect.mem_set_unit]
  exact Iff.rfl

/-- The output array after the region: the layer of the hop stack, the weights and the bias row as the region finds them.
    Row `r` is written by the point `r / 5000`. -/
theorem final0 (c : Dev nD) :
    (dat0 (F := Ideal) V c).arrAt 3 cfg0.N = layer0 (V c main_v74) (V c main_arg2) (V c main_v75) :=
  (dat0 (F := Ideal) V c).arrAt_eq_of_cover 3 (layer0 (V c main_v74) (V c main_arg2) (V c main_v75))
    (fun t _ => flushed0_eq V c t) (fun i => by
      have hi0 : (i 0).val < 100000 := (i 0).isLt
      have hi1 : (i 1).val < 64 := (i 1).isLt
      have hN : cfg0.N = 20 := rfl
      let t : Fin cfg0.N := ⟨(i 0).val / 5000, by rw [hN]; omega⟩
      obtain ⟨-, -, -, -, -, -, -, -, e0, e1⟩ := idx_facts0 t
      have e0' : win0_3.index t (0 : Fin 2) = (i 0).val / 5000 := e0
      refine ⟨t, flush0_3 t, ?_⟩
      rw [mem_blk0]
      intro a
      match a with
      | ⟨0, _⟩ => show win0_3.index t (0 : Fin 2) * 5000 ≤ (i 0).val ∧ (i 0).val < win0_3.index t (0 : Fin 2) * 5000 + 5000; rw [e0']; omega
      | ⟨1, _⟩ => show win0_3.index t (1 : Fin 2) * 64 ≤ (i 1).val ∧ (i 1).val < win0_3.index t (1 : Fin 2) * 64 + 64; rw [e1]; omega)

end Cert.KernelIdeal.Hand

end
-- ==== Proof.KI.Value64.lean ====
import proofs.«160486_j70574902608023_1_alg».proof.Proof.Gen.KernelIdeal
import Idealize.ShloMosaic.Lib.Pipeline.Value
import Idealize.ShloMosaic.Lib.ValueIdx
import Idealize.ShloMosaic.PureOps.Ideal.Laws

/-!
# The hidden layers' combine kernels: what is common to the three

Regions 1, 2 and 3 run the same body on 64 input features: at the extended reals each `tpu.matmul` into a zero
accumulator is the sum over the 64 features of a hop block's row times a weight column, the four sums are added in
order onto zero and the bias row is added to every row (regions 1 and 2 then take the maximum with zero, region 3
does not).  Here: one matmul of the body at an entry, the loads through the body's rectangles, the bias broadcast, and
the layer as ONE function of the stacked hop array, the stacked weights and the bias row, with and without the maximum.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## One hop's product at an entry of a block of a hidden layer -/

theorem zero2_64 : (![0, 0] : Fin 2 → Nat) = fun _ => 0 := funext fun a => by fin_cases a <;> rfl

theorem mmL64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mmL64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem mmR64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem mmR64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A hop's block times its weight matrix, both read through the leading unit axis and with the operands' change of
    float format the identity on the extended reals: entry `(p, q)` is `∑ₖ A(0,p,k) · B(0,k,q)` over the 64 features. -/
theorem mm64_apply (A : Vec Ideal S1x5000x64 .f32) (B : Vec Ideal S1x64x64 .f32) (p : Fin 5000) (q : Fin 64) :
    (matmul dot_S5000x64_S64x64_S5000x64_1_0_0_1_n_n none
        (truncf .bf16 (shapeCast S5000x64 A shapeCasts_S1x5000x64_S5000x64 : FVec Ideal S5000x64 .f32) bitsLt_bf16_f32 : FVec Ideal S5000x64 .bf16)
        (truncf .bf16 (shapeCast S64x64 B shapeCasts_S1x64x64_S64x64 : FVec Ideal S64x64 .f32) bitsLt_bf16_f32 : FVec Ideal S64x64 .bf16)
        (constant S5000x64 .f32 0x00000000#32) : FVec Ideal S5000x64 .f32) (ix2 p q)
      = ∑ k : Fin 64, A (ix3 0 p k) * B (ix3 0 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = (ix2 p k : S5000x64.Idx) := funext fun a => Fin.ext (by
    match a with
    | ⟨0, _⟩ => exact mmL64_0 _ _
    | ⟨1, _⟩ => exact (mmL64_1 _ _).trans hk)
  have er : dot_S5000x64_S64x64_S5000x64_1_0_0_1_n_n.rhsIdx (ix2 p q) ((contrEquiv1 dot_S5000x64_S64x64_S5000x64_1_0_0_1_n_n 64 rfl rfl).symm k) = (ix2 k q : S64x64.Idx) := funext fun a => Fin.ext (by
    match a with
    | ⟨0, _⟩ => exact (mmR64_0 _ _).trans hk
    | ⟨1, _⟩ => exact mmR64_1 _ _)
  rw [el, er, truncf_apply, truncf_apply]
  rw [shapeCast_apply A shapeCasts_S1x5000x64_S5000x64 (ix2 p k) (ix3 0 p k)
      (by rewrite [Shape.rowMajor_val_three, Shape.rowMajor_val_two]; show (0 * 5000 + p.val) * 64 + k.val = p.val * 64 + k.val; omega),
    shapeCast_apply B shapeCasts_S1x64x64_S64x64 (ix2 k q) (ix3 0 k q)
      (by rewrite [Shape.rowMajor_val_three, Shape.rowMajor_val_two]; show (0 * 64 + k.val) * 64 + q.val = k.val * 64 + q.val; omega)]

/-- A load through the unit-stride rectangle at offset `(o, 0, 0)` reads the hop buffer at `o` on axis 0. -/
theorem ldA64_apply (x0 : Vec Ideal S4x5000x64 .f32) (o : Nat) (ho : o < 4) (inb) (p : Fin 5000) (k : Fin 64) :
    View.ld x0 (Rect.unit (s := S4x5000x64) ![o, 0, 0] S1x5000x64.size inb) (ix3 0 p k) = x0 (ix3 ⟨o, ho⟩ p k) := by
  show x0 _ = x0 _
  refine congrArg x0 (funext fun a => Fin.ext ?_)
  match a with
  | ⟨0, _⟩ => show o + 1 * 0 = o; omega
  | ⟨1, _⟩ => show 0 + 1 * p.val = p.val; omega
  | ⟨2, _⟩ => show 0 + 1 * k.val = k.val; omega

/-- The same for the stacked weights. -/
theorem ldB64_apply (x1 : Vec Ideal S4x64x64 .f32) (o : Nat) (ho : o < 4) (inb) (k : Fin 64) (q : Fin 64) :
    View.ld x1 (Rect.unit (s := S4x64x64) ![o, 0, 0] S1x64x64.size inb) (ix3 0 k q) = x1 (ix3 ⟨o, ho⟩ k q) := by
  show x1 _ = x1 _
  refine congrArg x1 (funext fun a => Fin.ext ?_)
  match a with
  | ⟨0, _⟩ => show o + 1 * 0 = o; omega
  | ⟨1, _⟩ => show 0 + 1 * k.val = k.val; omega
  | ⟨2, _⟩ => show 0 + 1 * q.val = q.val; omega

/-- The bias row, loaded whole, broadcast down the block's rows. -/
theorem bias64_apply (x2 : Vec Ideal S1x64 .f32) (p : Fin 5000) (q : Fin 64) :
    (broadcastTo S5000x64 (shapeCast S1x64 (View.ld x2 (Rect.unit (s := S1x64) ![0, 0] S1x64.size inb_S1x64_S1x64_0_0)) shapeCasts_S1x64_S1x64 : FVec Ideal S1x64 .f32) broadcasts_S1x64_S5000x64 : FVec Ideal S5000x64 .f32) (ix2 p q)
      = x2 (ix2 0 q) := by
  have e : (View.ld x2 (Rect.unit (s := S1x64) ![0, 0] S1x64.size inb_S1x64_S1x64_0_0) : Vec Ideal S1x64 .f32) = x2 := View.ld_unit_zero (S := S1x64) zero2_64 inb_S1x64_S1x64_0_0 x2
  refine (broadcastTo_apply (s := S1x64) (t := S5000x64) _ broadcasts_S1x64_S5000x64 (ix2 p q) (ix2 0 q) (fun a => match a with
    | ⟨0, _⟩ => rfl
    | ⟨1, _⟩ => rfl)).trans ?_
  exact (congrFun (shapeCast_self (s := S1x64) _ shapeCasts_S1x64_S1x64) _).trans (congrFun e _)

/-! ## A hidden layer as one function of the arrays -/

/-- The combination at one entry before the maximum: the four hops' products added in order, then the bias. -/
def lin64c (H : Fin 4 → Fin 64 → EReal) (W : Fin 4 → Fin 64 → EReal) (b : EReal) : EReal :=
  ((((∑ k : Fin 64, H 0 k * W 0 k) + ∑ k : Fin 64, H 1 k * W 1 k) + ∑ k : Fin 64, H 2 k * W 2 k) + ∑ k : Fin 64, H 3 k * W 3 k) + b

/-- Row `r`, column `q` of a hidden layer without the maximum: `∑ₖ H₀[r,k]·W₀[k,q] + … + ∑ₖ H₃[r,k]·W₃[k,q] + b[q]` over the
    stacked hop arrays `H`, the stacked weights `W` and the bias row `b`. -/
def layerL64 (H : Vec Ideal S4x100000x64 .f32) (W : Vec Ideal S4x64x64 .f32) (b : Vec Ideal S1x64 .f32) : Vec Ideal S100000x64 .f32 :=
  fun i => lin64c (fun h k => H (ix3 h (i 0 : Fin 100000) k)) (fun h k => W (ix3 h k (i 1 : Fin 64))) (b (ix2 0 (i 1 : Fin 64)))

/-- The same followed by the maximum with zero. -/
def layerR64 (H : Vec Ideal S4x100000x64 .f32) (W : Vec Ideal S4x64x64 .f32) (b : Vec Ideal S1x64 .f32) : Vec Ideal S100000x64 .f32 :=
  fun i => max (layerL64 H W b i) 0

theorem layerL64_apply (H : Vec Ideal S4x100000x64 .f32) (W : Vec Ideal S4x64x64 .f32) (b : Vec Ideal S1x64 .f32) (r : Fin 100000) (q : Fin 64) :
    layerL64 H W b (ix2 r q) = lin64c (fun h k => H (ix3 h r k)) (fun h k => W (ix3 h k q)) (b (ix2 0 q)) := rfl

theorem layerR64_apply (H : Vec Ideal S4x100000x64 .f32) (W : Vec Ideal S4x64x64 .f32) (b : Vec Ideal S1x64 .f32) (r : Fin 100000) (q : Fin 64) :
    layerR64 H W b (ix2 r q) = max (lin64c (fun h k => H (ix3 h r k)) (fun h k => W (ix3 h k q)) (b (ix2 0 q))) 0 := rfl

end Cert.KernelIdeal.Hand

end
-- ==== Proof.KI.Value1.lean ====
import proofs.«160486_j70574902608023_1_alg».proof.Proof.KI.Region1
import proofs.«160486_j70574902608023_1_alg».proof.Proof.KI.Value64
import Idealize.ShloMosaic.Lib.Pipeline.Value
import Idealize.ShloMosaic.Lib.ValueIdx
import Idealize.ShloMosaic.PureOps.Ideal.Laws

/-!
# Region 1: the value of the first hidden layer's combine kernel

The hop blocks and the output block at grid point `t` are rows `5000 t … 5000 t + 4999` of their arrays, the weights
and the bias are read whole at every point, and the body's result at an entry of the block is the four sums over the
64 features added in order, plus the bias, under a maximum with zero.  So every block the kernel writes back is the restriction
of one function of the three arrays, the twenty blocks tile the output's rows (row `r` is in block `r / 5000`), and the
output array ends holding that function of the arrays as the region finds them.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's result at an entry of the block -/

/-- The output block after the body, at entry `(p, q)`, over the three input blocks. -/
theorem out1_3_apply (x0 : Vec Ideal S4x5000x64 .f32) (x1 : Vec Ideal S4x64x64 .f32) (x2 : Vec Ideal S1x64 .f32) (p : Fin 5000) (q : Fin 64) :
    out1_3 (F := Ideal) x0 x1 x2 (ix2 p q)
      = max (lin64c (fun h k => x0 (ix3 h p k)) (fun h k => x1 (ix3 h k q)) (x2 (ix2 0 q))) 0 := by
  unfold out1_3
  rw [View.canon_unit_zero zero2_64]
  unfold k1_pay1 k1_pay2 k1_pay3 k1_pay4 lin64c
  simp only [maximumf_apply, addf_apply, broadcast_apply]
  have e0 : (Scalar.ofBits .f32 0x00000000#32 : Ideal .f32) = 0 := Ideal.ofBits_zero_f32
  refine congrArg₂ max (congrArg₂ (· + ·) (congrArg₂ (· + ·) (congrArg₂ (· + ·) (congrArg₂ (· + ·) ?_ ?_) ?_) ?_) ?_) e0
  · refine (congrArg₂ (· + ·) e0 (mm64_apply _ _ p q)).trans ((zero_add _).trans ?_)
    exact Finset.sum_congr rfl fun k _ => congrArg₂ (· * ·) (ldA64_apply x0 0 (by decide) _ p k) (ldB64_apply x1 0 (by decide) _ k q)
  · refine (mm64_apply _ _ p q).trans ?_
    exact Finset.sum_congr rfl fun k _ => congrArg₂ (· * ·) (ldA64_apply x0 1 (by decide) _ p k) (ldB64_apply x1 1 (by decide) _ k q)
  · refine (mm64_apply _ _ p q).trans ?_
    exact Finset.sum_congr rfl fun k _ => congrArg₂ (· * ·) (ldA64_apply x0 2 (by decide) _ p k) (ldB64_apply x1 2 (by decide) _ k q)
  · refine (mm64_apply _ _ p q).trans ?_
    exact Finset.sum_congr rfl fun k _ => congrArg₂ (· * ·) (ldA64_apply x0 3 (by decide) _ p k) (ldB64_apply x1 3 (by decide) _ k q)
  · exact bias64_apply x2 p q

/-! ## The blocks as restrictions of the layer -/

variable (V : (c : Dev nD) → (b : Ref sig .tc) → Buf (Elt Ideal) ((c : Thread nD τ).loc b))

/-- The printed index maps over the grid: the hop blocks and the output block move down the rows with the point,
    the weights and the bias stay. -/
theorem idx_facts1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The hop block at point `t` is rows `5000 t … 5000 t + 4999` of every hop array. -/
theorem iblk1_0_apply (c : Dev nD) (t : Fin cfg1.N) (h : Fin 4) (p : Fin 5000) (k : Fin 64) (r : Fin 100000)
    (hr : r.val = t.val * 5000 + p.val) :
    (iblk1 V c 0 t : Vec Ideal S4x5000x64 .f32) (ix3 h p k) = (V c main_v120 : Vec Ideal S4x100000x64 .f32) (ix3 h r k) := by
  obtain ⟨e0, e1, e2, -⟩ := idx_facts1 t
  unfold iblk1
  rw [View.read_apply]
  show V c main_v120 _ = V c main_v120 _
  refine congrArg (V c main_v120) (funext fun a => Fin.ext ?_)
  match a with
  | ⟨0, _⟩ => show win1_0.index t (0 : Fin 3) * 4 + 1 * h.val = h.val; rw [e0]; omega
  | ⟨1, _⟩ => show win1_0.index t (1 : Fin 3) * 5000 + 1 * p.val = r.val; rw [e1, hr]; omega
  | ⟨2, _⟩ => show win1_0.index t (2 : Fin 3) * 64 + 1 * k.val = k.val; rw [e2]; omega

/-- The weights' block at every point is the whole stacked weight array. -/
theorem iblk1_1_apply (c : Dev nD) (t : Fin cfg1.N) (h : Fin 4) (k : Fin 64) (q : Fin 64) :
    (iblk1 V c 1 t : Vec Ideal S4x64x64 .f32) (ix3 h k q) = (V c main_v122 : Vec Ideal S4x64x64 .f32) (ix3 h k q) := by
  obtain ⟨-, -, -, e0, e1, e2, -⟩ := idx_facts1 t
  unfold iblk1
  rw [View.read_apply]
  show V c main_v122 _ = V c main_v122 _
  refine congrArg (V c main_v122) (funext fun a => Fin.ext ?_)
  match a with
  | ⟨0, _⟩ => show win1_1.index t (0 : Fin 3) * 4 + 1 * h.val = h.val; rw [e0]; omega
  | ⟨1, _⟩ => show win1_1.index t (1 : Fin 3) * 64 + 1 * k.val = k.val; rw [e1]; omega
  | ⟨2, _⟩ => show win1_1.index t (2 : Fin 3) * 64 + 1 * q.val = q.val; rw [e2]; omega

/-- The bias block at every point is the whole bias row. -/
theorem iblk1_2_apply (c : Dev nD) (t : Fin cfg1.N) (q : Fin 64) :
    (iblk1 V c 2 t : Vec Ideal S1x64 .f32) (ix2 0 q) = (V c main_v125 : Vec Ideal S1x64 .f32) (ix2 0 q) := by
  obtain ⟨-, -, -, -, -, -, e0, e1, -⟩ := idx_facts1 t
  unfold iblk1
  rw [View.read_apply]
  show V c main_v125 _ = V c main_v125 _
  refine congrArg (V c main_v125) (funext fun a => Fin.ext ?_)
  match a with
  | ⟨0, _⟩ => show win1_2.index t (0 : Fin 2) * 1 + 1 * 0 = 0; rw [e0]
  | ⟨1, _⟩ => show win1_2.index t (1 : Fin 2) * 64 + 1 * q.val = q.val; rw [e1]; omega

/-- An entry of the block the body leaves at point `t` is the layer's entry at the array index under it. -/
theorem out1_3_entry (c : Dev nD) (t : Fin cfg1.N) (y : S5000x64.Idx) (i : S100000x64.Idx)
    (h0 : (i 0).val = t.val * 5000 + (y 0).val) (h1 : (i 1).val = (y 1).val) :
    out1_3 (F := Ideal) (iblk1 V c 0 t) (iblk1 V c 1 t) (iblk1 V c 2 t) y
      = layerR64 (V c main_v120) (V c main_v122) (V c main_v125) i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  change r.val = t.val * 5000 + p.val at h0
  change s.val = q.val at h1
  obtain rfl : s = q := Fin.ext h1
  refine (out1_3_apply (iblk1 V c 0 t) (iblk1 V c 1 t) (iblk1 V c 2 t) p s).trans ?_
  rw [layerR64_apply]
  exact congrArg (max · 0) (congr (congr (congrArg lin64c (funext fun h => funext fun k => iblk1_0_apply V c t h p k r h0))
    (funext fun h => funext fun k => iblk1_1_apply V c t h k s)) (iblk1_2_apply V c t s))

/-- What point `t` writes back is block `t` of the layer of the arrays as the region finds them. -/
theorem flushed1_eq (c : Dev nD) (t : Fin cfg1.N) :
    (dat1 (F := Ideal) V c).flushed 3 t
      = ((cfg1.win 3).blk t).view.read (Elt Ideal) (layerR64 (V c main_v120) (V c main_v122) (V c main_v125)) := by
  show (cfg1.win 3).cut (grid1.coords t) ((dat1 V c).after 3 t) = _
  rw [after1_3]
  obtain ⟨-, -, -, -, -, -, -, -, e0, e1⟩ := idx_facts1 t
  funext j
  rw [View.read_apply]
  refine out1_3_entry V c t j _ ?_ ?_
  · show win1_3.index t (0 : Fin 2) * 5000 + 1 * (j 0).val = t.val * 5000 + (j 0).val; rw [e0]; omega
  · show win1_3.index t (1 : Fin 2) * 64 + 1 * (j 1).val = (j 1).val; rw [e1]; omega

/-- An index of the output array is in point `t`'s block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v126).slice (win1_3.rect t)).set ↔ _
  rw [View.set_slice_whole, Rect.mem_set_unit]
  exact Iff.rfl

/-- The output array after the region: the layer of the hop stack, the weights and the bias row as the region finds them.
    Row `r` is written by the point `r / 5000`. -/
theorem final1 (c : Dev nD) :
    (dat1 (F := Ideal) V c).arrAt 3 cfg1.N = layerR64 (V c main_v120) (V c main_v122) (V c main_v125) :=
  (dat1 (F := Ideal) V c).arrAt_eq_of_cover 3 (layerR64 (V c main_v120) (V c main_v122) (V c main_v125))
    (fun t _ => flushed1_eq V c t) (fun i => by
      have hi0 : (i 0).val < 100000 := (i 0).isLt
      have hi1 : (i 1).val < 64 := (i 1).isLt
      have hN : cfg1.N = 20 := rfl
      let t : Fin cfg1.N := ⟨(i 0).val / 5000, by rw [hN]; omega⟩
      obtain ⟨-, -, -, -, -, -, -, -, e0, e1⟩ := idx_facts1 t
      have e0' : win1_3.index t (0 : Fin 2) = (i 0).val / 5000 := e0
      refine ⟨t, flush1_3 t, ?_⟩
      rw [mem_blk1]
      intro a
      match a with
      | ⟨0, _⟩ => show win1_3.index t (0 : Fin 2) * 5000 ≤ (i 0).val ∧ (i 0).val < win1_3.index t (0 : Fin 2) * 5000 + 5000; rw [e0']; omega
      | ⟨1, _⟩ => show win1_3.index t (1 : Fin 2) * 64 ≤ (i 1).val ∧ (i 1).val < win1_3.index t (1 : Fin 2) * 64 + 64; rw [e1]; omega)

end Cert.KernelIdeal.Hand

end
-- ==== Proof.KI.Value2.lean ====
import proofs.«160486_j70574902608023_1_alg».proof.Proof.KI.Region2
import proofs.«160486_j70574902608023_1_alg».proof.Proof.KI.Value64
import Idealize.ShloMosaic.Lib.Pipeline.Value
import Idealize.ShloMosaic.Lib.ValueIdx
import Idealize.ShloMosaic.PureOps.Ideal.Laws

/-!
# Region 2: the value of the second hidden layer's combine kernel

The hop blocks and the output block at grid point `t` are rows `5000 t … 5000 t + 4999` of their arrays, the weights
and the bias are read whole at every point, and the body's result at an entry of the block is the four sums over the
64 features added in order, plus the bias, under a maximum with zero.  So every block the kernel writes back is the restriction
of one function of the three arrays, the twenty blocks tile the output's rows (row `r` is in block `r / 5000`), and the
output array ends holding that function of the arrays as the region finds them.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's result at an entry of the block -/

/-- The output block after the body, at entry `(p, q)`, over the three input blocks. -/
theorem out2_3_apply (x0 : Vec Ideal S4x5000x64 .f32) (x1 : Vec Ideal S4x64x64 .f32) (x2 : Vec Ideal S1x64 .f32) (p : Fin 5000) (q : Fin 64) :
    out2_3 (F := Ideal) x0 x1 x2 (ix2 p q)
      = max (lin64c (fun h k => x0 (ix3 h p k)) (fun h k => x1 (ix3 h k q)) (x2 (ix2 0 q))) 0 := by
  unfold out2_3
  rw [View.canon_unit_zero zero2_64]
  unfold k2_pay1 k2_pay2 k2_pay3 k2_pay4 lin64c
  simp only [maximumf_apply, addf_apply, broadcast_apply]
  have e0 : (Scalar.ofBits .f32 0x00000000#32 : Ideal .f32) = 0 := Ideal.ofBits_zero_f32
  refine congrArg₂ max (congrArg₂ (· + ·) (congrArg₂ (· + ·) (congrArg₂ (· + ·) (congrArg₂ (· + ·) ?_ ?_) ?_) ?_) ?_) e0
  · refine (congrArg₂ (· + ·) e0 (mm64_apply _ _ p q)).trans ((zero_add _).trans ?_)
    exact Finset.sum_congr rfl fun k _ => congrArg₂ (· * ·) (ldA64_apply x0 0 (by decide) _ p k) (ldB64_apply x1 0 (by decide) _ k q)
  · refine (mm64_apply _ _ p q).trans ?_
    exact Finset.sum_congr rfl fun k _ => congrArg₂ (· * ·) (ldA64_apply x0 1 (by decide) _ p k) (ldB64_apply x1 1 (by decide) _ k q)
  · refine (mm64_apply _ _ p q).trans ?_
    exact Finset.sum_congr rfl fun k _ => congrArg₂ (· * ·) (ldA64_apply x0 2 (by decide) _ p k) (ldB64_apply x1 2 (by decide) _ k q)
  · refine (mm64_apply _ _ p q).trans ?_
    exact Finset.sum_congr rfl fun k _ => congrArg₂ (· * ·) (ldA64_apply x0 3 (by decide) _ p k) (ldB64_apply x1 3 (by decide) _ k q)
  · exact bias64_apply x2 p q

/-! ## The blocks as restrictions of the layer -/

variable (V : (c : Dev nD) → (b : Ref sig .tc) → Buf (Elt Ideal) ((c : Thread nD τ).loc b))

/-- The printed index maps over the grid: the hop blocks and the output block move down the rows with the point,
    the weights and the bias stay. -/
theorem idx_facts2 : ∀ t : Fin cfg2.N,
    win2_0.index t (0 : Fin 3) = 0 ∧ win2_0.index t (1 : Fin 3) = t.val ∧ win2_0.index t (2 : Fin 3) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The hop block at point `t` is rows `5000 t … 5000 t + 4999` of every hop array. -/
theorem iblk2_0_apply (c : Dev nD) (t : Fin cfg2.N) (h : Fin 4) (p : Fin 5000) (k : Fin 64) (r : Fin 100000)
    (hr : r.val = t.val * 5000 + p.val) :
    (iblk2 V c 0 t : Vec Ideal S4x5000x64 .f32) (ix3 h p k) = (V c main_v170 : Vec Ideal S4x100000x64 .f32) (ix3 h r k) := by
  obtain ⟨e0, e1, e2, -⟩ := idx_facts2 t
  unfold iblk2
  rw [View.read_apply]
  show V c main_v170 _ = V c main_v170 _
  refine congrArg (V c main_v170) (funext fun a => Fin.ext ?_)
  match a with
  | ⟨0, _⟩ => show win2_0.index t (0 : Fin 3) * 4 + 1 * h.val = h.val; rw [e0]; omega
  | ⟨1, _⟩ => show win2_0.index t (1 : Fin 3) * 5000 + 1 * p.val = r.val; rw [e1, hr]; omega
  | ⟨2, _⟩ => show win2_0.index t (2 : Fin 3) * 64 + 1 * k.val = k.val; rw [e2]; omega

/-- The weights' block at every point is the whole stacked weight array. -/
theorem iblk2_1_apply (c : Dev nD) (t : Fin cfg2.N) (h : Fin 4) (k : Fin 64) (q : Fin 64) :
    (iblk2 V c 1 t : Vec Ideal S4x64x64 .f32) (ix3 h k q) = (V c main_v172 : Vec Ideal S4x64x64 .f32) (ix3 h k q) := by
  obtain ⟨-, -, -, e0, e1, e2, -⟩ := idx_facts2 t
  unfold iblk2
  rw [View.read_apply]
  show V c main_v172 _ = V c main_v172 _
  refine congrArg (V c main_v172) (funext fun a => Fin.ext ?_)
  match a with
  | ⟨0, _⟩ => show win2_1.index t (0 : Fin 3) * 4 + 1 * h.val = h.val; rw [e0]; omega
  | ⟨1, _⟩ => show win2_1.index t (1 : Fin 3) * 64 + 1 * k.val = k.val; rw [e1]; omega
  | ⟨2, _⟩ => show win2_1.index t (2 : Fin 3) * 64 + 1 * q.val = q.val; rw [e2]; omega

/-- The bias block at every point is the whole bias row. -/
theorem iblk2_2_apply (c : Dev nD) (t : Fin cfg2.N) (q : Fin 64) :
    (iblk2 V c 2 t : Vec Ideal S1x64 .f32) (ix2 0 q) = (V c main_v175 : Vec Ideal S1x64 .f32) (ix2 0 q) := by
  obtain ⟨-, -, -, -, -, -, e0, e1, -⟩ := idx_facts2 t
  unfold iblk2
  rw [View.read_apply]
  show V c main_v175 _ = V c main_v175 _
  refine congrArg (V c main_v175) (funext fun a => Fin.ext ?_)
  match a with
  | ⟨0, _⟩ => show win2_2.index t (0 : Fin 2) * 1 + 1 * 0 = 0; rw [e0]
  | ⟨1, _⟩ => show win2_2.index t (1 : Fin 2) * 64 + 1 * q.val = q.val; rw [e1]; omega

/-- An entry of the block the body leaves at point `t` is the layer's entry at the array index under it. -/
theorem out2_3_entry (c : Dev nD) (t : Fin cfg2.N) (y : S5000x64.Idx) (i : S100000x64.Idx)
    (h0 : (i 0).val = t.val * 5000 + (y 0).val) (h1 : (i 1).val = (y 1).val) :
    out2_3 (F := Ideal) (iblk2 V c 0 t) (iblk2 V c 1 t) (iblk2 V c 2 t) y
      = layerR64 (V c main_v170) (V c main_v172) (V c main_v175) i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  change r.val = t.val * 5000 + p.val at h0
  change s.val = q.val at h1
  obtain rfl : s = q := Fin.ext h1
  refine (out2_3_apply (iblk2 V c 0 t) (iblk2 V c 1 t) (iblk2 V c 2 t) p s).trans ?_
  rw [layerR64_apply]
  exact congrArg (max · 0) (congr (congr (congrArg lin64c (funext fun h => funext fun k => iblk2_0_apply V c t h p k r h0))
    (funext fun h => funext fun k => iblk2_1_apply V c t h k s)) (iblk2_2_apply V c t s))

/-- What point `t` writes back is block `t` of the layer of the arrays as the region finds them. -/
theorem flushed2_eq (c : Dev nD) (t : Fin cfg2.N) :
    (dat2 (F := Ideal) V c).flushed 3 t
      = ((cfg2.win 3).blk t).view.read (Elt Ideal) (layerR64 (V c main_v170) (V c main_v172) (V c main_v175)) := by
  show (cfg2.win 3).cut (grid2.coords t) ((dat2 V c).after 3 t) = _
  rw [after2_3]
  obtain ⟨-, -, -, -, -, -, -, -, e0, e1⟩ := idx_facts2 t
  funext j
  rw [View.read_apply]
  refine out2_3_entry V c t j _ ?_ ?_
  · show win2_3.index t (0 : Fin 2) * 5000 + 1 * (j 0).val = t.val * 5000 + (j 0).val; rw [e0]; omega
  · show win2_3.index t (1 : Fin 2) * 64 + 1 * (j 1).val = (j 1).val; rw [e1]; omega

/-- An index of the output array is in point `t`'s block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v176).slice (win2_3.rect t)).set ↔ _
  rw [View.set_slice_whole, Rect.mem_set_unit]
  exact Iff.rfl

/-- The output array after the region: the layer of the hop stack, the weights and the bias row as the region finds them.
    Row `r` is written by the point `r / 5000`. -/
theorem final2 (c : Dev nD) :
    (dat2 (F := Ideal) V c).arrAt 3 cfg2.N = layerR64 (V c main_v170) (V c main_v172) (V c main_v175) :=
  (dat2 (F := Ideal) V c).arrAt_eq_of_cover 3 (layerR64 (V c main_v170) (V c main_v172) (V c main_v175))
    (fun t _ => flushed2_eq V c t) (fun i => by
      have hi0 : (i 0).val < 100000 := (i 0).isLt
      have hi1 : (i 1).val < 64 := (i 1).isLt
      have hN : cfg2.N = 20 := rfl
      let t : Fin cfg2.N := ⟨(i 0).val / 5000, by rw [hN]; omega⟩
      obtain ⟨-, -, -, -, -, -, -, -, e0, e1⟩ := idx_facts2 t
      have e0' : win2_3.index t (0 : Fin 2) = (i 0).val / 5000 := e0
      refine ⟨t, flush2_3 t, ?_⟩
      rw [mem_blk2]
      intro a
      match a with
      | ⟨0, _⟩ => show win2_3.index t (0 : Fin 2) * 5000 ≤ (i 0).val ∧ (i 0).val < win2_3.index t (0 : Fin 2) * 5000 + 5000; rw [e0']; omega
      | ⟨1, _⟩ => show win2_3.index t (1 : Fin 2) * 64 ≤ (i 1).val ∧ (i 1).val < win2_3.index t (1 : Fin 2) * 64 + 64; rw [e1]; omega)

end Cert.KernelIdeal.Hand

end
-- ==== Proof.KI.Value3.lean ====
import proofs.«160486_j70574902608023_1_alg».proof.Proof.KI.Region3
import proofs.«160486_j70574902608023_1_alg».proof.Proof.KI.Value64
import Idealize.ShloMosaic.Lib.Pipeline.Value
import Idealize.ShloMosaic.Lib.ValueIdx
import Idealize.ShloMosaic.PureOps.Ideal.Laws

/-!
# Region 3: the value of the last hidden layer's combine kernel

The hop blocks and the output block at grid point `t` are rows `5000 t … 5000 t + 4999` of their arrays, the weights
and the bias are read whole at every point, and the body's result at an entry of the block is the four sums over the
64 features added in order, plus the bias (this region takes no maximum).  So every block the kernel writes back is the restriction
of one function of the three arrays, the twenty blocks tile the output's rows (row `r` is in block `r / 5000`), and the
output array ends holding that function of the arrays as the region finds them.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's result at an entry of the block -/

/-- The output block after the body, at entry `(p, q)`, over the three input blocks. -/
theorem out3_3_apply (x0 : Vec Ideal S4x5000x64 .f32) (x1 : Vec Ideal S4x64x64 .f32) (x2 : Vec Ideal S1x64 .f32) (p : Fin 5000) (q : Fin 64) :
    out3_3 (F := Ideal) x0 x1 x2 (ix2 p q)
      = lin64c (fun h k => x0 (ix3 h p k)) (fun h k => x1 (ix3 h k q)) (x2 (ix2 0 q)) := by
  unfold out3_3
  rw [View.canon_unit_zero zero2_64]
  unfold k3_pay1 k3_pay2 k3_pay3 k3_pay4 lin64c
  simp only [addf_apply, broadcast_apply]
  have e0 : (Scalar.ofBits .f32 0x00000000#32 : Ideal .f32) = 0 := Ideal.ofBits_zero_f32
  refine congrArg₂ (· + ·) (congrArg₂ (· + ·) (congrArg₂ (· + ·) (congrArg₂ (· + ·) ?_ ?_) ?_) ?_) ?_
  · refine (congrArg₂ (· + ·) e0 (mm64_apply _ _ p q)).trans ((zero_add _).trans ?_)
    exact Finset.sum_congr rfl fun k _ => congrArg₂ (· * ·) (ldA64_apply x0 0 (by decide) _ p k) (ldB64_apply x1 0 (by decide) _ k q)
  · refine (mm64_apply _ _ p q).trans ?_
    exact Finset.sum_congr rfl fun k _ => congrArg₂ (· * ·) (ldA64_apply x0 1 (by decide) _ p k) (ldB64_apply x1 1 (by decide) _ k q)
  · refine (mm64_apply _ _ p q).trans ?_
    exact Finset.sum_congr rfl fun k _ => congrArg₂ (· * ·) (ldA64_apply x0 2 (by decide) _ p k) (ldB64_apply x1 2 (by decide) _ k q)
  · refine (mm64_apply _ _ p q).trans ?_
    exact Finset.sum_congr rfl fun k _ => congrArg₂ (· * ·) (ldA64_apply x0 3 (by decide) _ p k) (ldB64_apply x1 3 (by decide) _ k q)
  · exact bias64_apply x2 p q

/-! ## The blocks as restrictions of the layer -/

variable (V : (c : Dev nD) → (b : Ref sig .tc) → Buf (Elt Ideal) ((c : Thread nD τ).loc b))

/-- The printed index maps over the grid: the hop blocks and the output block move down the rows with the point,
    the weights and the bias stay. -/
theorem idx_facts3 : ∀ t : Fin cfg3.N,
    win3_0.index t (0 : Fin 3) = 0 ∧ win3_0.index t (1 : Fin 3) = t.val ∧ win3_0.index t (2 : Fin 3) = 0
    ∧ win3_1.index t (0 : Fin 3) = 0 ∧ win3_1.index t (1 : Fin 3) = 0 ∧ win3_1.index t (2 : Fin 3) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The hop block at point `t` is rows `5000 t … 5000 t + 4999` of every hop array. -/
theorem iblk3_0_apply (c : Dev nD) (t : Fin cfg3.N) (h : Fin 4) (p : Fin 5000) (k : Fin 64) (r : Fin 100000)
    (hr : r.val = t.val * 5000 + p.val) :
    (iblk3 V c 0 t : Vec Ideal S4x5000x64 .f32) (ix3 h p k) = (V c main_v220 : Vec Ideal S4x100000x64 .f32) (ix3 h r k) := by
  obtain ⟨e0, e1, e2, -⟩ := idx_facts3 t
  unfold iblk3
  rw [View.read_apply]
  show V c main_v220 _ = V c main_v220 _
  refine congrArg (V c main_v220) (funext fun a => Fin.ext ?_)
  match a with
  | ⟨0, _⟩ => show win3_0.index t (0 : Fin 3) * 4 + 1 * h.val = h.val; rw [e0]; omega
  | ⟨1, _⟩ => show win3_0.index t (1 : Fin 3) * 5000 + 1 * p.val = r.val; rw [e1, hr]; omega
  | ⟨2, _⟩ => show win3_0.index t (2 : Fin 3) * 64 + 1 * k.val = k.val; rw [e2]; omega

/-- The weights' block at every point is the whole stacked weight array. -/
theorem iblk3_1_apply (c : Dev nD) (t : Fin cfg3.N) (h : Fin 4) (k : Fin 64) (q : Fin 64) :
    (iblk3 V c 1 t : Vec Ideal S4x64x64 .f32) (ix3 h k q) = (V c main_v222 : Vec Ideal S4x64x64 .f32) (ix3 h k q) := by
  obtain ⟨-, -, -, e0, e1, e2, -⟩ := idx_facts3 t
  unfold iblk3
  rw [View.read_apply]
  show V c main_v222 _ = V c main_v222 _
  refine congrArg (V c main_v222) (funext fun a => Fin.ext ?_)
  match a with
  | ⟨0, _⟩ => show win3_1.index t (0 : Fin 3) * 4 + 1 * h.val = h.val; rw [e0]; omega
  | ⟨1, _⟩ => show win3_1.index t (1 : Fin 3) * 64 + 1 * k.val = k.val; rw [e1]; omega
  | ⟨2, _⟩ => show win3_1.index t (2 : Fin 3) * 64 + 1 * q.val = q.val; rw [e2]; omega

/-- The bias block at every point is the whole bias row. -/
theorem iblk3_2_apply (c : Dev nD) (t : Fin cfg3.N) (q : Fin 64) :
    (iblk3 V c 2 t : Vec Ideal S1x64 .f32) (ix2 0 q) = (V c main_v225 : Vec Ideal S1x64 .f32) (ix2 0 q) := by
  obtain ⟨-, -, -, -, -, -, e0, e1, -⟩ := idx_facts3 t
  unfold iblk3
  rw [View.read_apply]
  show V c main_v225 _ = V c main_v225 _
  refine congrArg (V c main_v225) (funext fun a => Fin.ext ?_)
  match a with
  | ⟨0, _⟩ => show win3_2.index t (0 : Fin 2) * 1 + 1 * 0 = 0; rw [e0]
  | ⟨1, _⟩ => show win3_2.index t (1 : Fin 2) * 64 + 1 * q.val = q.val; rw [e1]; omega

/-- An entry of the block the body leaves at point `t` is the layer's entry at the array index under it. -/
theorem out3_3_entry (c : Dev nD) (t : Fin cfg3.N) (y : S5000x64.Idx) (i : S100000x64.Idx)
    (h0 : (i 0).val = t.val * 5000 + (y 0).val) (h1 : (i 1).val = (y 1).val) :
    out3_3 (F := Ideal) (iblk3 V c 0 t) (iblk3 V c 1 t) (iblk3 V c 2 t) y
      = layerL64 (V c main_v220) (V c main_v222) (V c main_v225) i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  change r.val = t.val * 5000 + p.val at h0
  change s.val = q.val at h1
  obtain rfl : s = q := Fin.ext h1
  refine (out3_3_apply (iblk3 V c 0 t) (iblk3 V c 1 t) (iblk3 V c 2 t) p s).trans ?_
  rw [layerL64_apply]
  exact congr (congr (congrArg lin64c (funext fun h => funext fun k => iblk3_0_apply V c t h p k r h0))
    (funext fun h => funext fun k => iblk3_1_apply V c t h k s)) (iblk3_2_apply V c t s)

/-- What point `t` writes back is block `t` of the layer of the arrays as the region finds them. -/
theorem flushed3_eq (c : Dev nD) (t : Fin cfg3.N) :
    (dat3 (F := Ideal) V c).flushed 3 t
      = ((cfg3.win 3).blk t).view.read (Elt Ideal) (layerL64 (V c main_v220) (V c main_v222) (V c main_v225)) := by
  show (cfg3.win 3).cut (grid3.coords t) ((dat3 V c).after 3 t) = _
  rw [after3_3]
  obtain ⟨-, -, -, -, -, -, -, -, e0, e1⟩ := idx_facts3 t
  funext j
  rw [View.read_apply]
  refine out3_3_entry V c t j _ ?_ ?_
  · show win3_3.index t (0 : Fin 2) * 5000 + 1 * (j 0).val = t.val * 5000 + (j 0).val; rw [e0]; omega
  · show win3_3.index t (1 : Fin 2) * 64 + 1 * (j 1).val = (j 1).val; rw [e1]; omega

/-- An index of the output array is in point `t`'s block iff each coordinate is in the block's range on its axis. -/
theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v226).slice (win3_3.rect t)).set ↔ _
  rw [View.set_slice_whole, Rect.mem_set_unit]
  exact Iff.rfl

/-- The output array after the region: the layer of the hop stack, the weights and the bias row as the region finds them.
    Row `r` is written by the point `r / 5000`. -/
theorem final3 (c : Dev nD) :
    (dat3 (F := Ideal) V c).arrAt 3 cfg3.N = layerL64 (V c main_v220) (V c main_v222) (V c main_v225) :=
  (dat3 (F := Ideal) V c).arrAt_eq_of_cover 3 (layerL64 (V c main_v220) (V c main_v222) (V c main_v225))
    (fun t _ => flushed3_eq V c t) (fun i => by
      have hi0 : (i 0).val < 100000 := (i 0).isLt
      have hi1 : (i 1).val < 64 := (i 1).isLt
      have hN : cfg3.N = 20 := rfl
      let t : Fin cfg3.N := ⟨(i 0).val / 5000, by rw [hN]; omega⟩
      obtain ⟨-, -, -, -, -, -, -, -, e0, e1⟩ := idx_facts3 t
      have e0' : win3_3.index t (0 : Fin 2) = (i 0).val / 5000 := e0
      refine ⟨t, flush3_3 t, ?_⟩
      rw [mem_blk3]
      intro a
      match a with
      | ⟨0, _⟩ => show win3_3.index t (0 : Fin 2) * 5000 ≤ (i 0).val ∧ (i 0).val < win3_3.index t (0 : Fin 2) * 5000 + 5000; rw [e0']; omega
      | ⟨1, _⟩ => show win3_3.index t (1 : Fin 2) * 64 ≤ (i 1).val ∧ (i 1).val < win3_3.index t (1 : Fin 2) * 64 + 64; rw [e1]; omega)

end Cert.KernelIdeal.Hand

end
-- ==== Proof.KI.Value4.lean ====
import proofs.«160486_j70574902608023_1_alg».proof.Proof.KI.Region4
import Idealize.ShloMosaic.Lib.Pipeline.Value
import Idealize.ShloMosaic.Lib.ValueIdx
import Idealize.ShloMosaic.Lib.ValueLayout
import Idealize.ShloMosaic.PureOps.Ideal.Laws

/-!
# Region 4 in closed form: the closing affine map, row by row

At the exact values the body's block is `H·W + b` on its 5000 rows: the matrix product into a zero accumulator is the
plain sum over the 64 features, the change of float format before it is the identity, and adding the zero splat changes
nothing.  Point `t` of the grid reads rows `5000·t … 5000·t + 4999` of the features, all of the weights and the bias,
and writes the same rows of the result; the twenty blocks tile the `100000` rows, so after the region the result array
is `layer4` of the three operand arrays as the region found them.
-/

noncomputable section

namespace Cert.KernelIdeal.Hand

open Cert.KernelIdeal Cert.KernelIdeal.Gen
open Idealize.ShloMosaic Idealize.ShloMosaic.TcCoe
open Idealize.ShloMosaic.ValueIdx
open Idealize.ShloMosaic.Pipeline (Dat Cfg Window)

/-- Entry `(r, j)` of the closing affine map: `∑ₖ H[0, r, k] · W[0, k, j] + b[0, j]`. -/
def layer4At (H : Vec Ideal S1x100000x64 .f32) (W : Vec Ideal S1x64x4 .f32) (b : Vec Ideal S1x4 .f32) (r : Fin 100000) (j : Fin 4) : EReal :=
  (∑ k : Fin 64, H (ix3 (0 : Fin 1) r k) * W (ix3 (0 : Fin 1) k j)) + b (ix2 (0 : Fin 1) j)

/-- The closing affine map on whole arrays: every row of `H` times `W`, plus the bias row. -/
def layer4 (H : Vec Ideal S1x100000x64 .f32) (W : Vec Ideal S1x64x4 .f32) (b : Vec Ideal S1x4 .f32) : Vec Ideal S100000x4 .f32 :=
  fun i => layer4At H W b (i 0) (i 1)

theorem zero4_2 : (![0, 0] : Fin 2 → Nat) = fun _ => 0 := funext fun a => by fin_cases a <;> rfl
theorem zero4_3 : (![0, 0, 0] : Fin 3 → Nat) = fun _ => 0 := funext fun a => by fin_cases a <;> rfl

/-- The output block is the body's arithmetic of the three input blocks: the one store covers the block, and each load reads a whole block. -/
theorem out4_3_eq {F : FTy → Type} [FloatOps F] (x0 : Vec F S1x5000x64 .f32) (x1 : Vec F S1x64x4 .f32) (x2 : Vec F S1x4 .f32) :
    out4_3 x0 x1 x2 = k4_pay1 x0 x1 x2 := by
  unfold out4_3
  rw [View.canon_unit_zero zero4_2]
  simp only [View.ld_unit_zero (S := S1x5000x64) zero4_3, View.ld_unit_zero (S := S1x64x4) zero4_3, View.ld_unit_zero (S := S1x4) zero4_2]

/-! ## The body's arithmetic at an entry -/

theorem lhs4_0 (i : S5000x4.Idx) (q : dot_S5000x64_S64x4_S5000x4_1_0_0_1_n_n.contr.Idx) :
    (dot_S5000x64_S64x4_S5000x4_1_0_0_1_n_n.lhsIdx i q 0).val = (i 0).val := by
  unfold DotDims.lhsIdx
  rw [dif_neg (show ¬(0 : Fin S5000x64.rank) ∈ dot_S5000x64_S64x4_S5000x4_1_0_0_1_n_n.lhsBatch by decide), dif_pos (show (0 : Fin S5000x64.rank) ∈ dot_S5000x64_S64x4_S5000x4_1_0_0_1_n_n.lhsNonContracting by decide)]
  rfl
theorem lhs4_1 (i : S5000x4.Idx) (q : dot_S5000x64_S64x4_S5000x4_1_0_0_1_n_n.contr.Idx) :
    (dot_S5000x64_S64x4_S5000x4_1_0_0_1_n_n.lhsIdx i q 1).val = (q ⟨0, by decide⟩).val :=
  dot_S5000x64_S64x4_S5000x4_1_0_0_1_n_n.lhsIdx_val_of_single rfl i q
theorem rhs4_0 (i : S5000x4.Idx) (q : dot_S5000x64_S64x4_S5000x4_1_0_0_1_n_n.contr.Idx) :
    (dot_S5000x64_S64x4_S5000x4_1_0_0_1_n_n.rhsIdx i q 0).val = (q ⟨0, by decide⟩).val :=
  dot_S5000x64_S64x4_S5000x4_1_0_0_1_n_n.rhsIdx_val_of_single rfl i q
theorem rhs4_1 (i : S5000x4.Idx) (q : dot_S5000x64_S64x4_S5000x4_1_0_0_1_n_n.contr.Idx) :
    (dot_S5000x64_S64x4_S5000x4_1_0_0_1_n_n.rhsIdx i q 1).val = (i 1).val := by
  unfold DotDims.rhsIdx
  rw [dif_neg (show ¬(1 : Fin S64x4.rank) ∈ dot_S5000x64_S64x4_S5000x4_1_0_0_1_n_n.rhsBatch by decide), dif_pos (show (1 : Fin S64x4.rank) ∈ dot_S5000x64_S64x4_S5000x4_1_0_0_1_n_n.rhsNonContracting by decide)]
  rfl

/-- The block's matrix product into the zero accumulator, at `(p, q)`: the sum over the 64 features of the left
    operand's row `p` times the right operand's column `q`. -/
theorem matmul4_apply {φ₁ φ₂ : FTy} (l : FVec Ideal S5000x64 φ₁) (r : FVec Ideal S64x4 φ₂) (p : Fin 5000) (q : Fin 4) :
    matmul dot_S5000x64_S64x4_S5000x4_1_0_0_1_n_n none l r (constant S5000x4 .f32 0x00000000#32) (ix2 p q)
      = ∑ k : Fin 64, l (ix2 p k) * r (ix2 k q) := by
  refine (Ideal.matmul_constant_zero_apply dot_S5000x64_S64x4_S5000x4_1_0_0_1_n_n none l r (ix2 p q)).trans ?_
  rw [← Equiv.sum_comp (contrEquiv1 dot_S5000x64_S64x4_S5000x4_1_0_0_1_n_n 64 rfl rfl).symm]
  refine Finset.sum_congr rfl fun k _ => ?_
  have hk := contrEquiv1_symm_val dot_S5000x64_S64x4_S5000x4_1_0_0_1_n_n 64 rfl rfl k
  have el : dot_S5000x64_S64x4_S5000x4_1_0_0_1_n_n.lhsIdx (ix2 p q) ((contrEquiv1 dot_S5000x64_S64x4_S5000x4_1_0_0_1_n_n 64 rfl rfl).symm k) = ix2 p k := funext fun a => Fin.ext (by
    match a with
    | ⟨0, _⟩ => exact lhs4_0 _ _
    | ⟨1, _⟩ => exact (lhs4_1 _ _).trans hk)
  have er : dot_S5000x64_S64x4_S5000x4_1_0_0_1_n_n.rhsIdx (ix2 p q) ((contrEquiv1 dot_S5000x64_S64x4_S5000x4_1_0_0_1_n_n 64 rfl rfl).symm k) = ix2 k q := funext fun a => Fin.ext (by
    match a with
    | ⟨0, _⟩ => exact (rhs4_0 _ _).trans hk
    | ⟨1, _⟩ => exact rhs4_1 _ _)
  rw [el, er]

/-- The body's arithmetic at entry `(p, q)` of the block: row `p` of the feature block times column `q` of the weights, plus the bias. -/
theorem pay4_apply (x0 : Vec Ideal S1x5000x64 .f32) (x1 : Vec Ideal S1x64x4 .f32) (x2 : Vec Ideal S1x4 .f32) (p : Fin 5000) (q : Fin 4) :
    k4_pay1 (F := Ideal) x0 x1 x2 (ix2 p q)
      = (∑ k : Fin 64, x0 (ix3 (0 : Fin 1) p k) * x1 (ix3 (0 : Fin 1) k q)) + x2 (ix2 (0 : Fin 1) q) := by
  unfold k4_pay1
  rw [addf_apply, addf_apply, broadcast_apply, matmul4_apply, broadcastTo_1b_ab_apply, shapeCast_self]
  refine congrArg₂ (· + ·) ?_ rfl
  show Ideal.ofBits .f32 0x00000000#32 + _ = _
  rw [Ideal.ofBits_zero_f32, zero_add]
  refine Finset.sum_congr rfl fun k _ => ?_
  rw [truncf_apply, truncf_apply, shapeCast_1ab_ab_apply, shapeCast_1ab_ab_apply]

/-! ## From blocks to the array -/

variable (V : (c : Dev nD) → (b : Ref sig .tc) → Buf (Elt Ideal) ((c : Thread nD τ).loc b))

/-- The printed index maps over the grid: point `t` fetches block `(0, t, 0)` of the features, block zero of the
    weights and of the bias, and writes block `(t, 0)` of the result. -/
theorem idx_facts4 : ∀ t : Fin cfg4.N,
    win4_0.index t (0 : Fin 3) = 0 ∧ win4_0.index t (1 : Fin 3) = t.val ∧ win4_0.index t (2 : Fin 3) = 0
    ∧ win4_1.index t (0 : Fin 3) = 0 ∧ win4_1.index t (1 : Fin 3) = 0 ∧ win4_1.index t (2 : Fin 3) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row `p` of the feature block at point `t` is row `5000·t + p` of the feature array. -/
theorem iblk4_0_apply (c : Dev nD) (t : Fin cfg4.N) (p : Fin 5000) (k : Fin 64) (r : Fin 100000) (hr : r.val = t.val * 5000 + p.val) :
    iblk4 V c 0 t (ix3 (0 : Fin 1) p k) = (V c main_v227 : S1x100000x64.Idx → EReal) (ix3 (0 : Fin 1) r k) := by
  obtain ⟨e00, e01, e02, -⟩ := idx_facts4 t
  show (V c main_v227 : S1x100000x64.Idx → EReal) (((cfg4.win 0).blk t).view.emb (ix3 (0 : Fin 1) p k)) = _
  refine congrArg _ (funext fun a => Fin.ext ?_)
  match a with
  | ⟨0, _⟩ => show win4_0.index t (0 : Fin 3) * 1 + 1 * 0 = 0; omega
  | ⟨1, _⟩ => show win4_0.index t (1 : Fin 3) * 5000 + 1 * p.val = r.val; omega
  | ⟨2, _⟩ => show win4_0.index t (2 : Fin 3) * 64 + 1 * k.val = k.val; omega

/-- The weight block at every point is the weight array. -/
theorem iblk4_1_apply (c : Dev nD) (t : Fin cfg4.N) (k : Fin 64) (q : Fin 4) :
    iblk4 V c 1 t (ix3 (0 : Fin 1) k q) = (V c main_v228 : S1x64x4.Idx → EReal) (ix3 (0 : Fin 1) k q) := by
  obtain ⟨-, -, -, e10, e11, e12, -⟩ := idx_facts4 t
  show (V c main_v228 : S1x64x4.Idx → EReal) (((cfg4.win 1).blk t).view.emb (ix3 (0 : Fin 1) k q)) = _
  refine congrArg _ (funext fun a => Fin.ext ?_)
  match a with
  | ⟨0, _⟩ => show win4_1.index t (0 : Fin 3) * 1 + 1 * 0 = 0; omega
  | ⟨1, _⟩ => show win4_1.index t (1 : Fin 3) * 64 + 1 * k.val = k.val; omega
  | ⟨2, _⟩ => show win4_1.index t (2 : Fin 3) * 4 + 1 * q.val = q.val; omega

/-- The bias block at every point is the bias array. -/
theorem iblk4_2_apply (c : Dev nD) (t : Fin cfg4.N) (q : Fin 4) :
    iblk4 V c 2 t (ix2 (0 : Fin 1) q) = (V c main_v229 : S1x4.Idx → EReal) (ix2 (0 : Fin 1) q) := by
  obtain ⟨-, -, -, -, -, -, e20, e21, -⟩ := idx_facts4 t
  show (V c main_v229 : S1x4.Idx → EReal) (((cfg4.win 2).blk t).view.emb (ix2 (0 : Fin 1) q)) = _
  refine congrArg _ (funext fun a => Fin.ext ?_)
  match a with
  | ⟨0, _⟩ => show win4_2.index t (0 : Fin 2) * 1 + 1 * 0 = 0; omega
  | ⟨1, _⟩ => show win4_2.index t (1 : Fin 2) * 4 + 1 * q.val = q.val; omega

/-- What point `t` writes back is block `t` of the closing affine map of the three arrays as the region finds them. -/
theorem flushed4_eq (c : Dev nD) (t : Fin cfg4.N) :
    (dat4 (F := Ideal) V c).flushed 3 t
      = ((cfg4.win 3).blk t).view.read (Elt Ideal) (layer4 (V c main_v227) (V c main_v228) (V c main_v229)) := by
  show (cfg4.win 3).cut (grid4.coords t) ((dat4 V c).after 3 t) = _
  rw [after4_3, out4_3_eq]
  obtain ⟨-, -, -, -, -, -, -, -, e30, e31⟩ := idx_facts4 t
  have ht : t.val < 20 := lt_of_lt_of_eq t.isLt N_4
  funext j
  obtain ⟨p, q, rfl⟩ : ∃ (p : Fin 5000) (q : Fin 4), j = ix2 p q := ⟨j 0, j 1, eq_ix2 j⟩
  have hr : t.val * 5000 + p.val < 100000 := by have := p.isLt; omega
  have hemb : ((cfg4.win 3).blk t).view.emb (ix2 p q) = ix2 (⟨t.val * 5000 + p.val, hr⟩ : Fin 100000) q :=
    funext fun a => Fin.ext (by
      match a with
      | ⟨0, _⟩ => show win4_3.index t (0 : Fin 2) * 5000 + 1 * p.val = t.val * 5000 + p.val; omega
      | ⟨1, _⟩ => show win4_3.index t (1 : Fin 2) * 4 + 1 * q.val = q.val; omega)
  show k4_pay1 (F := Ideal) (iblk4 V c 0 t) (iblk4 V c 1 t) (iblk4 V c 2 t) (ix2 p q)
    = layer4 (V c main_v227) (V c main_v228) (V c main_v229) (((cfg4.win 3).blk t).view.emb (ix2 p q))
  rw [hemb]
  refine (pay4_apply (iblk4 V c 0 t) (iblk4 V c 1 t) (iblk4 V c 2 t) p q).trans ?_
  show _ = layer4At (V c main_v227) (V c main_v228) (V c main_v229) ⟨t.val * 5000 + p.val, hr⟩ q
  unfold layer4At
  exact congrArg₂ (· + ·)
    (Finset.sum_congr rfl fun k _ => congrArg₂ (· * ·) (iblk4_0_apply V c t p k _ rfl) (iblk4_1_apply V c t k q))
    (iblk4_2_apply V c t q)

/-- An index of the result array is in point `t`'s block iff each coordinate is in the block's range on its axis. -/
theorem mem_blk4 (t : Fin cfg4.N) (i : S100000x4.Idx) :
    i ∈ ((cfg4.win 3).blk t).view.set ↔ ∀ a : Fin 2, win4_3.index t a * S5000x4.size a ≤ (i a).val ∧ (i a).val < win4_3.index t a * S5000x4.size a + S5000x4.size a := by
  show i ∈ ((View.whole main_v230).slice (win4_3.rect t)).set ↔ _
  rw [View.set_slice_whole, Rect.mem_set_unit]
  exact Iff.rfl

/-- Every point writes back, and row `r` of the result lies in the block of point `r / 5000`: the twenty blocks tile the array. -/
theorem cover4 (i : S100000x4.Idx) : ∃ t : Fin cfg4.N, (cfg4.win 3).flush t = true ∧ i ∈ ((cfg4.win 3).blk t).view.set := by
  have hi0 : (i 0).val < 100000 := (i 0).isLt
  have hi1 : (i 1).val < 4 := (i 1).isLt
  have hN : cfg4.N = 20 := N_4
  let t : Fin cfg4.N := ⟨(i 0).val / 5000, by rw [hN]; omega⟩
  obtain ⟨-, -, -, -, -, -, -, -, e30, e31⟩ := idx_facts4 t
  have e30' : win4_3.index t (0 : Fin 2) = (i 0).val / 5000 := e30
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 4 ≤ (i 1).val ∧ (i 1).val < win4_3.index t (1 : Fin 2) * 4 + 4; omega

/-- The result array after the region: the closing affine map of the three operand arrays as the region finds them. -/
theorem final4 (c : Dev nD) :
    (dat4 (F := Ideal) V c).arrAt 3 cfg4.N = layer4 (V c main_v227) (V c main_v228) (V c main_v229) :=
  (dat4 (F := Ideal) V c).arrAt_eq_of_cover 3 (layer4 (V c main_v227) (V c main_v228) (V c main_v229))
    (fun t _ => flushed4_eq V c t) cover4

end Cert.KernelIdeal.Hand

end
-- ==== Proof.Bridge0.lean ====
import proofs.«160486_j70574902608023_1_alg».proof.Proof.KI.Value0
import proofs.«160486_j70574902608023_1_alg».proof.Proof.Shape
import Idealize.ShloMosaic.Lib.Pipeline.Value
import Idealize.ShloMosaic.Lib.ValueIdx
import Idealize.ShloMosaic.PureOps.Ideal.Laws

/-!
# Region 0 against the reference's first layer

The kernel's first pallas region, read as one function of its operand arrays (`layer0`), applied to the operands the
program builds for it — the four hop arrays stacked along a new leading axis, the stacked weights, the bias as a
one-row array — is the reference's `max(h₀·W₀ + h₁·W₁ + h₂·W₂ + h₃·W₃ + b, 0)`.  Entry `(r, q)` of either side is
`max(∑ₖ h₀[r,k]·W[0,k,q] + ∑ₖ h₁[r,k]·W[1,k,q] + ∑ₖ h₂[r,k]·W[2,k,q] + ∑ₖ h₃[r,k]·W[3,k,q] + b[q], 0)` with the
additions grouped from the left: on the reference's side the host's `dot_general` is that sum over the 16 input
features, its weight slices and reshapes pick slab `o` of the stack, and its two broadcasts put `b[q]` on every row;
on the kernel's side slab `o` of the stacked hops is hop `o`.  No law of the extended reals beyond this reading is used.
-/

set_option maxRecDepth 16384

noncomputable section

namespace Cert.Bridge.Ref

open Cert.ReferenceIdeal Cert.ReferenceIdeal.Gen Idealize.ShloMosaic Idealize.ShloMosaic.ValueIdx

/-! ## The reference's layer at an entry -/

theorem dgL16_0 (i : S100000x64.Idx) (q : dot_S100000x16_S16x64_S100000x64_1_0_0_1_n_n.contr.Idx) :
    (dot_S100000x16_S16x64_S100000x64_1_0_0_1_n_n.lhsIdx i q 0).val = (i 0).val := by
  unfold DotDims.lhsIdx
  rw [dif_neg (show ¬(0 : Fin S100000x16.rank) ∈ dot_S100000x16_S16x64_S100000x64_1_0_0_1_n_n.lhsBatch by decide), dif_pos (show (0 : Fin S100000x16.rank) ∈ dot_S100000x16_S16x64_S100000x64_1_0_0_1_n_n.lhsNonContracting by decide)]
  rfl
theorem dgL16_1 (i : S100000x64.Idx) (q : dot_S100000x16_S16x64_S100000x64_1_0_0_1_n_n.contr.Idx) :
    (dot_S100000x16_S16x64_S100000x64_1_0_0_1_n_n.lhsIdx i q 1).val = (q ⟨0, by decide⟩).val :=
  dot_S100000x16_S16x64_S100000x64_1_0_0_1_n_n.lhsIdx_val_of_single rfl i q
theorem dgR16_0 (i : S100000x64.Idx) (q : dot_S100000x16_S16x64_S100000x64_1_0_0_1_n_n.contr.Idx) :
    (dot_S100000x16_S16x64_S100000x64_1_0_0_1_n_n.rhsIdx i q 0).val = (q ⟨0, by decide⟩).val :=
  dot_S100000x16_S16x64_S100000x64_1_0_0_1_n_n.rhsIdx_val_of_single rfl i q
theorem dgR16_1 (i : S100000x64.Idx) (q : dot_S100000x16_S16x64_S100000x64_1_0_0_1_n_n.contr.Idx) :
    (dot_S100000x16_S16x64_S100000x64_1_0_0_1_n_n.rhsIdx i q 1).val = (i 1).val := by
  unfold DotDims.rhsIdx
  rw [dif_neg (show ¬(1 : Fin S16x64.rank) ∈ dot_S100000x16_S16x64_S100000x64_1_0_0_1_n_n.rhsBatch by decide), dif_pos (show (1 : Fin S16x64.rank) ∈ dot_S100000x16_S16x64_S100000x64_1_0_0_1_n_n.rhsNonContracting by decide)]
  rfl

/-- The host's product of a hop array and a weight matrix at entry `(r, q)`: the sum over the 16 input features. -/
theorem dg16_apply (h : FVec Ideal S100000x16 .f32) (w : FVec Ideal S16x64 .f32) (r : Fin 100000) (q : Fin 64) :
    (Host.dotGeneral (F := Ideal) dot_S100000x16_S16x64_S100000x64_1_0_0_1_n_n none h w : FVec Ideal S100000x64 .f32) (ix2 r q)
      = ∑ k : Fin 16, h (ix2 r k) * w (ix2 k q) := by
  simp only [Host.dotGeneral]
  rw [Ideal.dotGeneral_apply, ← Equiv.sum_comp (contrEquiv1 dot_S100000x16_S16x64_S100000x64_1_0_0_1_n_n 16 rfl rfl).symm]
  refine Finset.sum_congr rfl fun k _ => ?_
  have hk := contrEquiv1_symm_val dot_S100000x16_S16x64_S100000x64_1_0_0_1_n_n 16 rfl rfl k
  have el : dot_S100000x16_S16x64_S100000x64_1_0_0_1_n_n.lhsIdx (ix2 r q) ((contrEquiv1 dot_S100000x16_S16x64_S100000x64_1_0_0_1_n_n 16 rfl rfl).symm k) = (ix2 r k : S100000x16.Idx) := funext fun a => Fin.ext (by
    match a with
    | ⟨0, _⟩ => exact dgL16_0 _ _
    | ⟨1, _⟩ => exact (dgL16_1 _ _).trans hk)
  have er : dot_S100000x16_S16x64_S100000x64_1_0_0_1_n_n.rhsIdx (ix2 r q) ((contrEquiv1 dot_S100000x16_S16x64_S100000x64_1_0_0_1_n_n 16 rfl rfl).symm k) = (ix2 k q : S16x64.Idx) := funext fun a => Fin.ext (by
    match a with
    | ⟨0, _⟩ => exact (dgR16_0 _ _).trans hk
    | ⟨1, _⟩ => exact dgR16_1 _ _)
  rw [el, er]

/-- Hop `o`'s weight matrix is slab `o` of the stacked weights. -/
theorem w16_apply (W : Vec Ideal S4x16x64 .f32) (o : Nat) (ho : o < 4) (hs : S4x16x64.Slices ![o, 0, 0] S1x16x64) (k : Fin 16) (q : Fin 64) :
    (shapeCast S16x64 (extractStridedSlice S1x16x64 ![o, 0, 0] W hs) shapeCasts_S1x16x64_S16x64 : Vec Ideal S16x64 .f32) (ix2 k q)
      = W (ix3 ⟨o, ho⟩ k q) := by
  refine (shapeCast_apply _ shapeCasts_S1x16x64_S16x64 (ix2 k q) (ix3 0 k q)
    (by rewrite [Shape.rowMajor_val_three, Shape.rowMajor_val_two]; show (0 * 16 + k.val) * 64 + q.val = k.val * 64 + q.val; omega)).trans ?_
  exact extractStridedSlice_apply ![o, 0, 0] W hs (ix3 0 k q) (ix3 ⟨o, ho⟩ k q) (fun a => match a with
    | ⟨0, _⟩ => by show o = o + 0; omega
    | ⟨1, _⟩ => by show k.val = 0 + k.val; omega
    | ⟨2, _⟩ => by show q.val = 0 + q.val; omega)

/-- The bias added to every row. -/
theorem biasRows64_apply (b : Vec Ideal S64 .f32) (r : Fin 100000) (q : Fin 64) :
    Cert.Shape.biasRows64 (F := Ideal) b (ix2 r q) = b (ix1 q) := by
  unfold Cert.Shape.biasRows64
  refine (broadcastInDim_apply ![0, 1] bcast_S1x64_S100000x64_0_1 _ (ix2 r q) (ix2 0 q) (fun a => match a with
    | ⟨0, _⟩ => rfl
    | ⟨1, _⟩ => rfl)).trans ?_
  exact broadcastInDim_apply ![1] bcast_S64_S1x64_1 b (ix2 0 q) (ix1 q) (fun a => match a with
    | ⟨0, _⟩ => rfl)

/-- The first layer's combination before the maximum, at an entry. -/
theorem lin16_apply (h0 h1 h2 h3 : Vec Ideal S100000x16 .f32) (W : Vec Ideal S4x16x64 .f32) (b : Vec Ideal S64 .f32) (r : Fin 100000) (q : Fin 64) :
    Cert.Shape.lin16 (F := Ideal) h0 h1 h2 h3 W b (ix2 r q)
      = ((((∑ k : Fin 16, h0 (ix2 r k) * W (ix3 0 k q)) + ∑ k : Fin 16, h1 (ix2 r k) * W (ix3 1 k q)) + ∑ k : Fin 16, h2 (ix2 r k) * W (ix3 2 k q))
          + ∑ k : Fin 16, h3 (ix2 r k) * W (ix3 3 k q)) + b (ix1 q) := by
  unfold Cert.Shape.lin16
  simp only [addf_apply]
  refine congrArg₂ (· + ·) (congrArg₂ (· + ·) (congrArg₂ (· + ·) (congrArg₂ (· + ·) ?_ ?_) ?_) ?_) (biasRows64_apply b r q)
  · exact (dg16_apply h0 _ r q).trans (Finset.sum_congr rfl fun k _ => congrArg (h0 (ix2 r k) * ·) (w16_apply W 0 (by decide) _ k q))
  · exact (dg16_apply h1 _ r q).trans (Finset.sum_congr rfl fun k _ => congrArg (h1 (ix2 r k) * ·) (w16_apply W 1 (by decide) _ k q))
  · exact (dg16_apply h2 _ r q).trans (Finset.sum_congr rfl fun k _ => congrArg (h2 (ix2 r k) * ·) (w16_apply W 2 (by decide) _ k q))
  · exact (dg16_apply h3 _ r q).trans (Finset.sum_congr rfl fun k _ => congrArg (h3 (ix2 r k) * ·) (w16_apply W 3 (by decide) _ k q))

/-- The maximum with zero at an entry. -/
theorem relu64_apply (y : Vec Ideal S100000x64 .f32) (i : S100000x64.Idx) :
    Cert.Shape.relu64 (F := Ideal) y i = max (y i) 0 := by
  unfold Cert.Shape.relu64
  rw [maximumf_apply]
  refine congrArg (max (y i)) ?_
  refine (broadcastInDim_apply ![] bcast_S_S100000x64 (constant (F := Ideal) S_ .f32 0x00000000#32) i ix0 (fun a => a.elim0)).trans ?_
  exact Ideal.ofBits_zero_f32

end Cert.Bridge.Ref

namespace Cert.Bridge

open Cert.KernelIdeal Cert.KernelIdeal.Gen Cert.KernelIdeal.Hand Idealize.ShloMosaic Idealize.ShloMosaic.ValueIdx

/-! ## The kernel's operands as @main builds them, at an entry -/

/-- A hop array given a leading unit axis. -/
theorem lead16_apply (h : Vec Ideal S100000x16 .f32) (r : Fin 100000) (k : Fin 16) :
    (broadcastInDim S1x100000x16 ![1, 2] bcast_S100000x16_S1x100000x16_1_2 h : Vec Ideal S1x100000x16 .f32) (ix3 0 r k) = h (ix2 r k) :=
  broadcastInDim_apply ![1, 2] bcast_S100000x16_S1x100000x16_1_2 h (ix3 0 r k) (ix2 r k) (fun a => match a with
    | ⟨0, _⟩ => rfl
    | ⟨1, _⟩ => rfl)

/-- The four hop arrays stacked along a new leading axis: slab `o` is hop `o`. -/
theorem stack16_apply (u0 u1 u2 u3 : Vec Ideal S1x100000x16 .f32) (r : Fin 100000) (k : Fin 16) :
    (concatenate S4x100000x16 0 [⟨S1x100000x16, u0⟩, ⟨S1x100000x16, u1⟩, ⟨S1x100000x16, u2⟩, ⟨S1x100000x16, u3⟩] concatenates_S1x100000x16_S1x100000x16_S1x100000x16_S1x100000x16_S4x100000x16_d0 : Vec Ideal S4x100000x16 .f32) (ix3 0 r k) = u0 (ix3 0 r k)
    ∧ (concatenate S4x100000x16 0 [⟨S1x100000x16, u0⟩, ⟨S1x100000x16, u1⟩, ⟨S1x100000x16, u2⟩, ⟨S1x100000x16, u3⟩] concatenates_S1x100000x16_S1x100000x16_S1x100000x16_S1x100000x16_S4x100000x16_d0 : Vec Ideal S4x100000x16 .f32) (ix3 1 r k) = u1 (ix3 0 r k)
    ∧ (concatenate S4x100000x16 0 [⟨S1x100000x16, u0⟩, ⟨S1x100000x16, u1⟩, ⟨S1x100000x16, u2⟩, ⟨S1x100000x16, u3⟩] concatenates_S1x100000x16_S1x100000x16_S1x100000x16_S1x100000x16_S4x100000x16_d0 : Vec Ideal S4x100000x16 .f32) (ix3 2 r k) = u2 (ix3 0 r k)
    ∧ (concatenate S4x100000x16 0 [⟨S1x100000x16, u0⟩, ⟨S1x100000x16, u1⟩, ⟨S1x100000x16, u2⟩, ⟨S1x100000x16, u3⟩] concatenates_S1x100000x16_S1x100000x16_S1x100000x16_S1x100000x16_S4x100000x16_d0 : Vec Ideal S4x100000x16 .f32) (ix3 3 r k) = u3 (ix3 0 r k) := by
  have hi : ∀ (o : Fin 4) (b : Fin S1x100000x16.rank), b.cast (rfl : S1x100000x16.rank = S4x100000x16.rank) ≠ (0 : Fin S4x100000x16.rank) →
      ((ix3 0 r k : S1x100000x16.Idx) b).val = ((ix3 o r k : S4x100000x16.Idx) (b.cast rfl)).val := fun o b => match b with
    | ⟨0, _⟩ => fun h => absurd rfl h
    | ⟨1, _⟩ => fun _ => rfl
    | ⟨2, _⟩ => fun _ => rfl
  refine ⟨?_, ?_, ?_, ?_⟩
  · exact concatenate_apply_piece (0 : Fin S4x100000x16.rank) [⟨S1x100000x16, u0⟩, ⟨S1x100000x16, u1⟩, ⟨S1x100000x16, u2⟩, ⟨S1x100000x16, u3⟩] concatenates_S1x100000x16_S1x100000x16_S1x100000x16_S1x100000x16_S4x100000x16_d0 (ix3 0 r k)
      0 (by show (0 : Nat) < 4; omega) S1x100000x16 u0 rfl rfl 0 rfl (ix3 0 r k) (hi 0) rfl
  · exact concatenate_apply_piece (0 : Fin S4x100000x16.rank) [⟨S1x100000x16, u0⟩, ⟨S1x100000x16, u1⟩, ⟨S1x100000x16, u2⟩, ⟨S1x100000x16, u3⟩] concatenates_S1x100000x16_S1x100000x16_S1x100000x16_S1x100000x16_S4x100000x16_d0 (ix3 1 r k)
      1 (by show (1 : Nat) < 4; omega) S1x100000x16 u1 rfl rfl 1 rfl (ix3 0 r k) (hi 1) rfl
  · exact concatenate_apply_piece (0 : Fin S4x100000x16.rank) [⟨S1x100000x16, u0⟩, ⟨S1x100000x16, u1⟩, ⟨S1x100000x16, u2⟩, ⟨S1x100000x16, u3⟩] concatenates_S1x100000x16_S1x100000x16_S1x100000x16_S1x100000x16_S4x100000x16_d0 (ix3 2 r k)
      2 (by show (2 : Nat) < 4; omega) S1x100000x16 u2 rfl rfl 2 rfl (ix3 0 r k) (hi 2) rfl
  · exact concatenate_apply_piece (0 : Fin S4x100000x16.rank) [⟨S1x100000x16, u0⟩, ⟨S1x100000x16, u1⟩, ⟨S1x100000x16, u2⟩, ⟨S1x100000x16, u3⟩] concatenates_S1x100000x16_S1x100000x16_S1x100000x16_S1x100000x16_S4x100000x16_d0 (ix3 3 r k)
      3 (by show (3 : Nat) < 4; omega) S1x100000x16 u3 rfl rfl 3 rfl (ix3 0 r k) (hi 3) rfl

/-- The bias vector viewed as a one-row array. -/
theorem row64_apply (b : Vec Ideal S64 .f32) (q : Fin 64) :
    (shapeCast S1x64 b shapeCasts_S64_S1x64 : Vec Ideal S1x64 .f32) (ix2 0 q) = b (ix1 q) :=
  shapeCast_apply b shapeCasts_S64_S1x64 (ix2 0 q) (ix1 q)
    (by rewrite [Shape.rowMajor_val_one, Shape.rowMajor_val_two]; show q.val = 0 * 64 + q.val; omega)

/-- **Region 0 against the reference's first layer.**  The kernel's layer on the operands @main builds (the four hop arrays
    stacked along a new leading axis, the stacked weights, the bias as a one-row array) is the reference's
    `max(h₀·W₀ + h₁·W₁ + h₂·W₂ + h₃·W₃ + b, 0)`: entry by entry both are the same four sums over the input features added
    in the same order, then the bias, then the maximum with zero. -/
theorem bridge0 (h0 h1 h2 h3 : Vec Ideal Cert.KernelIdeal.S100000x16 .f32) (W : Vec Ideal Cert.KernelIdeal.S4x16x64 .f32) (b : Vec Ideal Cert.KernelIdeal.S64 .f32) :
    layer0 (concatenate S4x100000x16 0 [⟨S1x100000x16, broadcastInDim S1x100000x16 ![1, 2] bcast_S100000x16_S1x100000x16_1_2 h0⟩, ⟨S1x100000x16, broadcastInDim S1x100000x16 ![1, 2] bcast_S100000x16_S1x100000x16_1_2 h1⟩, ⟨S1x100000x16, broadcastInDim S1x100000x16 ![1, 2] bcast_S100000x16_S1x100000x16_1_2 h2⟩, ⟨S1x100000x16, broadcastInDim S1x100000x16 ![1, 2] bcast_S100000x16_S1x100000x16_1_2 h3⟩] concatenates_S1x100000x16_S1x100000x16_S1x100000x16_S1x100000x16_S4x100000x16_d0)
        W (shapeCast S1x64 b shapeCasts_S64_S1x64)
      = Cert.Shape.relu64 (Cert.Shape.lin16 (F := Ideal) h0 h1 h2 h3 W b) := by
  funext i
  obtain ⟨r, q, rfl⟩ : ∃ (r : Fin 100000) (q : Fin 64), i = ix2 r q := ⟨i 0, i 1, eq_ix2 i⟩
  refine (layer0_apply _ _ _ r q).trans (Eq.trans ?_ (Ref.relu64_apply _ _).symm)
  refine Eq.trans ?_ (congrArg (max · 0) (Ref.lin16_apply h0 h1 h2 h3 W b r q).symm)
  unfold comb16
  have hs := fun k => stack16_apply (broadcastInDim S1x100000x16 ![1, 2] bcast_S100000x16_S1x100000x16_1_2 h0)
    (broadcastInDim S1x100000x16 ![1, 2] bcast_S100000x16_S1x100000x16_1_2 h1)
    (broadcastInDim S1x100000x16 ![1, 2] bcast_S100000x16_S1x100000x16_1_2 h2)
    (broadcastInDim S1x100000x16 ![1, 2] bcast_S100000x16_S1x100000x16_1_2 h3) r k
  refine congrArg (max · 0) (congrArg₂ (· + ·) (congrArg₂ (· + ·) (congrArg₂ (· + ·) (congrArg₂ (· + ·) ?_ ?_) ?_) ?_) (row64_apply b q))
  · exact Finset.sum_congr rfl fun k _ => congrArg (· * W (ix3 0 k q)) ((hs k).1.trans (lead16_apply h0 r k))
  · exact Finset.sum_congr rfl fun k _ => congrArg (· * W (ix3 1 k q)) ((hs k).2.1.trans (lead16_apply h1 r k))
  · exact Finset.sum_congr rfl fun k _ => congrArg (· * W (ix3 2 k q)) ((hs k).2.2.1.trans (lead16_apply h2 r k))
  · exact Finset.sum_congr rfl fun k _ => congrArg (· * W (ix3 3 k q)) ((hs k).2.2.2.trans (lead16_apply h3 r k))

end Cert.Bridge

end
-- ==== Proof.Bridge1.lean ====
import proofs.«160486_j70574902608023_1_alg».proof.Proof.KI.Value64
import proofs.«160486_j70574902608023_1_alg».proof.Proof.Bridge0
import Idealize.ShloMosaic.Lib.Pipeline.Value
import Idealize.ShloMosaic.Lib.ValueIdx
import Idealize.ShloMosaic.PureOps.Ideal.Laws

/-!
# Regions 1 and 2 against the reference's hidden layers

The hidden layers' pallas regions, read as one function of their operand arrays (`layerR64`: with the maximum), applied
to the operands the program builds — the four hop arrays stacked along a new leading axis, the stacked weights, the bias
as a one-row array — are the reference's `max(h₀·W₀ + h₁·W₁ + h₂·W₂ + h₃·W₃ + b, 0)`.  Entry `(r, q)` of either side is
`max(∑ₖ h₀[r,k]·W[0,k,q] + ∑ₖ h₁[r,k]·W[1,k,q] + ∑ₖ h₂[r,k]·W[2,k,q] + ∑ₖ h₃[r,k]·W[3,k,q] + b[q], 0)`, the sums over the 64
features, the additions grouped from the left on both sides; nothing beyond reading both sides at an entry is used.
-/

set_option maxRecDepth 16384

noncomputable section

namespace Cert.Bridge.Ref

open Cert.ReferenceIdeal Cert.ReferenceIdeal.Gen Idealize.ShloMosaic Idealize.ShloMosaic.ValueIdx

/-! ## The reference's hidden layer at an entry -/

theorem dgL64_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem dgL64_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem dgR64_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem dgR64_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The host's product of a hop array and a weight matrix at entry `(r, q)`: the sum over the 64 input features. -/
theorem dg64_apply (h : FVec Ideal S100000x64 .f32) (w : FVec Ideal S64x64 .f32) (r : Fin 100000) (q : Fin 64) :
    (Host.dotGeneral (F := Ideal) dot_S100000x64_S64x64_S100000x64_1_0_0_1_n_n none h w : FVec Ideal S100000x64 .f32) (ix2 r q)
      = ∑ k : Fin 64, h (ix2 r k) * w (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r q) ((contrEquiv1 dot_S100000x64_S64x64_S100000x64_1_0_0_1_n_n 64 rfl rfl).symm k) = (ix2 r k : S100000x64.Idx) := funext fun a => Fin.ext (by
    match a with
    | ⟨0, _⟩ => exact dgL64_0 _ _
    | ⟨1, _⟩ => exact (dgL64_1 _ _).trans hk)
  have er : dot_S100000x64_S64x64_S100000x64_1_0_0_1_n_n.rhsIdx (ix2 r q) ((contrEquiv1 dot_S100000x64_S64x64_S100000x64_1_0_0_1_n_n 64 rfl rfl).symm k) = (ix2 k q : S64x64.Idx) := funext fun a => Fin.ext (by
    match a with
    | ⟨0, _⟩ => exact (dgR64_0 _ _).trans hk
    | ⟨1, _⟩ => exact dgR64_1 _ _)
  rw [el, er]

/-- Hop `o`'s weight matrix is slab `o` of the stacked weights. -/
theorem w64_apply (W : Vec Ideal S4x64x64 .f32) (o : Nat) (ho : o < 4) (hs : S4x64x64.Slices ![o, 0, 0] S1x64x64) (k : Fin 64) (q : Fin 64) :
    (shapeCast S64x64 (extractStridedSlice S1x64x64 ![o, 0, 0] W hs) shapeCasts_S1x64x64_S64x64 : Vec Ideal S64x64 .f32) (ix2 k q)
      = W (ix3 ⟨o, ho⟩ k q) := by
  refine (shapeCast_apply _ shapeCasts_S1x64x64_S64x64 (ix2 k q) (ix3 0 k q)
    (by rewrite [Shape.rowMajor_val_three, Shape.rowMajor_val_two]; show (0 * 64 + k.val) * 64 + q.val = k.val * 64 + q.val; omega)).trans ?_
  exact extractStridedSlice_apply ![o, 0, 0] W hs (ix3 0 k q) (ix3 ⟨o, ho⟩ k q) (fun a => match a with
    | ⟨0, _⟩ => by show o = o + 0; omega
    | ⟨1, _⟩ => by show k.val = 0 + k.val; omega
    | ⟨2, _⟩ => by show q.val = 0 + q.val; omega)

/-- A hidden layer's combination before the maximum, at an entry. -/
theorem lin64_apply (h0 h1 h2 h3 : Vec Ideal S100000x64 .f32) (W : Vec Ideal S4x64x64 .f32) (b : Vec Ideal S64 .f32) (r : Fin 100000) (q : Fin 64) :
    Cert.Shape.lin64 (F := Ideal) h0 h1 h2 h3 W b (ix2 r q)
      = ((((∑ k : Fin 64, h0 (ix2 r k) * W (ix3 0 k q)) + ∑ k : Fin 64, h1 (ix2 r k) * W (ix3 1 k q)) + ∑ k : Fin 64, h2 (ix2 r k) * W (ix3 2 k q))
          + ∑ k : Fin 64, h3 (ix2 r k) * W (ix3 3 k q)) + b (ix1 q) := by
  unfold Cert.Shape.lin64
  simp only [addf_apply]
  refine congrArg₂ (· + ·) (congrArg₂ (· + ·) (congrArg₂ (· + ·) (congrArg₂ (· + ·) ?_ ?_) ?_) ?_) (biasRows64_apply b r q)
  · exact (dg64_apply h0 _ r q).trans (Finset.sum_congr rfl fun k _ => congrArg (h0 (ix2 r k) * ·) (w64_apply W 0 (by decide) _ k q))
  · exact (dg64_apply h1 _ r q).trans (Finset.sum_congr rfl fun k _ => congrArg (h1 (ix2 r k) * ·) (w64_apply W 1 (by decide) _ k q))
  · exact (dg64_apply h2 _ r q).trans (Finset.sum_congr rfl fun k _ => congrArg (h2 (ix2 r k) * ·) (w64_apply W 2 (by decide) _ k q))
  · exact (dg64_apply h3 _ r q).trans (Finset.sum_congr rfl fun k _ => congrArg (h3 (ix2 r k) * ·) (w64_apply W 3 (by decide) _ k q))

end Cert.Bridge.Ref

namespace Cert.Bridge

open Cert.KernelIdeal Cert.KernelIdeal.Gen Cert.KernelIdeal.Hand Idealize.ShloMosaic Idealize.ShloMosaic.ValueIdx

/-! ## A hidden layer's operands as @main builds them, at an entry -/

/-- A hop array given a leading unit axis. -/
theorem lead64_apply (h : Vec Ideal S100000x64 .f32) (r : Fin 100000) (k : Fin 64) :
    (broadcastInDim S1x100000x64 ![1, 2] bcast_S100000x64_S1x100000x64_1_2 h : Vec Ideal S1x100000x64 .f32) (ix3 0 r k) = h (ix2 r k) :=
  broadcastInDim_apply ![1, 2] bcast_S100000x64_S1x100000x64_1_2 h (ix3 0 r k) (ix2 r k) (fun a => match a with
    | ⟨0, _⟩ => rfl
    | ⟨1, _⟩ => rfl)

/-- The four hop arrays stacked along a new leading axis: slab `o` is hop `o`. -/
theorem stack64_apply (u0 u1 u2 u3 : Vec Ideal S1x100000x64 .f32) (r : Fin 100000) (k : Fin 64) :
    (concatenate S4x100000x64 0 [⟨S1x100000x64, u0⟩, ⟨S1x100000x64, u1⟩, ⟨S1x100000x64, u2⟩, ⟨S1x100000x64, u3⟩] concatenates_S1x100000x64_S1x100000x64_S1x100000x64_S1x100000x64_S4x100000x64_d0 : Vec Ideal S4x100000x64 .f32) (ix3 0 r k) = u0 (ix3 0 r k)
    ∧ (concatenate S4x100000x64 0 [⟨S1x100000x64, u0⟩, ⟨S1x100000x64, u1⟩, ⟨S1x100000x64, u2⟩, ⟨S1x100000x64, u3⟩] concatenates_S1x100000x64_S1x100000x64_S1x100000x64_S1x100000x64_S4x100000x64_d0 : Vec Ideal S4x100000x64 .f32) (ix3 1 r k) = u1 (ix3 0 r k)
    ∧ (concatenate S4x100000x64 0 [⟨S1x100000x64, u0⟩, ⟨S1x100000x64, u1⟩, ⟨S1x100000x64, u2⟩, ⟨S1x100000x64, u3⟩] concatenates_S1x100000x64_S1x100000x64_S1x100000x64_S1x100000x64_S4x100000x64_d0 : Vec Ideal S4x100000x64 .f32) (ix3 2 r k) = u2 (ix3 0 r k)
    ∧ (concatenate S4x100000x64 0 [⟨S1x100000x64, u0⟩, ⟨S1x100000x64, u1⟩, ⟨S1x100000x64, u2⟩, ⟨S1x100000x64, u3⟩] concatenates_S1x100000x64_S1x100000x64_S1x100000x64_S1x100000x64_S4x100000x64_d0 : Vec Ideal S4x100000x64 .f32) (ix3 3 r k) = u3 (ix3 0 r k) := by
  have hi : ∀ (o : Fin 4) (b : Fin S1x100000x64.rank), b.cast (rfl : S1x100000x64.rank = S4x100000x64.rank) ≠ (0 : Fin S4x100000x64.rank) →
      ((ix3 0 r k : S1x100000x64.Idx) b).val = ((ix3 o r k : S4x100000x64.Idx) (b.cast rfl)).val := fun o b => match b with
    | ⟨0, _⟩ => fun h => absurd rfl h
    | ⟨1, _⟩ => fun _ => rfl
    | ⟨2, _⟩ => fun _ => rfl
  refine ⟨?_, ?_, ?_, ?_⟩
  · exact concatenate_apply_piece (0 : Fin S4x100000x64.rank) [⟨S1x100000x64, u0⟩, ⟨S1x100000x64, u1⟩, ⟨S1x100000x64, u2⟩, ⟨S1x100000x64, u3⟩] concatenates_S1x100000x64_S1x100000x64_S1x100000x64_S1x100000x64_S4x100000x64_d0 (ix3 0 r k)
      0 (by show (0 : Nat) < 4; omega) S1x100000x64 u0 rfl rfl 0 rfl (ix3 0 r k) (hi 0) rfl
  · exact concatenate_apply_piece (0 : Fin S4x100000x64.rank) [⟨S1x100000x64, u0⟩, ⟨S1x100000x64, u1⟩, ⟨S1x100000x64, u2⟩, ⟨S1x100000x64, u3⟩] concatenates_S1x100000x64_S1x100000x64_S1x100000x64_S1x100000x64_S4x100000x64_d0 (ix3 1 r k)
      1 (by show (1 : Nat) < 4; omega) S1x100000x64 u1 rfl rfl 1 rfl (ix3 0 r k) (hi 1) rfl
  · exact concatenate_apply_piece (0 : Fin S4x100000x64.rank) [⟨S1x100000x64, u0⟩, ⟨S1x100000x64, u1⟩, ⟨S1x100000x64, u2⟩, ⟨S1x100000x64, u3⟩] concatenates_S1x100000x64_S1x100000x64_S1x100000x64_S1x100000x64_S4x100000x64_d0 (ix3 2 r k)
      2 (by show (2 : Nat) < 4; omega) S1x100000x64 u2 rfl rfl 2 rfl (ix3 0 r k) (hi 2) rfl
  · exact concatenate_apply_piece (0 : Fin S4x100000x64.rank) [⟨S1x100000x64, u0⟩, ⟨S1x100000x64, u1⟩, ⟨S1x100000x64, u2⟩, ⟨S1x100000x64, u3⟩] concatenates_S1x100000x64_S1x100000x64_S1x100000x64_S1x100000x64_S4x100000x64_d0 (ix3 3 r k)
      3 (by show (3 : Nat) < 4; omega) S1x100000x64 u3 rfl rfl 3 rfl (ix3 0 r k) (hi 3) rfl

/-- The kernel's combination before the maximum, on the operands @main builds, is the reference's, entry by entry. -/
theorem lin64_entry (h0 h1 h2 h3 : Vec Ideal Cert.KernelIdeal.S100000x64 .f32) (W : Vec Ideal Cert.KernelIdeal.S4x64x64 .f32) (b : Vec Ideal Cert.KernelIdeal.S64 .f32)
    (r : Fin 100000) (q : Fin 64) :
    lin64c (fun h k => (concatenate S4x100000x64 0 [⟨S1x100000x64, broadcastInDim S1x100000x64 ![1, 2] bcast_S100000x64_S1x100000x64_1_2 h0⟩, ⟨S1x100000x64, broadcastInDim S1x100000x64 ![1, 2] bcast_S100000x64_S1x100000x64_1_2 h1⟩, ⟨S1x100000x64, broadcastInDim S1x100000x64 ![1, 2] bcast_S100000x64_S1x100000x64_1_2 h2⟩, ⟨S1x100000x64, broadcastInDim S1x100000x64 ![1, 2] bcast_S100000x64_S1x100000x64_1_2 h3⟩] concatenates_S1x100000x64_S1x100000x64_S1x100000x64_S1x100000x64_S4x100000x64_d0 : Vec Ideal S4x100000x64 .f32) (ix3 h r k))
        (fun h k => W (ix3 h k q)) ((shapeCast S1x64 b shapeCasts_S64_S1x64 : Vec Ideal S1x64 .f32) (ix2 0 q))
      = Cert.Shape.lin64 (F := Ideal) h0 h1 h2 h3 W b (ix2 r q) := by
  refine Eq.trans ?_ (Ref.lin64_apply h0 h1 h2 h3 W b r q).symm
  unfold lin64c
  have hs := fun k => stack64_apply (broadcastInDim S1x100000x64 ![1, 2] bcast_S100000x64_S1x100000x64_1_2 h0) (broadcastInDim S1x100000x64 ![1, 2] bcast_S100000x64_S1x100000x64_1_2 h1) (broadcastInDim S1x100000x64 ![1, 2] bcast_S100000x64_S1x100000x64_1_2 h2) (broadcastInDim S1x100000x64 ![1, 2] bcast_S100000x64_S1x100000x64_1_2 h3) r k
  refine congrArg₂ (· + ·) (congrArg₂ (· + ·) (congrArg₂ (· + ·) (congrArg₂ (· + ·) ?_ ?_) ?_) ?_) (row64_apply b q)
  · exact Finset.sum_congr rfl fun k _ => congrArg (· * W (ix3 0 k q)) ((hs k).1.trans (lead64_apply h0 r k))
  · exact Finset.sum_congr rfl fun k _ => congrArg (· * W (ix3 1 k q)) ((hs k).2.1.trans (lead64_apply h1 r k))
  · exact Finset.sum_congr rfl fun k _ => congrArg (· * W (ix3 2 k q)) ((hs k).2.2.1.trans (lead64_apply h2 r k))
  · exact Finset.sum_congr rfl fun k _ => congrArg (· * W (ix3 3 k q)) ((hs k).2.2.2.trans (lead64_apply h3 r k))

/-- **Regions 1 and 2 against the reference's hidden layers.**  The kernel's layer with the maximum, on the operands @main
    builds (the four hop arrays stacked along a new leading axis, the stacked weights, the bias as a one-row array), is the
    reference's `max(h₀·W₀ + h₁·W₁ + h₂·W₂ + h₃·W₃ + b, 0)`: entry by entry the same four sums over the 64 features added in the
    same order, the bias, the maximum with zero. -/
theorem bridge64R (h0 h1 h2 h3 : Vec Ideal Cert.KernelIdeal.S100000x64 .f32) (W : Vec Ideal Cert.KernelIdeal.S4x64x64 .f32) (b : Vec Ideal Cert.KernelIdeal.S64 .f32) :
    layerR64 (concatenate S4x100000x64 0 [⟨S1x100000x64, broadcastInDim S1x100000x64 ![1, 2] bcast_S100000x64_S1x100000x64_1_2 h0⟩, ⟨S1x100000x64, broadcastInDim S1x100000x64 ![1, 2] bcast_S100000x64_S1x100000x64_1_2 h1⟩, ⟨S1x100000x64, broadcastInDim S1x100000x64 ![1, 2] bcast_S100000x64_S1x100000x64_1_2 h2⟩, ⟨S1x100000x64, broadcastInDim S1x100000x64 ![1, 2] bcast_S100000x64_S1x100000x64_1_2 h3⟩] concatenates_S1x100000x64_S1x100000x64_S1x100000x64_S1x100000x64_S4x100000x64_d0)
        W (shapeCast S1x64 b shapeCasts_S64_S1x64)
      = Cert.Shape.relu64 (Cert.Shape.lin64 (F := Ideal) h0 h1 h2 h3 W b) := by
  funext i
  obtain ⟨r, q, rfl⟩ : ∃ (r : Fin 100000) (q : Fin 64), i = ix2 r q := ⟨i 0, i 1, eq_ix2 i⟩
  refine (layerR64_apply _ _ _ r q).trans (Eq.trans ?_ (Ref.relu64_apply _ _).symm)
  exact congrArg (max · 0) (lin64_entry h0 h1 h2 h3 W b r q)

end Cert.Bridge

end
-- ==== Proof.Bridge3.lean ====
import proofs.«160486_j70574902608023_1_alg».proof.Proof.Bridge1
import Idealize.ShloMosaic.Lib.Pipeline.Value
import Idealize.ShloMosaic.Lib.ValueIdx
import Idealize.ShloMosaic.PureOps.Ideal.Laws

/-!
# Region 3 against the reference's last hidden layer

The last hidden layer takes no maximum: its pallas region, read as one function of its operand arrays (`layerL64`),
applied to the operands the program builds, is the reference's `h₀·W₀ + h₁·W₁ + h₂·W₂ + h₃·W₃ + b`, entry by entry the
same four sums over the 64 features added in the same order, then the bias.
-/

set_option maxRecDepth 16384

noncomputable section

namespace Cert.Bridge

open Cert.KernelIdeal Cert.KernelIdeal.Gen Cert.KernelIdeal.Hand Idealize.ShloMosaic Idealize.ShloMosaic.ValueIdx

/-- **Region 3 against the reference's last hidden layer.**  The kernel's layer without the maximum, on the operands @main
    builds (the four hop arrays stacked along a new leading axis, the stacked weights, the bias as a one-row array), is the
    reference's `h₀·W₀ + h₁·W₁ + h₂·W₂ + h₃·W₃ + b`. -/
theorem bridge64L (h0 h1 h2 h3 : Vec Ideal Cert.KernelIdeal.S100000x64 .f32) (W : Vec Ideal Cert.KernelIdeal.S4x64x64 .f32) (b : Vec Ideal Cert.KernelIdeal.S64 .f32) :
    layerL64 (concatenate S4x100000x64 0 [⟨S1x100000x64, broadcastInDim S1x100000x64 ![1, 2] bcast_S100000x64_S1x100000x64_1_2 h0⟩, ⟨S1x100000x64, broadcastInDim S1x100000x64 ![1, 2] bcast_S100000x64_S1x100000x64_1_2 h1⟩, ⟨S1x100000x64, broadcastInDim S1x100000x64 ![1, 2] bcast_S100000x64_S1x100000x64_1_2 h2⟩, ⟨S1x100000x64, broadcastInDim S1x100000x64 ![1, 2] bcast_S100000x64_S1x100000x64_1_2 h3⟩] concatenates_S1x100000x64_S1x100000x64_S1x100000x64_S1x100000x64_S4x100000x64_d0)
        W (shapeCast S1x64 b shapeCasts_S64_S1x64)
      = Cert.Shape.lin64 (F := Ideal) h0 h1 h2 h3 W b := by
  funext i
  obtain ⟨r, q, rfl⟩ : ∃ (r : Fin 100000) (q : Fin 64), i = ix2 r q := ⟨i 0, i 1, eq_ix2 i⟩
  exact (layerL64_apply _ _ _ r q).trans (lin64_entry h0 h1 h2 h3 W b r q)

end Cert.Bridge

end
-- ==== Proof.Bridge4.lean ====
import proofs.«160486_j70574902608023_1_alg».proof.Proof.KI.Value4
import proofs.«160486_j70574902608023_1_alg».proof.Proof.Shape

/-!
# Region 4 against the reference's closing affine map

The region's three operands are the hidden features with a leading unit axis put in front, the weights likewise, and
the bias as a one-row matrix; read at an index each is the array it was made from.  The reference's text is the host's
matrix product of the features and the weights plus the bias broadcast over the rows.  At the exact values both are,
entry by entry, `∑ₖ h[r, k] · W[k, j] + b[j]`: the host's product is that sum with nothing added in front, so no law
beyond reading each operation at an index is used.
-/

noncomputable section

namespace Cert.KernelIdeal.Hand

open Cert.KernelIdeal Cert.KernelIdeal.Gen
open Idealize.ShloMosaic Idealize.ShloMosaic.TcCoe
open Idealize.ShloMosaic.ValueIdx

theorem fcLhs_0 (i : Cert.ReferenceIdeal.S100000x4.Idx) (q : Cert.ReferenceIdeal.dot_S100000x64_S64x4_S100000x4_1_0_0_1_n_n.contr.Idx) :
    (Cert.ReferenceIdeal.dot_S100000x64_S64x4_S100000x4_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x4_S100000x4_1_0_0_1_n_n.lhsBatch by decide), dif_pos (show (0 : Fin Cert.ReferenceIdeal.S100000x64.rank) ∈ Cert.ReferenceIdeal.dot_S100000x64_S64x4_S100000x4_1_0_0_1_n_n.lhsNonContracting by decide)]
  rfl
theorem fcLhs_1 (i : Cert.ReferenceIdeal.S100000x4.Idx) (q : Cert.ReferenceIdeal.dot_S100000x64_S64x4_S100000x4_1_0_0_1_n_n.contr.Idx) :
    (Cert.ReferenceIdeal.dot_S100000x64_S64x4_S100000x4_1_0_0_1_n_n.lhsIdx i q 1).val = (q ⟨0, by decide⟩).val :=
  Cert.ReferenceIdeal.dot_S100000x64_S64x4_S100000x4_1_0_0_1_n_n.lhsIdx_val_of_single rfl i q
theorem fcRhs_0 (i : Cert.ReferenceIdeal.S100000x4.Idx) (q : Cert.ReferenceIdeal.dot_S100000x64_S64x4_S100000x4_1_0_0_1_n_n.contr.Idx) :
    (Cert.ReferenceIdeal.dot_S100000x64_S64x4_S100000x4_1_0_0_1_n_n.rhsIdx i q 0).val = (q ⟨0, by decide⟩).val :=
  Cert.ReferenceIdeal.dot_S100000x64_S64x4_S100000x4_1_0_0_1_n_n.rhsIdx_val_of_single rfl i q
theorem fcRhs_1 (i : Cert.ReferenceIdeal.S100000x4.Idx) (q : Cert.ReferenceIdeal.dot_S100000x64_S64x4_S100000x4_1_0_0_1_n_n.contr.Idx) :
    (Cert.ReferenceIdeal.dot_S100000x64_S64x4_S100000x4_1_0_0_1_n_n.rhsIdx i q 1).val = (i 1).val := by
  unfold DotDims.rhsIdx
  rw [dif_neg (show ¬(1 : Fin Cert.ReferenceIdeal.S64x4.rank) ∈ Cert.ReferenceIdeal.dot_S100000x64_S64x4_S100000x4_1_0_0_1_n_n.rhsBatch by decide), dif_pos (show (1 : Fin Cert.ReferenceIdeal.S64x4.rank) ∈ Cert.ReferenceIdeal.dot_S100000x64_S64x4_S100000x4_1_0_0_1_n_n.rhsNonContracting by decide)]
  rfl

/-- The reference's closing affine map at entry `(r, j)`. -/
theorem fc_apply (h : Vec Ideal S100000x64 .f32) (W : Vec Ideal S64x4 .f32) (b : Vec Ideal S4 .f32) (r : Fin 100000) (j : Fin 4) :
    Cert.Shape.fc (F := Ideal) h W b (ix2 r j) = (∑ k : Fin 64, h (ix2 r k) * W (ix2 k j)) + b (ix1 j) := by
  unfold Cert.Shape.fc
  rw [addf_apply]
  simp only [Host.dotGeneral]
  rw [Ideal.dotGeneral_apply, ← Equiv.sum_comp (contrEquiv1 Cert.ReferenceIdeal.dot_S100000x64_S64x4_S100000x4_1_0_0_1_n_n 64 rfl rfl).symm]
  refine congrArg₂ (· + ·) (Finset.sum_congr rfl fun k _ => ?_) ?_
  · have hk := contrEquiv1_symm_val Cert.ReferenceIdeal.dot_S100000x64_S64x4_S100000x4_1_0_0_1_n_n 64 rfl rfl k
    have el : Cert.ReferenceIdeal.dot_S100000x64_S64x4_S100000x4_1_0_0_1_n_n.lhsIdx (ix2 r j) ((contrEquiv1 Cert.ReferenceIdeal.dot_S100000x64_S64x4_S100000x4_1_0_0_1_n_n 64 rfl rfl).symm k) = ix2 r k := funext fun a => Fin.ext (by
      match a with
      | ⟨0, _⟩ => exact fcLhs_0 _ _
      | ⟨1, _⟩ => exact (fcLhs_1 _ _).trans hk)
    have er : Cert.ReferenceIdeal.dot_S100000x64_S64x4_S100000x4_1_0_0_1_n_n.rhsIdx (ix2 r j) ((contrEquiv1 Cert.ReferenceIdeal.dot_S100000x64_S64x4_S100000x4_1_0_0_1_n_n 64 rfl rfl).symm k) = ix2 k j := funext fun a => Fin.ext (by
      match a with
      | ⟨0, _⟩ => exact (fcRhs_0 _ _).trans hk
      | ⟨1, _⟩ => exact fcRhs_1 _ _)
    rw [el, er]
  · refine (broadcastInDim_apply _ Cert.ReferenceIdeal.Gen.bcast_S1x4_S100000x4_0_1 _ (ix2 r j) (ix2 (0 : Fin 1) j) (fun a => ?_)).trans
      (broadcastInDim_apply _ Cert.ReferenceIdeal.Gen.bcast_S4_S1x4_1 b (ix2 (0 : Fin 1) j) (ix1 j) (fun a => ?_))
    · match a with
      | ⟨0, _⟩ => show 0 = if (1 : Nat) = 1 then 0 else r.val; rw [if_pos rfl]
      | ⟨1, _⟩ => show j.val = if (4 : Nat) = 1 then 0 else j.val; rw [if_neg (by decide)]
    · match a with
      | ⟨0, _⟩ => show j.val = if (4 : Nat) = 1 then 0 else j.val; rw [if_neg (by decide)]

/-- The region's closed form on the operands the host built, at entry `(r, j)`: each operand read at an index is the array it was made from. -/
theorem layer4_host_apply (h : Vec Ideal S100000x64 .f32) (W : Vec Ideal S64x4 .f32) (b : Vec Ideal S4 .f32) (r : Fin 100000) (j : Fin 4) :
    layer4 (broadcastInDim S1x100000x64 ![1, 2] bcast_S100000x64_S1x100000x64_1_2 h) (broadcastInDim S1x64x4 ![1, 2] bcast_S64x4_S1x64x4_1_2 W) (shapeCast S1x4 b shapeCasts_S4_S1x4) (ix2 r j)
      = (∑ k : Fin 64, h (ix2 r k) * W (ix2 k j)) + b (ix1 j) := by
  show layer4At _ _ _ r j = _
  unfold layer4At
  refine congrArg₂ (· + ·) (Finset.sum_congr rfl fun k _ => congrArg₂ (· * ·) ?_ ?_) ?_
  · exact broadcastInDim_apply _ bcast_S100000x64_S1x100000x64_1_2 h (ix3 (0 : Fin 1) r k) (ix2 r k) (fun a => match a with
      | ⟨0, _⟩ => by show r.val = if (100000 : Nat) = 1 then 0 else r.val; rw [if_neg (by decide)]
      | ⟨1, _⟩ => by show k.val = if (64 : Nat) = 1 then 0 else k.val; rw [if_neg (by decide)])
  · exact broadcastInDim_apply _ bcast_S64x4_S1x64x4_1_2 W (ix3 (0 : Fin 1) k j) (ix2 k j) (fun a => match a with
      | ⟨0, _⟩ => by show k.val = if (64 : Nat) = 1 then 0 else k.val; rw [if_neg (by decide)]
      | ⟨1, _⟩ => by show j.val = if (4 : Nat) = 1 then 0 else j.val; rw [if_neg (by decide)])
  · exact shapeCast_a_1a_apply b shapeCasts_S4_S1x4 (0 : Fin 1) j

/-- Region 4's closed form on the operands the host built is the reference's closing affine map. -/
theorem bridge4 (h : Vec Ideal Cert.KernelIdeal.S100000x64 .f32) (W : Vec Ideal Cert.KernelIdeal.S64x4 .f32) (b : Vec Ideal Cert.KernelIdeal.S4 .f32) :
    layer4 (broadcastInDim S1x100000x64 ![1, 2] bcast_S100000x64_S1x100000x64_1_2 h) (broadcastInDim S1x64x4 ![1, 2] bcast_S64x4_S1x64x4_1_2 W) (shapeCast S1x4 b shapeCasts_S4_S1x4)
      = Cert.Shape.fc (F := Ideal) h W b := by
  funext i
  obtain ⟨r, j, rfl⟩ : ∃ (r : Fin 100000) (j : Fin 4), i = ix2 r j := ⟨i 0, i 1, eq_ix2 i⟩
  exact (layer4_host_apply h W b r j).trans (fc_apply h W b r j).symm

end Cert.KernelIdeal.Hand

end
-- ==== Proof.KI.Value.lean ====
import proofs.«160486_j70574902608023_1_alg».proof.Proof.KI.Keep
import proofs.«160486_j70574902608023_1_alg».proof.Proof.KI.Stretch
import proofs.«160486_j70574902608023_1_alg».proof.Proof.KI.Stretch0
import proofs.«160486_j70574902608023_1_alg».proof.Proof.KI.Value0
import proofs.«160486_j70574902608023_1_alg».proof.Proof.KI.Value1
import proofs.«160486_j70574902608023_1_alg».proof.Proof.KI.Value2
import proofs.«160486_j70574902608023_1_alg».proof.Proof.KI.Value3
import proofs.«160486_j70574902608023_1_alg».proof.Proof.KI.Value4
import proofs.«160486_j70574902608023_1_alg».proof.Proof.Bridge0
import proofs.«160486_j70574902608023_1_alg».proof.Proof.Bridge1
import proofs.«160486_j70574902608023_1_alg».proof.Proof.Bridge3
import proofs.«160486_j70574902608023_1_alg».proof.Proof.Bridge4

/-!
# What the kernel program's result array holds

Walking the fold of buffer contents from the launch: the first host stretches compute the edge endpoints, the edge
weights and the three propagation steps of the input features, stacked; region 0 then writes the first TAG layer of
them; each later stretch stacks the propagation steps of the previous region's output and slices that layer's
weights, and the region writes the layer; the last region writes the closing affine map.  At every boundary the
buffers a later item reads are named as the network's whole-array terms of the argument arrays.
-/

noncomputable section

namespace Cert.KernelIdeal.Hand

open Cert.KernelIdeal Cert.KernelIdeal.Gen
open Idealize.ShloMosaic Idealize.ShloMosaic.TcCoe Idealize.SL.Sem
open Cert.Shape (srcOf dstOf normOf prop16 prop64 lin16 lin64 relu64 fc tag16 tag64 wh0 wh1 wh2 bh0 bh1 bh2 net)

variable (m : (ℓ : Loc nD τ sig) → Buf (Elt Ideal) ℓ) (ρ : Dev nD → PrngReg) (c : Dev nD)

/-- The argument arrays on core `c`. -/
abbrev aX := m ((c : Thread nD τ).loc main_arg0)
abbrev aE := m ((c : Thread nD τ).loc main_arg1)
abbrev aW0 := m ((c : Thread nD τ).loc main_arg2)
abbrev aB0 := m ((c : Thread nD τ).loc main_arg3)
abbrev aWh := m ((c : Thread nD τ).loc main_arg4)
abbrev aBh := m ((c : Thread nD τ).loc main_arg5)
abbrev aFW := m ((c : Thread nD τ).loc main_arg6)
abbrev aFB := m ((c : Thread nD τ).loc main_arg7)

/-- The edge endpoints and weights of the argument edge list. -/
def eS : Cert.Shape.Arr Ideal Cert.ReferenceIdeal.S1600000 .i32 := srcOf (aE m c)
def eD : Cert.Shape.Arr Ideal Cert.ReferenceIdeal.S1600000 .i32 := dstOf (aE m c)
def eN : Cert.Shape.Arr Ideal Cert.ReferenceIdeal.S1600000 .f32 := normOf (eS m c) (eD m c)
/-- The four layers' outputs. -/
def hv1 : Cert.Shape.Arr Ideal Cert.ReferenceIdeal.S100000x64 .f32 := relu64 (tag16 (eS m c) (eD m c) (eN m c) (aX m c) (aW0 m c) (aB0 m c))
def hv2 : Cert.Shape.Arr Ideal Cert.ReferenceIdeal.S100000x64 .f32 := relu64 (tag64 (eS m c) (eD m c) (eN m c) (hv1 m c) (wh0 (aWh m c)) (bh0 (aBh m c)))
def hv3 : Cert.Shape.Arr Ideal Cert.ReferenceIdeal.S100000x64 .f32 := relu64 (tag64 (eS m c) (eD m c) (eN m c) (hv2 m c) (wh1 (aWh m c)) (bh1 (aBh m c)))
def hv4 : Cert.Shape.Arr Ideal Cert.ReferenceIdeal.S100000x64 .f32 := tag64 (eS m c) (eD m c) (eN m c) (hv3 m c) (wh2 (aWh m c)) (bh2 (aBh m c))

/-! ## Boundary 3: the edge data and region 0's operands -/

theorem at3_v1 : W3 m ρ c (Proc.devRef .tc main_v1) = eS m c := stretch0_v1 (W0 m ρ c)
theorem at3_v3 : W3 m ρ c (Proc.devRef .tc main_v3) = eD m c := stretch0_v3 (W0 m ρ c)
theorem at3_v30 : W3 m ρ c (Proc.devRef .tc main_v30) = eN m c := stretch0_v30 (W0 m ρ c)
theorem at3_v74 : W3 m ρ c (Proc.devRef .tc main_v74) = concatenate S4x100000x16 0 [⟨S1x100000x16, broadcastInDim S1x100000x16 ![1, 2] bcast_S100000x16_S1x100000x16_1_2 (aX m c)⟩, ⟨S1x100000x16, broadcastInDim S1x100000x16 ![1, 2] bcast_S100000x16_S1x100000x16_1_2 (prop16 (eS m c) (eD m c) (eN m c) (aX m c))⟩, ⟨S1x100000x16, broadcastInDim S1x100000x16 ![1, 2] bcast_S100000x16_S1x100000x16_1_2 (prop16 (eS m c) (eD m c) (eN m c) (prop16 (eS m c) (eD m c) (eN m c) (aX m c)))⟩, ⟨S1x100000x16, broadcastInDim S1x100000x16 ![1, 2] bcast_S100000x16_S1x100000x16_1_2 (prop16 (eS m c) (eD m c) (eN m c) (prop16 (eS m c) (eD m c) (eN m c) (prop16 (eS m c) (eD m c) (eN m c) (aX m c))))⟩] concatenates_S1x100000x16_S1x100000x16_S1x100000x16_S1x100000x16_S4x100000x16_d0 :=
  stretch0_v74 (W0 m ρ c)
theorem at3_v75 : W3 m ρ c (Proc.devRef .tc main_v75) = shapeCast S1x64 (aB0 m c) shapeCasts_S64_S1x64 := stretch0_v75 (W0 m ρ c)

/-- Region 0 writes the first layer. -/
theorem at4_v76 : W4 m ρ c (Proc.devRef .tc main_v76) = hv1 m c := by
  refine (W4_arr m ρ c 3).trans ?_
  rw [final0 (V3 m ρ) c]
  show layer0 (W3 m ρ c (Proc.devRef .tc main_v74)) (W3 m ρ c (Proc.devRef .tc main_arg2)) (W3 m ρ c (Proc.devRef .tc main_v75)) = _
  rw [at3_v74, W3_main_arg2, at3_v75]
  exact Cert.Bridge.bridge0 _ _ _ _ _ _

/-! ## Layer 2: the stretch after region 0 and region 1 -/

theorem at5_v120 : W5 m ρ c (Proc.devRef .tc main_v120) = concatenate S4x100000x64 0 [⟨S1x100000x64, broadcastInDim S1x100000x64 ![1, 2] bcast_S100000x64_S1x100000x64_1_2 (hv1 m c)⟩, ⟨S1x100000x64, broadcastInDim S1x100000x64 ![1, 2] bcast_S100000x64_S1x100000x64_1_2 (prop64 (eS m c) (eD m c) (eN m c) (hv1 m c))⟩, ⟨S1x100000x64, broadcastInDim S1x100000x64 ![1, 2] bcast_S100000x64_S1x100000x64_1_2 (prop64 (eS m c) (eD m c) (eN m c) (prop64 (eS m c) (eD m c) (eN m c) (hv1 m c)))⟩, ⟨S1x100000x64, broadcastInDim S1x100000x64 ![1, 2] bcast_S100000x64_S1x100000x64_1_2 (prop64 (eS m c) (eD m c) (eN m c) (prop64 (eS m c) (eD m c) (eN m c) (prop64 (eS m c) (eD m c) (eN m c) (hv1 m c))))⟩] concatenates_S1x100000x64_S1x100000x64_S1x100000x64_S1x100000x64_S4x100000x64_d0 := by
  refine (stretch1_H (W4 m ρ c)).trans ?_
  rw [at4_v76, W4_keep_main_v1, at3_v1, W4_keep_main_v3, at3_v3, W4_keep_main_v30, at3_v30]
theorem at5_v122 : W5 m ρ c (Proc.devRef .tc main_v122) = wh0 (aWh m c) := by
  refine (stretch1_W (W4 m ρ c)).trans ?_
  rw [W4_main_arg4]
theorem at5_v125 : W5 m ρ c (Proc.devRef .tc main_v125) = shapeCast S1x64 (bh0 (aBh m c)) shapeCasts_S64_S1x64 := by
  refine (stretch1_B (W4 m ρ c)).trans ?_
  rw [W4_main_arg5]
theorem at6_v126 : W6 m ρ c (Proc.devRef .tc main_v126) = hv2 m c := by
  refine (W6_arr m ρ c 3).trans ?_
  rw [final1 (V5 m ρ) c]
  show layerR64 (W5 m ρ c (Proc.devRef .tc main_v120)) (W5 m ρ c (Proc.devRef .tc main_v122)) (W5 m ρ c (Proc.devRef .tc main_v125)) = _
  rw [at5_v120, at5_v122, at5_v125]
  exact Cert.Bridge.bridge64R _ _ _ _ _ _

/-! ## Layer 3: the stretch after region 1 and region 2 -/

theorem at7_v170 : W7 m ρ c (Proc.devRef .tc main_v170) = concatenate S4x100000x64 0 [⟨S1x100000x64, broadcastInDim S1x100000x64 ![1, 2] bcast_S100000x64_S1x100000x64_1_2 (hv2 m c)⟩, ⟨S1x100000x64, broadcastInDim S1x100000x64 ![1, 2] bcast_S100000x64_S1x100000x64_1_2 (prop64 (eS m c) (eD m c) (eN m c) (hv2 m c))⟩, ⟨S1x100000x64, broadcastInDim S1x100000x64 ![1, 2] bcast_S100000x64_S1x100000x64_1_2 (prop64 (eS m c) (eD m c) (eN m c) (prop64 (eS m c) (eD m c) (eN m c) (hv2 m c)))⟩, ⟨S1x100000x64, broadcastInDim S1x100000x64 ![1, 2] bcast_S100000x64_S1x100000x64_1_2 (prop64 (eS m c) (eD m c) (eN m c) (prop64 (eS m c) (eD m c) (eN m c) (prop64 (eS m c) (eD m c) (eN m c) (hv2 m c))))⟩] concatenates_S1x100000x64_S1x100000x64_S1x100000x64_S1x100000x64_S4x100000x64_d0 := by
  refine (stretch2_H (W6 m ρ c)).trans ?_
  rw [at6_v126, W6_keep_main_v1, at3_v1, W6_keep_main_v3, at3_v3, W6_keep_main_v30, at3_v30]
theorem at7_v172 : W7 m ρ c (Proc.devRef .tc main_v172) = wh1 (aWh m c) := by
  refine (stretch2_W (W6 m ρ c)).trans ?_
  rw [W6_main_arg4]
theorem at7_v175 : W7 m ρ c (Proc.devRef .tc main_v175) = shapeCast S1x64 (bh1 (aBh m c)) shapeCasts_S64_S1x64 := by
  refine (stretch2_B (W6 m ρ c)).trans ?_
  rw [W6_main_arg5]
theorem at8_v176 : W8 m ρ c (Proc.devRef .tc main_v176) = hv3 m c := by
  refine (W8_arr m ρ c 3).trans ?_
  rw [final2 (V7 m ρ) c]
  show layerR64 (W7 m ρ c (Proc.devRef .tc main_v170)) (W7 m ρ c (Proc.devRef .tc main_v172)) (W7 m ρ c (Proc.devRef .tc main_v175)) = _
  rw [at7_v170, at7_v172, at7_v175]
  exact Cert.Bridge.bridge64R _ _ _ _ _ _

/-! ## Layer 4: the stretch after region 2 and region 3 -/

theorem at9_v220 : W9 m ρ c (Proc.devRef .tc main_v220) = concatenate S4x100000x64 0 [⟨S1x100000x64, broadcastInDim S1x100000x64 ![1, 2] bcast_S100000x64_S1x100000x64_1_2 (hv3 m c)⟩, ⟨S1x100000x64, broadcastInDim S1x100000x64 ![1, 2] bcast_S100000x64_S1x100000x64_1_2 (prop64 (eS m c) (eD m c) (eN m c) (hv3 m c))⟩, ⟨S1x100000x64, broadcastInDim S1x100000x64 ![1, 2] bcast_S100000x64_S1x100000x64_1_2 (prop64 (eS m c) (eD m c) (eN m c) (prop64 (eS m c) (eD m c) (eN m c) (hv3 m c)))⟩, ⟨S1x100000x64, broadcastInDim S1x100000x64 ![1, 2] bcast_S100000x64_S1x100000x64_1_2 (prop64 (eS m c) (eD m c) (eN m c) (prop64 (eS m c) (eD m c) (eN m c) (prop64 (eS m c) (eD m c) (eN m c) (hv3 m c))))⟩] concatenates_S1x100000x64_S1x100000x64_S1x100000x64_S1x100000x64_S4x100000x64_d0 := by
  refine (stretch3_H (W8 m ρ c)).trans ?_
  rw [at8_v176, W8_keep_main_v1, at3_v1, W8_keep_main_v3, at3_v3, W8_keep_main_v30, at3_v30]
theorem at9_v222 : W9 m ρ c (Proc.devRef .tc main_v222) = wh2 (aWh m c) := by
  refine (stretch3_W (W8 m ρ c)).trans ?_
  rw [W8_main_arg4]
theorem at9_v225 : W9 m ρ c (Proc.devRef .tc main_v225) = shapeCast S1x64 (bh2 (aBh m c)) shapeCasts_S64_S1x64 := by
  refine (stretch3_B (W8 m ρ c)).trans ?_
  rw [W8_main_arg5]
theorem at10_v226 : W10 m ρ c (Proc.devRef .tc main_v226) = hv4 m c := by
  refine (W10_arr m ρ c 3).trans ?_
  rw [final3 (V9 m ρ) c]
  show layerL64 (W9 m ρ c (Proc.devRef .tc main_v220)) (W9 m ρ c (Proc.devRef .tc main_v222)) (W9 m ρ c (Proc.devRef .tc main_v225)) = _
  rw [at9_v220, at9_v222, at9_v225]
  exact Cert.Bridge.bridge64L _ _ _ _ _ _

/-! ## The closing map: the last stretch and region 4 -/

theorem at11_v227 : W11 m ρ c (Proc.devRef .tc main_v227) = broadcastInDim S1x100000x64 ![1, 2] bcast_S100000x64_S1x100000x64_1_2 (hv4 m c) := by
  refine (stretch4_v227 (W10 m ρ c)).trans ?_
  rw [at10_v226]
theorem at11_v228 : W11 m ρ c (Proc.devRef .tc main_v228) = broadcastInDim S1x64x4 ![1, 2] bcast_S64x4_S1x64x4_1_2 (aFW m c) := by
  refine (stretch4_v228 (W10 m ρ c)).trans ?_
  rw [W10_main_arg6]
theorem at11_v229 : W11 m ρ c (Proc.devRef .tc main_v229) = shapeCast S1x4 (aFB m c) shapeCasts_S4_S1x4 := by
  refine (stretch4_v229 (W10 m ρ c)).trans ?_
  rw [W10_main_arg7]

/-- The kernel program's result array is the network of the argument arrays. -/
theorem kernel_value : W12 m ρ c (Proc.devRef .tc main_v230)
    = net (aX m c) (aE m c) (aW0 m c) (aB0 m c) (aWh m c) (aBh m c) (aFW m c) (aFB m c) := by
  refine (W12_arr m ρ c 3).trans ?_
  rw [final4 (V11 m ρ) c]
  show layer4 (W11 m ρ c (Proc.devRef .tc main_v227)) (W11 m ρ c (Proc.devRef .tc main_v228)) (W11 m ρ c (Proc.devRef .tc main_v229)) = _
  rw [at11_v227, at11_v228, at11_v229]
  exact bridge4 _ _ _

end Cert.KernelIdeal.Hand

end
-- ==== Proof.RefRun.Ops.lean ====
import proofs.«160486_j70574902608023_1_alg».proof.Proof.Gen.ReferenceIdeal
import Idealize.ShloMosaic.Lib.StableHlo.Run

/-!
# The reference as a line of host operations

The reference program is a straight line of 332 host operations.  They are listed here in six consecutive stretches,
cut where the network's stages end: the edge endpoints, degrees and edge weights; the first layer with its maximum
with zero; the three hidden layers (the first two with their maximum); and the closing affine map.  For each
stretch: every operation touches TensorCore references only and determines its results, the references the stretch
writes, and that every other reference keeps its contents through it.  The program is the six stretches run in order.
-/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The reference's operations 1 … 43 of 332, in order. -/
abbrev opsP : List (HloOp τ sig (Elt F)) :=
  unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F))
  :: reshape main_v0 main_v1 rfl shapeCasts_S1x1600000_S1600000
  :: unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F))
  :: reshape main_v2 main_v3 rfl shapeCasts_S1x1600000_S1600000
  :: nullary main_cst (constant S_ .f32 0x3F800000#32)
  :: unary main_cst main_v4 (broadcastInDim S1600000 ![] bcast_S_S1600000 : (⟨S_, .f32⟩ : BufTy).Contents (Elt F) → (⟨S1600000, .f32⟩ : BufTy).Contents (Elt F))
  :: nullary main_cst_0 (constant S_ .f32 0x00000000#32)
  :: unary main_cst_0 main_v5 (broadcastInDim S100000 ![] bcast_S_S100000 : (⟨S_, .f32⟩ : BufTy).Contents (Elt F) → (⟨S100000, .f32⟩ : BufTy).Contents (Elt F))
  :: unary main_v3 main_v6 (broadcastInDim S1600000x1 ![0] bcast_S1600000_S1600000x1_0 : (⟨S1600000, .i32⟩ : BufTy).Contents (Elt F) → (⟨S1600000x1, .i32⟩ : BufTy).Contents (Elt F))
  :: ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F))
  :: nullary main_cst_1 (constant S_ .f32 0x00000000#32)
  :: unary main_cst_1 main_v8 (broadcastInDim S100000 ![] bcast_S_S100000 : (⟨S_, .f32⟩ : BufTy).Contents (Elt F) → (⟨S100000, .f32⟩ : BufTy).Contents (Elt F))
  :: binary main_v7 main_v8 main_v9 (cmpf .ogt : (⟨S100000, .f32⟩ : BufTy).Contents (Elt F) → (⟨S100000, .f32⟩ : BufTy).Contents (Elt F) → (⟨S100000, .i1⟩ : BufTy).Contents (Elt F))
  :: nullary main_cst_2 (constant S_ .f32 0x2B8CBCCC#32)
  :: unary main_cst_2 main_v10 (broadcastInDim S100000 ![] bcast_S_S100000 : (⟨S_, .f32⟩ : BufTy).Contents (Elt F) → (⟨S100000, .f32⟩ : BufTy).Contents (Elt F))
  :: binary main_v7 main_v10 main_v11 (maximumf : (⟨S100000, .f32⟩ : BufTy).Contents (Elt F) → (⟨S100000, .f32⟩ : BufTy).Contents (Elt F) → (⟨S100000, .f32⟩ : BufTy).Contents (Elt F))
  :: unary main_v11 main_v12 (Host.sqrt : (⟨S100000, .f32⟩ : BufTy).Contents (Elt F) → (⟨S100000, .f32⟩ : BufTy).Contents (Elt F))
  :: nullary main_cst_3 (constant S_ .f32 0x3F800000#32)
  :: unary main_cst_3 main_v13 (broadcastInDim S100000 ![] bcast_S_S100000 : (⟨S_, .f32⟩ : BufTy).Contents (Elt F) → (⟨S100000, .f32⟩ : BufTy).Contents (Elt F))
  :: binary main_v13 main_v12 main_v14 (Host.divf : (⟨S100000, .f32⟩ : BufTy).Contents (Elt F) → (⟨S100000, .f32⟩ : BufTy).Contents (Elt F) → (⟨S100000, .f32⟩ : BufTy).Contents (Elt F))
  :: nullary main_cst_4 (constant S_ .f32 0x00000000#32)
  :: TRef.unary (TRef.of (T := ⟨S_, .f32⟩) main_cst_4) (TRef.of (T := ⟨S_, .f32⟩) main_call0_v0) id
  :: TRef.unary (TRef.of (T := ⟨S_, .f32⟩) main_call0_v0) (TRef.of (T := ⟨S100000, .f32⟩) main_call0_v1) (broadcastInDim S100000 ![] bcast_S_S100000)
  :: TRef.ternary (TRef.of (T := ⟨S100000, .i1⟩) main_v9) (TRef.of (T := ⟨S100000, .f32⟩) main_v14) (TRef.of (T := ⟨S100000, .f32⟩) main_call0_v1) (TRef.of (T := ⟨S100000, .f32⟩) main_v15) select
  :: nullary main_c (constantI S_ 32 0#32)
  :: unary main_c main_v16 (broadcastInDim S1600000 ![] bcast_S_S1600000 : (⟨S_, .i32⟩ : BufTy).Contents (Elt F) → (⟨S1600000, .i32⟩ : BufTy).Contents (Elt F))
  :: binary main_v1 main_v16 main_v17 (cmpi .slt : (⟨S1600000, .i32⟩ : BufTy).Contents (Elt F) → (⟨S1600000, .i32⟩ : BufTy).Contents (Elt F) → (⟨S1600000, .i1⟩ : BufTy).Contents (Elt F))
  :: nullary main_c_5 (constantI S_ 32 100000#32)
  :: unary main_c_5 main_v18 (broadcastInDim S1600000 ![] bcast_S_S1600000 : (⟨S_, .i32⟩ : BufTy).Contents (Elt F) → (⟨S1600000, .i32⟩ : BufTy).Contents (Elt F))
  :: binary main_v1 main_v18 main_v19 (addi : (⟨S1600000, .i32⟩ : BufTy).Contents (Elt F) → (⟨S1600000, .i32⟩ : BufTy).Contents (Elt F) → (⟨S1600000, .i32⟩ : BufTy).Contents (Elt F))
  :: ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v20 main_v21 (broadcastInDim S1600000x1 ![0] bcast_S1600000_S1600000x1_0 : (⟨S1600000, .i32⟩ : BufTy).Contents (Elt F) → (⟨S1600000x1, .i32⟩ : BufTy).Contents (Elt F))
  :: binary main_v15 main_v21 main_v22 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F))
  :: nullary main_c_6 (constantI S_ 32 0#32)
  :: unary main_c_6 main_v23 (broadcastInDim S1600000 ![] bcast_S_S1600000 : (⟨S_, .i32⟩ : BufTy).Contents (Elt F) → (⟨S1600000, .i32⟩ : BufTy).Contents (Elt F))
  :: binary main_v3 main_v23 main_v24 (cmpi .slt : (⟨S1600000, .i32⟩ : BufTy).Contents (Elt F) → (⟨S1600000, .i32⟩ : BufTy).Contents (Elt F) → (⟨S1600000, .i1⟩ : BufTy).Contents (Elt F))
  :: nullary main_c_7 (constantI S_ 32 100000#32)
  :: unary main_c_7 main_v25 (broadcastInDim S1600000 ![] bcast_S_S1600000 : (⟨S_, .i32⟩ : BufTy).Contents (Elt F) → (⟨S1600000, .i32⟩ : BufTy).Contents (Elt F))
  :: binary main_v3 main_v25 main_v26 (addi : (⟨S1600000, .i32⟩ : BufTy).Contents (Elt F) → (⟨S1600000, .i32⟩ : BufTy).Contents (Elt F) → (⟨S1600000, .i32⟩ : BufTy).Contents (Elt F))
  :: ternary main_v24 main_v26 main_v3 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v27 main_v28 (broadcastInDim S1600000x1 ![0] bcast_S1600000_S1600000x1_0 : (⟨S1600000, .i32⟩ : BufTy).Contents (Elt F) → (⟨S1600000x1, .i32⟩ : BufTy).Contents (Elt F))
  :: binary main_v15 main_v28 main_v29 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F))
  :: binary main_v22 main_v29 main_v30 (mulf : (⟨S1600000, .f32⟩ : BufTy).Contents (Elt F) → (⟨S1600000, .f32⟩ : BufTy).Contents (Elt F) → (⟨S1600000, .f32⟩ : BufTy).Contents (Elt F))
  :: []

/-- Each operation of `opsP` touches TensorCore references only. -/
theorem opsP_sub : (opsP : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
/-- Each operation of `opsP` determines its results. -/
theorem opsP_fresh : (opsP : List (HloOp τ sig (Elt F))).Forall fun op => op.fresh = ∅ := by
  simp only [List.Forall]; repeat' constructor
/-- The references `opsP` writes. -/
abbrev opsP_W : List (Ref sig .tc) := [main_v0, main_v1, main_v2, main_v3, main_cst, main_v4, main_cst_0, main_v5, main_v6, main_v7, main_cst_1, main_v8, main_v9, main_cst_2, main_v10, main_v11, main_v12, main_cst_3, main_v13, main_v14, main_cst_4, main_call0_v0, main_call0_v1, main_v15, main_c, main_v16, main_v17, main_c_5, main_v18, main_v19, main_v20, main_v21, main_v22, main_c_6, main_v23, main_v24, main_c_7, main_v25, main_v26, main_v27, main_v28, main_v29, main_v30]
theorem opsP_writes : (opsP : List (HloOp τ sig (Elt F))).Forall fun op => op.writes ⊆ (opsP_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsP` does not write keeps its contents. -/
theorem opsP_keep (V : Valuation τ sig (Elt F)) (r : Ref sig .tc) (h : r ∉ opsP_W) :
    after opsP V (Proc.devRef .tc r) = V (Proc.devRef .tc r) :=
  after_of_writes_sub opsP V opsP_writes h

set_option maxHeartbeats 40000000 in
/-- The reference's operations 44 … 112 of 332, in order. -/
abbrev ops0 : List (HloOp τ sig (Elt F)) :=
  unary main_arg2 main_v31 ((extractStridedSlice S1x16x64 ![0, 0, 0] · slices_S4x16x64_S1x16x64_0_0_0) : (⟨S4x16x64, .f32⟩ : BufTy).Contents (Elt F) → (⟨S1x16x64, .f32⟩ : BufTy).Contents (Elt F))
  :: reshape main_v31 main_v32 rfl shapeCasts_S1x16x64_S16x64
  :: binary main_arg0 main_v32 main_v33 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F))
  :: unary main_v30 main_v34 (broadcastInDim S1600000x1 ![0] bcast_S1600000_S1600000x1_0 : (⟨S1600000, .f32⟩ : BufTy).Contents (Elt F) → (⟨S1600000x1, .f32⟩ : BufTy).Contents (Elt F))
  :: nullary main_c_8 (constantI S_ 32 0#32)
  :: unary main_c_8 main_v35 (broadcastInDim S1600000 ![] bcast_S_S1600000 : (⟨S_, .i32⟩ : BufTy).Contents (Elt F) → (⟨S1600000, .i32⟩ : BufTy).Contents (Elt F))
  :: binary main_v1 main_v35 main_v36 (cmpi .slt : (⟨S1600000, .i32⟩ : BufTy).Contents (Elt F) → (⟨S1600000, .i32⟩ : BufTy).Contents (Elt F) → (⟨S1600000, .i1⟩ : BufTy).Contents (Elt F))
  :: nullary main_c_9 (constantI S_ 32 100000#32)
  :: unary main_c_9 main_v37 (broadcastInDim S1600000 ![] bcast_S_S1600000 : (⟨S_, .i32⟩ : BufTy).Contents (Elt F) → (⟨S1600000, .i32⟩ : BufTy).Contents (Elt F))
  :: binary main_v1 main_v37 main_v38 (addi : (⟨S1600000, .i32⟩ : BufTy).Contents (Elt F) → (⟨S1600000, .i32⟩ : BufTy).Contents (Elt F) → (⟨S1600000, .i32⟩ : BufTy).Contents (Elt F))
  :: ternary main_v36 main_v38 main_v1 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v39 main_v40 (broadcastInDim S1600000x1 ![0] bcast_S1600000_S1600000x1_0 : (⟨S1600000, .i32⟩ : BufTy).Contents (Elt F) → (⟨S1600000x1, .i32⟩ : BufTy).Contents (Elt F))
  :: binary main_arg0 main_v40 main_v41 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F))
  :: unary main_v34 main_v42 (broadcastInDim S1600000x16 ![0, 1] bcast_S1600000x1_S1600000x16_0_1 : (⟨S1600000x1, .f32⟩ : BufTy).Contents (Elt F) → (⟨S1600000x16, .f32⟩ : BufTy).Contents (Elt F))
  :: binary main_v42 main_v41 main_v43 (mulf : (⟨S1600000x16, .f32⟩ : BufTy).Contents (Elt F) → (⟨S1600000x16, .f32⟩ : BufTy).Contents (Elt F) → (⟨S1600000x16, .f32⟩ : BufTy).Contents (Elt F))
  :: nullary main_cst_10 (constant S_ .f32 0x00000000#32)
  :: unary main_cst_10 main_v44 (broadcastInDim S100000x16 ![] bcast_S_S100000x16 : (⟨S_, .f32⟩ : BufTy).Contents (Elt F) → (⟨S100000x16, .f32⟩ : BufTy).Contents (Elt F))
  :: unary main_v3 main_v45 (broadcastInDim S1600000x1 ![0] bcast_S1600000_S1600000x1_0 : (⟨S1600000, .i32⟩ : BufTy).Contents (Elt F) → (⟨S1600000x1, .i32⟩ : BufTy).Contents (Elt F))
  :: ternary main_v44 main_v45 main_v43 main_v46 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F))
  :: unary main_arg2 main_v47 ((extractStridedSlice S1x16x64 ![1, 0, 0] · slices_S4x16x64_S1x16x64_1_0_0) : (⟨S4x16x64, .f32⟩ : BufTy).Contents (Elt F) → (⟨S1x16x64, .f32⟩ : BufTy).Contents (Elt F))
  :: reshape main_v47 main_v48 rfl shapeCasts_S1x16x64_S16x64
  :: binary main_v46 main_v48 main_v49 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F))
  :: binary main_v33 main_v49 main_v50 (addf : (⟨S100000x64, .f32⟩ : BufTy).Contents (Elt F) → (⟨S100000x64, .f32⟩ : BufTy).Contents (Elt F) → (⟨S100000x64, .f32⟩ : BufTy).Contents (Elt F))
  :: unary main_v30 main_v51 (broadcastInDim S1600000x1 ![0] bcast_S1600000_S1600000x1_0 : (⟨S1600000, .f32⟩ : BufTy).Contents (Elt F) → (⟨S1600000x1, .f32⟩ : BufTy).Contents (Elt F))
  :: nullary main_c_11 (constantI S_ 32 0#32)
  :: unary main_c_11 main_v52 (broadcastInDim S1600000 ![] bcast_S_S1600000 : (⟨S_, .i32⟩ : BufTy).Contents (Elt F) → (⟨S1600000, .i32⟩ : BufTy).Contents (Elt F))
  :: binary main_v1 main_v52 main_v53 (cmpi .slt : (⟨S1600000, .i32⟩ : BufTy).Contents (Elt F) → (⟨S1600000, .i32⟩ : BufTy).Contents (Elt F) → (⟨S1600000, .i1⟩ : BufTy).Contents (Elt F))
  :: nullary main_c_12 (constantI S_ 32 100000#32)
  :: unary main_c_12 main_v54 (broadcastInDim S1600000 ![] bcast_S_S1600000 : (⟨S_, .i32⟩ : BufTy).Contents (Elt F) → (⟨S1600000, .i32⟩ : BufTy).Contents (Elt F))
  :: binary main_v1 main_v54 main_v55 (addi : (⟨S1600000, .i32⟩ : BufTy).Contents (Elt F) → (⟨S1600000, .i32⟩ : BufTy).Contents (Elt F) → (⟨S1600000, .i32⟩ : BufTy).Contents (Elt F))
  :: ternary main_v53 main_v55 main_v1 main_v56 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v56 main_v57 (broadcastInDim S1600000x1 ![0] bcast_S1600000_S1600000x1_0 : (⟨S1600000, .i32⟩ : BufTy).Contents (Elt F) → (⟨S1600000x1, .i32⟩ : BufTy).Contents (Elt F))
  :: binary main_v46 main_v57 main_v58 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F))
  :: unary main_v51 main_v59 (broadcastInDim S1600000x16 ![0, 1] bcast_S1600000x1_S1600000x16_0_1 : (⟨S1600000x1, .f32⟩ : BufTy).Contents (Elt F) → (⟨S1600000x16, .f32⟩ : BufTy).Contents (Elt F))
  :: binary main_v59 main_v58 main_v60 (mulf : (⟨S1600000x16, .f32⟩ : BufTy).Contents (Elt F) → (⟨S1600000x16, .f32⟩ : BufTy).Contents (Elt F) → (⟨S1600000x16, .f32⟩ : BufTy).Contents (Elt F))
  :: nullary main_cst_13 (constant S_ .f32 0x00000000#32)
  :: unary main_cst_13 main_v61 (broadcastInDim S100000x16 ![] bcast_S_S100000x16 : (⟨S_, .f32⟩ : BufTy).Contents (Elt F) → (⟨S100000x16, .f32⟩ : BufTy).Contents (Elt F))
  :: unary main_v3 main_v62 (broadcastInDim S1600000x1 ![0] bcast_S1600000_S1600000x1_0 : (⟨S1600000, .i32⟩ : BufTy).Contents (Elt F) → (⟨S1600000x1, .i32⟩ : BufTy).Contents (Elt F))
  :: ternary main_v61 main_v62 main_v60 main_v63 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F))
  :: unary main_arg2 main_v64 ((extractStridedSlice S1x16x64 ![2, 0, 0] · slices_S4x16x64_S1x16x64_2_0_0) : (⟨S4x16x64, .f32⟩ : BufTy).Contents (Elt F) → (⟨S1x16x64, .f32⟩ : BufTy).Contents (Elt F))
  :: reshape main_v64 main_v65 rfl shapeCasts_S1x16x64_S16x64
  :: binary main_v63 main_v65 main_v66 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F))
  :: binary main_v50 main_v66 main_v67 (addf : (⟨S100000x64, .f32⟩ : BufTy).Contents (Elt F) → (⟨S100000x64, .f32⟩ : BufTy).Contents (Elt F) → (⟨S100000x64, .f32⟩ : BufTy).Contents (Elt F))
  :: unary main_v30 main_v68 (broadcastInDim S1600000x1 ![0] bcast_S1600000_S1600000x1_0 : (⟨S1600000, .f32⟩ : BufTy).Contents (Elt F) → (⟨S1600000x1, .f32⟩ : BufTy).Contents (Elt F))
  :: nullary main_c_14 (constantI S_ 32 0#32)
  :: unary main_c_14 main_v69 (broadcastInDim S1600000 ![] bcast_S_S1600000 : (⟨S_, .i32⟩ : BufTy).Contents (Elt F) → (⟨S1600000, .i32⟩ : BufTy).Contents (Elt F))
  :: binary main_v1 main_v69 main_v70 (cmpi .slt : (⟨S1600000, .i32⟩ : BufTy).Contents (Elt F) → (⟨S1600000, .i32⟩ : BufTy).Contents (Elt F) → (⟨S1600000, .i1⟩ : BufTy).Contents (Elt F))
  :: nullary main_c_15 (constantI S_ 32 100000#32)
  :: unary main_c_15 main_v71 (broadcastInDim S1600000 ![] bcast_S_S1600000 : (⟨S_, .i32⟩ : BufTy).Contents (Elt F) → (⟨S1600000, .i32⟩ : BufTy).Contents (Elt F))
  :: binary main_v1 main_v71 main_v72 (addi : (⟨S1600000, .i32⟩ : BufTy).Contents (Elt F) → (⟨S1600000, .i32⟩ : BufTy).Contents (Elt F) → (⟨S1600000, .i32⟩ : BufTy).Contents (Elt F))
  :: ternary main_v70 main_v72 main_v1 main_v73 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v73 main_v74 (broadcastInDim S1600000x1 ![0] bcast_S1600000_S1600000x1_0 : (⟨S1600000, .i32⟩ : BufTy).Contents (Elt F) → (⟨S1600000x1, .i32⟩ : BufTy).Contents (Elt F))
  :: binary main_v63 main_v74 main_v75 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F))
  :: unary main_v68 main_v76 (broadcastInDim S1600000x16 ![0, 1] bcast_S1600000x1_S1600000x16_0_1 : (⟨S1600000x1, .f32⟩ : BufTy).Contents (Elt F) → (⟨S1600000x16, .f32⟩ : BufTy).Contents (Elt F))
  :: binary main_v76 main_v75 main_v77 (mulf : (⟨S1600000x16, .f32⟩ : BufTy).Contents (Elt F) → (⟨S1600000x16, .f32⟩ : BufTy).Contents (Elt F) → (⟨S1600000x16, .f32⟩ : BufTy).Contents (Elt F))
  :: nullary main_cst_16 (constant S_ .f32 0x00000000#32)
  :: unary main_cst_16 main_v78 (broadcastInDim S100000x16 ![] bcast_S_S100000x16 : (⟨S_, .f32⟩ : BufTy).Contents (Elt F) → (⟨S100000x16, .f32⟩ : BufTy).Contents (Elt F))
  :: unary main_v3 main_v79 (broadcastInDim S1600000x1 ![0] bcast_S1600000_S1600000x1_0 : (⟨S1600000, .i32⟩ : BufTy).Contents (Elt F) → (⟨S1600000x1, .i32⟩ : BufTy).Contents (Elt F))
  :: ternary main_v78 main_v79 main_v77 main_v80 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F))
  :: unary main_arg2 main_v81 ((extractStridedSlice S1x16x64 ![3, 0, 0] · slices_S4x16x64_S1x16x64_3_0_0) : (⟨S4x16x64, .f32⟩ : BufTy).Contents (Elt F) → (⟨S1x16x64, .f32⟩ : BufTy).Contents (Elt F))
  :: reshape main_v81 main_v82 rfl shapeCasts_S1x16x64_S16x64
  :: binary main_v80 main_v82 main_v83 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F))
  :: binary main_v67 main_v83 main_v84 (addf : (⟨S100000x64, .f32⟩ : BufTy).Contents (Elt F) → (⟨S100000x64, .f32⟩ : BufTy).Contents (Elt F) → (⟨S100000x64, .f32⟩ : BufTy).Contents (Elt F))
  :: unary main_arg3 main_v85 (broadcastInDim S1x64 ![1] bcast_S64_S1x64_1 : (⟨S64, .f32⟩ : BufTy).Contents (Elt F) → (⟨S1x64, .f32⟩ : BufTy).Contents (Elt F))
  :: unary main_v85 main_v86 (broadcastInDim S100000x64 ![0, 1] bcast_S1x64_S100000x64_0_1 : (⟨S1x64, .f32⟩ : BufTy).Contents (Elt F) → (⟨S100000x64, .f32⟩ : BufTy).Contents (Elt F))
  :: binary main_v84 main_v86 main_v87 (addf : (⟨S100000x64, .f32⟩ : BufTy).Contents (Elt F) → (⟨S100000x64, .f32⟩ : BufTy).Contents (Elt F) → (⟨S100000x64, .f32⟩ : BufTy).Contents (Elt F))
  :: TRef.nullary (TRef.of (T := ⟨S_, .f32⟩) main_call1_cst) (constant S_ .f32 0x00000000#32)
  :: TRef.unary (TRef.of (T := ⟨S_, .f32⟩) main_call1_cst) (TRef.of (T := ⟨S100000x64, .f32⟩) main_call1_v0) (broadcastInDim S100000x64 ![] bcast_S_S100000x64)
  :: TRef.binary (TRef.of (T := ⟨S100000x64, .f32⟩) main_v87) (TRef.of (T := ⟨S100000x64, .f32⟩) main_call1_v0) (TRef.of (T := ⟨S100000x64, .f32⟩) main_v88) maximumf
  :: []

/-- Each operation of `ops0` touches TensorCore references only. -/
theorem ops0_sub : (ops0 : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩
/-- Each operation of `ops0` determines its results. -/
theorem ops0_fresh : (ops0 : List (HloOp τ sig (Elt F))).Forall fun op => op.fresh = ∅ := by
  simp only [List.Forall]; repeat' constructor
/-- The references `ops0` writes. -/
abbrev ops0_W : List (Ref sig .tc) := [main_v31, main_v32, main_v33, main_v34, main_c_8, main_v35, main_v36, main_c_9, main_v37, main_v38, main_v39, main_v40, main_v41, main_v42, main_v43, main_cst_10, main_v44, main_v45, main_v46, main_v47, main_v48, main_v49, main_v50, main_v51, main_c_11, main_v52, main_v53, main_c_12, main_v54, main_v55, main_v56, main_v57, main_v58, main_v59, main_v60, main_cst_13, main_v61, main_v62, main_v63, main_v64, main_v65, main_v66, main_v67, main_v68, main_c_14, main_v69, main_v70, main_c_15, main_v71, main_v72, main_v73, main_v74, main_v75, main_v76, main_v77, main_cst_16, main_v78, main_v79, main_v80, main_v81, main_v82, main_v83, main_v84, main_v85, main_v86, main_v87, main_call1_cst, main_call1_v0, main_v88]
theorem ops0_writes : (ops0 : List (HloOp τ sig (Elt F))).Forall fun op => op.writes ⊆ (ops0_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `ops0` does not write keeps its contents. -/
theorem ops0_keep (V : Valuation τ sig (Elt F)) (r : Ref sig .tc) (h : r ∉ ops0_W) :
    after ops0 V (Proc.devRef .tc r) = V (Proc.devRef .tc r) :=
  after_of_writes_sub ops0 V ops0_writes h

set_option maxHeartbeats 40000000 in
/-- The reference's operations 113 … 185 of 332, in order. -/
abbrev ops1 : List (HloOp τ sig (Elt F)) :=
  unary main_arg4 main_v89 ((extractStridedSlice S1x4x64x64 ![0, 0, 0, 0] · slices_S3x4x64x64_S1x4x64x64_0_0_0_0) : (⟨S3x4x64x64, .f32⟩ : BufTy).Contents (Elt F) → (⟨S1x4x64x64, .f32⟩ : BufTy).Contents (Elt F))
  :: reshape main_v89 main_v90 rfl shapeCasts_S1x4x64x64_S4x64x64
  :: unary main_arg5 main_v91 ((extractStridedSlice S1x64 ![0, 0] · slices_S3x64_S1x64_0_0) : (⟨S3x64, .f32⟩ : BufTy).Contents (Elt F) → (⟨S1x64, .f32⟩ : BufTy).Contents (Elt F))
  :: reshape main_v91 main_v92 rfl shapeCasts_S1x64_S64
  :: unary main_v90 main_v93 ((extractStridedSlice S1x64x64 ![0, 0, 0] · slices_S4x64x64_S1x64x64_0_0_0) : (⟨S4x64x64, .f32⟩ : BufTy).Contents (Elt F) → (⟨S1x64x64, .f32⟩ : BufTy).Contents (Elt F))
  :: reshape main_v93 main_v94 rfl shapeCasts_S1x64x64_S64x64
  :: binary main_v88 main_v94 main_v95 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: unary main_v30 main_v96 (broadcastInDim S1600000x1 ![0] bcast_S1600000_S1600000x1_0 : (⟨S1600000, .f32⟩ : BufTy).Contents (Elt F) → (⟨S1600000x1, .f32⟩ : BufTy).Contents (Elt F))
  :: nullary main_c_17 (constantI S_ 32 0#32)
  :: unary main_c_17 main_v97 (broadcastInDim S1600000 ![] bcast_S_S1600000 : (⟨S_, .i32⟩ : BufTy).Contents (Elt F) → (⟨S1600000, .i32⟩ : BufTy).Contents (Elt F))
  :: binary main_v1 main_v97 main_v98 (cmpi .slt : (⟨S1600000, .i32⟩ : BufTy).Contents (Elt F) → (⟨S1600000, .i32⟩ : BufTy).Contents (Elt F) → (⟨S1600000, .i1⟩ : BufTy).Contents (Elt F))
  :: nullary main_c_18 (constantI S_ 32 100000#32)
  :: unary main_c_18 main_v99 (broadcastInDim S1600000 ![] bcast_S_S1600000 : (⟨S_, .i32⟩ : BufTy).Contents (Elt F) → (⟨S1600000, .i32⟩ : BufTy).Contents (Elt F))
  :: binary main_v1 main_v99 main_v100 (addi : (⟨S1600000, .i32⟩ : BufTy).Contents (Elt F) → (⟨S1600000, .i32⟩ : BufTy).Contents (Elt F) → (⟨S1600000, .i32⟩ : BufTy).Contents (Elt F))
  :: ternary main_v98 main_v100 main_v1 main_v101 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v101 main_v102 (broadcastInDim S1600000x1 ![0] bcast_S1600000_S1600000x1_0 : (⟨S1600000, .i32⟩ : BufTy).Contents (Elt F) → (⟨S1600000x1, .i32⟩ : BufTy).Contents (Elt F))
  :: binary main_v88 main_v102 main_v103 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: unary main_v96 main_v104 (broadcastInDim S1600000x64 ![0, 1] bcast_S1600000x1_S1600000x64_0_1 : (⟨S1600000x1, .f32⟩ : BufTy).Contents (Elt F) → (⟨S1600000x64, .f32⟩ : BufTy).Contents (Elt F))
  :: binary main_v104 main_v103 main_v105 (mulf : (⟨S1600000x64, .f32⟩ : BufTy).Contents (Elt F) → (⟨S1600000x64, .f32⟩ : BufTy).Contents (Elt F) → (⟨S1600000x64, .f32⟩ : BufTy).Contents (Elt F))
  :: nullary main_cst_19 (constant S_ .f32 0x00000000#32)
  :: unary main_cst_19 main_v106 (broadcastInDim S100000x64 ![] bcast_S_S100000x64 : (⟨S_, .f32⟩ : BufTy).Contents (Elt F) → (⟨S100000x64, .f32⟩ : BufTy).Contents (Elt F))
  :: unary main_v3 main_v107 (broadcastInDim S1600000x1 ![0] bcast_S1600000_S1600000x1_0 : (⟨S1600000, .i32⟩ : BufTy).Contents (Elt F) → (⟨S1600000x1, .i32⟩ : BufTy).Contents (Elt F))
  :: ternary main_v106 main_v107 main_v105 main_v108 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: unary main_v90 main_v109 ((extractStridedSlice S1x64x64 ![1, 0, 0] · slices_S4x64x64_S1x64x64_1_0_0) : (⟨S4x64x64, .f32⟩ : BufTy).Contents (Elt F) → (⟨S1x64x64, .f32⟩ : BufTy).Contents (Elt F))
  :: reshape main_v109 main_v110 rfl shapeCasts_S1x64x64_S64x64
  :: binary main_v108 main_v110 main_v111 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: binary main_v95 main_v111 main_v112 (addf : (⟨S100000x64, .f32⟩ : BufTy).Contents (Elt F) → (⟨S100000x64, .f32⟩ : BufTy).Contents (Elt F) → (⟨S100000x64, .f32⟩ : BufTy).Contents (Elt F))
  :: unary main_v30 main_v113 (broadcastInDim S1600000x1 ![0] bcast_S1600000_S1600000x1_0 : (⟨S1600000, .f32⟩ : BufTy).Contents (Elt F) → (⟨S1600000x1, .f32⟩ : BufTy).Contents (Elt F))
  :: nullary main_c_20 (constantI S_ 32 0#32)
  :: unary main_c_20 main_v114 (broadcastInDim S1600000 ![] bcast_S_S1600000 : (⟨S_, .i32⟩ : BufTy).Contents (Elt F) → (⟨S1600000, .i32⟩ : BufTy).Contents (Elt F))
  :: binary main_v1 main_v114 main_v115 (cmpi .slt : (⟨S1600000, .i32⟩ : BufTy).Contents (Elt F) → (⟨S1600000, .i32⟩ : BufTy).Contents (Elt F) → (⟨S1600000, .i1⟩ : BufTy).Contents (Elt F))
  :: nullary main_c_21 (constantI S_ 32 100000#32)
  :: unary main_c_21 main_v116 (broadcastInDim S1600000 ![] bcast_S_S1600000 : (⟨S_, .i32⟩ : BufTy).Contents (Elt F) → (⟨S1600000, .i32⟩ : BufTy).Contents (Elt F))
  :: binary main_v1 main_v116 main_v117 (addi : (⟨S1600000, .i32⟩ : BufTy).Contents (Elt F) → (⟨S1600000, .i32⟩ : BufTy).Contents (Elt F) → (⟨S1600000, .i32⟩ : BufTy).Contents (Elt F))
  :: ternary main_v115 main_v117 main_v1 main_v118 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v118 main_v119 (broadcastInDim S1600000x1 ![0] bcast_S1600000_S1600000x1_0 : (⟨S1600000, .i32⟩ : BufTy).Contents (Elt F) → (⟨S1600000x1, .i32⟩ : BufTy).Contents (Elt F))
  :: binary main_v108 main_v119 main_v120 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: unary main_v113 main_v121 (broadcastInDim S1600000x64 ![0, 1] bcast_S1600000x1_S1600000x64_0_1 : (⟨S1600000x1, .f32⟩ : BufTy).Contents (Elt F) → (⟨S1600000x64, .f32⟩ : BufTy).Contents (Elt F))
  :: binary main_v121 main_v120 main_v122 (mulf : (⟨S1600000x64, .f32⟩ : BufTy).Contents (Elt F) → (⟨S1600000x64, .f32⟩ : BufTy).Contents (Elt F) → (⟨S1600000x64, .f32⟩ : BufTy).Contents (Elt F))
  :: nullary main_cst_22 (constant S_ .f32 0x00000000#32)
  :: unary main_cst_22 main_v123 (broadcastInDim S100000x64 ![] bcast_S_S100000x64 : (⟨S_, .f32⟩ : BufTy).Contents (Elt F) → (⟨S100000x64, .f32⟩ : BufTy).Contents (Elt F))
  :: unary main_v3 main_v124 (broadcastInDim S1600000x1 ![0] bcast_S1600000_S1600000x1_0 : (⟨S1600000, .i32⟩ : BufTy).Contents (Elt F) → (⟨S1600000x1, .i32⟩ : BufTy).Contents (Elt F))
  :: ternary main_v123 main_v124 main_v122 main_v125 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: unary main_v90 main_v126 ((extractStridedSlice S1x64x64 ![2, 0, 0] · slices_S4x64x64_S1x64x64_2_0_0) : (⟨S4x64x64, .f32⟩ : BufTy).Contents (Elt F) → (⟨S1x64x64, .f32⟩ : BufTy).Contents (Elt F))
  :: reshape main_v126 main_v127 rfl shapeCasts_S1x64x64_S64x64
  :: binary main_v125 main_v127 main_v128 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: binary main_v112 main_v128 main_v129 (addf : (⟨S100000x64, .f32⟩ : BufTy).Contents (Elt F) → (⟨S100000x64, .f32⟩ : BufTy).Contents (Elt F) → (⟨S100000x64, .f32⟩ : BufTy).Contents (Elt F))
  :: unary main_v30 main_v130 (broadcastInDim S1600000x1 ![0] bcast_S1600000_S1600000x1_0 : (⟨S1600000, .f32⟩ : BufTy).Contents (Elt F) → (⟨S1600000x1, .f32⟩ : BufTy).Contents (Elt F))
  :: nullary main_c_23 (constantI S_ 32 0#32)
  :: unary main_c_23 main_v131 (broadcastInDim S1600000 ![] bcast_S_S1600000 : (⟨S_, .i32⟩ : BufTy).Contents (Elt F) → (⟨S1600000, .i32⟩ : BufTy).Contents (Elt F))
  :: binary main_v1 main_v131 main_v132 (cmpi .slt : (⟨S1600000, .i32⟩ : BufTy).Contents (Elt F) → (⟨S1600000, .i32⟩ : BufTy).Contents (Elt F) → (⟨S1600000, .i1⟩ : BufTy).Contents (Elt F))
  :: nullary main_c_24 (constantI S_ 32 100000#32)
  :: unary main_c_24 main_v133 (broadcastInDim S1600000 ![] bcast_S_S1600000 : (⟨S_, .i32⟩ : BufTy).Contents (Elt F) → (⟨S1600000, .i32⟩ : BufTy).Contents (Elt F))
  :: binary main_v1 main_v133 main_v134 (addi : (⟨S1600000, .i32⟩ : BufTy).Contents (Elt F) → (⟨S1600000, .i32⟩ : BufTy).Contents (Elt F) → (⟨S1600000, .i32⟩ : BufTy).Contents (Elt F))
  :: ternary main_v132 main_v134 main_v1 main_v135 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v135 main_v136 (broadcastInDim S1600000x1 ![0] bcast_S1600000_S1600000x1_0 : (⟨S1600000, .i32⟩ : BufTy).Contents (Elt F) → (⟨S1600000x1, .i32⟩ : BufTy).Contents (Elt F))
  :: binary main_v125 main_v136 main_v137 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: unary main_v130 main_v138 (broadcastInDim S1600000x64 ![0, 1] bcast_S1600000x1_S1600000x64_0_1 : (⟨S1600000x1, .f32⟩ : BufTy).Contents (Elt F) → (⟨S1600000x64, .f32⟩ : BufTy).Contents (Elt F))
  :: binary main_v138 main_v137 main_v139 (mulf : (⟨S1600000x64, .f32⟩ : BufTy).Contents (Elt F) → (⟨S1600000x64, .f32⟩ : BufTy).Contents (Elt F) → (⟨S1600000x64, .f32⟩ : BufTy).Contents (Elt F))
  :: nullary main_cst_25 (constant S_ .f32 0x00000000#32)
  :: unary main_cst_25 main_v140 (broadcastInDim S100000x64 ![] bcast_S_S100000x64 : (⟨S_, .f32⟩ : BufTy).Contents (Elt F) → (⟨S100000x64, .f32⟩ : BufTy).Contents (Elt F))
  :: unary main_v3 main_v141 (broadcastInDim S1600000x1 ![0] bcast_S1600000_S1600000x1_0 : (⟨S1600000, .i32⟩ : BufTy).Contents (Elt F) → (⟨S1600000x1, .i32⟩ : BufTy).Contents (Elt F))
  :: ternary main_v140 main_v141 main_v139 main_v142 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: unary main_v90 main_v143 ((extractStridedSlice S1x64x64 ![3, 0, 0] · slices_S4x64x64_S1x64x64_3_0_0) : (⟨S4x64x64, .f32⟩ : BufTy).Contents (Elt F) → (⟨S1x64x64, .f32⟩ : BufTy).Contents (Elt F))
  :: reshape main_v143 main_v144 rfl shapeCasts_S1x64x64_S64x64
  :: binary main_v142 main_v144 main_v145 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: binary main_v129 main_v145 main_v146 (addf : (⟨S100000x64, .f32⟩ : BufTy).Contents (Elt F) → (⟨S100000x64, .f32⟩ : BufTy).Contents (Elt F) → (⟨S100000x64, .f32⟩ : BufTy).Contents (Elt F))
  :: unary main_v92 main_v147 (broadcastInDim S1x64 ![1] bcast_S64_S1x64_1 : (⟨S64, .f32⟩ : BufTy).Contents (Elt F) → (⟨S1x64, .f32⟩ : BufTy).Contents (Elt F))
  :: unary main_v147 main_v148 (broadcastInDim S100000x64 ![0, 1] bcast_S1x64_S100000x64_0_1 : (⟨S1x64, .f32⟩ : BufTy).Contents (Elt F) → (⟨S100000x64, .f32⟩ : BufTy).Contents (Elt F))
  :: binary main_v146 main_v148 main_v149 (addf : (⟨S100000x64, .f32⟩ : BufTy).Contents (Elt F) → (⟨S100000x64, .f32⟩ : BufTy).Contents (Elt F) → (⟨S100000x64, .f32⟩ : BufTy).Contents (Elt F))
  :: TRef.nullary (TRef.of (T := ⟨S_, .f32⟩) main_call2_cst) (constant S_ .f32 0x00000000#32)
  :: TRef.unary (TRef.of (T := ⟨S_, .f32⟩) main_call2_cst) (TRef.of (T := ⟨S100000x64, .f32⟩) main_call2_v0) (broadcastInDim S100000x64 ![] bcast_S_S100000x64)
  :: TRef.binary (TRef.of (T := ⟨S100000x64, .f32⟩) main_v149) (TRef.of (T := ⟨S100000x64, .f32⟩) main_call2_v0) (TRef.of (T := ⟨S100000x64, .f32⟩) main_v150) maximumf
  :: []

/-- Each operation of `ops1` touches TensorCore references only. -/
theorem ops1_sub : (ops1 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩
/-- Each operation of `ops1` determines its results. -/
theorem ops1_fresh : (ops1 : List (HloOp τ sig (Elt F))).Forall fun op => op.fresh = ∅ := by
  simp only [List.Forall]; repeat' constructor
/-- The references `ops1` writes. -/
abbrev ops1_W : List (Ref sig .tc) := [main_v89, main_v90, main_v91, main_v92, main_v93, main_v94, main_v95, main_v96, main_c_17, main_v97, main_v98, main_c_18, main_v99, main_v100, main_v101, main_v102, main_v103, main_v104, main_v105, main_cst_19, main_v106, main_v107, main_v108, main_v109, main_v110, main_v111, main_v112, main_v113, main_c_20, main_v114, main_v115, main_c_21, main_v116, main_v117, main_v118, main_v119, main_v120, main_v121, main_v122, main_cst_22, main_v123, main_v124, main_v125, main_v126, main_v127, main_v128, main_v129, main_v130, main_c_23, main_v131, main_v132, main_c_24, main_v133, main_v134, main_v135, main_v136, main_v137, main_v138, main_v139, main_cst_25, main_v140, main_v141, main_v142, main_v143, main_v144, main_v145, main_v146, main_v147, main_v148, main_v149, main_call2_cst, main_call2_v0, main_v150]
theorem ops1_writes : (ops1 : List (HloOp τ sig (Elt F))).Forall fun op => op.writes ⊆ (ops1_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `ops1` does not write keeps its contents. -/
theorem ops1_keep (V : Valuation τ sig (Elt F)) (r : Ref sig .tc) (h : r ∉ ops1_W) :
    after ops1 V (Proc.devRef .tc r) = V (Proc.devRef .tc r) :=
  after_of_writes_sub ops1 V ops1_writes h

set_option maxHeartbeats 40000000 in
/-- The reference's operations 186 … 258 of 332, in order. -/
abbrev ops2 : List (HloOp τ sig (Elt F)) :=
  unary main_arg4 main_v151 ((extractStridedSlice S1x4x64x64 ![1, 0, 0, 0] · slices_S3x4x64x64_S1x4x64x64_1_0_0_0) : (⟨S3x4x64x64, .f32⟩ : BufTy).Contents (Elt F) → (⟨S1x4x64x64, .f32⟩ : BufTy).Contents (Elt F))
  :: reshape main_v151 main_v152 rfl shapeCasts_S1x4x64x64_S4x64x64
  :: unary main_arg5 main_v153 ((extractStridedSlice S1x64 ![1, 0] · slices_S3x64_S1x64_1_0) : (⟨S3x64, .f32⟩ : BufTy).Contents (Elt F) → (⟨S1x64, .f32⟩ : BufTy).Contents (Elt F))
  :: reshape main_v153 main_v154 rfl shapeCasts_S1x64_S64
  :: unary main_v152 main_v155 ((extractStridedSlice S1x64x64 ![0, 0, 0] · slices_S4x64x64_S1x64x64_0_0_0) : (⟨S4x64x64, .f32⟩ : BufTy).Contents (Elt F) → (⟨S1x64x64, .f32⟩ : BufTy).Contents (Elt F))
  :: reshape main_v155 main_v156 rfl shapeCasts_S1x64x64_S64x64
  :: binary main_v150 main_v156 main_v157 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: unary main_v30 main_v158 (broadcastInDim S1600000x1 ![0] bcast_S1600000_S1600000x1_0 : (⟨S1600000, .f32⟩ : BufTy).Contents (Elt F) → (⟨S1600000x1, .f32⟩ : BufTy).Contents (Elt F))
  :: nullary main_c_26 (constantI S_ 32 0#32)
  :: unary main_c_26 main_v159 (broadcastInDim S1600000 ![] bcast_S_S1600000 : (⟨S_, .i32⟩ : BufTy).Contents (Elt F) → (⟨S1600000, .i32⟩ : BufTy).Contents (Elt F))
  :: binary main_v1 main_v159 main_v160 (cmpi .slt : (⟨S1600000, .i32⟩ : BufTy).Contents (Elt F) → (⟨S1600000, .i32⟩ : BufTy).Contents (Elt F) → (⟨S1600000, .i1⟩ : BufTy).Contents (Elt F))
  :: nullary main_c_27 (constantI S_ 32 100000#32)
  :: unary main_c_27 main_v161 (broadcastInDim S1600000 ![] bcast_S_S1600000 : (⟨S_, .i32⟩ : BufTy).Contents (Elt F) → (⟨S1600000, .i32⟩ : BufTy).Contents (Elt F))
  :: binary main_v1 main_v161 main_v162 (addi : (⟨S1600000, .i32⟩ : BufTy).Contents (Elt F) → (⟨S1600000, .i32⟩ : BufTy).Contents (Elt F) → (⟨S1600000, .i32⟩ : BufTy).Contents (Elt F))
  :: ternary main_v160 main_v162 main_v1 main_v163 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v163 main_v164 (broadcastInDim S1600000x1 ![0] bcast_S1600000_S1600000x1_0 : (⟨S1600000, .i32⟩ : BufTy).Contents (Elt F) → (⟨S1600000x1, .i32⟩ : BufTy).Contents (Elt F))
  :: binary main_v150 main_v164 main_v165 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: unary main_v158 main_v166 (broadcastInDim S1600000x64 ![0, 1] bcast_S1600000x1_S1600000x64_0_1 : (⟨S1600000x1, .f32⟩ : BufTy).Contents (Elt F) → (⟨S1600000x64, .f32⟩ : BufTy).Contents (Elt F))
  :: binary main_v166 main_v165 main_v167 (mulf : (⟨S1600000x64, .f32⟩ : BufTy).Contents (Elt F) → (⟨S1600000x64, .f32⟩ : BufTy).Contents (Elt F) → (⟨S1600000x64, .f32⟩ : BufTy).Contents (Elt F))
  :: nullary main_cst_28 (constant S_ .f32 0x00000000#32)
  :: unary main_cst_28 main_v168 (broadcastInDim S100000x64 ![] bcast_S_S100000x64 : (⟨S_, .f32⟩ : BufTy).Contents (Elt F) → (⟨S100000x64, .f32⟩ : BufTy).Contents (Elt F))
  :: unary main_v3 main_v169 (broadcastInDim S1600000x1 ![0] bcast_S1600000_S1600000x1_0 : (⟨S1600000, .i32⟩ : BufTy).Contents (Elt F) → (⟨S1600000x1, .i32⟩ : BufTy).Contents (Elt F))
  :: ternary main_v168 main_v169 main_v167 main_v170 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: unary main_v152 main_v171 ((extractStridedSlice S1x64x64 ![1, 0, 0] · slices_S4x64x64_S1x64x64_1_0_0) : (⟨S4x64x64, .f32⟩ : BufTy).Contents (Elt F) → (⟨S1x64x64, .f32⟩ : BufTy).Contents (Elt F))
  :: reshape main_v171 main_v172 rfl shapeCasts_S1x64x64_S64x64
  :: binary main_v170 main_v172 main_v173 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: binary main_v157 main_v173 main_v174 (addf : (⟨S100000x64, .f32⟩ : BufTy).Contents (Elt F) → (⟨S100000x64, .f32⟩ : BufTy).Contents (Elt F) → (⟨S100000x64, .f32⟩ : BufTy).Contents (Elt F))
  :: unary main_v30 main_v175 (broadcastInDim S1600000x1 ![0] bcast_S1600000_S1600000x1_0 : (⟨S1600000, .f32⟩ : BufTy).Contents (Elt F) → (⟨S1600000x1, .f32⟩ : BufTy).Contents (Elt F))
  :: nullary main_c_29 (constantI S_ 32 0#32)
  :: unary main_c_29 main_v176 (broadcastInDim S1600000 ![] bcast_S_S1600000 : (⟨S_, .i32⟩ : BufTy).Contents (Elt F) → (⟨S1600000, .i32⟩ : BufTy).Contents (Elt F))
  :: binary main_v1 main_v176 main_v177 (cmpi .slt : (⟨S1600000, .i32⟩ : BufTy).Contents (Elt F) → (⟨S1600000, .i32⟩ : BufTy).Contents (Elt F) → (⟨S1600000, .i1⟩ : BufTy).Contents (Elt F))
  :: nullary main_c_30 (constantI S_ 32 100000#32)
  :: unary main_c_30 main_v178 (broadcastInDim S1600000 ![] bcast_S_S1600000 : (⟨S_, .i32⟩ : BufTy).Contents (Elt F) → (⟨S1600000, .i32⟩ : BufTy).Contents (Elt F))
  :: binary main_v1 main_v178 main_v179 (addi : (⟨S1600000, .i32⟩ : BufTy).Contents (Elt F) → (⟨S1600000, .i32⟩ : BufTy).Contents (Elt F) → (⟨S1600000, .i32⟩ : BufTy).Contents (Elt F))
  :: ternary main_v177 main_v179 main_v1 main_v180 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v180 main_v181 (broadcastInDim S1600000x1 ![0] bcast_S1600000_S1600000x1_0 : (⟨S1600000, .i32⟩ : BufTy).Contents (Elt F) → (⟨S1600000x1, .i32⟩ : BufTy).Contents (Elt F))
  :: binary main_v170 main_v181 main_v182 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: unary main_v175 main_v183 (broadcastInDim S1600000x64 ![0, 1] bcast_S1600000x1_S1600000x64_0_1 : (⟨S1600000x1, .f32⟩ : BufTy).Contents (Elt F) → (⟨S1600000x64, .f32⟩ : BufTy).Contents (Elt F))
  :: binary main_v183 main_v182 main_v184 (mulf : (⟨S1600000x64, .f32⟩ : BufTy).Contents (Elt F) → (⟨S1600000x64, .f32⟩ : BufTy).Contents (Elt F) → (⟨S1600000x64, .f32⟩ : BufTy).Contents (Elt F))
  :: nullary main_cst_31 (constant S_ .f32 0x00000000#32)
  :: unary main_cst_31 main_v185 (broadcastInDim S100000x64 ![] bcast_S_S100000x64 : (⟨S_, .f32⟩ : BufTy).Contents (Elt F) → (⟨S100000x64, .f32⟩ : BufTy).Contents (Elt F))
  :: unary main_v3 main_v186 (broadcastInDim S1600000x1 ![0] bcast_S1600000_S1600000x1_0 : (⟨S1600000, .i32⟩ : BufTy).Contents (Elt F) → (⟨S1600000x1, .i32⟩ : BufTy).Contents (Elt F))
  :: ternary main_v185 main_v186 main_v184 main_v187 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: unary main_v152 main_v188 ((extractStridedSlice S1x64x64 ![2, 0, 0] · slices_S4x64x64_S1x64x64_2_0_0) : (⟨S4x64x64, .f32⟩ : BufTy).Contents (Elt F) → (⟨S1x64x64, .f32⟩ : BufTy).Contents (Elt F))
  :: reshape main_v188 main_v189 rfl shapeCasts_S1x64x64_S64x64
  :: binary main_v187 main_v189 main_v190 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: binary main_v174 main_v190 main_v191 (addf : (⟨S100000x64, .f32⟩ : BufTy).Contents (Elt F) → (⟨S100000x64, .f32⟩ : BufTy).Contents (Elt F) → (⟨S100000x64, .f32⟩ : BufTy).Contents (Elt F))
  :: unary main_v30 main_v192 (broadcastInDim S1600000x1 ![0] bcast_S1600000_S1600000x1_0 : (⟨S1600000, .f32⟩ : BufTy).Contents (Elt F) → (⟨S1600000x1, .f32⟩ : BufTy).Contents (Elt F))
  :: nullary main_c_32 (constantI S_ 32 0#32)
  :: unary main_c_32 main_v193 (broadcastInDim S1600000 ![] bcast_S_S1600000 : (⟨S_, .i32⟩ : BufTy).Contents (Elt F) → (⟨S1600000, .i32⟩ : BufTy).Contents (Elt F))
  :: binary main_v1 main_v193 main_v194 (cmpi .slt : (⟨S1600000, .i32⟩ : BufTy).Contents (Elt F) → (⟨S1600000, .i32⟩ : BufTy).Contents (Elt F) → (⟨S1600000, .i1⟩ : BufTy).Contents (Elt F))
  :: nullary main_c_33 (constantI S_ 32 100000#32)
  :: unary main_c_33 main_v195 (broadcastInDim S1600000 ![] bcast_S_S1600000 : (⟨S_, .i32⟩ : BufTy).Contents (Elt F) → (⟨S1600000, .i32⟩ : BufTy).Contents (Elt F))
  :: binary main_v1 main_v195 main_v196 (addi : (⟨S1600000, .i32⟩ : BufTy).Contents (Elt F) → (⟨S1600000, .i32⟩ : BufTy).Contents (Elt F) → (⟨S1600000, .i32⟩ : BufTy).Contents (Elt F))
  :: ternary main_v194 main_v196 main_v1 main_v197 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v197 main_v198 (broadcastInDim S1600000x1 ![0] bcast_S1600000_S1600000x1_0 : (⟨S1600000, .i32⟩ : BufTy).Contents (Elt F) → (⟨S1600000x1, .i32⟩ : BufTy).Contents (Elt F))
  :: binary main_v187 main_v198 main_v199 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: unary main_v192 main_v200 (broadcastInDim S1600000x64 ![0, 1] bcast_S1600000x1_S1600000x64_0_1 : (⟨S1600000x1, .f32⟩ : BufTy).Contents (Elt F) → (⟨S1600000x64, .f32⟩ : BufTy).Contents (Elt F))
  :: binary main_v200 main_v199 main_v201 (mulf : (⟨S1600000x64, .f32⟩ : BufTy).Contents (Elt F) → (⟨S1600000x64, .f32⟩ : BufTy).Contents (Elt F) → (⟨S1600000x64, .f32⟩ : BufTy).Contents (Elt F))
  :: nullary main_cst_34 (constant S_ .f32 0x00000000#32)
  :: unary main_cst_34 main_v202 (broadcastInDim S100000x64 ![] bcast_S_S100000x64 : (⟨S_, .f32⟩ : BufTy).Contents (Elt F) → (⟨S100000x64, .f32⟩ : BufTy).Contents (Elt F))
  :: unary main_v3 main_v203 (broadcastInDim S1600000x1 ![0] bcast_S1600000_S1600000x1_0 : (⟨S1600000, .i32⟩ : BufTy).Contents (Elt F) → (⟨S1600000x1, .i32⟩ : BufTy).Contents (Elt F))
  :: ternary main_v202 main_v203 main_v201 main_v204 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: unary main_v152 main_v205 ((extractStridedSlice S1x64x64 ![3, 0, 0] · slices_S4x64x64_S1x64x64_3_0_0) : (⟨S4x64x64, .f32⟩ : BufTy).Contents (Elt F) → (⟨S1x64x64, .f32⟩ : BufTy).Contents (Elt F))
  :: reshape main_v205 main_v206 rfl shapeCasts_S1x64x64_S64x64
  :: binary main_v204 main_v206 main_v207 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: binary main_v191 main_v207 main_v208 (addf : (⟨S100000x64, .f32⟩ : BufTy).Contents (Elt F) → (⟨S100000x64, .f32⟩ : BufTy).Contents (Elt F) → (⟨S100000x64, .f32⟩ : BufTy).Contents (Elt F))
  :: unary main_v154 main_v209 (broadcastInDim S1x64 ![1] bcast_S64_S1x64_1 : (⟨S64, .f32⟩ : BufTy).Contents (Elt F) → (⟨S1x64, .f32⟩ : BufTy).Contents (Elt F))
  :: unary main_v209 main_v210 (broadcastInDim S100000x64 ![0, 1] bcast_S1x64_S100000x64_0_1 : (⟨S1x64, .f32⟩ : BufTy).Contents (Elt F) → (⟨S100000x64, .f32⟩ : BufTy).Contents (Elt F))
  :: binary main_v208 main_v210 main_v211 (addf : (⟨S100000x64, .f32⟩ : BufTy).Contents (Elt F) → (⟨S100000x64, .f32⟩ : BufTy).Contents (Elt F) → (⟨S100000x64, .f32⟩ : BufTy).Contents (Elt F))
  :: TRef.nullary (TRef.of (T := ⟨S_, .f32⟩) main_call3_cst) (constant S_ .f32 0x00000000#32)
  :: TRef.unary (TRef.of (T := ⟨S_, .f32⟩) main_call3_cst) (TRef.of (T := ⟨S100000x64, .f32⟩) main_call3_v0) (broadcastInDim S100000x64 ![] bcast_S_S100000x64)
  :: TRef.binary (TRef.of (T := ⟨S100000x64, .f32⟩) main_v211) (TRef.of (T := ⟨S100000x64, .f32⟩) main_call3_v0) (TRef.of (T := ⟨S100000x64, .f32⟩) main_v212) maximumf
  :: []

/-- Each operation of `ops2` touches TensorCore references only. -/
theorem ops2_sub : (ops2 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩
/-- Each operation of `ops2` determines its results. -/
theorem ops2_fresh : (ops2 : List (HloOp τ sig (Elt F))).Forall fun op => op.fresh = ∅ := by
  simp only [List.Forall]; repeat' constructor
/-- The references `ops2` writes. -/
abbrev ops2_W : List (Ref sig .tc) := [main_v151, main_v152, main_v153, main_v154, main_v155, main_v156, main_v157, main_v158, main_c_26, main_v159, main_v160, main_c_27, main_v161, main_v162, main_v163, main_v164, main_v165, main_v166, main_v167, main_cst_28, main_v168, main_v169, main_v170, main_v171, main_v172, main_v173, main_v174, main_v175, main_c_29, main_v176, main_v177, main_c_30, main_v178, main_v179, main_v180, main_v181, main_v182, main_v183, main_v184, main_cst_31, main_v185, main_v186, main_v187, main_v188, main_v189, main_v190, main_v191, main_v192, main_c_32, main_v193, main_v194, main_c_33, main_v195, main_v196, main_v197, main_v198, main_v199, main_v200, main_v201, main_cst_34, main_v202, main_v203, main_v204, main_v205, main_v206, main_v207, main_v208, main_v209, main_v210, main_v211, main_call3_cst, main_call3_v0, main_v212]
theorem ops2_writes : (ops2 : List (HloOp τ sig (Elt F))).Forall fun op => op.writes ⊆ (ops2_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `ops2` does not write keeps its contents. -/
theorem ops2_keep (V : Valuation τ sig (Elt F)) (r : Ref sig .tc) (h : r ∉ ops2_W) :
    after ops2 V (Proc.devRef .tc r) = V (Proc.devRef .tc r) :=
  after_of_writes_sub ops2 V ops2_writes h

set_option maxHeartbeats 40000000 in
/-- The reference's operations 259 … 328 of 332, in order. -/
abbrev ops3 : List (HloOp τ sig (Elt F)) :=
  unary main_arg4 main_v213 ((extractStridedSlice S1x4x64x64 ![2, 0, 0, 0] · slices_S3x4x64x64_S1x4x64x64_2_0_0_0) : (⟨S3x4x64x64, .f32⟩ : BufTy).Contents (Elt F) → (⟨S1x4x64x64, .f32⟩ : BufTy).Contents (Elt F))
  :: reshape main_v213 main_v214 rfl shapeCasts_S1x4x64x64_S4x64x64
  :: unary main_arg5 main_v215 ((extractStridedSlice S1x64 ![2, 0] · slices_S3x64_S1x64_2_0) : (⟨S3x64, .f32⟩ : BufTy).Contents (Elt F) → (⟨S1x64, .f32⟩ : BufTy).Contents (Elt F))
  :: reshape main_v215 main_v216 rfl shapeCasts_S1x64_S64
  :: unary main_v214 main_v217 ((extractStridedSlice S1x64x64 ![0, 0, 0] · slices_S4x64x64_S1x64x64_0_0_0) : (⟨S4x64x64, .f32⟩ : BufTy).Contents (Elt F) → (⟨S1x64x64, .f32⟩ : BufTy).Contents (Elt F))
  :: reshape main_v217 main_v218 rfl shapeCasts_S1x64x64_S64x64
  :: binary main_v212 main_v218 main_v219 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: unary main_v30 main_v220 (broadcastInDim S1600000x1 ![0] bcast_S1600000_S1600000x1_0 : (⟨S1600000, .f32⟩ : BufTy).Contents (Elt F) → (⟨S1600000x1, .f32⟩ : BufTy).Contents (Elt F))
  :: nullary main_c_35 (constantI S_ 32 0#32)
  :: unary main_c_35 main_v221 (broadcastInDim S1600000 ![] bcast_S_S1600000 : (⟨S_, .i32⟩ : BufTy).Contents (Elt F) → (⟨S1600000, .i32⟩ : BufTy).Contents (Elt F))
  :: binary main_v1 main_v221 main_v222 (cmpi .slt : (⟨S1600000, .i32⟩ : BufTy).Contents (Elt F) → (⟨S1600000, .i32⟩ : BufTy).Contents (Elt F) → (⟨S1600000, .i1⟩ : BufTy).Contents (Elt F))
  :: nullary main_c_36 (constantI S_ 32 100000#32)
  :: unary main_c_36 main_v223 (broadcastInDim S1600000 ![] bcast_S_S1600000 : (⟨S_, .i32⟩ : BufTy).Contents (Elt F) → (⟨S1600000, .i32⟩ : BufTy).Contents (Elt F))
  :: binary main_v1 main_v223 main_v224 (addi : (⟨S1600000, .i32⟩ : BufTy).Contents (Elt F) → (⟨S1600000, .i32⟩ : BufTy).Contents (Elt F) → (⟨S1600000, .i32⟩ : BufTy).Contents (Elt F))
  :: ternary main_v222 main_v224 main_v1 main_v225 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v225 main_v226 (broadcastInDim S1600000x1 ![0] bcast_S1600000_S1600000x1_0 : (⟨S1600000, .i32⟩ : BufTy).Contents (Elt F) → (⟨S1600000x1, .i32⟩ : BufTy).Contents (Elt F))
  :: binary main_v212 main_v226 main_v227 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: unary main_v220 main_v228 (broadcastInDim S1600000x64 ![0, 1] bcast_S1600000x1_S1600000x64_0_1 : (⟨S1600000x1, .f32⟩ : BufTy).Contents (Elt F) → (⟨S1600000x64, .f32⟩ : BufTy).Contents (Elt F))
  :: binary main_v228 main_v227 main_v229 (mulf : (⟨S1600000x64, .f32⟩ : BufTy).Contents (Elt F) → (⟨S1600000x64, .f32⟩ : BufTy).Contents (Elt F) → (⟨S1600000x64, .f32⟩ : BufTy).Contents (Elt F))
  :: nullary main_cst_37 (constant S_ .f32 0x00000000#32)
  :: unary main_cst_37 main_v230 (broadcastInDim S100000x64 ![] bcast_S_S100000x64 : (⟨S_, .f32⟩ : BufTy).Contents (Elt F) → (⟨S100000x64, .f32⟩ : BufTy).Contents (Elt F))
  :: unary main_v3 main_v231 (broadcastInDim S1600000x1 ![0] bcast_S1600000_S1600000x1_0 : (⟨S1600000, .i32⟩ : BufTy).Contents (Elt F) → (⟨S1600000x1, .i32⟩ : BufTy).Contents (Elt F))
  :: ternary main_v230 main_v231 main_v229 main_v232 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: unary main_v214 main_v233 ((extractStridedSlice S1x64x64 ![1, 0, 0] · slices_S4x64x64_S1x64x64_1_0_0) : (⟨S4x64x64, .f32⟩ : BufTy).Contents (Elt F) → (⟨S1x64x64, .f32⟩ : BufTy).Contents (Elt F))
  :: reshape main_v233 main_v234 rfl shapeCasts_S1x64x64_S64x64
  :: binary main_v232 main_v234 main_v235 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: binary main_v219 main_v235 main_v236 (addf : (⟨S100000x64, .f32⟩ : BufTy).Contents (Elt F) → (⟨S100000x64, .f32⟩ : BufTy).Contents (Elt F) → (⟨S100000x64, .f32⟩ : BufTy).Contents (Elt F))
  :: unary main_v30 main_v237 (broadcastInDim S1600000x1 ![0] bcast_S1600000_S1600000x1_0 : (⟨S1600000, .f32⟩ : BufTy).Contents (Elt F) → (⟨S1600000x1, .f32⟩ : BufTy).Contents (Elt F))
  :: nullary main_c_38 (constantI S_ 32 0#32)
  :: unary main_c_38 main_v238 (broadcastInDim S1600000 ![] bcast_S_S1600000 : (⟨S_, .i32⟩ : BufTy).Contents (Elt F) → (⟨S1600000, .i32⟩ : BufTy).Contents (Elt F))
  :: binary main_v1 main_v238 main_v239 (cmpi .slt : (⟨S1600000, .i32⟩ : BufTy).Contents (Elt F) → (⟨S1600000, .i32⟩ : BufTy).Contents (Elt F) → (⟨S1600000, .i1⟩ : BufTy).Contents (Elt F))
  :: nullary main_c_39 (constantI S_ 32 100000#32)
  :: unary main_c_39 main_v240 (broadcastInDim S1600000 ![] bcast_S_S1600000 : (⟨S_, .i32⟩ : BufTy).Contents (Elt F) → (⟨S1600000, .i32⟩ : BufTy).Contents (Elt F))
  :: binary main_v1 main_v240 main_v241 (addi : (⟨S1600000, .i32⟩ : BufTy).Contents (Elt F) → (⟨S1600000, .i32⟩ : BufTy).Contents (Elt F) → (⟨S1600000, .i32⟩ : BufTy).Contents (Elt F))
  :: ternary main_v239 main_v241 main_v1 main_v242 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v242 main_v243 (broadcastInDim S1600000x1 ![0] bcast_S1600000_S1600000x1_0 : (⟨S1600000, .i32⟩ : BufTy).Contents (Elt F) → (⟨S1600000x1, .i32⟩ : BufTy).Contents (Elt F))
  :: binary main_v232 main_v243 main_v244 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: unary main_v237 main_v245 (broadcastInDim S1600000x64 ![0, 1] bcast_S1600000x1_S1600000x64_0_1 : (⟨S1600000x1, .f32⟩ : BufTy).Contents (Elt F) → (⟨S1600000x64, .f32⟩ : BufTy).Contents (Elt F))
  :: binary main_v245 main_v244 main_v246 (mulf : (⟨S1600000x64, .f32⟩ : BufTy).Contents (Elt F) → (⟨S1600000x64, .f32⟩ : BufTy).Contents (Elt F) → (⟨S1600000x64, .f32⟩ : BufTy).Contents (Elt F))
  :: nullary main_cst_40 (constant S_ .f32 0x00000000#32)
  :: unary main_cst_40 main_v247 (broadcastInDim S100000x64 ![] bcast_S_S100000x64 : (⟨S_, .f32⟩ : BufTy).Contents (Elt F) → (⟨S100000x64, .f32⟩ : BufTy).Contents (Elt F))
  :: unary main_v3 main_v248 (broadcastInDim S1600000x1 ![0] bcast_S1600000_S1600000x1_0 : (⟨S1600000, .i32⟩ : BufTy).Contents (Elt F) → (⟨S1600000x1, .i32⟩ : BufTy).Contents (Elt F))
  :: ternary main_v247 main_v248 main_v246 main_v249 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: unary main_v214 main_v250 ((extractStridedSlice S1x64x64 ![2, 0, 0] · slices_S4x64x64_S1x64x64_2_0_0) : (⟨S4x64x64, .f32⟩ : BufTy).Contents (Elt F) → (⟨S1x64x64, .f32⟩ : BufTy).Contents (Elt F))
  :: reshape main_v250 main_v251 rfl shapeCasts_S1x64x64_S64x64
  :: binary main_v249 main_v251 main_v252 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: binary main_v236 main_v252 main_v253 (addf : (⟨S100000x64, .f32⟩ : BufTy).Contents (Elt F) → (⟨S100000x64, .f32⟩ : BufTy).Contents (Elt F) → (⟨S100000x64, .f32⟩ : BufTy).Contents (Elt F))
  :: unary main_v30 main_v254 (broadcastInDim S1600000x1 ![0] bcast_S1600000_S1600000x1_0 : (⟨S1600000, .f32⟩ : BufTy).Contents (Elt F) → (⟨S1600000x1, .f32⟩ : BufTy).Contents (Elt F))
  :: nullary main_c_41 (constantI S_ 32 0#32)
  :: unary main_c_41 main_v255 (broadcastInDim S1600000 ![] bcast_S_S1600000 : (⟨S_, .i32⟩ : BufTy).Contents (Elt F) → (⟨S1600000, .i32⟩ : BufTy).Contents (Elt F))
  :: binary main_v1 main_v255 main_v256 (cmpi .slt : (⟨S1600000, .i32⟩ : BufTy).Contents (Elt F) → (⟨S1600000, .i32⟩ : BufTy).Contents (Elt F) → (⟨S1600000, .i1⟩ : BufTy).Contents (Elt F))
  :: nullary main_c_42 (constantI S_ 32 100000#32)
  :: unary main_c_42 main_v257 (broadcastInDim S1600000 ![] bcast_S_S1600000 : (⟨S_, .i32⟩ : BufTy).Contents (Elt F) → (⟨S1600000, .i32⟩ : BufTy).Contents (Elt F))
  :: binary main_v1 main_v257 main_v258 (addi : (⟨S1600000, .i32⟩ : BufTy).Contents (Elt F) → (⟨S1600000, .i32⟩ : BufTy).Contents (Elt F) → (⟨S1600000, .i32⟩ : BufTy).Contents (Elt F))
  :: ternary main_v256 main_v258 main_v1 main_v259 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: unary main_v259 main_v260 (broadcastInDim S1600000x1 ![0] bcast_S1600000_S1600000x1_0 : (⟨S1600000, .i32⟩ : BufTy).Contents (Elt F) → (⟨S1600000x1, .i32⟩ : BufTy).Contents (Elt F))
  :: binary main_v249 main_v260 main_v261 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F))
  :: unary main_v254 main_v262 (broadcastInDim S1600000x64 ![0, 1] bcast_S1600000x1_S1600000x64_0_1 : (⟨S1600000x1, .f32⟩ : BufTy).Contents (Elt F) → (⟨S1600000x64, .f32⟩ : BufTy).Contents (Elt F))
  :: binary main_v262 main_v261 main_v263 (mulf : (⟨S1600000x64, .f32⟩ : BufTy).Contents (Elt F) → (⟨S1600000x64, .f32⟩ : BufTy).Contents (Elt F) → (⟨S1600000x64, .f32⟩ : BufTy).Contents (Elt F))
  :: nullary main_cst_43 (constant S_ .f32 0x00000000#32)
  :: unary main_cst_43 main_v264 (broadcastInDim S100000x64 ![] bcast_S_S100000x64 : (⟨S_, .f32⟩ : BufTy).Contents (Elt F) → (⟨S100000x64, .f32⟩ : BufTy).Contents (Elt F))
  :: unary main_v3 main_v265 (broadcastInDim S1600000x1 ![0] bcast_S1600000_S1600000x1_0 : (⟨S1600000, .i32⟩ : BufTy).Contents (Elt F) → (⟨S1600000x1, .i32⟩ : BufTy).Contents (Elt F))
  :: ternary main_v264 main_v265 main_v263 main_v266 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F))
  :: unary main_v214 main_v267 ((extractStridedSlice S1x64x64 ![3, 0, 0] · slices_S4x64x64_S1x64x64_3_0_0) : (⟨S4x64x64, .f32⟩ : BufTy).Contents (Elt F) → (⟨S1x64x64, .f32⟩ : BufTy).Contents (Elt F))
  :: reshape main_v267 main_v268 rfl shapeCasts_S1x64x64_S64x64
  :: binary main_v266 main_v268 main_v269 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: binary main_v253 main_v269 main_v270 (addf : (⟨S100000x64, .f32⟩ : BufTy).Contents (Elt F) → (⟨S100000x64, .f32⟩ : BufTy).Contents (Elt F) → (⟨S100000x64, .f32⟩ : BufTy).Contents (Elt F))
  :: unary main_v216 main_v271 (broadcastInDim S1x64 ![1] bcast_S64_S1x64_1 : (⟨S64, .f32⟩ : BufTy).Contents (Elt F) → (⟨S1x64, .f32⟩ : BufTy).Contents (Elt F))
  :: unary main_v271 main_v272 (broadcastInDim S100000x64 ![0, 1] bcast_S1x64_S100000x64_0_1 : (⟨S1x64, .f32⟩ : BufTy).Contents (Elt F) → (⟨S100000x64, .f32⟩ : BufTy).Contents (Elt F))
  :: binary main_v270 main_v272 main_v273 (addf : (⟨S100000x64, .f32⟩ : BufTy).Contents (Elt F) → (⟨S100000x64, .f32⟩ : BufTy).Contents (Elt F) → (⟨S100000x64, .f32⟩ : BufTy).Contents (Elt F))
  :: []

/-- Each operation of `ops3` touches TensorCore references only. -/
theorem ops3_sub : (ops3 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., unary_bufs_sub .., binary_bufs_sub ..⟩
/-- Each operation of `ops3` determines its results. -/
theorem ops3_fresh : (ops3 : List (HloOp τ sig (Elt F))).Forall fun op => op.fresh = ∅ := by
  simp only [List.Forall]; repeat' constructor
/-- The references `ops3` writes. -/
abbrev ops3_W : List (Ref sig .tc) := [main_v213, main_v214, main_v215, main_v216, main_v217, main_v218, main_v219, main_v220, main_c_35, main_v221, main_v222, main_c_36, main_v223, main_v224, main_v225, main_v226, main_v227, main_v228, main_v229, main_cst_37, main_v230, main_v231, main_v232, main_v233, main_v234, main_v235, main_v236, main_v237, main_c_38, main_v238, main_v239, main_c_39, main_v240, main_v241, main_v242, main_v243, main_v244, main_v245, main_v246, main_cst_40, main_v247, main_v248, main_v249, main_v250, main_v251, main_v252, main_v253, main_v254, main_c_41, main_v255, main_v256, main_c_42, main_v257, main_v258, main_v259, main_v260, main_v261, main_v262, main_v263, main_cst_43, main_v264, main_v265, main_v266, main_v267, main_v268, main_v269, main_v270, main_v271, main_v272, main_v273]
theorem ops3_writes : (ops3 : List (HloOp τ sig (Elt F))).Forall fun op => op.writes ⊆ (ops3_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `ops3` does not write keeps its contents. -/
theorem ops3_keep (V : Valuation τ sig (Elt F)) (r : Ref sig .tc) (h : r ∉ ops3_W) :
    after ops3 V (Proc.devRef .tc r) = V (Proc.devRef .tc r) :=
  after_of_writes_sub ops3 V ops3_writes h

set_option maxHeartbeats 40000000 in
/-- The reference's operations 329 … 332 of 332, in order. -/
abbrev ops4 : List (HloOp τ sig (Elt F)) :=
  binary main_v273 main_arg6 main_v274 ((fun l r => Host.dotGeneral dot_S100000x64_S64x4_S100000x4_1_0_0_1_n_n none l r) : (⟨S100000x64, .f32⟩ : BufTy).Contents (Elt F) → (⟨S64x4, .f32⟩ : BufTy).Contents (Elt F) → (⟨S100000x4, .f32⟩ : BufTy).Contents (Elt F))
  :: unary main_arg7 main_v275 (broadcastInDim S1x4 ![1] bcast_S4_S1x4_1 : (⟨S4, .f32⟩ : BufTy).Contents (Elt F) → (⟨S1x4, .f32⟩ : BufTy).Contents (Elt F))
  :: unary main_v275 main_v276 (broadcastInDim S100000x4 ![0, 1] bcast_S1x4_S100000x4_0_1 : (⟨S1x4, .f32⟩ : BufTy).Contents (Elt F) → (⟨S100000x4, .f32⟩ : BufTy).Contents (Elt F))
  :: binary main_v274 main_v276 main_v277 (addf : (⟨S100000x4, .f32⟩ : BufTy).Contents (Elt F) → (⟨S100000x4, .f32⟩ : BufTy).Contents (Elt F) → (⟨S100000x4, .f32⟩ : BufTy).Contents (Elt F))
  :: []

/-- Each operation of `ops4` touches TensorCore references only. -/
theorem ops4_sub : (ops4 : List (HloOp τ sig (Elt F))).Forall fun op => op.bufs ⊆ tcRefs τ sig :=
  ⟨binary_bufs_sub .., unary_bufs_sub .., unary_bufs_sub .., binary_bufs_sub ..⟩
/-- Each operation of `ops4` determines its results. -/
theorem ops4_fresh : (ops4 : List (HloOp τ sig (Elt F))).Forall fun op => op.fresh = ∅ := by
  simp only [List.Forall]; repeat' constructor
/-- The references `ops4` writes. -/
abbrev ops4_W : List (Ref sig .tc) := [main_v274, main_v275, main_v276, main_v277]
theorem ops4_writes : (ops4 : List (HloOp τ sig (Elt F))).Forall fun op => op.writes ⊆ (ops4_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `ops4` does not write keeps its contents. -/
theorem ops4_keep (V : Valuation τ sig (Elt F)) (r : Ref sig .tc) (h : r ∉ ops4_W) :
    after ops4 V (Proc.devRef .tc r) = V (Proc.devRef .tc r) :=
  after_of_writes_sub ops4 V ops4_writes h

/-- The reference's 332 operations, in order. -/
abbrev ops : List (HloOp τ sig (Elt F)) := opsP ++ (ops0 ++ (ops1 ++ (ops2 ++ (ops3 ++ ops4))))

set_option maxRecDepth 16384 in
set_option maxHeartbeats 40000000 in
/-- The program is its operations run in order. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every element of two lists holds of every element of their concatenation. -/
theorem forall_append {α : Type} (p : α → Prop) (l₁ l₂ : List α) (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append _ _ _ opsP_sub (forall_append _ _ _ ops0_sub (forall_append _ _ _ ops1_sub (forall_append _ _ _ ops2_sub (forall_append _ _ _ ops3_sub ops4_sub))))
theorem ops_fresh : ∀ op ∈ (ops : List (HloOp τ sig (Elt F))), op.fresh = ∅ :=
  List.forall_iff_forall_mem.mp
    (forall_append _ _ _ opsP_fresh (forall_append _ _ _ ops0_fresh (forall_append _ _ _ ops1_fresh (forall_append _ _ _ ops2_fresh (forall_append _ _ _ ops3_fresh ops4_fresh)))))

end Cert.RefRun

end
-- ==== Proof.RefRun.ValP.lean ====
import proofs.«160486_j70574902608023_1_alg».proof.Proof.RefRun.Ops
import proofs.«160486_j70574902608023_1_alg».proof.Proof.Shape

/-!
# The first stretch, read

From any contents of the buffers, the first stretch leaves the edges' source and destination nodes and the edge weights
`d(src e) · d(dst e)` as functions of the edge list it found: each operation's result is its function of its operands'
contents, composed in program order.
-/

noncomputable section

namespace Cert.RefRun

open Cert.ReferenceIdeal Cert.ReferenceIdeal.Gen Idealize.ShloMosaic Idealize.ShloMosaic.TcCoe Idealize.SL.Sem Idealize.ShloMosaic.StableHlo
open Cert.Shape

variable {F : FTy → Type} [FloatOps F]

set_option maxHeartbeats 100000000 in
/-- After the first stretch: the edges' endpoints and weights. -/
theorem valP_v1 (Win : Valuation τ sig (Elt F)) :
    after opsP Win (Proc.devRef .tc main_v1) = srcOf (Win (Proc.devRef .tc main_arg1)) := by
  dsimp only [opsP]
  after_results_simp
  rfl
set_option maxHeartbeats 100000000 in
theorem valP_v3 (Win : Valuation τ sig (Elt F)) :
    after opsP Win (Proc.devRef .tc main_v3) = dstOf (Win (Proc.devRef .tc main_arg1)) := by
  dsimp only [opsP]
  after_results_simp
  rfl
set_option maxHeartbeats 100000000 in
theorem valP_v30 (Win : Valuation τ sig (Elt F)) :
    after opsP Win (Proc.devRef .tc main_v30) = normOf (srcOf (Win (Proc.devRef .tc main_arg1))) (dstOf (Win (Proc.devRef .tc main_arg1))) := by
  dsimp only [opsP]
  after_results_simp
  rfl

end Cert.RefRun

end
-- ==== Proof.RefRun.Val0.lean ====
import proofs.«160486_j70574902608023_1_alg».proof.Proof.RefRun.Ops
import proofs.«160486_j70574902608023_1_alg».proof.Proof.Shape

/-!
# The second stretch, read

From any contents of the buffers, the second stretch leaves the first layer's output — the four hops of the input features
combined with the four weight matrices, plus the bias, then the maximum with zero — as a function of the endpoints, the
edge weights, the features, the weights and the bias it found.
-/

noncomputable section

namespace Cert.RefRun

open Cert.ReferenceIdeal Cert.ReferenceIdeal.Gen Idealize.ShloMosaic Idealize.ShloMosaic.TcCoe Idealize.SL.Sem Idealize.ShloMosaic.StableHlo
open Cert.Shape

variable {F : FTy → Type} [FloatOps F]

set_option maxHeartbeats 100000000 in
/-- After the second stretch: the first layer and its maximum with zero. -/
theorem val0 (Win : Valuation τ sig (Elt F)) :
    after ops0 Win (Proc.devRef .tc main_v88)
      = relu64 (tag16 (Win (Proc.devRef .tc main_v1)) (Win (Proc.devRef .tc main_v3)) (Win (Proc.devRef .tc main_v30)) (Win (Proc.devRef .tc main_arg0)) (Win (Proc.devRef .tc main_arg2)) (Win (Proc.devRef .tc main_arg3))) := by
  dsimp only [ops0]
  after_results_simp
  rfl

end Cert.RefRun

end
-- ==== Proof.RefRun.Val1.lean ====
import proofs.«160486_j70574902608023_1_alg».proof.Proof.RefRun.Ops
import proofs.«160486_j70574902608023_1_alg».proof.Proof.Shape

/-!
# The third stretch, read

From any contents of the buffers, the third stretch leaves the first hidden layer's output with its maximum with zero, as a
function of the endpoints, the edge weights, the previous layer's output and the hidden layers' stacked weights and biases
it found.
-/

noncomputable section

namespace Cert.RefRun

open Cert.ReferenceIdeal Cert.ReferenceIdeal.Gen Idealize.ShloMosaic Idealize.ShloMosaic.TcCoe Idealize.SL.Sem Idealize.ShloMosaic.StableHlo
open Cert.Shape

variable {F : FTy → Type} [FloatOps F]

set_option maxHeartbeats 100000000 in
/-- After the third stretch: the first hidden layer and its maximum with zero. -/
theorem val1 (Win : Valuation τ sig (Elt F)) :
    after ops1 Win (Proc.devRef .tc main_v150)
      = relu64 (tag64 (Win (Proc.devRef .tc main_v1)) (Win (Proc.devRef .tc main_v3)) (Win (Proc.devRef .tc main_v30)) (Win (Proc.devRef .tc main_v88)) (wh0 (Win (Proc.devRef .tc main_arg4))) (bh0 (Win (Proc.devRef .tc main_arg5)))) := by
  dsimp only [ops1]
  after_results_simp
  rfl

end Cert.RefRun

end
-- ==== Proof.RefRun.Val2.lean ====
import proofs.«160486_j70574902608023_1_alg».proof.Proof.RefRun.Ops
import proofs.«160486_j70574902608023_1_alg».proof.Proof.Shape

/-!
# The fourth stretch, read

From any contents of the buffers, the fourth stretch leaves the second hidden layer's output with its maximum with zero, as a
function of the endpoints, the edge weights, the previous layer's output and the hidden layers' stacked weights and biases
it found.
-/

noncomputable section

namespace Cert.RefRun

open Cert.ReferenceIdeal Cert.ReferenceIdeal.Gen Idealize.ShloMosaic Idealize.ShloMosaic.TcCoe Idealize.SL.Sem Idealize.ShloMosaic.StableHlo
open Cert.Shape

variable {F : FTy → Type} [FloatOps F]

set_option maxHeartbeats 100000000 in
/-- After the fourth stretch: the second hidden layer and its maximum with zero. -/
theorem val2 (Win : Valuation τ sig (Elt F)) :
    after ops2 Win (Proc.devRef .tc main_v212)
      = relu64 (tag64 (Win (Proc.devRef .tc main_v1)) (Win (Proc.devRef .tc main_v3)) (Win (Proc.devRef .tc main_v30)) (Win (Proc.devRef .tc main_v150)) (wh1 (Win (Proc.devRef .tc main_arg4))) (bh1 (Win (Proc.devRef .tc main_arg5)))) := by
  dsimp only [ops2]
  after_results_simp
  rfl

end Cert.RefRun

end
-- ==== Proof.RefRun.Val3.lean ====
import proofs.«160486_j70574902608023_1_alg».proof.Proof.RefRun.Ops
import proofs.«160486_j70574902608023_1_alg».proof.Proof.Shape

/-!
# The fifth stretch, read

From any contents of the buffers, the fifth stretch leaves the third hidden layer's output (no maximum), as a function of the
endpoints, the edge weights, the previous layer's output and the hidden layers' stacked weights and biases it found.
-/

noncomputable section

namespace Cert.RefRun

open Cert.ReferenceIdeal Cert.ReferenceIdeal.Gen Idealize.ShloMosaic Idealize.ShloMosaic.TcCoe Idealize.SL.Sem Idealize.ShloMosaic.StableHlo
open Cert.Shape

variable {F : FTy → Type} [FloatOps F]

set_option maxHeartbeats 100000000 in
/-- After the fifth stretch: the third hidden layer (no maximum). -/
theorem val3 (Win : Valuation τ sig (Elt F)) :
    after ops3 Win (Proc.devRef .tc main_v273)
      = tag64 (Win (Proc.devRef .tc main_v1)) (Win (Proc.devRef .tc main_v3)) (Win (Proc.devRef .tc main_v30)) (Win (Proc.devRef .tc main_v212)) (wh2 (Win (Proc.devRef .tc main_arg4))) (bh2 (Win (Proc.devRef .tc main_arg5))) := by
  dsimp only [ops3]
  after_results_simp
  rfl

end Cert.RefRun

end
-- ==== Proof.RefRun.Val4.lean ====
import proofs.«160486_j70574902608023_1_alg».proof.Proof.RefRun.Ops
import proofs.«160486_j70574902608023_1_alg».proof.Proof.Shape

/-!
# The last stretch, read

From any contents of the buffers, the last four operations leave the closing affine map of the last hidden layer's output,
the closing weights and the closing bias they found.
-/

noncomputable section

namespace Cert.RefRun

open Cert.ReferenceIdeal Cert.ReferenceIdeal.Gen Idealize.ShloMosaic Idealize.ShloMosaic.TcCoe Idealize.SL.Sem Idealize.ShloMosaic.StableHlo
open Cert.Shape

variable {F : FTy → Type} [FloatOps F]

set_option maxHeartbeats 100000000 in
/-- After the last stretch: the closing affine map. -/
theorem val4 (Win : Valuation τ sig (Elt F)) :
    after ops4 Win (Proc.devRef .tc main_v277) = fc (Win (Proc.devRef .tc main_v273)) (Win (Proc.devRef .tc main_arg6)) (Win (Proc.devRef .tc main_arg7)) := by
  dsimp only [ops4]
  after_results_simp
  rfl

end Cert.RefRun

end
-- ==== Proof.RefRun.lean ====
import proofs.«160486_j70574902608023_1_alg».proof.Proof.RefRun.Ops
import proofs.«160486_j70574902608023_1_alg».proof.Proof.RefRun.ValP
import proofs.«160486_j70574902608023_1_alg».proof.Proof.RefRun.Val0
import proofs.«160486_j70574902608023_1_alg».proof.Proof.RefRun.Val1
import proofs.«160486_j70574902608023_1_alg».proof.Proof.RefRun.Val2
import proofs.«160486_j70574902608023_1_alg».proof.Proof.RefRun.Val3
import proofs.«160486_j70574902608023_1_alg».proof.Proof.RefRun.Val4
import proofs.«160486_j70574902608023_1_alg».proof.Proof.Shape

/-!
# The reference's run

Every weakly fair execution of the reference terminates with its result array at the network `Cert.Shape.net` of the
eight argument arrays' launch contents, and the arguments unchanged.  The contents after the whole line are the contents
after its six stretches in turn; each stretch's result is its stage of the network applied to what the earlier stretches
left, and every reference a later stretch reads that a stretch does not write passes through it unchanged.
-/

noncomputable section

namespace Cert.RefRun

open Cert.ReferenceIdeal Cert.ReferenceIdeal.Gen Idealize.ShloMosaic Idealize.ShloMosaic.TcCoe Idealize.SL.Sem Idealize.ShloMosaic.StableHlo
open Cert.Shape

variable {F : FTy → Type} [FloatOps F]

/-! ## After the first stretch -/
theorem st1_v1 (m : (ℓ : Loc nD τ sig) → Buf (Elt F) ℓ) (c : Dev nD) : (after opsP (launchContents m c)) (Proc.devRef .tc main_v1) = (srcOf (launchContents m c (Proc.devRef .tc main_arg1))) := valP_v1 _
theorem st1_v3 (m : (ℓ : Loc nD τ sig) → Buf (Elt F) ℓ) (c : Dev nD) : (after opsP (launchContents m c)) (Proc.devRef .tc main_v3) = (dstOf (launchContents m c (Proc.devRef .tc main_arg1))) := valP_v3 _
theorem st1_v30 (m : (ℓ : Loc nD τ sig) → Buf (Elt F) ℓ) (c : Dev nD) : (after opsP (launchContents m c)) (Proc.devRef .tc main_v30) = (normOf (srcOf (launchContents m c (Proc.devRef .tc main_arg1))) (dstOf (launchContents m c (Proc.devRef .tc main_arg1)))) := valP_v30 _
theorem st1_arg0 (m : (ℓ : Loc nD τ sig) → Buf (Elt F) ℓ) (c : Dev nD) : (after opsP (launchContents m c)) (Proc.devRef .tc main_arg0) = (launchContents m c (Proc.devRef .tc main_arg0)) := opsP_keep _ main_arg0 (by decide)
theorem st1_arg1 (m : (ℓ : Loc nD τ sig) → Buf (Elt F) ℓ) (c : Dev nD) : (after opsP (launchContents m c)) (Proc.devRef .tc main_arg1) = (launchContents m c (Proc.devRef .tc main_arg1)) := opsP_keep _ main_arg1 (by decide)
theorem st1_arg2 (m : (ℓ : Loc nD τ sig) → Buf (Elt F) ℓ) (c : Dev nD) : (after opsP (launchContents m c)) (Proc.devRef .tc main_arg2) = (launchContents m c (Proc.devRef .tc main_arg2)) := opsP_keep _ main_arg2 (by decide)
theorem st1_arg3 (m : (ℓ : Loc nD τ sig) → Buf (Elt F) ℓ) (c : Dev nD) : (after opsP (launchContents m c)) (Proc.devRef .tc main_arg3) = (launchContents m c (Proc.devRef .tc main_arg3)) := opsP_keep _ main_arg3 (by decide)
theorem st1_arg4 (m : (ℓ : Loc nD τ sig) → Buf (Elt F) ℓ) (c : Dev nD) : (after opsP (launchContents m c)) (Proc.devRef .tc main_arg4) = (launchContents m c (Proc.devRef .tc main_arg4)) := opsP_keep _ main_arg4 (by decide)
theorem st1_arg5 (m : (ℓ : Loc nD τ sig) → Buf (Elt F) ℓ) (c : Dev nD) : (after opsP (launchContents m c)) (Proc.devRef .tc main_arg5) = (launchContents m c (Proc.devRef .tc main_arg5)) := opsP_keep _ main_arg5 (by decide)
theorem st1_arg6 (m : (ℓ : Loc nD τ sig) → Buf (Elt F) ℓ) (c : Dev nD) : (after opsP (launchContents m c)) (Proc.devRef .tc main_arg6) = (launchContents m c (Proc.devRef .tc main_arg6)) := opsP_keep _ main_arg6 (by decide)
theorem st1_arg7 (m : (ℓ : Loc nD τ sig) → Buf (Elt F) ℓ) (c : Dev nD) : (after opsP (launchContents m c)) (Proc.devRef .tc main_arg7) = (launchContents m c (Proc.devRef .tc main_arg7)) := opsP_keep _ main_arg7 (by decide)

/-! ## After the second stretch -/
theorem st2_v88 (m : (ℓ : Loc nD τ sig) → Buf (Elt F) ℓ) (c : Dev nD) : (after ops0 (after opsP (launchContents m c))) (Proc.devRef .tc main_v88) = (relu64 (tag16 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (launchContents m c (Proc.devRef .tc main_arg0)) (launchContents m c (Proc.devRef .tc main_arg2)) (launchContents m c (Proc.devRef .tc main_arg3)))) :=
  (val0 _).trans (by rw [st1_v1 m c, st1_v3 m c, st1_v30 m c, st1_arg0 m c, st1_arg2 m c, st1_arg3 m c])
theorem st2_v1 (m : (ℓ : Loc nD τ sig) → Buf (Elt F) ℓ) (c : Dev nD) : (after ops0 (after opsP (launchContents m c))) (Proc.devRef .tc main_v1) = (srcOf (launchContents m c (Proc.devRef .tc main_arg1))) :=
  (ops0_keep _ main_v1 (by decide)).trans (st1_v1 m c)
theorem st2_v3 (m : (ℓ : Loc nD τ sig) → Buf (Elt F) ℓ) (c : Dev nD) : (after ops0 (after opsP (launchContents m c))) (Proc.devRef .tc main_v3) = (dstOf (launchContents m c (Proc.devRef .tc main_arg1))) :=
  (ops0_keep _ main_v3 (by decide)).trans (st1_v3 m c)
theorem st2_v30 (m : (ℓ : Loc nD τ sig) → Buf (Elt F) ℓ) (c : Dev nD) : (after ops0 (after opsP (launchContents m c))) (Proc.devRef .tc main_v30) = (normOf (srcOf (launchContents m c (Proc.devRef .tc main_arg1))) (dstOf (launchContents m c (Proc.devRef .tc main_arg1)))) :=
  (ops0_keep _ main_v30 (by decide)).trans (st1_v30 m c)
theorem st2_arg0 (m : (ℓ : Loc nD τ sig) → Buf (Elt F) ℓ) (c : Dev nD) : (after ops0 (after opsP (launchContents m c))) (Proc.devRef .tc main_arg0) = (launchContents m c (Proc.devRef .tc main_arg0)) :=
  (ops0_keep _ main_arg0 (by decide)).trans (st1_arg0 m c)
theorem st2_arg1 (m : (ℓ : Loc nD τ sig) → Buf (Elt F) ℓ) (c : Dev nD) : (after ops0 (after opsP (launchContents m c))) (Proc.devRef .tc main_arg1) = (launchContents m c (Proc.devRef .tc main_arg1)) :=
  (ops0_keep _ main_arg1 (by decide)).trans (st1_arg1 m c)
theorem st2_arg2 (m : (ℓ : Loc nD τ sig) → Buf (Elt F) ℓ) (c : Dev nD) : (after ops0 (after opsP (launchContents m c))) (Proc.devRef .tc main_arg2) = (launchContents m c (Proc.devRef .tc main_arg2)) :=
  (ops0_keep _ main_arg2 (by decide)).trans (st1_arg2 m c)
theorem st2_arg3 (m : (ℓ : Loc nD τ sig) → Buf (Elt F) ℓ) (c : Dev nD) : (after ops0 (after opsP (launchContents m c))) (Proc.devRef .tc main_arg3) = (launchContents m c (Proc.devRef .tc main_arg3)) :=
  (ops0_keep _ main_arg3 (by decide)).trans (st1_arg3 m c)
theorem st2_arg4 (m : (ℓ : Loc nD τ sig) → Buf (Elt F) ℓ) (c : Dev nD) : (after ops0 (after opsP (launchContents m c))) (Proc.devRef .tc main_arg4) = (launchContents m c (Proc.devRef .tc main_arg4)) :=
  (ops0_keep _ main_arg4 (by decide)).trans (st1_arg4 m c)
theorem st2_arg5 (m : (ℓ : Loc nD τ sig) → Buf (Elt F) ℓ) (c : Dev nD) : (after ops0 (after opsP (launchContents m c))) (Proc.devRef .tc main_arg5) = (launchContents m c (Proc.devRef .tc main_arg5)) :=
  (ops0_keep _ main_arg5 (by decide)).trans (st1_arg5 m c)
theorem st2_arg6 (m : (ℓ : Loc nD τ sig) → Buf (Elt F) ℓ) (c : Dev nD) : (after ops0 (after opsP (launchContents m c))) (Proc.devRef .tc main_arg6) = (launchContents m c (Proc.devRef .tc main_arg6)) :=
  (ops0_keep _ main_arg6 (by decide)).trans (st1_arg6 m c)
theorem st2_arg7 (m : (ℓ : Loc nD τ sig) → Buf (Elt F) ℓ) (c : Dev nD) : (after ops0 (after opsP (launchContents m c))) (Proc.devRef .tc main_arg7) = (launchContents m c (Proc.devRef .tc main_arg7)) :=
  (ops0_keep _ main_arg7 (by decide)).trans (st1_arg7 m c)

/-! ## After the third stretch -/
theorem st3_v150 (m : (ℓ : Loc nD τ sig) → Buf (Elt F) ℓ) (c : Dev nD) : (after ops1 (after ops0 (after opsP (launchContents m c)))) (Proc.devRef .tc main_v150) = (relu64 (tag64 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (relu64 (tag16 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (launchContents m c (Proc.devRef .tc main_arg0)) (launchContents m c (Proc.devRef .tc main_arg2)) (launchContents m c (Proc.devRef .tc main_arg3)))) (wh0 (launchContents m c (Proc.devRef .tc main_arg4))) (bh0 (launchContents m c (Proc.devRef .tc main_arg5))))) :=
  (val1 _).trans (by rw [st2_v1 m c, st2_v3 m c, st2_v30 m c, st2_v88 m c, st2_arg4 m c, st2_arg5 m c])
theorem st3_v1 (m : (ℓ : Loc nD τ sig) → Buf (Elt F) ℓ) (c : Dev nD) : (after ops1 (after ops0 (after opsP (launchContents m c)))) (Proc.devRef .tc main_v1) = (srcOf (launchContents m c (Proc.devRef .tc main_arg1))) :=
  (ops1_keep _ main_v1 (by decide)).trans (st2_v1 m c)
theorem st3_v3 (m : (ℓ : Loc nD τ sig) → Buf (Elt F) ℓ) (c : Dev nD) : (after ops1 (after ops0 (after opsP (launchContents m c)))) (Proc.devRef .tc main_v3) = (dstOf (launchContents m c (Proc.devRef .tc main_arg1))) :=
  (ops1_keep _ main_v3 (by decide)).trans (st2_v3 m c)
theorem st3_v30 (m : (ℓ : Loc nD τ sig) → Buf (Elt F) ℓ) (c : Dev nD) : (after ops1 (after ops0 (after opsP (launchContents m c)))) (Proc.devRef .tc main_v30) = (normOf (srcOf (launchContents m c (Proc.devRef .tc main_arg1))) (dstOf (launchContents m c (Proc.devRef .tc main_arg1)))) :=
  (ops1_keep _ main_v30 (by decide)).trans (st2_v30 m c)
theorem st3_arg0 (m : (ℓ : Loc nD τ sig) → Buf (Elt F) ℓ) (c : Dev nD) : (after ops1 (after ops0 (after opsP (launchContents m c)))) (Proc.devRef .tc main_arg0) = (launchContents m c (Proc.devRef .tc main_arg0)) :=
  (ops1_keep _ main_arg0 (by decide)).trans (st2_arg0 m c)
theorem st3_arg1 (m : (ℓ : Loc nD τ sig) → Buf (Elt F) ℓ) (c : Dev nD) : (after ops1 (after ops0 (after opsP (launchContents m c)))) (Proc.devRef .tc main_arg1) = (launchContents m c (Proc.devRef .tc main_arg1)) :=
  (ops1_keep _ main_arg1 (by decide)).trans (st2_arg1 m c)
theorem st3_arg2 (m : (ℓ : Loc nD τ sig) → Buf (Elt F) ℓ) (c : Dev nD) : (after ops1 (after ops0 (after opsP (launchContents m c)))) (Proc.devRef .tc main_arg2) = (launchContents m c (Proc.devRef .tc main_arg2)) :=
  (ops1_keep _ main_arg2 (by decide)).trans (st2_arg2 m c)
theorem st3_arg3 (m : (ℓ : Loc nD τ sig) → Buf (Elt F) ℓ) (c : Dev nD) : (after ops1 (after ops0 (after opsP (launchContents m c)))) (Proc.devRef .tc main_arg3) = (launchContents m c (Proc.devRef .tc main_arg3)) :=
  (ops1_keep _ main_arg3 (by decide)).trans (st2_arg3 m c)
theorem st3_arg4 (m : (ℓ : Loc nD τ sig) → Buf (Elt F) ℓ) (c : Dev nD) : (after ops1 (after ops0 (after opsP (launchContents m c)))) (Proc.devRef .tc main_arg4) = (launchContents m c (Proc.devRef .tc main_arg4)) :=
  (ops1_keep _ main_arg4 (by decide)).trans (st2_arg4 m c)
theorem st3_arg5 (m : (ℓ : Loc nD τ sig) → Buf (Elt F) ℓ) (c : Dev nD) : (after ops1 (after ops0 (after opsP (launchContents m c)))) (Proc.devRef .tc main_arg5) = (launchContents m c (Proc.devRef .tc main_arg5)) :=
  (ops1_keep _ main_arg5 (by decide)).trans (st2_arg5 m c)
theorem st3_arg6 (m : (ℓ : Loc nD τ sig) → Buf (Elt F) ℓ) (c : Dev nD) : (after ops1 (after ops0 (after opsP (launchContents m c)))) (Proc.devRef .tc main_arg6) = (launchContents m c (Proc.devRef .tc main_arg6)) :=
  (ops1_keep _ main_arg6 (by decide)).trans (st2_arg6 m c)
theorem st3_arg7 (m : (ℓ : Loc nD τ sig) → Buf (Elt F) ℓ) (c : Dev nD) : (after ops1 (after ops0 (after opsP (launchContents m c)))) (Proc.devRef .tc main_arg7) = (launchContents m c (Proc.devRef .tc main_arg7)) :=
  (ops1_keep _ main_arg7 (by decide)).trans (st2_arg7 m c)

/-! ## After the fourth stretch -/
theorem st4_v212 (m : (ℓ : Loc nD τ sig) → Buf (Elt F) ℓ) (c : Dev nD) : (after ops2 (after ops1 (after ops0 (after opsP (launchContents m c))))) (Proc.devRef .tc main_v212) = (relu64 (tag64 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (relu64 (tag64 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (relu64 (tag16 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (launchContents m c (Proc.devRef .tc main_arg0)) (launchContents m c (Proc.devRef .tc main_arg2)) (launchContents m c (Proc.devRef .tc main_arg3)))) (wh0 (launchContents m c (Proc.devRef .tc main_arg4))) (bh0 (launchContents m c (Proc.devRef .tc main_arg5))))) (wh1 (launchContents m c (Proc.devRef .tc main_arg4))) (bh1 (launchContents m c (Proc.devRef .tc main_arg5))))) :=
  (val2 _).trans (by rw [st3_v1 m c, st3_v3 m c, st3_v30 m c, st3_v150 m c, st3_arg4 m c, st3_arg5 m c])
theorem st4_v1 (m : (ℓ : Loc nD τ sig) → Buf (Elt F) ℓ) (c : Dev nD) : (after ops2 (after ops1 (after ops0 (after opsP (launchContents m c))))) (Proc.devRef .tc main_v1) = (srcOf (launchContents m c (Proc.devRef .tc main_arg1))) :=
  (ops2_keep _ main_v1 (by decide)).trans (st3_v1 m c)
theorem st4_v3 (m : (ℓ : Loc nD τ sig) → Buf (Elt F) ℓ) (c : Dev nD) : (after ops2 (after ops1 (after ops0 (after opsP (launchContents m c))))) (Proc.devRef .tc main_v3) = (dstOf (launchContents m c (Proc.devRef .tc main_arg1))) :=
  (ops2_keep _ main_v3 (by decide)).trans (st3_v3 m c)
theorem st4_v30 (m : (ℓ : Loc nD τ sig) → Buf (Elt F) ℓ) (c : Dev nD) : (after ops2 (after ops1 (after ops0 (after opsP (launchContents m c))))) (Proc.devRef .tc main_v30) = (normOf (srcOf (launchContents m c (Proc.devRef .tc main_arg1))) (dstOf (launchContents m c (Proc.devRef .tc main_arg1)))) :=
  (ops2_keep _ main_v30 (by decide)).trans (st3_v30 m c)
theorem st4_arg0 (m : (ℓ : Loc nD τ sig) → Buf (Elt F) ℓ) (c : Dev nD) : (after ops2 (after ops1 (after ops0 (after opsP (launchContents m c))))) (Proc.devRef .tc main_arg0) = (launchContents m c (Proc.devRef .tc main_arg0)) :=
  (ops2_keep _ main_arg0 (by decide)).trans (st3_arg0 m c)
theorem st4_arg1 (m : (ℓ : Loc nD τ sig) → Buf (Elt F) ℓ) (c : Dev nD) : (after ops2 (after ops1 (after ops0 (after opsP (launchContents m c))))) (Proc.devRef .tc main_arg1) = (launchContents m c (Proc.devRef .tc main_arg1)) :=
  (ops2_keep _ main_arg1 (by decide)).trans (st3_arg1 m c)
theorem st4_arg2 (m : (ℓ : Loc nD τ sig) → Buf (Elt F) ℓ) (c : Dev nD) : (after ops2 (after ops1 (after ops0 (after opsP (launchContents m c))))) (Proc.devRef .tc main_arg2) = (launchContents m c (Proc.devRef .tc main_arg2)) :=
  (ops2_keep _ main_arg2 (by decide)).trans (st3_arg2 m c)
theorem st4_arg3 (m : (ℓ : Loc nD τ sig) → Buf (Elt F) ℓ) (c : Dev nD) : (after ops2 (after ops1 (after ops0 (after opsP (launchContents m c))))) (Proc.devRef .tc main_arg3) = (launchContents m c (Proc.devRef .tc main_arg3)) :=
  (ops2_keep _ main_arg3 (by decide)).trans (st3_arg3 m c)
theorem st4_arg4 (m : (ℓ : Loc nD τ sig) → Buf (Elt F) ℓ) (c : Dev nD) : (after ops2 (after ops1 (after ops0 (after opsP (launchContents m c))))) (Proc.devRef .tc main_arg4) = (launchContents m c (Proc.devRef .tc main_arg4)) :=
  (ops2_keep _ main_arg4 (by decide)).trans (st3_arg4 m c)
theorem st4_arg5 (m : (ℓ : Loc nD τ sig) → Buf (Elt F) ℓ) (c : Dev nD) : (after ops2 (after ops1 (after ops0 (after opsP (launchContents m c))))) (Proc.devRef .tc main_arg5) = (launchContents m c (Proc.devRef .tc main_arg5)) :=
  (ops2_keep _ main_arg5 (by decide)).trans (st3_arg5 m c)
theorem st4_arg6 (m : (ℓ : Loc nD τ sig) → Buf (Elt F) ℓ) (c : Dev nD) : (after ops2 (after ops1 (after ops0 (after opsP (launchContents m c))))) (Proc.devRef .tc main_arg6) = (launchContents m c (Proc.devRef .tc main_arg6)) :=
  (ops2_keep _ main_arg6 (by decide)).trans (st3_arg6 m c)
theorem st4_arg7 (m : (ℓ : Loc nD τ sig) → Buf (Elt F) ℓ) (c : Dev nD) : (after ops2 (after ops1 (after ops0 (after opsP (launchContents m c))))) (Proc.devRef .tc main_arg7) = (launchContents m c (Proc.devRef .tc main_arg7)) :=
  (ops2_keep _ main_arg7 (by decide)).trans (st3_arg7 m c)

/-! ## After the fifth stretch -/
theorem st5_v273 (m : (ℓ : Loc nD τ sig) → Buf (Elt F) ℓ) (c : Dev nD) : (after ops3 (after ops2 (after ops1 (after ops0 (after opsP (launchContents m c)))))) (Proc.devRef .tc main_v273) = (tag64 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (relu64 (tag64 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (relu64 (tag64 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (relu64 (tag16 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (launchContents m c (Proc.devRef .tc main_arg0)) (launchContents m c (Proc.devRef .tc main_arg2)) (launchContents m c (Proc.devRef .tc main_arg3)))) (wh0 (launchContents m c (Proc.devRef .tc main_arg4))) (bh0 (launchContents m c (Proc.devRef .tc main_arg5))))) (wh1 (launchContents m c (Proc.devRef .tc main_arg4))) (bh1 (launchContents m c (Proc.devRef .tc main_arg5))))) (wh2 (launchContents m c (Proc.devRef .tc main_arg4))) (bh2 (launchContents m c (Proc.devRef .tc main_arg5)))) :=
  (val3 _).trans (by rw [st4_v1 m c, st4_v3 m c, st4_v30 m c, st4_v212 m c, st4_arg4 m c, st4_arg5 m c])
theorem st5_arg0 (m : (ℓ : Loc nD τ sig) → Buf (Elt F) ℓ) (c : Dev nD) : (after ops3 (after ops2 (after ops1 (after ops0 (after opsP (launchContents m c)))))) (Proc.devRef .tc main_arg0) = (launchContents m c (Proc.devRef .tc main_arg0)) :=
  (ops3_keep _ main_arg0 (by decide)).trans (st4_arg0 m c)
theorem st5_arg1 (m : (ℓ : Loc nD τ sig) → Buf (Elt F) ℓ) (c : Dev nD) : (after ops3 (after ops2 (after ops1 (after ops0 (after opsP (launchContents m c)))))) (Proc.devRef .tc main_arg1) = (launchContents m c (Proc.devRef .tc main_arg1)) :=
  (ops3_keep _ main_arg1 (by decide)).trans (st4_arg1 m c)
theorem st5_arg2 (m : (ℓ : Loc nD τ sig) → Buf (Elt F) ℓ) (c : Dev nD) : (after ops3 (after ops2 (after ops1 (after ops0 (after opsP (launchContents m c)))))) (Proc.devRef .tc main_arg2) = (launchContents m c (Proc.devRef .tc main_arg2)) :=
  (ops3_keep _ main_arg2 (by decide)).trans (st4_arg2 m c)
theorem st5_arg3 (m : (ℓ : Loc nD τ sig) → Buf (Elt F) ℓ) (c : Dev nD) : (after ops3 (after ops2 (after ops1 (after ops0 (after opsP (launchContents m c)))))) (Proc.devRef .tc main_arg3) = (launchContents m c (Proc.devRef .tc main_arg3)) :=
  (ops3_keep _ main_arg3 (by decide)).trans (st4_arg3 m c)
theorem st5_arg4 (m : (ℓ : Loc nD τ sig) → Buf (Elt F) ℓ) (c : Dev nD) : (after ops3 (after ops2 (after ops1 (after ops0 (after opsP (launchContents m c)))))) (Proc.devRef .tc main_arg4) = (launchContents m c (Proc.devRef .tc main_arg4)) :=
  (ops3_keep _ main_arg4 (by decide)).trans (st4_arg4 m c)
theorem st5_arg5 (m : (ℓ : Loc nD τ sig) → Buf (Elt F) ℓ) (c : Dev nD) : (after ops3 (after ops2 (after ops1 (after ops0 (after opsP (launchContents m c)))))) (Proc.devRef .tc main_arg5) = (launchContents m c (Proc.devRef .tc main_arg5)) :=
  (ops3_keep _ main_arg5 (by decide)).trans (st4_arg5 m c)
theorem st5_arg6 (m : (ℓ : Loc nD τ sig) → Buf (Elt F) ℓ) (c : Dev nD) : (after ops3 (after ops2 (after ops1 (after ops0 (after opsP (launchContents m c)))))) (Proc.devRef .tc main_arg6) = (launchContents m c (Proc.devRef .tc main_arg6)) :=
  (ops3_keep _ main_arg6 (by decide)).trans (st4_arg6 m c)
theorem st5_arg7 (m : (ℓ : Loc nD τ sig) → Buf (Elt F) ℓ) (c : Dev nD) : (after ops3 (after ops2 (after ops1 (after ops0 (after opsP (launchContents m c)))))) (Proc.devRef .tc main_arg7) = (launchContents m c (Proc.devRef .tc main_arg7)) :=
  (ops3_keep _ main_arg7 (by decide)).trans (st4_arg7 m c)

/-! ## After the last stretch -/
theorem st6_v277 (m : (ℓ : Loc nD τ sig) → Buf (Elt F) ℓ) (c : Dev nD) : (after ops4 (after ops3 (after ops2 (after ops1 (after ops0 (after opsP (launchContents m c))))))) (Proc.devRef .tc main_v277) = (fc (tag64 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (relu64 (tag64 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (relu64 (tag64 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (relu64 (tag16 (srcOf (launchContents m c (Proc.devRef .tc main_arg1))) (dstOf (launchContents m c (Proc.devRef .tc main_arg1))) (normOf (srcOf (launchContents m c (Proc.devRef .tc main_arg1))) (dstOf (launchContents m c (Proc.devRef .tc main_arg1)))) (launchContents m c (Proc.devRef .tc main_arg0)) (launchContents m c (Proc.devRef .tc main_arg2)) (launchContents m c (Proc.devRef .tc main_arg3)))) (wh0 (launchContents m c (Proc.devRef .tc main_arg4))) (bh0 (launchContents m c (Proc.devRef .tc main_arg5))))) (wh1 (launchContents m c (Proc.devRef .tc main_arg4))) (bh1 (launchContents m c (Proc.devRef .tc main_arg5))))) (wh2 (launchContents m c (Proc.devRef .tc main_arg4))) (bh2 (launchContents m c (Proc.devRef .tc main_arg5)))) (launchContents m c (Proc.devRef .tc main_arg6)) (launchContents m c (Proc.devRef .tc main_arg7))) :=
  (val4 _).trans (by rw [st5_v273 m c, st5_arg6 m c, st5_arg7 m c])
theorem st6_arg0 (m : (ℓ : Loc nD τ sig) → Buf (Elt F) ℓ) (c : Dev nD) : (after ops4 (after ops3 (after ops2 (after ops1 (after ops0 (after opsP (launchContents m c))))))) (Proc.devRef .tc main_arg0) = (launchContents m c (Proc.devRef .tc main_arg0)) :=
  (ops4_keep _ main_arg0 (by decide)).trans (st5_arg0 m c)
theorem st6_arg1 (m : (ℓ : Loc nD τ sig) → Buf (Elt F) ℓ) (c : Dev nD) : (after ops4 (after ops3 (after ops2 (after ops1 (after ops0 (after opsP (launchContents m c))))))) (Proc.devRef .tc main_arg1) = (launchContents m c (Proc.devRef .tc main_arg1)) :=
  (ops4_keep _ main_arg1 (by decide)).trans (st5_arg1 m c)
theorem st6_arg2 (m : (ℓ : Loc nD τ sig) → Buf (Elt F) ℓ) (c : Dev nD) : (after ops4 (after ops3 (after ops2 (after ops1 (after ops0 (after opsP (launchContents m c))))))) (Proc.devRef .tc main_arg2) = (launchContents m c (Proc.devRef .tc main_arg2)) :=
  (ops4_keep _ main_arg2 (by decide)).trans (st5_arg2 m c)
theorem st6_arg3 (m : (ℓ : Loc nD τ sig) → Buf (Elt F) ℓ) (c : Dev nD) : (after ops4 (after ops3 (after ops2 (after ops1 (after ops0 (after opsP (launchContents m c))))))) (Proc.devRef .tc main_arg3) = (launchContents m c (Proc.devRef .tc main_arg3)) :=
  (ops4_keep _ main_arg3 (by decide)).trans (st5_arg3 m c)
theorem st6_arg4 (m : (ℓ : Loc nD τ sig) → Buf (Elt F) ℓ) (c : Dev nD) : (after ops4 (after ops3 (after ops2 (after ops1 (after ops0 (after opsP (launchContents m c))))))) (Proc.devRef .tc main_arg4) = (launchContents m c (Proc.devRef .tc main_arg4)) :=
  (ops4_keep _ main_arg4 (by decide)).trans (st5_arg4 m c)
theorem st6_arg5 (m : (ℓ : Loc nD τ sig) → Buf (Elt F) ℓ) (c : Dev nD) : (after ops4 (after ops3 (after ops2 (after ops1 (after ops0 (after opsP (launchContents m c))))))) (Proc.devRef .tc main_arg5) = (launchContents m c (Proc.devRef .tc main_arg5)) :=
  (ops4_keep _ main_arg5 (by decide)).trans (st5_arg5 m c)
theorem st6_arg6 (m : (ℓ : Loc nD τ sig) → Buf (Elt F) ℓ) (c : Dev nD) : (after ops4 (after ops3 (after ops2 (after ops1 (after ops0 (after opsP (launchContents m c))))))) (Proc.devRef .tc main_arg6) = (launchContents m c (Proc.devRef .tc main_arg6)) :=
  (ops4_keep _ main_arg6 (by decide)).trans (st5_arg6 m c)
theorem st6_arg7 (m : (ℓ : Loc nD τ sig) → Buf (Elt F) ℓ) (c : Dev nD) : (after ops4 (after ops3 (after ops2 (after ops1 (after ops0 (after opsP (launchContents m c))))))) (Proc.devRef .tc main_arg7) = (launchContents m c (Proc.devRef .tc main_arg7)) :=
  (ops4_keep _ main_arg7 (by decide)).trans (st5_arg7 m c)

/-! ## The whole line -/

/-- The contents after the whole line are the contents after the six stretches in turn. -/
theorem after_ops (V : Valuation τ sig (Elt F)) :
    after ops V = after ops4 (after ops3 (after ops2 (after ops1 (after ops0 (after opsP V))))) := by
  show after (opsP ++ (ops0 ++ (ops1 ++ (ops2 ++ (ops3 ++ ops4))))) V = _
  rw [after_append, after_append, after_append, after_append, after_append]

/-- The result array after the line is the network of the arguments' launch contents. -/
theorem result_eq (m : (ℓ : Loc nD τ sig) → Buf (Elt F) ℓ) (c : Dev nD) :
    after ops (launchContents m c) (Proc.devRef .tc main_v277)
      = net (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) := by
  rw [after_ops]
  unfold net
  exact st6_v277 m c
theorem arg0_eq (m : (ℓ : Loc nD τ sig) → Buf (Elt F) ℓ) (c : Dev nD) : after ops (launchContents m c) (Proc.devRef .tc main_arg0) = (launchContents m c (Proc.devRef .tc main_arg0)) := by
  rw [after_ops]; exact st6_arg0 m c
theorem arg1_eq (m : (ℓ : Loc nD τ sig) → Buf (Elt F) ℓ) (c : Dev nD) : after ops (launchContents m c) (Proc.devRef .tc main_arg1) = (launchContents m c (Proc.devRef .tc main_arg1)) := by
  rw [after_ops]; exact st6_arg1 m c
theorem arg2_eq (m : (ℓ : Loc nD τ sig) → Buf (Elt F) ℓ) (c : Dev nD) : after ops (launchContents m c) (Proc.devRef .tc main_arg2) = (launchContents m c (Proc.devRef .tc main_arg2)) := by
  rw [after_ops]; exact st6_arg2 m c
theorem arg3_eq (m : (ℓ : Loc nD τ sig) → Buf (Elt F) ℓ) (c : Dev nD) : after ops (launchContents m c) (Proc.devRef .tc main_arg3) = (launchContents m c (Proc.devRef .tc main_arg3)) := by
  rw [after_ops]; exact st6_arg3 m c
theorem arg4_eq (m : (ℓ : Loc nD τ sig) → Buf (Elt F) ℓ) (c : Dev nD) : after ops (launchContents m c) (Proc.devRef .tc main_arg4) = (launchContents m c (Proc.devRef .tc main_arg4)) := by
  rw [after_ops]; exact st6_arg4 m c
theorem arg5_eq (m : (ℓ : Loc nD τ sig) → Buf (Elt F) ℓ) (c : Dev nD) : after ops (launchContents m c) (Proc.devRef .tc main_arg5) = (launchContents m c (Proc.devRef .tc main_arg5)) := by
  rw [after_ops]; exact st6_arg5 m c
theorem arg6_eq (m : (ℓ : Loc nD τ sig) → Buf (Elt F) ℓ) (c : Dev nD) : after ops (launchContents m c) (Proc.devRef .tc main_arg6) = (launchContents m c (Proc.devRef .tc main_arg6)) := by
  rw [after_ops]; exact st6_arg6 m c
theorem arg7_eq (m : (ℓ : Loc nD τ sig) → Buf (Elt F) ℓ) (c : Dev nD) : after ops (launchContents m c) (Proc.devRef .tc main_arg7) = (launchContents m c (Proc.devRef .tc main_arg7)) := by
  rw [after_ops]; exact st6_arg7 m c

/-- On every device, from any memory with zero counters: every weakly fair execution of the reference terminates with the
    result array at the network of the arguments' launch contents and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v277) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v277).trans (result_eq m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c),
      (h c main_arg6).trans (arg6_eq m c),
      (h c main_arg7).trans (arg7_eq m c)⟩)
    (run_seq scopedRefs_eq scopedSems_eq defs main (fun _ => ops) main_eq (fun _ => ops_sub) m ρ (fun _ => ops_fresh))

end Cert.RefRun

end
-- ==== Proof.lean ====
/-
  The certificate of the stacked TAG graph network: a Pallas "combine" kernel (the sum over hops of
  `Hₖ · Wₖ` plus a bias, with or without a maximum with zero), launched five times among host gathers and
  scatter-adds, against the plain reference.

  Frames.  @main of the kernel program is seven stretches of host operations and five regions; each region's
  body is run symbolically at a generic grid point and the regions are chained along the fold of the buffer
  contents (`Hand.run_main`, once per instance of the program).  The reference is a host program; its run is read
  back operation by operation.

  Values.  At the exact instance every region writes, row block by row block, `∑ₖ Hₖ · Wₖ + b` (then the
  maximum) of the arrays it finds; the hop arrays it finds are the propagation steps the reference applies,
  stacked; so each region's output is the reference's layer, and the last region's output is the reference's
  result.  Only `0 + a = a` and the grouping of sums are used: no finiteness of the inputs is needed.
-/
import proofs.«160486_j70574902608023_1_alg».proof.Defs
import proofs.«160486_j70574902608023_1_alg».proof.Proof.K.Run
import proofs.«160486_j70574902608023_1_alg».proof.Proof.KI.Value
import proofs.«160486_j70574902608023_1_alg».proof.Proof.RefRun
import proofs.«160486_j70574902608023_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => Cert.Kernel.Hand.frame m ρ

theorem frame_pi : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.ref_run m ρ)

theorem preserves : Cert.preserves_Kernel_KernelIdeal := trivial

/-- Both programs end with the network of the (agreeing) argument arrays in their result array. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Shape.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Hand.mem_uc Cert.KernelIdeal.main_v230 (by decide))).trans (Cert.KernelIdeal.Hand.kernel_value m ρ c),
       (h c _ (Cert.KernelIdeal.Hand.mem_uc Cert.KernelIdeal.main_arg0 (by decide))).trans (Cert.KernelIdeal.Hand.W12_main_arg0 m ρ c),
       (h c _ (Cert.KernelIdeal.Hand.mem_uc Cert.KernelIdeal.main_arg1 (by decide))).trans (Cert.KernelIdeal.Hand.W12_main_arg1 m ρ c),
       (h c _ (Cert.KernelIdeal.Hand.mem_uc Cert.KernelIdeal.main_arg2 (by decide))).trans (Cert.KernelIdeal.Hand.W12_main_arg2 m ρ c),
       (h c _ (Cert.KernelIdeal.Hand.mem_uc Cert.KernelIdeal.main_arg3 (by decide))).trans (Cert.KernelIdeal.Hand.W12_main_arg3 m ρ c),
       (h c _ (Cert.KernelIdeal.Hand.mem_uc Cert.KernelIdeal.main_arg4 (by decide))).trans (Cert.KernelIdeal.Hand.W12_main_arg4 m ρ c),
       (h c _ (Cert.KernelIdeal.Hand.mem_uc Cert.KernelIdeal.main_arg5 (by decide))).trans (Cert.KernelIdeal.Hand.W12_main_arg5 m ρ c),
       (h c _ (Cert.KernelIdeal.Hand.mem_uc Cert.KernelIdeal.main_arg6 (by decide))).trans (Cert.KernelIdeal.Hand.W12_main_arg6 m ρ c),
       (h c _ (Cert.KernelIdeal.Hand.mem_uc Cert.KernelIdeal.main_arg7 (by decide))).trans (Cert.KernelIdeal.Hand.W12_main_arg7 m ρ c)⟩)
      (Cert.KernelIdeal.Hand.run_main m ρ)
  · refine (θ_run Cert.ReferenceIdeal.defs _ _).mono (fun r h c => ⟨(h c).1.trans ?_, (h c).2⟩) (Cert.RefRun.ref_run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
